-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_v343) = v1 c
          ∧ r.2.mem ((c.tc : Thread Cert.ReferenceIdeal.nD Cert.ReferenceIdeal.τ).loc Cert.ReferenceIdeal.main_v334) = v2 c
          ∧ r.2.mem ((c.tc : Thread Cert.ReferenceIdeal.nD Cert.ReferenceIdeal.τ).loc Cert.ReferenceIdeal.main_v335) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S200000x512 : Shape := ⟨2, ![200000, 512]⟩
abbrev S1000000 : Shape := ⟨1, ![1000000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg22 : FVec F S128x512 .f32) (main_arg23 : FVec F S512 .f32) (main_arg24 : FVec F S128x512 .f32) (main_arg25 : FVec F S512 .f32) (main_v63 : IVec S_ 1) (main_v67 : IVec S_ 1) : IVec S_ 1 :=
  let main_v68 : IVec S_ 1 := andi main_v63 main_v67
  let main_v69 : FVec F S128x512 .f32 := Host.absf main_arg22
  let main_cst_26 : FVec F S_ .f32 := constant S_ .f32 0x7F800000#32
  let main_v70 : FVec F S128x512 .f32 := broadcastInDim S128x512 ![] bcast_S_S128x512 main_cst_26
  let main_v71 : IVec S128x512 1 := cmpf .olt main_v69 main_v70
  let main_c_27 : IVec S_ 1 := constantI S_ 1 1#1
  let main_v72 : IVec S_ 1 := (fun x v => Host.reduce IntOp.andi x v reducesTo_S128x512_S_d0_1 h_S_) main_v71 main_c_27
  let main_v73 : IVec S_ 1 := andi main_v68 main_v72
  let main_v74 : FVec F S512 .f32 := Host.absf main_arg23
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S128x512 .f32 := Host.absf main_arg24
  let main_cst_30 : FVec F S_ .f32 := constant S_ .f32 0x7F800000#32
  let main_v80 : FVec F S128x512 .f32 := broadcastInDim S128x512 ![] bcast_S_S128x512 main_cst_30
  let main_v81 : IVec S128x512 1 := cmpf .olt main_v79 main_v80
  let main_c_31 : IVec S_ 1 := constantI S_ 1 1#1
  let main_v82 : IVec S_ 1 := (fun x v => Host.reduce IntOp.andi x v reducesTo_S128x512_S_d0_1 h_S_) main_v81 main_c_31
  let main_v83 : IVec S_ 1 := andi main_v78 main_v82
  let main_v84 : FVec F S512 .f32 := Host.absf main_arg25
  let main_cst_32 : FVec F S_ .f32 := constant S_ .f32 0x7F800000#32
  fn_part5 (F := F) main_v83 main_v84 main_cst_32

def fn_part3 {F : FTy → Type} [FloatOps F] (main_arg19 : FVec F S128 .f32) (main_arg20 : FVec F S128x128 .f32) (main_arg21 : FVec F S128 .f32) (main_arg22 : FVec F S128x512 .f32) (main_arg23 : FVec F S512 .f32) (main_arg24 : FVec F S128x512 .f32) (main_arg25 : FVec F S512 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg20
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_arg23 main_arg24 main_arg25 main_v63 main_v67

def fn_part2 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x512 .f32) (main_arg23 : FVec F S512 .f32) (main_arg24 : FVec F S128x512 .f32) (main_arg25 : FVec F S512 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg17
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg18
  let main_cst_18 : FVec F S_ .f32 := constant S_ .f32 0x7F800000#32
  let main_v50 : FVec F S128x128 .f32 := broadcastInDim S128x128 ![] bcast_S_S128x128 main_cst_18
  fn_part3 (F := F) main_arg19 main_arg20 main_arg21 main_arg22 main_arg23 main_arg24 main_arg25 main_v48 main_v49 main_v50

def fn_part1 {F : FTy → Type} [FloatOps F] (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x512 .f32) (main_arg23 : FVec F S512 .f32) (main_arg24 : FVec F S128x512 .f32) (main_arg25 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg12
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg13
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_v33

def fn {F : FTy → Type} [FloatOps F] (main_arg0 : FVec F S100000x512 .f32) (main_arg1 : FVec F S200000x512 .f32) (main_arg2 : IVec S1000000 32) (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) (main_arg10 : FVec F S512x128 .f32) (main_arg11 : FVec F S128 .f32) (main_arg12 : FVec F S512x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x512 .f32) (main_arg23 : FVec F S512 .f32) (main_arg24 : FVec F S128x512 .f32) (main_arg25 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S200000x512 .f32 := Host.absf main_arg1
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_v9 : FVec F S512x128 .f32 := Host.absf main_arg10
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg11
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg12 main_arg13 main_arg14 main_arg15 main_arg16 main_arg17 main_arg18 main_arg19 main_arg20 main_arg21 main_arg22 main_arg23 main_arg24 main_arg25 main_v13 main_v16
-- ==== Kernel.lean ====
abbrev S100000x512 : Shape := ⟨2, ![100000, 512]⟩
abbrev S200000x512 : Shape := ⟨2, ![200000, 512]⟩
abbrev S1000000 : Shape := ⟨1, ![1000000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩
abbrev S100000 : Shape := ⟨1, ![100000]⟩
abbrev S1000000x1 : Shape := ⟨2, ![1000000, 1]⟩
abbrev S200000 : Shape := ⟨1, ![200000]⟩
abbrev S100000x1 : Shape := ⟨2, ![100000, 1]⟩
abbrev S200000x1 : Shape := ⟨2, ![200000, 1]⟩
abbrev S100000x128 : Shape := ⟨2, ![100000, 128]⟩
abbrev S200000x128 : Shape := ⟨2, ![200000, 128]⟩
abbrev S1000000x128 : Shape := ⟨2, ![1000000, 128]⟩
abbrev S2000x512 : Shape := ⟨2, ![2000, 512]⟩
abbrev S2000x128 : Shape := ⟨2, ![2000, 128]⟩
abbrev S1x128 : Shape := ⟨2, ![1, 128]⟩
abbrev S2000x1 : Shape := ⟨2, ![2000, 1]⟩
abbrev S1000x128 : Shape := ⟨2, ![1000, 128]⟩
abbrev S1000x1 : Shape := ⟨2, ![1000, 1]⟩
abbrev S1000x512 : Shape := ⟨2, ![1000, 512]⟩
abbrev S1x512 : Shape := ⟨2, ![1, 512]⟩

abbrev nBuf : Space → Nat
  | .hbm => 294
  | .vmem => 80
  | .smem => 0
  | _ => 0

abbrev hbmTy0_0 (i : Nat) : BufTy := match i % 128 with
  | 0 => ⟨S100000x512, .f32⟩
  | 1 => ⟨S200000x512, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S512x128, .f32⟩
  | 11 => ⟨S128, .f32⟩
  | 12 => ⟨S512x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x512, .f32⟩
  | 23 => ⟨S512, .f32⟩
  | 24 => ⟨S128x512, .f32⟩
  | 25 => ⟨S512, .f32⟩
  | 26 => ⟨S_, .f32⟩
  | 27 => ⟨S1000000, .f32⟩
  | 28 => ⟨S_, .f32⟩
  | 29 => ⟨S100000, .f32⟩
  | 30 => ⟨S1000000x1, .i32⟩
  | 31 => ⟨S100000, .f32⟩
  | 32 => ⟨S_, .f32⟩
  | 33 => ⟨S100000, .f32⟩
  | 34 => ⟨S1000000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .i1⟩
  | 50 => ⟨S_, .f32⟩
  | 51 => ⟨S100000, .f32⟩
  | 52 => ⟨S100000, .f32⟩
  | 53 => ⟨S100000, .f32⟩
  | 54 => ⟨S_, .f32⟩
  | 55 => ⟨S_, .f32⟩
  | 56 => ⟨S100000, .f32⟩
  | 57 => ⟨S100000, .f32⟩
  | 58 => ⟨S_, .f32⟩
  | 59 => ⟨S1000000, .f32⟩
  | 60 => ⟨S_, .f32⟩
  | 61 => ⟨S100000, .f32⟩
  | 62 => ⟨S1000000x1, .i32⟩
  | 63 => ⟨S100000, .f32⟩
  | 64 => ⟨S_, .f32⟩
  | 65 => ⟨S200000, .f32⟩
  | 66 => ⟨S1000000x1, .i32⟩
  | 67 => ⟨S200000, .f32⟩
  | 68 => ⟨S_, .f32⟩
  | 69 => ⟨S100000, .f32⟩
  | 70 => ⟨S100000, .i1⟩
  | 71 => ⟨S_, .f32⟩
  | 72 => ⟨S100000, .f32⟩
  | 73 => ⟨S100000, .f32⟩
  | 74 => ⟨S100000, .f32⟩
  | 75 => ⟨S_, .f32⟩
  | 76 => ⟨S_, .f32⟩
  | 77 => ⟨S100000, .f32⟩
  | 78 => ⟨S100000, .f32⟩
  | 79 => ⟨S_, .f32⟩
  | 80 => ⟨S200000, .f32⟩
  | 81 => ⟨S200000, .i1⟩
  | 82 => ⟨S_, .f32⟩
  | 83 => ⟨S200000, .f32⟩
  | 84 => ⟨S200000, .f32⟩
  | 85 => ⟨S200000, .f32⟩
  | 86 => ⟨S_, .f32⟩
  | 87 => ⟨S_, .f32⟩
  | 88 => ⟨S200000, .f32⟩
  | 89 => ⟨S200000, .f32⟩
  | 90 => ⟨S_, .f32⟩
  | 91 => ⟨S1000000, .f32⟩
  | 92 => ⟨S_, .f32⟩
  | 93 => ⟨S200000, .f32⟩
  | 94 => ⟨S1000000x1, .i32⟩
  | 95 => ⟨S200000, .f32⟩
  | 96 => ⟨S_, .f32⟩
  | 97 => ⟨S100000, .f32⟩
  | 98 => ⟨S1000000x1, .i32⟩
  | 99 => ⟨S100000, .f32⟩
  | 100 => ⟨S_, .f32⟩
  | 101 => ⟨S200000, .f32⟩
  | 102 => ⟨S200000, .i1⟩
  | 103 => ⟨S_, .f32⟩
  | 104 => ⟨S200000, .f32⟩
  | 105 => ⟨S200000, .f32⟩
  | 106 => ⟨S200000, .f32⟩
  | 107 => ⟨S_, .f32⟩
  | 108 => ⟨S_, .f32⟩
  | 109 => ⟨S200000, .f32⟩
  | 110 => ⟨S200000, .f32⟩
  | 111 => ⟨S_, .f32⟩
  | 112 => ⟨S100000, .f32⟩
  | 113 => ⟨S100000, .i1⟩
  | 114 => ⟨S_, .f32⟩
  | 115 => ⟨S100000, .f32⟩
  | 116 => ⟨S100000, .f32⟩
  | 117 => ⟨S100000, .f32⟩
  | 118 => ⟨S_, .f32⟩
  | 119 => ⟨S_, .f32⟩
  | 120 => ⟨S100000, .f32⟩
  | 121 => ⟨S100000, .f32⟩
  | 122 => ⟨S_, .f32⟩
  | 123 => ⟨S1000000, .f32⟩
  | 124 => ⟨S_, .f32⟩
  | 125 => ⟨S200000, .f32⟩
  | 126 => ⟨S1000000x1, .i32⟩
  | 127 => ⟨S200000, .f32⟩
  | _ => ⟨S100000x512, .f32⟩

abbrev hbmTy0_1 (i : Nat) : BufTy := match i % 128 with
  | 0 => ⟨S_, .f32⟩
  | 1 => ⟨S200000, .f32⟩
  | 2 => ⟨S1000000x1, .i32⟩
  | 3 => ⟨S200000, .f32⟩
  | 4 => ⟨S_, .f32⟩
  | 5 => ⟨S200000, .f32⟩
  | 6 => ⟨S200000, .i1⟩
  | 7 => ⟨S_, .f32⟩
  | 8 => ⟨S200000, .f32⟩
  | 9 => ⟨S200000, .f32⟩
  | 10 => ⟨S200000, .f32⟩
  | 11 => ⟨S_, .f32⟩
  | 12 => ⟨S_, .f32⟩
  | 13 => ⟨S200000, .f32⟩
  | 14 => ⟨S200000, .f32⟩
  | 15 => ⟨S_, .f32⟩
  | 16 => ⟨S200000, .f32⟩
  | 17 => ⟨S200000, .i1⟩
  | 18 => ⟨S_, .f32⟩
  | 19 => ⟨S200000, .f32⟩
  | 20 => ⟨S200000, .f32⟩
  | 21 => ⟨S200000, .f32⟩
  | 22 => ⟨S_, .f32⟩
  | 23 => ⟨S_, .f32⟩
  | 24 => ⟨S200000, .f32⟩
  | 25 => ⟨S200000, .f32⟩
  | 26 => ⟨S100000x1, .f32⟩
  | 27 => ⟨S100000x1, .f32⟩
  | 28 => ⟨S200000x1, .f32⟩
  | 29 => ⟨S200000x1, .f32⟩
  | 30 => ⟨S100000x128, .f32⟩
  | 31 => ⟨S200000x128, .f32⟩
  | 32 => ⟨S100000x1, .f32⟩
  | 33 => ⟨S100000x128, .f32⟩
  | 34 => ⟨S100000x128, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x128, .f32⟩
  | 44 => ⟨S_, .f32⟩
  | 45 => ⟨S100000x128, .f32⟩
  | 46 => ⟨S1000000x1, .i32⟩
  | 47 => ⟨S100000x128, .f32⟩
  | 48 => ⟨S200000x1, .f32⟩
  | 49 => ⟨S200000x128, .f32⟩
  | 50 => ⟨S200000x128, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x128, .f32⟩
  | 60 => ⟨S_, .f32⟩
  | 61 => ⟨S100000x128, .f32⟩
  | 62 => ⟨S1000000x1, .i32⟩
  | 63 => ⟨S100000x128, .f32⟩
  | 64 => ⟨S100000x1, .f32⟩
  | 65 => ⟨S100000x128, .f32⟩
  | 66 => ⟨S100000x128, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x128, .f32⟩
  | 76 => ⟨S_, .f32⟩
  | 77 => ⟨S200000x128, .f32⟩
  | 78 => ⟨S1000000x1, .i32⟩
  | 79 => ⟨S200000x128, .f32⟩
  | 80 => ⟨S200000x1, .f32⟩
  | 81 => ⟨S200000x128, .f32⟩
  | 82 => ⟨S200000x128, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x128, .f32⟩
  | 92 => ⟨S_, .f32⟩
  | 93 => ⟨S200000x128, .f32⟩
  | 94 => ⟨S1000000x1, .i32⟩
  | 95 => ⟨S200000x128, .f32⟩
  | 96 => ⟨S100000x128, .f32⟩
  | 97 => ⟨S200000x128, .f32⟩
  | 98 => ⟨S100000x1, .f32⟩
  | 99 => ⟨S100000x128, .f32⟩
  | 100 => ⟨S100000x128, .f32⟩
  | 101 => ⟨S_, .i32⟩
  | 102 => ⟨S1000000, .i32⟩
  | 103 => ⟨S1000000, .i1⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000x128, .f32⟩
  | 110 => ⟨S_, .f32⟩
  | 111 => ⟨S100000x128, .f32⟩
  | 112 => ⟨S1000000x1, .i32⟩
  | 113 => ⟨S100000x128, .f32⟩
  | 114 => ⟨S200000x1, .f32⟩
  | 115 => ⟨S200000x128, .f32⟩
  | 116 => ⟨S200000x128, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x128, .f32⟩
  | 126 => ⟨S_, .f32⟩
  | 127 => ⟨S100000x128, .f32⟩
  | _ => ⟨S100000x512, .f32⟩

abbrev hbmTy0_2 (i : Nat) : BufTy := match i % 128 with
  | 0 => ⟨S1000000x1, .i32⟩
  | 1 => ⟨S100000x128, .f32⟩
  | 2 => ⟨S100000x1, .f32⟩
  | 3 => ⟨S100000x128, .f32⟩
  | 4 => ⟨S100000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S_, .f32⟩
  | 15 => ⟨S200000x128, .f32⟩
  | 16 => ⟨S1000000x1, .i32⟩
  | 17 => ⟨S200000x128, .f32⟩
  | 18 => ⟨S200000x1, .f32⟩
  | 19 => ⟨S200000x128, .f32⟩
  | 20 => ⟨S200000x128, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x128, .f32⟩
  | 30 => ⟨S_, .f32⟩
  | 31 => ⟨S200000x128, .f32⟩
  | 32 => ⟨S1000000x1, .i32⟩
  | 33 => ⟨S200000x128, .f32⟩
  | 34 => ⟨S100000x128, .f32⟩
  | 35 => ⟨S100000x512, .f32⟩
  | 36 => ⟨S200000x128, .f32⟩
  | 37 => ⟨S200000x512, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x512, .f32⟩
  | .local _ .vmem, ⟨7, _⟩ => ⟨S2000x512, .f32⟩
  | .local _ .vmem, ⟨8, _⟩ => ⟨S512x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S128x128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S128, .f32⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S128, .f32⟩
  | .local _ .vmem, ⟨38, _⟩ => ⟨S2000x128, .f32⟩
  | .local _ .vmem, ⟨39, _⟩ => ⟨S2000x128, .f32⟩
  | .local _ .vmem, ⟨40, _⟩ => ⟨S1000x128, .f32⟩
  | .local _ .vmem, ⟨41, _⟩ => ⟨S1000x128, .f32⟩
  | .local _ .vmem, ⟨42, _⟩ => ⟨S1000x1, .f32⟩
  | .local _ .vmem, ⟨43, _⟩ => ⟨S1000x1, .f32⟩
  | .local _ .vmem, ⟨44, _⟩ => ⟨S128x128, .f32⟩
  | .local _ .vmem, ⟨45, _⟩ => ⟨S128, .f32⟩
  | .local _ .vmem, ⟨46, _⟩ => ⟨S1000x128, .f32⟩
  | .local _ .vmem, ⟨47, _⟩ => ⟨S1000x128, .f32⟩
  | .local _ .vmem, ⟨48, _⟩ => ⟨S1000x1, .f32⟩
  | .local _ .vmem, ⟨49, _⟩ => ⟨S1000x1, .f32⟩
  | .local _ .vmem, ⟨50, _⟩ => ⟨S128x128, .f32⟩
  | .local _ .vmem, ⟨51, _⟩ => ⟨S128, .f32⟩
  | .local _ .vmem, ⟨52, _⟩ => ⟨S1000x128, .f32⟩
  | .local _ .vmem, ⟨53, _⟩ => ⟨S1000x128, .f32⟩
  | .local _ .vmem, ⟨54, _⟩ => ⟨S128x512, .f32⟩
  | .local _ .vmem, ⟨55, _⟩ => ⟨S512, .f32⟩
  | .local _ .vmem, ⟨56, _⟩ => ⟨S1000x128, .f32⟩
  | .local _ .vmem, ⟨57, _⟩ => ⟨S1000x128, .f32⟩
  | .local _ .vmem, ⟨58, _⟩ => ⟨S1000x512, .f32⟩
  | .local _ .vmem, ⟨59, _⟩ => ⟨S1000x512, .f32⟩
  | .local _ .vmem, ⟨60, _⟩ => ⟨S1000x128, .f32⟩
  | .local _ .vmem, ⟨61, _⟩ => ⟨S1000x128, .f32⟩
  | .local _ .vmem, ⟨62, _⟩ => ⟨S1000x1, .f32⟩
  | .local _ .vmem, ⟨63, _⟩ => ⟨S1000x1, .f32⟩
  | .local _ .vmem, ⟨64, _⟩ => ⟨S128x128, .f32⟩
  | .local _ .vmem, ⟨65, _⟩ => ⟨S128, .f32⟩
  | .local _ .vmem, ⟨66, _⟩ => ⟨S1000x128, .f32⟩
  | .local _ .vmem, ⟨67, _⟩ => ⟨S1000x128, .f32⟩
  | .local _ .vmem, ⟨68, _⟩ => ⟨S1000x1, .f32⟩
  | .local _ .vmem, ⟨69, _⟩ => ⟨S1000x1, .f32⟩
  | .local _ .vmem, ⟨70, _⟩ => ⟨S128x128, .f32⟩
  | .local _ .vmem, ⟨71, _⟩ => ⟨S128, .f32⟩
  | .local _ .vmem, ⟨72, _⟩ => ⟨S1000x128, .f32⟩
  | .local _ .vmem, ⟨73, _⟩ => ⟨S1000x128, .f32⟩
  | .local _ .vmem, ⟨74, _⟩ => ⟨S128x512, .f32⟩
  | .local _ .vmem, ⟨75, _⟩ => ⟨S512, .f32⟩
  | .local _ .vmem, ⟨76, _⟩ => ⟨S1000x128, .f32⟩
  | .local _ .vmem, ⟨77, _⟩ => ⟨S1000x128, .f32⟩
  | .local _ .vmem, ⟨78, _⟩ => ⟨S1000x512, .f32⟩
  | .local _ .vmem, ⟨79, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_cst_1 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_2 : Ref sig .tc := ⟨.hbm, 36, rfl⟩
abbrev main_call0_v7 : Ref sig .tc := ⟨.hbm, 37, rfl⟩
abbrev main_call0_v8 : Ref sig .tc := ⟨.hbm, 38, rfl⟩
abbrev main_call0_cst_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_v12 : Ref sig .tc := ⟨.hbm, 46, rfl⟩
abbrev main_call0_cst_5 : Ref sig .tc := ⟨.hbm, 47, rfl⟩
abbrev main_call0_v13 : Ref sig .tc := ⟨.hbm, 48, rfl⟩
abbrev main_call0_v14 : Ref sig .tc := ⟨.hbm, 49, rfl⟩
abbrev main_call0_cst_6 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_call0_cst_7 : Ref sig .tc := ⟨.hbm, 54, rfl⟩
abbrev main_call0_call1_v0 : Ref sig .tc := ⟨.hbm, 55, rfl⟩
abbrev main_call0_call1_v1 : Ref sig .tc := ⟨.hbm, 56, rfl⟩
abbrev main_call0_v18 : Ref sig .tc := ⟨.hbm, 57, rfl⟩
abbrev main_call0_cst_8 : Ref sig .tc := ⟨.hbm, 58, rfl⟩
abbrev main_call0_v19 : Ref sig .tc := ⟨.hbm, 59, rfl⟩
abbrev main_call0_cst_9 : Ref sig .tc := ⟨.hbm, 60, rfl⟩
abbrev main_call0_v20 : Ref sig .tc := ⟨.hbm, 61, rfl⟩
abbrev main_call0_v21 : Ref sig .tc := ⟨.hbm, 62, rfl⟩
abbrev main_call0_v22 : Ref sig .tc := ⟨.hbm, 63, rfl⟩
abbrev main_call0_cst_10 : Ref sig .tc := ⟨.hbm, 64, rfl⟩
abbrev main_call0_v23 : Ref sig .tc := ⟨.hbm, 65, rfl⟩
abbrev main_call0_v24 : Ref sig .tc := ⟨.hbm, 66, rfl⟩
abbrev main_call0_v25 : Ref sig .tc := ⟨.hbm, 67, rfl⟩
abbrev main_call0_cst_11 : Ref sig .tc := ⟨.hbm, 68, rfl⟩
abbrev main_call0_v26 : Ref sig .tc := ⟨.hbm, 69, rfl⟩
abbrev main_call0_v27 : Ref sig .tc := ⟨.hbm, 70, rfl⟩
abbrev main_call0_cst_12 : Ref sig .tc := ⟨.hbm, 71, rfl⟩
abbrev main_call0_v28 : Ref sig .tc := ⟨.hbm, 72, rfl⟩
abbrev main_call0_v29 : Ref sig .tc := ⟨.hbm, 73, rfl⟩
abbrev main_call0_v30 : Ref sig .tc := ⟨.hbm, 74, rfl⟩
abbrev main_call0_cst_13 : Ref sig .tc := ⟨.hbm, 75, rfl⟩
abbrev main_call0_call2_v0 : Ref sig .tc := ⟨.hbm, 76, rfl⟩
abbrev main_call0_call2_v1 : Ref sig .tc := ⟨.hbm, 77, rfl⟩
abbrev main_call0_v31 : Ref sig .tc := ⟨.hbm, 78, rfl⟩
abbrev main_call0_cst_14 : Ref sig .tc := ⟨.hbm, 79, rfl⟩
abbrev main_call0_v32 : Ref sig .tc := ⟨.hbm, 80, rfl⟩
abbrev main_call0_v33 : Ref sig .tc := ⟨.hbm, 81, rfl⟩
abbrev main_call0_cst_15 : Ref sig .tc := ⟨.hbm, 82, rfl⟩
abbrev main_call0_v34 : Ref sig .tc := ⟨.hbm, 83, rfl⟩
abbrev main_call0_v35 : Ref sig .tc := ⟨.hbm, 84, rfl⟩
abbrev main_call0_v36 : Ref sig .tc := ⟨.hbm, 85, rfl⟩
abbrev main_call0_cst_16 : Ref sig .tc := ⟨.hbm, 86, rfl⟩
abbrev main_call0_call3_v0 : Ref sig .tc := ⟨.hbm, 87, rfl⟩
abbrev main_call0_call3_v1 : Ref sig .tc := ⟨.hbm, 88, rfl⟩
abbrev main_call0_v37 : Ref sig .tc := ⟨.hbm, 89, rfl⟩
abbrev main_call0_cst_17 : Ref sig .tc := ⟨.hbm, 90, rfl⟩
abbrev main_call0_v38 : Ref sig .tc := ⟨.hbm, 91, rfl⟩
abbrev main_call0_cst_18 : Ref sig .tc := ⟨.hbm, 92, rfl⟩
abbrev main_call0_v39 : Ref sig .tc := ⟨.hbm, 93, rfl⟩
abbrev main_call0_v40 : Ref sig .tc := ⟨.hbm, 94, rfl⟩
abbrev main_call0_v41 : Ref sig .tc := ⟨.hbm, 95, rfl⟩
abbrev main_call0_cst_19 : Ref sig .tc := ⟨.hbm, 96, rfl⟩
abbrev main_call0_v42 : Ref sig .tc := ⟨.hbm, 97, rfl⟩
abbrev main_call0_v43 : Ref sig .tc := ⟨.hbm, 98, rfl⟩
abbrev main_call0_v44 : Ref sig .tc := ⟨.hbm, 99, rfl⟩
abbrev main_call0_cst_20 : Ref sig .tc := ⟨.hbm, 100, rfl⟩
abbrev main_call0_v45 : Ref sig .tc := ⟨.hbm, 101, rfl⟩
abbrev main_call0_v46 : Ref sig .tc := ⟨.hbm, 102, rfl⟩
abbrev main_call0_cst_21 : Ref sig .tc := ⟨.hbm, 103, rfl⟩
abbrev main_call0_v47 : Ref sig .tc := ⟨.hbm, 104, rfl⟩
abbrev main_call0_v48 : Ref sig .tc := ⟨.hbm, 105, rfl⟩
abbrev main_call0_v49 : Ref sig .tc := ⟨.hbm, 106, rfl⟩
abbrev main_call0_cst_22 : Ref sig .tc := ⟨.hbm, 107, rfl⟩
abbrev main_call0_call4_v0 : Ref sig .tc := ⟨.hbm, 108, rfl⟩
abbrev main_call0_call4_v1 : Ref sig .tc := ⟨.hbm, 109, rfl⟩
abbrev main_call0_v50 : Ref sig .tc := ⟨.hbm, 110, rfl⟩
abbrev main_call0_cst_23 : Ref sig .tc := ⟨.hbm, 111, rfl⟩
abbrev main_call0_v51 : Ref sig .tc := ⟨.hbm, 112, rfl⟩
abbrev main_call0_v52 : Ref sig .tc := ⟨.hbm, 113, rfl⟩
abbrev main_call0_cst_24 : Ref sig .tc := ⟨.hbm, 114, rfl⟩
abbrev main_call0_v53 : Ref sig .tc := ⟨.hbm, 115, rfl⟩
abbrev main_call0_v54 : Ref sig .tc := ⟨.hbm, 116, rfl⟩
abbrev main_call0_v55 : Ref sig .tc := ⟨.hbm, 117, rfl⟩
abbrev main_call0_cst_25 : Ref sig .tc := ⟨.hbm, 118, rfl⟩
abbrev main_call0_call5_v0 : Ref sig .tc := ⟨.hbm, 119, rfl⟩
abbrev main_call0_call5_v1 : Ref sig .tc := ⟨.hbm, 120, rfl⟩
abbrev main_call0_v56 : Ref sig .tc := ⟨.hbm, 121, rfl⟩
abbrev main_call0_cst_26 : Ref sig .tc := ⟨.hbm, 122, rfl⟩
abbrev main_call0_v57 : Ref sig .tc := ⟨.hbm, 123, rfl⟩
abbrev main_call0_cst_27 : Ref sig .tc := ⟨.hbm, 124, rfl⟩
abbrev main_call0_v58 : Ref sig .tc := ⟨.hbm, 125, rfl⟩
abbrev main_call0_v59 : Ref sig .tc := ⟨.hbm, 126, rfl⟩
abbrev main_call0_v60 : Ref sig .tc := ⟨.hbm, 127, rfl⟩
abbrev main_call0_cst_28 : Ref sig .tc := ⟨.hbm, 128, rfl⟩
abbrev main_call0_v61 : Ref sig .tc := ⟨.hbm, 129, rfl⟩
abbrev main_call0_v62 : Ref sig .tc := ⟨.hbm, 130, rfl⟩
abbrev main_call0_v63 : Ref sig .tc := ⟨.hbm, 131, rfl⟩
abbrev main_call0_cst_29 : Ref sig .tc := ⟨.hbm, 132, rfl⟩
abbrev main_call0_v64 : Ref sig .tc := ⟨.hbm, 133, rfl⟩
abbrev main_call0_v65 : Ref sig .tc := ⟨.hbm, 134, rfl⟩
abbrev main_call0_cst_30 : Ref sig .tc := ⟨.hbm, 135, rfl⟩
abbrev main_call0_v66 : Ref sig .tc := ⟨.hbm, 136, rfl⟩
abbrev main_call0_v67 : Ref sig .tc := ⟨.hbm, 137, rfl⟩
abbrev main_call0_v68 : Ref sig .tc := ⟨.hbm, 138, rfl⟩
abbrev main_call0_cst_31 : Ref sig .tc := ⟨.hbm, 139, rfl⟩
abbrev main_call0_call6_v0 : Ref sig .tc := ⟨.hbm, 140, rfl⟩
abbrev main_call0_call6_v1 : Ref sig .tc := ⟨.hbm, 141, rfl⟩
abbrev main_call0_v69 : Ref sig .tc := ⟨.hbm, 142, rfl⟩
abbrev main_call0_cst_32 : Ref sig .tc := ⟨.hbm, 143, rfl⟩
abbrev main_call0_v70 : Ref sig .tc := ⟨.hbm, 144, rfl⟩
abbrev main_call0_v71 : Ref sig .tc := ⟨.hbm, 145, rfl⟩
abbrev main_call0_cst_33 : Ref sig .tc := ⟨.hbm, 146, rfl⟩
abbrev main_call0_v72 : Ref sig .tc := ⟨.hbm, 147, rfl⟩
abbrev main_call0_v73 : Ref sig .tc := ⟨.hbm, 148, rfl⟩
abbrev main_call0_v74 : Ref sig .tc := ⟨.hbm, 149, rfl⟩
abbrev main_call0_cst_34 : Ref sig .tc := ⟨.hbm, 150, rfl⟩
abbrev main_call0_call7_v0 : Ref sig .tc := ⟨.hbm, 151, rfl⟩
abbrev main_call0_call7_v1 : Ref sig .tc := ⟨.hbm, 152, rfl⟩
abbrev main_call0_v75 : Ref sig .tc := ⟨.hbm, 153, rfl⟩
abbrev main_call0_v76 : Ref sig .tc := ⟨.hbm, 154, rfl⟩
abbrev main_call0_v77 : Ref sig .tc := ⟨.hbm, 155, rfl⟩
abbrev main_call0_v78 : Ref sig .tc := ⟨.hbm, 156, rfl⟩
abbrev main_call0_v79 : Ref sig .tc := ⟨.hbm, 157, rfl⟩
abbrev main_call0_v80 : Ref sig .tc := ⟨.hbm, 158, rfl⟩
abbrev main_call0_v81 : Ref sig .tc := ⟨.hbm, 159, rfl⟩
abbrev main_call0_v82 : Ref sig .tc := ⟨.hbm, 160, rfl⟩
abbrev main_call0_v83 : Ref sig .tc := ⟨.hbm, 161, rfl⟩
abbrev main_call0_v84 : Ref sig .tc := ⟨.hbm, 162, rfl⟩
abbrev main_call0_c : Ref sig .tc := ⟨.hbm, 163, rfl⟩
abbrev main_call0_v85 : Ref sig .tc := ⟨.hbm, 164, rfl⟩
abbrev main_call0_v86 : Ref sig .tc := ⟨.hbm, 165, rfl⟩
abbrev main_call0_c_35 : Ref sig .tc := ⟨.hbm, 166, rfl⟩
abbrev main_call0_v87 : Ref sig .tc := ⟨.hbm, 167, rfl⟩
abbrev main_call0_v88 : Ref sig .tc := ⟨.hbm, 168, rfl⟩
abbrev main_call0_v89 : Ref sig .tc := ⟨.hbm, 169, rfl⟩
abbrev main_call0_v90 : Ref sig .tc := ⟨.hbm, 170, rfl⟩
abbrev main_call0_v91 : Ref sig .tc := ⟨.hbm, 171, rfl⟩
abbrev main_call0_cst_36 : Ref sig .tc := ⟨.hbm, 172, rfl⟩
abbrev main_call0_v92 : Ref sig .tc := ⟨.hbm, 173, rfl⟩
abbrev main_call0_v93 : Ref sig .tc := ⟨.hbm, 174, rfl⟩
abbrev main_call0_v94 : Ref sig .tc := ⟨.hbm, 175, rfl⟩
abbrev main_call0_v95 : Ref sig .tc := ⟨.hbm, 176, rfl⟩
abbrev main_call0_v96 : Ref sig .tc := ⟨.hbm, 177, rfl⟩
abbrev main_call0_v97 : Ref sig .tc := ⟨.hbm, 178, rfl⟩
abbrev main_call0_c_37 : Ref sig .tc := ⟨.hbm, 179, rfl⟩
abbrev main_call0_v98 : Ref sig .tc := ⟨.hbm, 180, rfl⟩
abbrev main_call0_v99 : Ref sig .tc := ⟨.hbm, 181, rfl⟩
abbrev main_call0_c_38 : Ref sig .tc := ⟨.hbm, 182, rfl⟩
abbrev main_call0_v100 : Ref sig .tc := ⟨.hbm, 183, rfl⟩
abbrev main_call0_v101 : Ref sig .tc := ⟨.hbm, 184, rfl⟩
abbrev main_call0_v102 : Ref sig .tc := ⟨.hbm, 185, rfl⟩
abbrev main_call0_v103 : Ref sig .tc := ⟨.hbm, 186, rfl⟩
abbrev main_call0_v104 : Ref sig .tc := ⟨.hbm, 187, rfl⟩
abbrev main_call0_cst_39 : Ref sig .tc := ⟨.hbm, 188, rfl⟩
abbrev main_call0_v105 : Ref sig .tc := ⟨.hbm, 189, rfl⟩
abbrev main_call0_v106 : Ref sig .tc := ⟨.hbm, 190, rfl⟩
abbrev main_call0_v107 : Ref sig .tc := ⟨.hbm, 191, rfl⟩
abbrev main_call0_v108 : Ref sig .tc := ⟨.hbm, 192, rfl⟩
abbrev main_call0_v109 : Ref sig .tc := ⟨.hbm, 193, rfl⟩
abbrev main_call0_v110 : Ref sig .tc := ⟨.hbm, 194, rfl⟩
abbrev main_call0_c_40 : Ref sig .tc := ⟨.hbm, 195, rfl⟩
abbrev main_call0_v111 : Ref sig .tc := ⟨.hbm, 196, rfl⟩
abbrev main_call0_v112 : Ref sig .tc := ⟨.hbm, 197, rfl⟩
abbrev main_call0_c_41 : Ref sig .tc := ⟨.hbm, 198, rfl⟩
abbrev main_call0_v113 : Ref sig .tc := ⟨.hbm, 199, rfl⟩
abbrev main_call0_v114 : Ref sig .tc := ⟨.hbm, 200, rfl⟩
abbrev main_call0_v115 : Ref sig .tc := ⟨.hbm, 201, rfl⟩
abbrev main_call0_v116 : Ref sig .tc := ⟨.hbm, 202, rfl⟩
abbrev main_call0_v117 : Ref sig .tc := ⟨.hbm, 203, rfl⟩
abbrev main_call0_cst_42 : Ref sig .tc := ⟨.hbm, 204, rfl⟩
abbrev main_call0_v118 : Ref sig .tc := ⟨.hbm, 205, rfl⟩
abbrev main_call0_v119 : Ref sig .tc := ⟨.hbm, 206, rfl⟩
abbrev main_call0_v120 : Ref sig .tc := ⟨.hbm, 207, rfl⟩
abbrev main_call0_v121 : Ref sig .tc := ⟨.hbm, 208, rfl⟩
abbrev main_call0_v122 : Ref sig .tc := ⟨.hbm, 209, rfl⟩
abbrev main_call0_v123 : Ref sig .tc := ⟨.hbm, 210, rfl⟩
abbrev main_call0_c_43 : Ref sig .tc := ⟨.hbm, 211, rfl⟩
abbrev main_call0_v124 : Ref sig .tc := ⟨.hbm, 212, rfl⟩
abbrev main_call0_v125 : Ref sig .tc := ⟨.hbm, 213, rfl⟩
abbrev main_call0_c_44 : Ref sig .tc := ⟨.hbm, 214, rfl⟩
abbrev main_call0_v126 : Ref sig .tc := ⟨.hbm, 215, rfl⟩
abbrev main_call0_v127 : Ref sig .tc := ⟨.hbm, 216, rfl⟩
abbrev main_call0_v128 : Ref sig .tc := ⟨.hbm, 217, rfl⟩
abbrev main_call0_v129 : Ref sig .tc := ⟨.hbm, 218, rfl⟩
abbrev main_call0_v130 : Ref sig .tc := ⟨.hbm, 219, rfl⟩
abbrev main_call0_cst_45 : Ref sig .tc := ⟨.hbm, 220, rfl⟩
abbrev main_call0_v131 : Ref sig .tc := ⟨.hbm, 221, rfl⟩
abbrev main_call0_v132 : Ref sig .tc := ⟨.hbm, 222, rfl⟩
abbrev main_call0_v133 : Ref sig .tc := ⟨.hbm, 223, rfl⟩
abbrev main_call0_v134 : Ref sig .tc := ⟨.hbm, 224, rfl⟩
abbrev main_call0_v135 : Ref sig .tc := ⟨.hbm, 225, rfl⟩
abbrev main_call0_v136 : Ref sig .tc := ⟨.hbm, 226, rfl⟩
abbrev main_call0_v137 : Ref sig .tc := ⟨.hbm, 227, rfl⟩
abbrev main_call0_v138 : Ref sig .tc := ⟨.hbm, 228, rfl⟩
abbrev main_call0_c_46 : Ref sig .tc := ⟨.hbm, 229, rfl⟩
abbrev main_call0_v139 : Ref sig .tc := ⟨.hbm, 230, rfl⟩
abbrev main_call0_v140 : Ref sig .tc := ⟨.hbm, 231, rfl⟩
abbrev main_call0_c_47 : Ref sig .tc := ⟨.hbm, 232, rfl⟩
abbrev main_call0_v141 : Ref sig .tc := ⟨.hbm, 233, rfl⟩
abbrev main_call0_v142 : Ref sig .tc := ⟨.hbm, 234, rfl⟩
abbrev main_call0_v143 : Ref sig .tc := ⟨.hbm, 235, rfl⟩
abbrev main_call0_v144 : Ref sig .tc := ⟨.hbm, 236, rfl⟩
abbrev main_call0_v145 : Ref sig .tc := ⟨.hbm, 237, rfl⟩
abbrev main_call0_cst_48 : Ref sig .tc := ⟨.hbm, 238, rfl⟩
abbrev main_call0_v146 : Ref sig .tc := ⟨.hbm, 239, rfl⟩
abbrev main_call0_v147 : Ref sig .tc := ⟨.hbm, 240, rfl⟩
abbrev main_call0_v148 : Ref sig .tc := ⟨.hbm, 241, rfl⟩
abbrev main_call0_v149 : Ref sig .tc := ⟨.hbm, 242, rfl⟩
abbrev main_call0_v150 : Ref sig .tc := ⟨.hbm, 243, rfl⟩
abbrev main_call0_v151 : Ref sig .tc := ⟨.hbm, 244, rfl⟩
abbrev main_call0_c_49 : Ref sig .tc := ⟨.hbm, 245, rfl⟩
abbrev main_call0_v152 : Ref sig .tc := ⟨.hbm, 246, rfl⟩
abbrev main_call0_v153 : Ref sig .tc := ⟨.hbm, 247, rfl⟩
abbrev main_call0_c_50 : Ref sig .tc := ⟨.hbm, 248, rfl⟩
abbrev main_call0_v154 : Ref sig .tc := ⟨.hbm, 249, rfl⟩
abbrev main_call0_v155 : Ref sig .tc := ⟨.hbm, 250, rfl⟩
abbrev main_call0_v156 : Ref sig .tc := ⟨.hbm, 251, rfl⟩
abbrev main_call0_v157 : Ref sig .tc := ⟨.hbm, 252, rfl⟩
abbrev main_call0_v158 : Ref sig .tc := ⟨.hbm, 253, rfl⟩
abbrev main_call0_cst_51 : Ref sig .tc := ⟨.hbm, 254, rfl⟩
abbrev main_call0_v159 : Ref sig .tc := ⟨.hbm, 255, rfl⟩
abbrev main_call0_v160 : Ref sig .tc := ⟨.hbm, 256, rfl⟩
abbrev main_call0_v161 : Ref sig .tc := ⟨.hbm, 257, rfl⟩
abbrev main_call0_v162 : Ref sig .tc := ⟨.hbm, 258, rfl⟩
abbrev main_call0_v163 : Ref sig .tc := ⟨.hbm, 259, rfl⟩
abbrev main_call0_v164 : Ref sig .tc := ⟨.hbm, 260, rfl⟩
abbrev main_call0_c_52 : Ref sig .tc := ⟨.hbm, 261, rfl⟩
abbrev main_call0_v165 : Ref sig .tc := ⟨.hbm, 262, rfl⟩
abbrev main_call0_v166 : Ref sig .tc := ⟨.hbm, 263, rfl⟩
abbrev main_call0_c_53 : Ref sig .tc := ⟨.hbm, 264, rfl⟩
abbrev main_call0_v167 : Ref sig .tc := ⟨.hbm, 265, rfl⟩
abbrev main_call0_v168 : Ref sig .tc := ⟨.hbm, 266, rfl⟩
abbrev main_call0_v169 : Ref sig .tc := ⟨.hbm, 267, rfl⟩
abbrev main_call0_v170 : Ref sig .tc := ⟨.hbm, 268, rfl⟩
abbrev main_call0_v171 : Ref sig .tc := ⟨.hbm, 269, rfl⟩
abbrev main_call0_cst_54 : Ref sig .tc := ⟨.hbm, 270, rfl⟩
abbrev main_call0_v172 : Ref sig .tc := ⟨.hbm, 271, rfl⟩
abbrev main_call0_v173 : Ref sig .tc := ⟨.hbm, 272, rfl⟩
abbrev main_call0_v174 : Ref sig .tc := ⟨.hbm, 273, rfl⟩
abbrev main_call0_v175 : Ref sig .tc := ⟨.hbm, 274, rfl⟩
abbrev main_call0_v176 : Ref sig .tc := ⟨.hbm, 275, rfl⟩
abbrev main_call0_v177 : Ref sig .tc := ⟨.hbm, 276, rfl⟩
abbrev main_call0_c_55 : Ref sig .tc := ⟨.hbm, 277, rfl⟩
abbrev main_call0_v178 : Ref sig .tc := ⟨.hbm, 278, rfl⟩
abbrev main_call0_v179 : Ref sig .tc := ⟨.hbm, 279, rfl⟩
abbrev main_call0_c_56 : Ref sig .tc := ⟨.hbm, 280, rfl⟩
abbrev main_call0_v180 : Ref sig .tc := ⟨.hbm, 281, rfl⟩
abbrev main_call0_v181 : Ref sig .tc := ⟨.hbm, 282, rfl⟩
abbrev main_call0_v182 : Ref sig .tc := ⟨.hbm, 283, rfl⟩
abbrev main_call0_v183 : Ref sig .tc := ⟨.hbm, 284, rfl⟩
abbrev main_call0_v184 : Ref sig .tc := ⟨.hbm, 285, rfl⟩
abbrev main_call0_cst_57 : Ref sig .tc := ⟨.hbm, 286, rfl⟩
abbrev main_call0_v185 : Ref sig .tc := ⟨.hbm, 287, rfl⟩
abbrev main_call0_v186 : Ref sig .tc := ⟨.hbm, 288, rfl⟩
abbrev main_call0_v187 : Ref sig .tc := ⟨.hbm, 289, rfl⟩
abbrev main_v0_2 : Ref sig .tc := ⟨.hbm, 290, rfl⟩
abbrev main_v0_0 : Ref sig .tc := ⟨.hbm, 291, rfl⟩
abbrev main_v0_3 : Ref sig .tc := ⟨.hbm, 292, rfl⟩
abbrev main_v0_1 : Ref sig .tc := ⟨.hbm, 293, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc4_stg9_0 : Ref sig .tc := ⟨.vmem, 54, rfl⟩
abbrev cc4_stg10_0 : Ref sig .tc := ⟨.vmem, 55, rfl⟩
abbrev cc4_stg11_0 : Ref sig .tc := ⟨.vmem, 56, rfl⟩
abbrev cc4_stg11_1 : Ref sig .tc := ⟨.vmem, 57, rfl⟩
abbrev cc4_stg12_0 : Ref sig .tc := ⟨.vmem, 58, rfl⟩
abbrev cc4_stg12_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg4_1 : Ref sig .tc := ⟨.vmem, 67, rfl⟩
abbrev cc5_stg5_0 : Ref sig .tc := ⟨.vmem, 68, rfl⟩
abbrev cc5_stg5_1 : Ref sig .tc := ⟨.vmem, 69, rfl⟩
abbrev cc5_stg6_0 : Ref sig .tc := ⟨.vmem, 70, rfl⟩
abbrev cc5_stg7_0 : Ref sig .tc := ⟨.vmem, 71, rfl⟩
abbrev cc5_stg8_0 : Ref sig .tc := ⟨.vmem, 72, rfl⟩
abbrev cc5_stg8_1 : Ref sig .tc := ⟨.vmem, 73, rfl⟩
abbrev cc5_stg9_0 : Ref sig .tc := ⟨.vmem, 74, rfl⟩
abbrev cc5_stg10_0 : Ref sig .tc := ⟨.vmem, 75, rfl⟩
abbrev cc5_stg11_0 : Ref sig .tc := ⟨.vmem, 76, rfl⟩
abbrev cc5_stg11_1 : Ref sig .tc := ⟨.vmem, 77, rfl⟩
abbrev cc5_stg12_0 : Ref sig .tc := ⟨.vmem, 78, rfl⟩
abbrev cc5_stg12_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc4_sem6_0 : DmaSem sig := 50
abbrev cc4_sem7_0 : DmaSem sig := 51
abbrev cc4_sem8_0 : DmaSem sig := 52
abbrev cc4_sem8_1 : DmaSem sig := 53
abbrev cc4_sem9_0 : DmaSem sig := 54
abbrev cc4_sem10_0 : DmaSem sig := 55
abbrev cc4_sem11_0 : DmaSem sig := 56
abbrev cc4_sem11_1 : DmaSem sig := 57
abbrev cc4_sem12_0 : DmaSem sig := 58
abbrev cc4_sem12_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem3_0 : DmaSem sig := 65
abbrev cc5_sem4_0 : DmaSem sig := 66
abbrev cc5_sem4_1 : DmaSem sig := 67
abbrev cc5_sem5_0 : DmaSem sig := 68
abbrev cc5_sem5_1 : DmaSem sig := 69
abbrev cc5_sem6_0 : DmaSem sig := 70
abbrev cc5_sem7_0 : DmaSem sig := 71
abbrev cc5_sem8_0 : DmaSem sig := 72
abbrev cc5_sem8_1 : DmaSem sig := 73
abbrev cc5_sem9_0 : DmaSem sig := 74
abbrev cc5_sem10_0 : DmaSem sig := 75
abbrev cc5_sem11_0 : DmaSem sig := 76
abbrev cc5_sem11_1 : DmaSem sig := 77
abbrev cc5_sem12_0 : DmaSem sig := 78
abbrev cc5_sem12_1 : DmaSem sig := 79

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S128x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1000x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S1000x512 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S128x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S1000x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S1000x512 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S200000 : S_.BroadcastsInDim S200000 (![] : Fin 0 → Fin S200000.rank)
  shapeCasts_S100000_S100000x1 : S100000.ShapeCasts S100000x1
  shapeCasts_S200000_S200000x1 : S200000.ShapeCasts S200000x1
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  scatter_S100000_S1000000x1_S1000000_n_0_0_1_wf : ScatterDims.WF S100000 S1000000x1 S1000000 [] [0] [0] 1
  scatter_S200000_S1000000x1_S1000000_n_0_0_1_wf : ScatterDims.WF S200000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  dot_S1000x128_S128x512_S1000x512_1_0_0_1_n_n_wf : DotDims.WF S1000x128 S128x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S200000x512.size a
  hwx1_0 : ∀ i : grid1.Coords, EltTy.bits .f32 = 32 ∨ (Rect.block (s := S200000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S200000x128.size a
  hwx1_3 : ∀ i : grid1.Coords, EltTy.bits .f32 = 32 ∨ (Rect.block (s := S200000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S200000x128.size a
  hwx3_0 : ∀ i : grid3.Coords, EltTy.bits .f32 = 32 ∨ (Rect.block (s := S200000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S200000x1.size a
  hwx3_1 : ∀ i : grid3.Coords, EltTy.bits .f32 = 32 ∨ (Rect.block (s := S200000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S200000x128.size a
  hwx3_4 : ∀ i : grid3.Coords, EltTy.bits .f32 = 32 ∨ (Rect.block (s := S200000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S200000x1.size a
  hwx3_5 : ∀ i : grid3.Coords, EltTy.bits .f32 = 32 ∨ (Rect.block (s := S200000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S200000x128.size a
  hwx3_8 : ∀ i : grid3.Coords, EltTy.bits .f32 = 32 ∨ (Rect.block (s := S200000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S100000x1.size a
  hwx4_1 : ∀ i : grid4.Coords, EltTy.bits .f32 = 32 ∨ (Rect.block (s := S100000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x128.size a ≤ S100000x128.size a
  hwx4_4 : ∀ i : grid4.Coords, EltTy.bits .f32 = 32 ∨ (Rect.block (s := S100000x128) S1000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x1.size a ≤ S100000x1.size a
  hwx4_5 : ∀ i : grid4.Coords, EltTy.bits .f32 = 32 ∨ (Rect.block (s := S100000x1) S1000x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1000x128.size a ≤ S100000x128.size a
  hwx4_8 : ∀ i : grid4.Coords, EltTy.bits .f32 = 32 ∨ (Rect.block (s := S100000x128) S1000x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x512.size a ≤ S128x512.size a
  hwx4_9 : ∀ i : grid4.Coords, EltTy.bits .f32 = 32 ∨ (Rect.block (s := S128x512) S128x512.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S512.size a ≤ S512.size a
  hwx4_10 : ∀ i : grid4.Coords, EltTy.bits .f32 = 32 ∨ (Rect.block (s := S512) S512.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1000x128.size a ≤ S100000x128.size a
  hwx4_11 : ∀ i : grid4.Coords, EltTy.bits .f32 = 32 ∨ (Rect.block (s := S100000x128) S1000x128.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S1000x512.size a ≤ S100000x512.size a
  hwx4_12 : ∀ i : grid4.Coords, EltTy.bits .f32 = 32 ∨ (Rect.block (s := S100000x512) S1000x512.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S200000x128.size a
  hwx5_0 : ∀ i : grid5.Coords, EltTy.bits .f32 = 32 ∨ (Rect.block (s := S200000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x1.size a ≤ S200000x1.size a
  hwx5_1 : ∀ i : grid5.Coords, EltTy.bits .f32 = 32 ∨ (Rect.block (s := S200000x1) S1000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1000x128.size a ≤ S200000x128.size a
  hwx5_4 : ∀ i : grid5.Coords, EltTy.bits .f32 = 32 ∨ (Rect.block (s := S200000x128) S1000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x1.size a ≤ S200000x1.size a
  hwx5_5 : ∀ i : grid5.Coords, EltTy.bits .f32 = 32 ∨ (Rect.block (s := S200000x1) S1000x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128.size a ≤ S128.size a
  hwx5_7 : ∀ i : grid5.Coords, EltTy.bits .f32 = 32 ∨ (Rect.block (s := S128) S128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1000x128.size a ≤ S200000x128.size a
  hwx5_8 : ∀ i : grid5.Coords, EltTy.bits .f32 = 32 ∨ (Rect.block (s := S200000x128) S1000x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x512.size a ≤ S128x512.size a
  hwx5_9 : ∀ i : grid5.Coords, EltTy.bits .f32 = 32 ∨ (Rect.block (s := S128x512) S128x512.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S512.size a ≤ S512.size a
  hwx5_10 : ∀ i : grid5.Coords, EltTy.bits .f32 = 32 ∨ (Rect.block (s := S512) S512.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S1000x128.size a ≤ S200000x128.size a
  hwx5_11 : ∀ i : grid5.Coords, EltTy.bits .f32 = 32 ∨ (Rect.block (s := S200000x128) S1000x128.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S1000x512.size a ≤ S200000x512.size a
  hwx5_12 : ∀ i : grid5.Coords, EltTy.bits .f32 = 32 ∨ (Rect.block (s := S200000x512) S1000x512.size (cc5_transform_12 i) (hinb5_12 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v80) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v81) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v94) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v76) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v107) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v77) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg19) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v134) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_call0_v120) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v78) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v133) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v79) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg21) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v135) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_call0_v148) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v76) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v161) S1000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v77) S1000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg19) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_call0_v80) S1000x128.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_arg22) S128x512.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg23) S512.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v0_2) S1000x128.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v0_0) S1000x512.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_call0_v174) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v78) S1000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v187) S1000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_call0_v79) S1000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg20) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg21) S128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_call0_v81) S1000x128.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_arg24) S128x512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_arg25) S512.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v0_3) S1000x128.size cc5_transform_11 reads5_11 true false 2 stage5_11 sem5_11
    hrank5 hreads5_11 hinb5_11 nbuf5_11 (Memref.isWhole_whole _) hwx5_11 hstage5_11

abbrev win5_12 : Pipeline.Window sig grid5 :=
  Pipeline.Window.ofSpec (Memref.whole main_v0_1) S1000x512.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

class Facts : Prop extends Facts₀ where

variable [Facts]
-- ==== ReferenceIdeal.lean ====
abbrev S100000x512 : Shape := ⟨2, ![100000, 512]⟩
abbrev S200000x512 : Shape := ⟨2, ![200000, 512]⟩
abbrev S1000000 : Shape := ⟨1, ![1000000]⟩
abbrev S512x128 : Shape := ⟨2, ![512, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S100000x128 : Shape := ⟨2, ![100000, 128]⟩
abbrev S1x128 : Shape := ⟨2, ![1, 128]⟩
abbrev S200000x128 : Shape := ⟨2, ![200000, 128]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S200000 : Shape := ⟨1, ![200000]⟩
abbrev S200000x1 : Shape := ⟨2, ![200000, 1]⟩
abbrev S1x512 : Shape := ⟨2, ![1, 512]⟩

abbrev nBuf : Space → Nat
  | .hbm => 506
  | .vmem => 0
  | .smem => 0
  | _ => 0

abbrev hbmTy0_0 (i : Nat) : BufTy := match i % 128 with
  | 0 => ⟨S100000x512, .f32⟩
  | 1 => ⟨S200000x512, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S512x128, .f32⟩
  | 11 => ⟨S128, .f32⟩
  | 12 => ⟨S512x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x512, .f32⟩
  | 23 => ⟨S512, .f32⟩
  | 24 => ⟨S128x512, .f32⟩
  | 25 => ⟨S512, .f32⟩
  | 26 => ⟨S100000x128, .f32⟩
  | 27 => ⟨S1x128, .f32⟩
  | 28 => ⟨S100000x128, .f32⟩
  | 29 => ⟨S100000x128, .f32⟩
  | 30 => ⟨S200000x128, .f32⟩
  | 31 => ⟨S1x128, .f32⟩
  | 32 => ⟨S200000x128, .f32⟩
  | 33 => ⟨S200000x128, .f32⟩
  | 34 => ⟨S_, .f32⟩
  | 35 => ⟨S1000000, .f32⟩
  | 36 => ⟨S_, .f32⟩
  | 37 => ⟨S100000, .f32⟩
  | 38 => ⟨S1000000x1, .i32⟩
  | 39 => ⟨S100000, .f32⟩
  | 40 => ⟨S_, .f32⟩
  | 41 => ⟨S100000, .f32⟩
  | 42 => ⟨S1000000x1, .i32⟩
  | 43 => ⟨S100000, .f32⟩
  | 44 => ⟨S_, .f32⟩
  | 45 => ⟨S100000, .f32⟩
  | 46 => ⟨S100000, .i1⟩
  | 47 => ⟨S_, .f32⟩
  | 48 => ⟨S100000, .f32⟩
  | 49 => ⟨S100000, .f32⟩
  | 50 => ⟨S100000, .f32⟩
  | 51 => ⟨S_, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .i1⟩
  | 58 => ⟨S_, .f32⟩
  | 59 => ⟨S100000, .f32⟩
  | 60 => ⟨S100000, .f32⟩
  | 61 => ⟨S100000, .f32⟩
  | 62 => ⟨S_, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x128, .f32⟩
  | 78 => ⟨S_, .f32⟩
  | 79 => ⟨S100000x128, .f32⟩
  | 80 => ⟨S1000000x1, .i32⟩
  | 81 => ⟨S100000x128, .f32⟩
  | 82 => ⟨S100000x1, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S1000000, .f32⟩
  | 91 => ⟨S_, .f32⟩
  | 92 => ⟨S200000, .f32⟩
  | 93 => ⟨S1000000x1, .i32⟩
  | 94 => ⟨S200000, .f32⟩
  | 95 => ⟨S_, .f32⟩
  | 96 => ⟨S100000, .f32⟩
  | 97 => ⟨S1000000x1, .i32⟩
  | 98 => ⟨S100000, .f32⟩
  | 99 => ⟨S_, .f32⟩
  | 100 => ⟨S200000, .f32⟩
  | 101 => ⟨S200000, .i1⟩
  | 102 => ⟨S_, .f32⟩
  | 103 => ⟨S200000, .f32⟩
  | 104 => ⟨S200000, .f32⟩
  | 105 => ⟨S200000, .f32⟩
  | 106 => ⟨S_, .f32⟩
  | 107 => ⟨S_, .f32⟩
  | 108 => ⟨S200000, .f32⟩
  | 109 => ⟨S200000, .f32⟩
  | 110 => ⟨S_, .f32⟩
  | 111 => ⟨S100000, .f32⟩
  | 112 => ⟨S100000, .i1⟩
  | 113 => ⟨S_, .f32⟩
  | 114 => ⟨S100000, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S200000x1, .f32⟩
  | 122 => ⟨S200000x128, .f32⟩
  | 123 => ⟨S200000x128, .f32⟩
  | 124 => ⟨S_, .i32⟩
  | 125 => ⟨S1000000, .i32⟩
  | 126 => ⟨S1000000, .i1⟩
  | 127 => ⟨S_, .i32⟩
  | _ => ⟨S100000x512, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x128, .f32⟩
  | 5 => ⟨S_, .f32⟩
  | 6 => ⟨S100000x128, .f32⟩
  | 7 => ⟨S1000000x1, .i32⟩
  | 8 => ⟨S100000x128, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S200000, .f32⟩
  | 28 => ⟨S1000000x1, .i32⟩
  | 29 => ⟨S200000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .f32⟩
  | 42 => ⟨S200000, .f32⟩
  | 43 => ⟨S200000, .i1⟩
  | 44 => ⟨S_, .f32⟩
  | 45 => ⟨S200000, .f32⟩
  | 46 => ⟨S200000, .f32⟩
  | 47 => ⟨S200000, .f32⟩
  | 48 => ⟨S_, .f32⟩
  | 49 => ⟨S_, .f32⟩
  | 50 => ⟨S200000, .f32⟩
  | 51 => ⟨S200000, .f32⟩
  | 52 => ⟨S100000x1, .f32⟩
  | 53 => ⟨S100000x128, .f32⟩
  | 54 => ⟨S100000x128, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S_, .f32⟩
  | 65 => ⟨S200000x128, .f32⟩
  | 66 => ⟨S1000000x1, .i32⟩
  | 67 => ⟨S200000x128, .f32⟩
  | 68 => ⟨S200000x1, .f32⟩
  | 69 => ⟨S200000x128, .f32⟩
  | 70 => ⟨S200000x128, .f32⟩
  | 71 => ⟨S200000x128, .f32⟩
  | 72 => ⟨S1x128, .f32⟩
  | 73 => ⟨S200000x128, .f32⟩
  | 74 => ⟨S200000x128, .f32⟩
  | 75 => ⟨S_, .f32⟩
  | 76 => ⟨S1000000, .f32⟩
  | 77 => ⟨S_, .f32⟩
  | 78 => ⟨S200000, .f32⟩
  | 79 => ⟨S1000000x1, .i32⟩
  | 80 => ⟨S200000, .f32⟩
  | 81 => ⟨S_, .f32⟩
  | 82 => ⟨S200000, .f32⟩
  | 83 => ⟨S1000000x1, .i32⟩
  | 84 => ⟨S200000, .f32⟩
  | 85 => ⟨S_, .f32⟩
  | 86 => ⟨S200000, .f32⟩
  | 87 => ⟨S200000, .i1⟩
  | 88 => ⟨S_, .f32⟩
  | 89 => ⟨S200000, .f32⟩
  | 90 => ⟨S200000, .f32⟩
  | 91 => ⟨S200000, .f32⟩
  | 92 => ⟨S_, .f32⟩
  | 93 => ⟨S_, .f32⟩
  | 94 => ⟨S200000, .f32⟩
  | 95 => ⟨S200000, .f32⟩
  | 96 => ⟨S_, .f32⟩
  | 97 => ⟨S200000, .f32⟩
  | 98 => ⟨S200000, .i1⟩
  | 99 => ⟨S_, .f32⟩
  | 100 => ⟨S200000, .f32⟩
  | 101 => ⟨S200000, .f32⟩
  | 102 => ⟨S200000, .f32⟩
  | 103 => ⟨S_, .f32⟩
  | 104 => ⟨S_, .f32⟩
  | 105 => ⟨S200000, .f32⟩
  | 106 => ⟨S200000, .f32⟩
  | 107 => ⟨S200000x1, .f32⟩
  | 108 => ⟨S200000x128, .f32⟩
  | 109 => ⟨S200000x128, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x128, .f32⟩
  | 119 => ⟨S_, .f32⟩
  | 120 => ⟨S200000x128, .f32⟩
  | 121 => ⟨S1000000x1, .i32⟩
  | 122 => ⟨S200000x128, .f32⟩
  | 123 => ⟨S200000x1, .f32⟩
  | 124 => ⟨S200000x128, .f32⟩
  | 125 => ⟨S200000x128, .f32⟩
  | 126 => ⟨S200000x128, .f32⟩
  | 127 => ⟨S1x128, .f32⟩
  | _ => ⟨S100000x512, .f32⟩

abbrev hbmTy0_2 (i : Nat) : BufTy := match i % 128 with
  | 0 => ⟨S200000x128, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S_, .f32⟩
  | 7 => ⟨S100000x128, .f32⟩
  | 8 => ⟨S100000x128, .f32⟩
  | 9 => ⟨S_, .f32⟩
  | 10 => ⟨S200000x128, .f32⟩
  | 11 => ⟨S200000x128, .f32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x128, .f32⟩
  | 56 => ⟨S_, .f32⟩
  | 57 => ⟨S100000x128, .f32⟩
  | 58 => ⟨S1000000x1, .i32⟩
  | 59 => ⟨S100000x128, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S1000000, .f32⟩
  | 69 => ⟨S_, .f32⟩
  | 70 => ⟨S200000, .f32⟩
  | 71 => ⟨S1000000x1, .i32⟩
  | 72 => ⟨S200000, .f32⟩
  | 73 => ⟨S_, .f32⟩
  | 74 => ⟨S100000, .f32⟩
  | 75 => ⟨S1000000x1, .i32⟩
  | 76 => ⟨S100000, .f32⟩
  | 77 => ⟨S_, .f32⟩
  | 78 => ⟨S200000, .f32⟩
  | 79 => ⟨S200000, .i1⟩
  | 80 => ⟨S_, .f32⟩
  | 81 => ⟨S200000, .f32⟩
  | 82 => ⟨S200000, .f32⟩
  | 83 => ⟨S200000, .f32⟩
  | 84 => ⟨S_, .f32⟩
  | 85 => ⟨S_, .f32⟩
  | 86 => ⟨S200000, .f32⟩
  | 87 => ⟨S200000, .f32⟩
  | 88 => ⟨S_, .f32⟩
  | 89 => ⟨S100000, .f32⟩
  | 90 => ⟨S100000, .i1⟩
  | 91 => ⟨S_, .f32⟩
  | 92 => ⟨S100000, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S200000x1, .f32⟩
  | 100 => ⟨S200000x128, .f32⟩
  | 101 => ⟨S200000x128, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S_, .f32⟩
  | 112 => ⟨S100000x128, .f32⟩
  | 113 => ⟨S1000000x1, .i32⟩
  | 114 => ⟨S100000x128, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S1000000, .f32⟩
  | _ => ⟨S100000x512, .f32⟩

abbrev hbmTy0_3 (i : Nat) : BufTy := match i % 128 with
  | 0 => ⟨S_, .f32⟩
  | 1 => ⟨S100000, .f32⟩
  | 2 => ⟨S1000000x1, .i32⟩
  | 3 => ⟨S100000, .f32⟩
  | 4 => ⟨S_, .f32⟩
  | 5 => ⟨S200000, .f32⟩
  | 6 => ⟨S1000000x1, .i32⟩
  | 7 => ⟨S200000, .f32⟩
  | 8 => ⟨S_, .f32⟩
  | 9 => ⟨S100000, .f32⟩
  | 10 => ⟨S100000, .i1⟩
  | 11 => ⟨S_, .f32⟩
  | 12 => ⟨S100000, .f32⟩
  | 13 => ⟨S100000, .f32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S200000, .f32⟩
  | 21 => ⟨S200000, .i1⟩
  | 22 => ⟨S_, .f32⟩
  | 23 => ⟨S200000, .f32⟩
  | 24 => ⟨S200000, .f32⟩
  | 25 => ⟨S200000, .f32⟩
  | 26 => ⟨S_, .f32⟩
  | 27 => ⟨S_, .f32⟩
  | 28 => ⟨S200000, .f32⟩
  | 29 => ⟨S200000, .f32⟩
  | 30 => ⟨S100000x1, .f32⟩
  | 31 => ⟨S100000x128, .f32⟩
  | 32 => ⟨S100000x128, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x128, .f32⟩
  | 42 => ⟨S_, .f32⟩
  | 43 => ⟨S200000x128, .f32⟩
  | 44 => ⟨S1000000x1, .i32⟩
  | 45 => ⟨S200000x128, .f32⟩
  | 46 => ⟨S200000x1, .f32⟩
  | 47 => ⟨S200000x128, .f32⟩
  | 48 => ⟨S200000x128, .f32⟩
  | 49 => ⟨S200000x128, .f32⟩
  | 50 => ⟨S1x128, .f32⟩
  | 51 => ⟨S200000x128, .f32⟩
  | 52 => ⟨S200000x128, .f32⟩
  | 53 => ⟨S_, .f32⟩
  | 54 => ⟨S1000000, .f32⟩
  | 55 => ⟨S_, .f32⟩
  | 56 => ⟨S200000, .f32⟩
  | 57 => ⟨S1000000x1, .i32⟩
  | 58 => ⟨S200000, .f32⟩
  | 59 => ⟨S_, .f32⟩
  | 60 => ⟨S200000, .f32⟩
  | 61 => ⟨S1000000x1, .i32⟩
  | 62 => ⟨S200000, .f32⟩
  | 63 => ⟨S_, .f32⟩
  | 64 => ⟨S200000, .f32⟩
  | 65 => ⟨S200000, .i1⟩
  | 66 => ⟨S_, .f32⟩
  | 67 => ⟨S200000, .f32⟩
  | 68 => ⟨S200000, .f32⟩
  | 69 => ⟨S200000, .f32⟩
  | 70 => ⟨S_, .f32⟩
  | 71 => ⟨S_, .f32⟩
  | 72 => ⟨S200000, .f32⟩
  | 73 => ⟨S200000, .f32⟩
  | 74 => ⟨S_, .f32⟩
  | 75 => ⟨S200000, .f32⟩
  | 76 => ⟨S200000, .i1⟩
  | 77 => ⟨S_, .f32⟩
  | 78 => ⟨S200000, .f32⟩
  | 79 => ⟨S200000, .f32⟩
  | 80 => ⟨S200000, .f32⟩
  | 81 => ⟨S_, .f32⟩
  | 82 => ⟨S_, .f32⟩
  | 83 => ⟨S200000, .f32⟩
  | 84 => ⟨S200000, .f32⟩
  | 85 => ⟨S200000x1, .f32⟩
  | 86 => ⟨S200000x128, .f32⟩
  | 87 => ⟨S200000x128, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .f32⟩
  | 97 => ⟨S_, .f32⟩
  | 98 => ⟨S200000x128, .f32⟩
  | 99 => ⟨S1000000x1, .i32⟩
  | 100 => ⟨S200000x128, .f32⟩
  | 101 => ⟨S200000x1, .f32⟩
  | 102 => ⟨S200000x128, .f32⟩
  | 103 => ⟨S200000x128, .f32⟩
  | 104 => ⟨S200000x128, .f32⟩
  | 105 => ⟨S1x128, .f32⟩
  | 106 => ⟨S200000x128, .f32⟩
  | 107 => ⟨S200000x128, .f32⟩
  | 108 => ⟨S200000x128, .f32⟩
  | 109 => ⟨S_, .f32⟩
  | 110 => ⟨S200000x128, .f32⟩
  | 111 => ⟨S200000x128, .f32⟩
  | 112 => ⟨S100000x128, .f32⟩
  | 113 => ⟨S200000x128, .f32⟩
  | 114 => ⟨S100000x512, .f32⟩
  | 115 => ⟨S1x512, .f32⟩
  | 116 => ⟨S100000x512, .f32⟩
  | 117 => ⟨S100000x512, .f32⟩
  | 118 => ⟨S200000x512, .f32⟩
  | 119 => ⟨S1x512, .f32⟩
  | 120 => ⟨S200000x512, .f32⟩
  | 121 => ⟨S200000x512, .f32⟩
  | _ => ⟨S100000x512, .f32⟩

abbrev hbmTy (i : Nat) : BufTy := match i / 128 with
  | 0 => hbmTy0_0 i
  | 1 => hbmTy0_1 i
  | 2 => hbmTy0_2 i
  | 3 => hbmTy0_3 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c : Ref sig .tc := ⟨.hbm, 69, rfl⟩
abbrev main_v30 : Ref sig .tc := ⟨.hbm, 70, rfl⟩
abbrev main_v31 : Ref sig .tc := ⟨.hbm, 71, rfl⟩
abbrev main_c_8 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_9 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_10 : Ref sig .tc := ⟨.hbm, 89, rfl⟩
abbrev main_v47 : Ref sig .tc := ⟨.hbm, 90, rfl⟩
abbrev main_cst_11 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_12 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_v55 : Ref sig .tc := ⟨.hbm, 101, rfl⟩
abbrev main_cst_14 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_15 : Ref sig .tc := ⟨.hbm, 106, rfl⟩
abbrev main_call2_v0 : Ref sig .tc := ⟨.hbm, 107, rfl⟩
abbrev main_call2_v1 : Ref sig .tc := ⟨.hbm, 108, rfl⟩
abbrev main_v59 : Ref sig .tc := ⟨.hbm, 109, rfl⟩
abbrev main_cst_16 : Ref sig .tc := ⟨.hbm, 110, rfl⟩
abbrev main_v60 : Ref sig .tc := ⟨.hbm, 111, rfl⟩
abbrev main_v61 : Ref sig .tc := ⟨.hbm, 112, rfl⟩
abbrev main_cst_17 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_18 : Ref sig .tc := ⟨.hbm, 117, rfl⟩
abbrev main_call3_v0 : Ref sig .tc := ⟨.hbm, 118, rfl⟩
abbrev main_call3_v1 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_19 : Ref sig .tc := ⟨.hbm, 124, rfl⟩
abbrev main_v69 : Ref sig .tc := ⟨.hbm, 125, rfl⟩
abbrev main_v70 : Ref sig .tc := ⟨.hbm, 126, rfl⟩
abbrev main_c_20 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_21 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_22 : Ref sig .tc := ⟨.hbm, 145, rfl⟩
abbrev main_v87 : Ref sig .tc := ⟨.hbm, 146, rfl⟩
abbrev main_v88 : Ref sig .tc := ⟨.hbm, 147, rfl⟩
abbrev main_cst_23 : Ref sig .tc := ⟨.hbm, 148, rfl⟩
abbrev main_v89 : Ref sig .tc := ⟨.hbm, 149, rfl⟩
abbrev main_cst_24 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_25 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_26 : Ref sig .tc := ⟨.hbm, 158, rfl⟩
abbrev main_v96 : Ref sig .tc := ⟨.hbm, 159, rfl⟩
abbrev main_v97 : Ref sig .tc := ⟨.hbm, 160, rfl⟩
abbrev main_cst_27 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_28 : Ref sig .tc := ⟨.hbm, 165, rfl⟩
abbrev main_call4_v0 : Ref sig .tc := ⟨.hbm, 166, rfl⟩
abbrev main_call4_v1 : Ref sig .tc := ⟨.hbm, 167, rfl⟩
abbrev main_v101 : Ref sig .tc := ⟨.hbm, 168, rfl⟩
abbrev main_cst_29 : Ref sig .tc := ⟨.hbm, 169, rfl⟩
abbrev main_v102 : Ref sig .tc := ⟨.hbm, 170, rfl⟩
abbrev main_v103 : Ref sig .tc := ⟨.hbm, 171, rfl⟩
abbrev main_cst_30 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_cst_31 : Ref sig .tc := ⟨.hbm, 176, rfl⟩
abbrev main_call5_v0 : Ref sig .tc := ⟨.hbm, 177, rfl⟩
abbrev main_call5_v1 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_c_32 : Ref sig .tc := ⟨.hbm, 183, rfl⟩
abbrev main_v111 : Ref sig .tc := ⟨.hbm, 184, rfl⟩
abbrev main_v112 : Ref sig .tc := ⟨.hbm, 185, rfl⟩
abbrev main_c_33 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_cst_34 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_cst_35 : Ref sig .tc := ⟨.hbm, 203, rfl⟩
abbrev main_v128 : Ref sig .tc := ⟨.hbm, 204, rfl⟩
abbrev main_cst_36 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_37 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_38 : Ref sig .tc := ⟨.hbm, 213, rfl⟩
abbrev main_v135 : Ref sig .tc := ⟨.hbm, 214, rfl⟩
abbrev main_v136 : Ref sig .tc := ⟨.hbm, 215, rfl⟩
abbrev main_cst_39 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_40 : Ref sig .tc := ⟨.hbm, 220, rfl⟩
abbrev main_call6_v0 : Ref sig .tc := ⟨.hbm, 221, rfl⟩
abbrev main_call6_v1 : Ref sig .tc := ⟨.hbm, 222, rfl⟩
abbrev main_v140 : Ref sig .tc := ⟨.hbm, 223, rfl⟩
abbrev main_cst_41 : Ref sig .tc := ⟨.hbm, 224, rfl⟩
abbrev main_v141 : Ref sig .tc := ⟨.hbm, 225, rfl⟩
abbrev main_v142 : Ref sig .tc := ⟨.hbm, 226, rfl⟩
abbrev main_cst_42 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_cst_43 : Ref sig .tc := ⟨.hbm, 231, rfl⟩
abbrev main_call7_v0 : Ref sig .tc := ⟨.hbm, 232, rfl⟩
abbrev main_call7_v1 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_c_44 : Ref sig .tc := ⟨.hbm, 238, rfl⟩
abbrev main_v150 : Ref sig .tc := ⟨.hbm, 239, rfl⟩
abbrev main_v151 : Ref sig .tc := ⟨.hbm, 240, rfl⟩
abbrev main_c_45 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_cst_46 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_cst_47 : Ref sig .tc := ⟨.hbm, 259, rfl⟩
abbrev main_v168 : Ref sig .tc := ⟨.hbm, 260, rfl⟩
abbrev main_v169 : Ref sig .tc := ⟨.hbm, 261, rfl⟩
abbrev main_call8_cst : Ref sig .tc := ⟨.hbm, 262, rfl⟩
abbrev main_call8_v0 : Ref sig .tc := ⟨.hbm, 263, rfl⟩
abbrev main_v170 : Ref sig .tc := ⟨.hbm, 264, rfl⟩
abbrev main_call9_cst : Ref sig .tc := ⟨.hbm, 265, rfl⟩
abbrev main_call9_v0 : Ref sig .tc := ⟨.hbm, 266, rfl⟩
abbrev main_v171 : Ref sig .tc := ⟨.hbm, 267, rfl⟩
abbrev main_cst_48 : Ref sig .tc := ⟨.hbm, 268, rfl⟩
abbrev main_v172 : Ref sig .tc := ⟨.hbm, 269, rfl⟩
abbrev main_cst_49 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_50 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_51 : Ref sig .tc := ⟨.hbm, 278, rfl⟩
abbrev main_v179 : Ref sig .tc := ⟨.hbm, 279, rfl⟩
abbrev main_v180 : Ref sig .tc := ⟨.hbm, 280, rfl⟩
abbrev main_cst_52 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_53 : Ref sig .tc := ⟨.hbm, 285, rfl⟩
abbrev main_call10_v0 : Ref sig .tc := ⟨.hbm, 286, rfl⟩
abbrev main_call10_v1 : Ref sig .tc := ⟨.hbm, 287, rfl⟩
abbrev main_v184 : Ref sig .tc := ⟨.hbm, 288, rfl⟩
abbrev main_cst_54 : Ref sig .tc := ⟨.hbm, 289, rfl⟩
abbrev main_v185 : Ref sig .tc := ⟨.hbm, 290, rfl⟩
abbrev main_v186 : Ref sig .tc := ⟨.hbm, 291, rfl⟩
abbrev main_cst_55 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_cst_56 : Ref sig .tc := ⟨.hbm, 296, rfl⟩
abbrev main_call11_v0 : Ref sig .tc := ⟨.hbm, 297, rfl⟩
abbrev main_call11_v1 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_c_57 : Ref sig .tc := ⟨.hbm, 303, rfl⟩
abbrev main_v194 : Ref sig .tc := ⟨.hbm, 304, rfl⟩
abbrev main_v195 : Ref sig .tc := ⟨.hbm, 305, rfl⟩
abbrev main_c_58 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_cst_59 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_cst_60 : Ref sig .tc := ⟨.hbm, 323, rfl⟩
abbrev main_v211 : Ref sig .tc := ⟨.hbm, 324, rfl⟩
abbrev main_cst_61 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_cst_62 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_cst_63 : Ref sig .tc := ⟨.hbm, 333, rfl⟩
abbrev main_v218 : Ref sig .tc := ⟨.hbm, 334, rfl⟩
abbrev main_v219 : Ref sig .tc := ⟨.hbm, 335, rfl⟩
abbrev main_cst_64 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_cst_65 : Ref sig .tc := ⟨.hbm, 340, rfl⟩
abbrev main_call12_v0 : Ref sig .tc := ⟨.hbm, 341, rfl⟩
abbrev main_call12_v1 : Ref sig .tc := ⟨.hbm, 342, rfl⟩
abbrev main_v223 : Ref sig .tc := ⟨.hbm, 343, rfl⟩
abbrev main_cst_66 : Ref sig .tc := ⟨.hbm, 344, rfl⟩
abbrev main_v224 : Ref sig .tc := ⟨.hbm, 345, rfl⟩
abbrev main_v225 : Ref sig .tc := ⟨.hbm, 346, rfl⟩
abbrev main_cst_67 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_cst_68 : Ref sig .tc := ⟨.hbm, 351, rfl⟩
abbrev main_call13_v0 : Ref sig .tc := ⟨.hbm, 352, rfl⟩
abbrev main_call13_v1 : Ref sig .tc := ⟨.hbm, 353, rfl⟩
abbrev main_v229 : Ref sig .tc := ⟨.hbm, 354, rfl⟩
abbrev main_v230 : Ref sig .tc := ⟨.hbm, 355, rfl⟩
abbrev main_v231 : Ref sig .tc := ⟨.hbm, 356, rfl⟩
abbrev main_v232 : Ref sig .tc := ⟨.hbm, 357, rfl⟩
abbrev main_c_69 : Ref sig .tc := ⟨.hbm, 358, rfl⟩
abbrev main_v233 : Ref sig .tc := ⟨.hbm, 359, rfl⟩
abbrev main_v234 : Ref sig .tc := ⟨.hbm, 360, rfl⟩
abbrev main_c_70 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_cst_71 : Ref sig .tc := ⟨.hbm, 367, rfl⟩
abbrev main_v240 : Ref sig .tc := ⟨.hbm, 368, rfl⟩
abbrev main_v241 : Ref sig .tc := ⟨.hbm, 369, rfl⟩
abbrev main_v242 : Ref sig .tc := ⟨.hbm, 370, rfl⟩
abbrev main_v243 : Ref sig .tc := ⟨.hbm, 371, rfl⟩
abbrev main_v244 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_cst_72 : Ref sig .tc := ⟨.hbm, 379, rfl⟩
abbrev main_v251 : Ref sig .tc := ⟨.hbm, 380, rfl⟩
abbrev main_v252 : Ref sig .tc := ⟨.hbm, 381, rfl⟩
abbrev main_cst_73 : Ref sig .tc := ⟨.hbm, 382, rfl⟩
abbrev main_v253 : Ref sig .tc := ⟨.hbm, 383, rfl⟩
abbrev main_cst_74 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_cst_75 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_cst_76 : Ref sig .tc := ⟨.hbm, 392, rfl⟩
abbrev main_v260 : Ref sig .tc := ⟨.hbm, 393, rfl⟩
abbrev main_v261 : Ref sig .tc := ⟨.hbm, 394, rfl⟩
abbrev main_cst_77 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_cst_78 : Ref sig .tc := ⟨.hbm, 399, rfl⟩
abbrev main_call14_v0 : Ref sig .tc := ⟨.hbm, 400, rfl⟩
abbrev main_call14_v1 : Ref sig .tc := ⟨.hbm, 401, rfl⟩
abbrev main_v265 : Ref sig .tc := ⟨.hbm, 402, rfl⟩
abbrev main_cst_79 : Ref sig .tc := ⟨.hbm, 403, rfl⟩
abbrev main_v266 : Ref sig .tc := ⟨.hbm, 404, rfl⟩
abbrev main_v267 : Ref sig .tc := ⟨.hbm, 405, rfl⟩
abbrev main_cst_80 : Ref sig .tc := ⟨.hbm, 406, rfl⟩
abbrev main_v268 : Ref sig .tc := ⟨.hbm, 407, rfl⟩
abbrev main_v269 : Ref sig .tc := ⟨.hbm, 408, rfl⟩
abbrev main_v270 : Ref sig .tc := ⟨.hbm, 409, rfl⟩
abbrev main_cst_81 : Ref sig .tc := ⟨.hbm, 410, rfl⟩
abbrev main_call15_v0 : Ref sig .tc := ⟨.hbm, 411, rfl⟩
abbrev main_call15_v1 : Ref sig .tc := ⟨.hbm, 412, rfl⟩
abbrev main_v271 : Ref sig .tc := ⟨.hbm, 413, rfl⟩
abbrev main_v272 : Ref sig .tc := ⟨.hbm, 414, rfl⟩
abbrev main_v273 : Ref sig .tc := ⟨.hbm, 415, rfl⟩
abbrev main_v274 : Ref sig .tc := ⟨.hbm, 416, rfl⟩
abbrev main_c_82 : Ref sig .tc := ⟨.hbm, 417, rfl⟩
abbrev main_v275 : Ref sig .tc := ⟨.hbm, 418, rfl⟩
abbrev main_v276 : Ref sig .tc := ⟨.hbm, 419, rfl⟩
abbrev main_c_83 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_cst_84 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_v290 : Ref sig .tc := ⟨.hbm, 435, rfl⟩
abbrev main_v291 : Ref sig .tc := ⟨.hbm, 436, rfl⟩
abbrev main_cst_85 : Ref sig .tc := ⟨.hbm, 437, rfl⟩
abbrev main_v292 : Ref sig .tc := ⟨.hbm, 438, rfl⟩
abbrev main_cst_86 : Ref sig .tc := ⟨.hbm, 439, rfl⟩
abbrev main_v293 : Ref sig .tc := ⟨.hbm, 440, rfl⟩
abbrev main_v294 : Ref sig .tc := ⟨.hbm, 441, rfl⟩
abbrev main_v295 : Ref sig .tc := ⟨.hbm, 442, rfl⟩
abbrev main_cst_87 : Ref sig .tc := ⟨.hbm, 443, rfl⟩
abbrev main_v296 : Ref sig .tc := ⟨.hbm, 444, rfl⟩
abbrev main_v297 : Ref sig .tc := ⟨.hbm, 445, rfl⟩
abbrev main_v298 : Ref sig .tc := ⟨.hbm, 446, rfl⟩
abbrev main_cst_88 : Ref sig .tc := ⟨.hbm, 447, rfl⟩
abbrev main_v299 : Ref sig .tc := ⟨.hbm, 448, rfl⟩
abbrev main_v300 : Ref sig .tc := ⟨.hbm, 449, rfl⟩
abbrev main_cst_89 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_cst_90 : Ref sig .tc := ⟨.hbm, 454, rfl⟩
abbrev main_call16_v0 : Ref sig .tc := ⟨.hbm, 455, rfl⟩
abbrev main_call16_v1 : Ref sig .tc := ⟨.hbm, 456, rfl⟩
abbrev main_v304 : Ref sig .tc := ⟨.hbm, 457, rfl⟩
abbrev main_cst_91 : Ref sig .tc := ⟨.hbm, 458, rfl⟩
abbrev main_v305 : Ref sig .tc := ⟨.hbm, 459, rfl⟩
abbrev main_v306 : Ref sig .tc := ⟨.hbm, 460, rfl⟩
abbrev main_cst_92 : Ref sig .tc := ⟨.hbm, 461, rfl⟩
abbrev main_v307 : Ref sig .tc := ⟨.hbm, 462, rfl⟩
abbrev main_v308 : Ref sig .tc := ⟨.hbm, 463, rfl⟩
abbrev main_v309 : Ref sig .tc := ⟨.hbm, 464, rfl⟩
abbrev main_cst_93 : Ref sig .tc := ⟨.hbm, 465, rfl⟩
abbrev main_call17_v0 : Ref sig .tc := ⟨.hbm, 466, rfl⟩
abbrev main_call17_v1 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_v313 : Ref sig .tc := ⟨.hbm, 471, rfl⟩
abbrev main_c_94 : Ref sig .tc := ⟨.hbm, 472, rfl⟩
abbrev main_v314 : Ref sig .tc := ⟨.hbm, 473, rfl⟩
abbrev main_v315 : Ref sig .tc := ⟨.hbm, 474, rfl⟩
abbrev main_c_95 : Ref sig .tc := ⟨.hbm, 475, rfl⟩
abbrev main_v316 : Ref sig .tc := ⟨.hbm, 476, rfl⟩
abbrev main_v317 : Ref sig .tc := ⟨.hbm, 477, rfl⟩
abbrev main_v318 : Ref sig .tc := ⟨.hbm, 478, rfl⟩
abbrev main_v319 : Ref sig .tc := ⟨.hbm, 479, rfl⟩
abbrev main_v320 : Ref sig .tc := ⟨.hbm, 480, rfl⟩
abbrev main_cst_96 : Ref sig .tc := ⟨.hbm, 481, rfl⟩
abbrev main_v321 : Ref sig .tc := ⟨.hbm, 482, rfl⟩
abbrev main_v322 : Ref sig .tc := ⟨.hbm, 483, rfl⟩
abbrev main_v323 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_v329 : Ref sig .tc := ⟨.hbm, 490, rfl⟩
abbrev main_v330 : Ref sig .tc := ⟨.hbm, 491, rfl⟩
abbrev main_v331 : Ref sig .tc := ⟨.hbm, 492, rfl⟩
abbrev main_cst_97 : Ref sig .tc := ⟨.hbm, 493, rfl⟩
abbrev main_v332 : Ref sig .tc := ⟨.hbm, 494, rfl⟩
abbrev main_v333 : Ref sig .tc := ⟨.hbm, 495, rfl⟩
abbrev main_v334 : Ref sig .tc := ⟨.hbm, 496, rfl⟩
abbrev main_v335 : Ref sig .tc := ⟨.hbm, 497, rfl⟩
abbrev main_v336 : Ref sig .tc := ⟨.hbm, 498, rfl⟩
abbrev main_v337 : Ref sig .tc := ⟨.hbm, 499, rfl⟩
abbrev main_v338 : Ref sig .tc := ⟨.hbm, 500, rfl⟩
abbrev main_v339 : Ref sig .tc := ⟨.hbm, 501, rfl⟩
abbrev main_v340 : Ref sig .tc := ⟨.hbm, 502, rfl⟩
abbrev main_v341 : Ref sig .tc := ⟨.hbm, 503, rfl⟩
abbrev main_v342 : Ref sig .tc := ⟨.hbm, 504, rfl⟩
abbrev main_v343 : Ref sig .tc := ⟨.hbm, 505, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S200000x128_0_1 : S1x128.BroadcastsInDim S200000x128 (![0, 1] : Fin 2 → Fin S200000x128.rank)
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S1x512_S200000x512_0_1 : S1x512.BroadcastsInDim S200000x512 (![0, 1] : Fin 2 → Fin S200000x512.rank)
  dot_S100000x512_S512x128_S100000x128_1_0_0_1_n_n_wf : DotDims.WF S100000x512 S512x128 S100000x128 [1] [0] [0] [1] [] []
  dot_S200000x512_S512x128_S200000x128_1_0_0_1_n_n_wf : DotDims.WF S200000x512 S512x128 S200000x128 [1] [0] [0] [1] [] []
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  scatter_S200000_S1000000x1_S1000000_n_0_0_1_wf : ScatterDims.WF S200000 S1000000x1 S1000000 [] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  dot_S200000x128_S128x128_S200000x128_1_0_0_1_n_n_wf : DotDims.WF S200000x128 S128x128 S200000x128 [1] [0] [0] [1] [] []
  dot_S100000x128_S128x512_S100000x512_1_0_0_1_n_n_wf : DotDims.WF S100000x128 S128x512 S100000x512 [1] [0] [0] [1] [] []
  dot_S200000x128_S128x512_S200000x512_1_0_0_1_n_n_wf : DotDims.WF S200000x128 S128x512 S200000x512 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S200000x512_S512x128_S200000x128_1_0_0_1_n_n : DotDims S200000x512 S512x128 S200000x128 where
  lhsContracting := [1]
  rhsContracting := [0]
  lhsNonContracting := [0]
  rhsNonContracting := [1]
  lhsBatch := []
  rhsBatch := []
  wf := dot_S200000x512_S512x128_S200000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S200000x128_S128x512_S200000x512_1_0_0_1_n_n : DotDims S200000x128 S128x512 S200000x512 where
  lhsContracting := [1]
  rhsContracting := [0]
  lhsNonContracting := [0]
  rhsNonContracting := [1]
  lhsBatch := []
  rhsBatch := []
  wf := dot_S200000x128_S128x512_S200000x512_1_0_0_1_n_n_wf

class Facts : Prop extends Facts₀ where

variable [Facts]
-- ==== Proof.KRun.lean ====
/-
  The idealized kernel's run with every unscoped buffer named: every weakly fair execution of @main ends, nothing faulting, with each
  buffer of a core at the contents the fold through @main gives it (the last boundary's contents). The frame theorem's launch over the
  same segments, with the final reading kept whole instead of being specialised to the argument arrays.
-/
import proofs.«162449_j55422257988217_2_alg».proof.Proof.FrameIRun

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has every unscoped buffer of every core at the last boundary's contents. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Keep.lean ====
/-
  How a buffer's contents travel through the program: each host stretch rewrites the buffers of its own operations and each
  region rewrites its output arrays; every other buffer holds at a boundary what it held at the boundary before.
-/
import proofs.«162449_j55422257988217_2_alg».proof.Proof.FrameI
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The references the host stretch before region 0 writes. -/
def wr0 : List (Ref sig .tc) := [main_call0_cst, main_call0_v0, main_call0_cst_0, main_call0_v1, main_call0_v2, main_call0_v3, main_call0_cst_1, main_call0_v4, main_call0_v5, main_call0_v6, main_call0_cst_2, main_call0_v7, main_call0_v8, main_call0_cst_3, main_call0_v9, main_call0_v10, main_call0_v11, main_call0_cst_4, main_call0_call0_v0, main_call0_call0_v1, main_call0_v12, main_call0_cst_5, main_call0_v13, main_call0_v14, main_call0_cst_6, main_call0_v15, main_call0_v16, main_call0_v17, main_call0_cst_7, main_call0_call1_v0, main_call0_call1_v1, main_call0_v18, main_call0_cst_8, main_call0_v19, main_call0_cst_9, main_call0_v20, main_call0_v21, main_call0_v22, main_call0_cst_10, main_call0_v23, main_call0_v24, main_call0_v25, main_call0_cst_11, main_call0_v26, main_call0_v27, main_call0_cst_12, main_call0_v28, main_call0_v29, main_call0_v30, main_call0_cst_13, main_call0_call2_v0, main_call0_call2_v1, main_call0_v31, main_call0_cst_14, main_call0_v32, main_call0_v33, main_call0_cst_15, main_call0_v34, main_call0_v35, main_call0_v36, main_call0_cst_16, main_call0_call3_v0, main_call0_call3_v1, main_call0_v37, main_call0_cst_17, main_call0_v38, main_call0_cst_18, main_call0_v39, main_call0_v40, main_call0_v41, main_call0_cst_19, main_call0_v42, main_call0_v43, main_call0_v44, main_call0_cst_20, main_call0_v45, main_call0_v46, main_call0_cst_21, main_call0_v47, main_call0_v48, main_call0_v49, main_call0_cst_22, main_call0_call4_v0, main_call0_call4_v1, main_call0_v50, main_call0_cst_23, main_call0_v51, main_call0_v52, main_call0_cst_24, main_call0_v53, main_call0_v54, main_call0_v55, main_call0_cst_25, main_call0_call5_v0, main_call0_call5_v1, main_call0_v56, main_call0_cst_26, main_call0_v57, main_call0_cst_27, main_call0_v58, main_call0_v59, main_call0_v60, main_call0_cst_28, main_call0_v61, main_call0_v62, main_call0_v63, main_call0_cst_29, main_call0_v64, main_call0_v65, main_call0_cst_30, main_call0_v66, main_call0_v67, main_call0_v68, main_call0_cst_31, main_call0_call6_v0, main_call0_call6_v1, main_call0_v69, main_call0_cst_32, main_call0_v70, main_call0_v71, main_call0_cst_33, main_call0_v72, main_call0_v73, main_call0_v74, main_call0_cst_34, main_call0_call7_v0, main_call0_call7_v1, main_call0_v75, main_call0_v76, main_call0_v77, main_call0_v78, main_call0_v79]
theorem hwr0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer that stretch does not write keeps its contents. -/
theorem keepH0 (b : Ref sig .tc) (hb : b ∉ wr0) : W1 m ρ c (Proc.devRef .tc b) = W0 m ρ c (Proc.devRef .tc b) :=
  StableHlo.after_of_writes_sub hostOps0 _ hwr0 hb

/-- Region 0 leaves every buffer but its output as it found it: an input window's array is written back unchanged. -/
theorem keepR0 (b : Ref sig .tc) (hb : b ∉ [main_call0_v80]) :
    W2 m ρ c (Proc.devRef .tc b) = W1 m ρ c (Proc.devRef .tc b) := by
  by_cases h : ∀ w, Pipeline.arrRef spec0 w ≠ b
  · exact W2_of_ne m ρ c b h
  · push_neg at h
    obtain ⟨w, rfl⟩ := h
    have key : ∀ w : Fin 4, Pipeline.arrRef spec0 w ∉ [main_call0_v80] →
        W2 m ρ c (Proc.devRef .tc (Pipeline.arrRef spec0 w)) = W1 m ρ c (Proc.devRef .tc (Pipeline.arrRef spec0 w)) := by
      intro w
      fin_cases w <;> first
        | (intro h; exact absurd (by decide) h)
        | (intro _; exact (W2_arr m ρ c _).trans (((dat0 (V1 m ρ) c).arrAt_in _ rfl _).trans (A_eq0 (V1 m ρ) c _)))
    exact key w hb

/-- Region 1 leaves every buffer but its output as it found it: an input window's array is written back unchanged. -/
theorem keepR1 (b : Ref sig .tc) (hb : b ∉ [main_call0_v81]) :
    W3 m ρ c (Proc.devRef .tc b) = W2 m ρ c (Proc.devRef .tc b) := by
  by_cases h : ∀ w, Pipeline.arrRef spec1 w ≠ b
  · exact W3_of_ne m ρ c b h
  · push_neg at h
    obtain ⟨w, rfl⟩ := h
    have key : ∀ w : Fin 4, Pipeline.arrRef spec1 w ∉ [main_call0_v81] →
        W3 m ρ c (Proc.devRef .tc (Pipeline.arrRef spec1 w)) = W2 m ρ c (Proc.devRef .tc (Pipeline.arrRef spec1 w)) := by
      intro w
      fin_cases w <;> first
        | (intro h; exact absurd (by decide) h)
        | (intro _; exact (W3_arr m ρ c _).trans (((dat1 (V2 m ρ) c).arrAt_in _ rfl _).trans (A_eq1 (V2 m ρ) c _)))
    exact key w hb

/-- The references the host stretch before region 2 writes. -/
def wr2 : List (Ref sig .tc) := [main_call0_v82, main_call0_v83, main_call0_v84, main_call0_c, main_call0_v85, main_call0_v86, main_call0_c_35, main_call0_v87, main_call0_v88, main_call0_v89, main_call0_v90, main_call0_v91, main_call0_cst_36, main_call0_v92, main_call0_v93, main_call0_v94, main_call0_v95, main_call0_v96, main_call0_v97, main_call0_c_37, main_call0_v98, main_call0_v99, main_call0_c_38, main_call0_v100, main_call0_v101, main_call0_v102, main_call0_v103, main_call0_v104, main_call0_cst_39, main_call0_v105, main_call0_v106, main_call0_v107, main_call0_v108, main_call0_v109, main_call0_v110, main_call0_c_40, main_call0_v111, main_call0_v112, main_call0_c_41, main_call0_v113, main_call0_v114, main_call0_v115, main_call0_v116, main_call0_v117, main_call0_cst_42, main_call0_v118, main_call0_v119, main_call0_v120, main_call0_v121, main_call0_v122, main_call0_v123, main_call0_c_43, main_call0_v124, main_call0_v125, main_call0_c_44, main_call0_v126, main_call0_v127, main_call0_v128, main_call0_v129, main_call0_v130, main_call0_cst_45, main_call0_v131, main_call0_v132, main_call0_v133]
theorem hwr2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer that stretch does not write keeps its contents. -/
theorem keepH2 (b : Ref sig .tc) (hb : b ∉ wr2) : W4 m ρ c (Proc.devRef .tc b) = W3 m ρ c (Proc.devRef .tc b) :=
  StableHlo.after_of_writes_sub hostOps2 _ hwr2 hb

/-- Region 2 leaves every buffer but its output as it found it: an input window's array is written back unchanged. -/
theorem keepR2 (b : Ref sig .tc) (hb : b ∉ [main_call0_v134]) :
    W5 m ρ c (Proc.devRef .tc b) = W4 m ρ c (Proc.devRef .tc b) := by
  by_cases h : ∀ w, Pipeline.arrRef spec2 w ≠ b
  · exact W5_of_ne m ρ c b h
  · push_neg at h
    obtain ⟨w, rfl⟩ := h
    have key : ∀ w : Fin 9, Pipeline.arrRef spec2 w ∉ [main_call0_v134] →
        W5 m ρ c (Proc.devRef .tc (Pipeline.arrRef spec2 w)) = W4 m ρ c (Proc.devRef .tc (Pipeline.arrRef spec2 w)) := by
      intro w
      fin_cases w <;> first
        | (intro h; exact absurd (by decide) h)
        | (intro _; exact (W5_arr m ρ c _).trans (((dat2 (V4 m ρ) c).arrAt_in _ rfl _).trans (A_eq2 (V4 m ρ) c _)))
    exact key w hb

/-- Region 3 leaves every buffer but its output as it found it: an input window's array is written back unchanged. -/
theorem keepR3 (b : Ref sig .tc) (hb : b ∉ [main_call0_v135]) :
    W6 m ρ c (Proc.devRef .tc b) = W5 m ρ c (Proc.devRef .tc b) := by
  by_cases h : ∀ w, Pipeline.arrRef spec3 w ≠ b
  · exact W6_of_ne m ρ c b h
  · push_neg at h
    obtain ⟨w, rfl⟩ := h
    have key : ∀ w : Fin 9, Pipeline.arrRef spec3 w ∉ [main_call0_v135] →
        W6 m ρ c (Proc.devRef .tc (Pipeline.arrRef spec3 w)) = W5 m ρ c (Proc.devRef .tc (Pipeline.arrRef spec3 w)) := by
      intro w
      fin_cases w <;> first
        | (intro h; exact absurd (by decide) h)
        | (intro _; exact (W6_arr m ρ c _).trans (((dat3 (V5 m ρ) c).arrAt_in _ rfl _).trans (A_eq3 (V5 m ρ) c _)))
    exact key w hb

/-- The references the host stretch before region 4 writes. -/
def wr4 : List (Ref sig .tc) := [main_call0_v136, main_call0_v137, main_call0_v138, main_call0_c_46, main_call0_v139, main_call0_v140, main_call0_c_47, main_call0_v141, main_call0_v142, main_call0_v143, main_call0_v144, main_call0_v145, main_call0_cst_48, main_call0_v146, main_call0_v147, main_call0_v148, main_call0_v149, main_call0_v150, main_call0_v151, main_call0_c_49, main_call0_v152, main_call0_v153, main_call0_c_50, main_call0_v154, main_call0_v155, main_call0_v156, main_call0_v157, main_call0_v158, main_call0_cst_51, main_call0_v159, main_call0_v160, main_call0_v161, main_call0_v162, main_call0_v163, main_call0_v164, main_call0_c_52, main_call0_v165, main_call0_v166, main_call0_c_53, main_call0_v167, main_call0_v168, main_call0_v169, main_call0_v170, main_call0_v171, main_call0_cst_54, main_call0_v172, main_call0_v173, main_call0_v174, main_call0_v175, main_call0_v176, main_call0_v177, main_call0_c_55, main_call0_v178, main_call0_v179, main_call0_c_56, main_call0_v180, main_call0_v181, main_call0_v182, main_call0_v183, main_call0_v184, main_call0_cst_57, main_call0_v185, main_call0_v186, main_call0_v187]
theorem hwr4 : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A buffer that stretch does not write keeps its contents. -/
theorem keepH4 (b : Ref sig .tc) (hb : b ∉ wr4) : W7 m ρ c (Proc.devRef .tc b) = W6 m ρ c (Proc.devRef .tc b) :=
  StableHlo.after_of_writes_sub hostOps4 _ hwr4 hb

/-- Region 4 leaves every buffer but its outputs as it found it: an input window's array is written back unchanged. -/
theorem keepR4 (b : Ref sig .tc) (hb : b ∉ [main_v0_2, main_v0_0]) :
    W8 m ρ c (Proc.devRef .tc b) = W7 m ρ c (Proc.devRef .tc b) := by
  by_cases h : ∀ w, Pipeline.arrRef spec4 w ≠ b
  · exact W8_of_ne m ρ c b h
  · push_neg at h
    obtain ⟨w, rfl⟩ := h
    have key : ∀ w : Fin 13, Pipeline.arrRef spec4 w ∉ [main_v0_2, main_v0_0] →
        W8 m ρ c (Proc.devRef .tc (Pipeline.arrRef spec4 w)) = W7 m ρ c (Proc.devRef .tc (Pipeline.arrRef spec4 w)) := by
      intro w
      fin_cases w <;> first
        | (intro h; exact absurd (by decide) h)
        | (intro _; exact (W8_arr m ρ c _).trans (((dat4 (V7 m ρ) c).arrAt_in _ rfl _).trans (A_eq4 (V7 m ρ) c _)))
    exact key w hb

/-- Region 5 leaves every buffer but its outputs as it found it: an input window's array is written back unchanged. -/
theorem keepR5 (b : Ref sig .tc) (hb : b ∉ [main_v0_3, main_v0_1]) :
    W9 m ρ c (Proc.devRef .tc b) = W8 m ρ c (Proc.devRef .tc b) := by
  by_cases h : ∀ w, Pipeline.arrRef spec5 w ≠ b
  · exact W9_of_ne m ρ c b h
  · push_neg at h
    obtain ⟨w, rfl⟩ := h
    have key : ∀ w : Fin 13, Pipeline.arrRef spec5 w ∉ [main_v0_3, main_v0_1] →
        W9 m ρ c (Proc.devRef .tc (Pipeline.arrRef spec5 w)) = W8 m ρ c (Proc.devRef .tc (Pipeline.arrRef spec5 w)) := by
      intro w
      fin_cases w <;> first
        | (intro h; exact absurd (by decide) h)
        | (intro _; exact (W9_arr m ρ c _).trans (((dat5 (V8 m ρ) c).arrAt_in _ rfl _).trans (A_eq5 (V8 m ρ) c _)))
    exact key w hb

end Cert.KernelIdeal.Chain

end
-- ==== Proof.Stages.lean ====
/-
  The stages of a two-layer relational graph convolution, each as ONE whole-array function of its operand arrays,
  spelt with the host operations the reference program uses.  Frames have 100000 rows, features 200000.
  * `lin`     : rows · W + b                      (the input projection of one node type)
  * `norm`    : d ↦ if d > 0 then rsqrt (max d 1) else 0, of the degree d (how many of the 1000000 edges name the node)
  * `agg`     : scale the source rows by their norm, take the row each edge's source names, add it into the row
                 the edge's destination names
  * `gconv`   : (agg · column of destination norms) · W + b
  * `mean2`   : ½ (g₁ + g₂), the mean over the two relations that end in one node type
  * `relu`    : max (h, 0)
  * `fc`      : h · W + b, the output head
  Both programs compute compositions of exactly these; the suffixes Fr / Fe say which node type the RESULT rows belong to
  (for `agg`: source type, then destination type).
-/
import proofs.«162449_j55422257988217_2_alg».proof.ReferenceIdeal
import proofs.«162449_j55422257988217_2_alg».proof.Proof.Gen.ReferenceIdeal
import Idealize.ShloMosaic.PureOps.Ideal

noncomputable section

namespace Cert.Stages

open Idealize.ShloMosaic Cert.ReferenceIdeal Cert.ReferenceIdeal.Gen

variable {F : FTy → Type} [FloatOps F]

/-- The contents of a float array of shape `S`. -/
abbrev Arr (F : FTy → Type) (S : Shape) := (⟨S, .f32⟩ : BufTy).Contents (Elt F)
/-- The contents of an edge-index array. -/
abbrev Ids (F : FTy → Type) := (⟨S1000000, .i32⟩ : BufTy).Contents (Elt F)

def linFr (x : Arr F S100000x512) (W : Arr F S512x128) (b : Arr F S128) : Arr F S100000x128 :=
  addf (Host.dotGeneral dot_S100000x512_S512x128_S100000x128_1_0_0_1_n_n none x W)
    (broadcastInDim S100000x128 ![0, 1] bcast_S1x128_S100000x128_0_1 (broadcastInDim S1x128 ![1] bcast_S128_S1x128_1 b))

def linFe (x : Arr F S200000x512) (W : Arr F S512x128) (b : Arr F S128) : Arr F S200000x128 :=
  addf (Host.dotGeneral dot_S200000x512_S512x128_S200000x128_1_0_0_1_n_n none x W)
    (broadcastInDim S200000x128 ![0, 1] bcast_S1x128_S200000x128_0_1 (broadcastInDim S1x128 ![1] bcast_S128_S1x128_1 b))

/-- The norm of every frame from the edge ends `ids`. -/
def normFr (ids : Ids F) : Arr F S100000 :=
  select
    (cmpf .ogt
      (Host.scatterAdd (F := F) scatter_S100000_S1000000x1_S1000000_n_0_0_1
        (broadcastInDim S100000 ![] bcast_S_S100000 (constant (F := F) S_ .f32 0x00000000#32))
        (broadcastInDim S1000000x1 ![0] bcast_S1000000_S1000000x1_0 ids)
        (broadcastInDim S1000000 ![] bcast_S_S1000000 (constant (F := F) S_ .f32 0x3F800000#32)))
      (broadcastInDim S100000 ![] bcast_S_S100000 (constant (F := F) S_ .f32 0x00000000#32)))
    (Host.rsqrt (F := F) (maximumf
      (Host.scatterAdd (F := F) scatter_S100000_S1000000x1_S1000000_n_0_0_1
        (broadcastInDim S100000 ![] bcast_S_S100000 (constant (F := F) S_ .f32 0x00000000#32))
        (broadcastInDim S1000000x1 ![0] bcast_S1000000_S1000000x1_0 ids)
        (broadcastInDim S1000000 ![] bcast_S_S1000000 (constant (F := F) S_ .f32 0x3F800000#32)))
      (broadcastInDim S100000 ![] bcast_S_S100000 (constant (F := F) S_ .f32 0x3F800000#32))))
    (broadcastInDim S100000 ![] bcast_S_S100000 (id (constant (F := F) S_ .f32 0x00000000#32)))

/-- The norm of every feature from the edge ends `ids`. -/
def normFe (ids : Ids F) : Arr F S200000 :=
  select
    (cmpf .ogt
      (Host.scatterAdd (F := F) scatter_S200000_S1000000x1_S1000000_n_0_0_1
        (broadcastInDim S200000 ![] bcast_S_S200000 (constant (F := F) S_ .f32 0x00000000#32))
        (broadcastInDim S1000000x1 ![0] bcast_S1000000_S1000000x1_0 ids)
        (broadcastInDim S1000000 ![] bcast_S_S1000000 (constant (F := F) S_ .f32 0x3F800000#32)))
      (broadcastInDim S200000 ![] bcast_S_S200000 (constant (F := F) S_ .f32 0x00000000#32)))
    (Host.rsqrt (F := F) (maximumf
      (Host.scatterAdd (F := F) scatter_S200000_S1000000x1_S1000000_n_0_0_1
        (broadcastInDim S200000 ![] bcast_S_S200000 (constant (F := F) S_ .f32 0x00000000#32))
        (broadcastInDim S1000000x1 ![0] bcast_S1000000_S1000000x1_0 ids)
        (broadcastInDim S1000000 ![] bcast_S_S1000000 (constant (F := F) S_ .f32 0x3F800000#32)))
      (broadcastInDim S200000 ![] bcast_S_S200000 (constant (F := F) S_ .f32 0x3F800000#32))))
    (broadcastInDim S200000 ![] bcast_S_S200000 (id (constant (F := F) S_ .f32 0x00000000#32)))

/-- An index array with each negative entry moved up by the 100000 rows it may name from the end. -/
def wrapFr (src : Ids F) : Ids F :=
  select (cmpi .slt src (broadcastInDim S1000000 ![] bcast_S_S1000000 (constantI S_ 32 0#32)))
    (addi src (broadcastInDim S1000000 ![] bcast_S_S1000000 (constantI S_ 32 100000#32))) src
def wrapFe (src : Ids F) : Ids F :=
  select (cmpi .slt src (broadcastInDim S1000000 ![] bcast_S_S1000000 (constantI S_ 32 0#32)))
    (addi src (broadcastInDim S1000000 ![] bcast_S_S1000000 (constantI S_ 32 200000#32))) src

/-- The rows of `x` scaled by `ns`, one taken per edge at its source. -/
def msgFr (x : Arr F S100000x128) (ns : Arr F S100000) (src : Ids F) : Arr F S1000000x128 :=
  Host.gather gather_S100000x128_S1000000x1_S1000000x128_1_0_n_n_0_1_1128
    (mulf x (broadcastInDim S100000x128 ![0, 1] bcast_S100000x1_S100000x128_0_1 (broadcastInDim S100000x1 ![0] bcast_S100000_S100000x1_0 ns)))
    (broadcastInDim S1000000x1 ![0] bcast_S1000000_S1000000x1_0 (wrapFr src))
def msgFe (x : Arr F S200000x128) (ns : Arr F S200000) (src : Ids F) : Arr F S1000000x128 :=
  Host.gather gather_S200000x128_S1000000x1_S1000000x128_1_0_n_n_0_1_1128
    (mulf x (broadcastInDim S200000x128 ![0, 1] bcast_S200000x1_S200000x128_0_1 (broadcastInDim S200000x1 ![0] bcast_S200000_S200000x1_0 ns)))
    (broadcastInDim S1000000x1 ![0] bcast_S1000000_S1000000x1_0 (wrapFe src))

/-- The edges' rows added up at their destinations, frames or features. -/
def sumFr (msg : Arr F S1000000x128) (dst : Ids F) : Arr F S100000x128 :=
  Host.scatterAdd (F := F) scatter_S100000x128_S1000000x1_S1000000x128_1_0_0_1
    (broadcastInDim S100000x128 ![] bcast_S_S100000x128 (constant (F := F) S_ .f32 0x00000000#32))
    (broadcastInDim S1000000x1 ![0] bcast_S1000000_S1000000x1_0 dst) msg
def sumFe (msg : Arr F S1000000x128) (dst : Ids F) : Arr F S200000x128 :=
  Host.scatterAdd (F := F) scatter_S200000x128_S1000000x1_S1000000x128_1_0_0_1
    (broadcastInDim S200000x128 ![] bcast_S_S200000x128 (constant (F := F) S_ .f32 0x00000000#32))
    (broadcastInDim S1000000x1 ![0] bcast_S1000000_S1000000x1_0 dst) msg

def gconvFr (a : Arr F S100000x128) (nd : Arr F S100000x1) (W : Arr F S128x128) (b : Arr F S128) : Arr F S100000x128 :=
  addf (Host.dotGeneral dot_S100000x128_S128x128_S100000x128_1_0_0_1_n_n none
      (mulf a (broadcastInDim S100000x128 ![0, 1] bcast_S100000x1_S100000x128_0_1 nd)) W)
    (broadcastInDim S100000x128 ![0, 1] bcast_S1x128_S100000x128_0_1 (broadcastInDim S1x128 ![1] bcast_S128_S1x128_1 b))
def gconvFe (a : Arr F S200000x128) (nd : Arr F S200000x1) (W : Arr F S128x128) (b : Arr F S128) : Arr F S200000x128 :=
  addf (Host.dotGeneral dot_S200000x128_S128x128_S200000x128_1_0_0_1_n_n none
      (mulf a (broadcastInDim S200000x128 ![0, 1] bcast_S200000x1_S200000x128_0_1 nd)) W)
    (broadcastInDim S200000x128 ![0, 1] bcast_S1x128_S200000x128_0_1 (broadcastInDim S1x128 ![1] bcast_S128_S1x128_1 b))

def mean2Fr (g₁ g₂ : Arr F S100000x128) : Arr F S100000x128 :=
  mulf (broadcastInDim S100000x128 ![] bcast_S_S100000x128 (constant (F := F) S_ .f32 0x3F000000#32)) (addf g₁ g₂)
def mean2Fe (g₁ g₂ : Arr F S200000x128) : Arr F S200000x128 :=
  mulf (broadcastInDim S200000x128 ![] bcast_S_S200000x128 (constant (F := F) S_ .f32 0x3F000000#32)) (addf g₁ g₂)

def reluFr (h : Arr F S100000x128) : Arr F S100000x128 :=
  maximumf h (broadcastInDim S100000x128 ![] bcast_S_S100000x128 (constant (F := F) S_ .f32 0x00000000#32))
def reluFe (h : Arr F S200000x128) : Arr F S200000x128 :=
  maximumf h (broadcastInDim S200000x128 ![] bcast_S_S200000x128 (constant (F := F) S_ .f32 0x00000000#32))

def fcFr (h : Arr F S100000x128) (W : Arr F S128x512) (b : Arr F S512) : Arr F S100000x512 :=
  addf (Host.dotGeneral dot_S100000x128_S128x512_S100000x512_1_0_0_1_n_n none h W)
    (broadcastInDim S100000x512 ![0, 1] bcast_S1x512_S100000x512_0_1 (broadcastInDim S1x512 ![1] bcast_S512_S1x512_1 b))
def fcFe (h : Arr F S200000x128) (W : Arr F S128x512) (b : Arr F S512) : Arr F S200000x512 :=
  addf (Host.dotGeneral dot_S200000x128_S128x512_S200000x512_1_0_0_1_n_n none h W)
    (broadcastInDim S200000x512 ![0, 1] bcast_S1x512_S200000x512_0_1 (broadcastInDim S1x512 ![1] bcast_S512_S1x512_1 b))

/-- One layer's new frame rows: the mean of the frame→frame and feature→frame convolutions (each aggregate already summed). -/
def layerFr (a₁ : Arr F S100000x128) (nd₁ : Arr F S100000x1) (W₁ : Arr F S128x128) (b₁ : Arr F S128)
    (a₂ : Arr F S100000x128) (nd₂ : Arr F S100000x1) (W₂ : Arr F S128x128) (b₂ : Arr F S128) : Arr F S100000x128 :=
  mean2Fr (gconvFr a₁ nd₁ W₁ b₁) (gconvFr a₂ nd₂ W₂ b₂)
def layerFe (a₁ : Arr F S200000x128) (nd₁ : Arr F S200000x1) (W₁ : Arr F S128x128) (b₁ : Arr F S128)
    (a₂ : Arr F S200000x128) (nd₂ : Arr F S200000x1) (W₂ : Arr F S128x128) (b₂ : Arr F S128) : Arr F S200000x128 :=
  mean2Fe (gconvFe a₁ nd₁ W₁ b₁) (gconvFe a₂ nd₂ W₂ b₂)

end Cert.Stages

end
-- ==== Proof.HostVals.lean ====
/-
  The host stretches between the regions, each evaluated at the buffers the later regions read.

  Before the first region the program computes, for each of the eight edge-end arrays, the norm of every node it names
  (the reciprocal square root of the node's degree, the degree counted by adding one per edge, zero where the degree is
  zero), and lays four of these norm vectors out as columns.  Between the regions it gathers, for each of the four
  relations, the source rows scaled by their norms and adds them up at the edges' destinations.  Each buffer named below
  holds, after its stretch, exactly the whole-array function of the stretch's inputs that the specification names: the
  operations are the same ones in the same order, so each equation is the stretch read at that buffer.  A norm column is
  written by a reshape of the vector where the specification broadcasts it along axis 0; the two are the same function
  (entry (r, 0) is entry r).
-/
import proofs.«162449_j55422257988217_2_alg».proof.Proof.FrameI
import proofs.«162449_j55422257988217_2_alg».proof.Proof.Stages
import Idealize.ShloMosaic.Lib.StableHlo.Run
import Idealize.ShloMosaic.Lib.Pipeline.Value
import Idealize.ShloMosaic.Lib.ValueIdx

noncomputable section

namespace Cert.KernelIdeal.HostVals

open Idealize.ShloMosaic.ValueIdx
open Cert.KernelIdeal Cert.KernelIdeal.Gen Cert.KernelIdeal.GenP Idealize.ShloMosaic Idealize.ShloMosaic.TcCoe Idealize.ShloMosaic.StableHlo

variable (m : (ℓ : Loc nD τ sig) → Buf (Elt Ideal) ℓ) (ρ : Dev nD → PrngReg) (c : Dev nD)

local notation "D" => Proc.devRef (τ := τ) Proc.tc

/-- Contents moved to a buffer's own type and back are the contents. -/
theorem ofBuf_toBuf {T : BufTy} (x : TRef sig T) (v : T.Contents (Elt Ideal)) : x.ofBuf (Val := Elt Ideal) (x.toBuf v) = v := by
  obtain ⟨r, h, a, b⟩ := x
  subst h
  rfl

/-! ## Before the first region: the norms -/

set_option maxHeartbeats 4000000 in
/-- The frames' norm over the ends the first edge-end array names. -/
theorem w1_v12 : W1 m ρ c (D main_call0_v12) = Cert.Stages.normFr (F := Ideal) (W0 m ρ c (D main_arg2) : Cert.Stages.Ids Ideal) := by
  show StableHlo.after hostOps0 (W0 m ρ c) (D main_call0_v12) = _
  generalize W0 m ρ c = F
  after_results_simp
  simp only [ofBuf_toBuf]
  generalize F (D main_arg2) = z
  have hz : (TRef.of main_arg2 : TRef sig ⟨S1000000, .i32⟩).ofBuf (Val := Elt Ideal) z = z := rfl
  have ho : ∀ v : (⟨S100000, .f32⟩ : BufTy).Contents (Elt Ideal), (TRef.of main_call0_v12 : TRef sig ⟨S100000, .f32⟩).toBuf (Val := Elt Ideal) v = v := fun _ => rfl
  rw [hz, ho]
  unfold Cert.Stages.normFr
  rfl

set_option maxHeartbeats 4000000 in
/-- The frames' norm over the ends the third edge-end array names. -/
theorem w1_v31 : W1 m ρ c (D main_call0_v31) = Cert.Stages.normFr (F := Ideal) (W0 m ρ c (D main_arg4) : Cert.Stages.Ids Ideal) := by
  show StableHlo.after hostOps0 (W0 m ρ c) (D main_call0_v31) = _
  generalize W0 m ρ c = F
  after_results_simp
  simp only [ofBuf_toBuf]
  generalize F (D main_arg4) = z
  have hz : (TRef.of main_arg4 : TRef sig ⟨S1000000, .i32⟩).ofBuf (Val := Elt Ideal) z = z := rfl
  have ho : ∀ v : (⟨S100000, .f32⟩ : BufTy).Contents (Elt Ideal), (TRef.of main_call0_v31 : TRef sig ⟨S100000, .f32⟩).toBuf (Val := Elt Ideal) v = v := fun _ => rfl
  rw [hz, ho]
  unfold Cert.Stages.normFr
  rfl

set_option maxHeartbeats 4000000 in
/-- The features' norm over the ends the fifth edge-end array names. -/
theorem w1_v50 : W1 m ρ c (D main_call0_v50) = Cert.Stages.normFe (F := Ideal) (W0 m ρ c (D main_arg6) : Cert.Stages.Ids Ideal) := by
  show StableHlo.after hostOps0 (W0 m ρ c) (D main_call0_v50) = _
  generalize W0 m ρ c = F
  after_results_simp
  simp only [ofBuf_toBuf]
  generalize F (D main_arg6) = z
  have hz : (TRef.of main_arg6 : TRef sig ⟨S1000000, .i32⟩).ofBuf (Val := Elt Ideal) z = z := rfl
  have ho : ∀ v : (⟨S200000, .f32⟩ : BufTy).Contents (Elt Ideal), (TRef.of main_call0_v50 : TRef sig ⟨S200000, .f32⟩).toBuf (Val := Elt Ideal) v = v := fun _ => rfl
  rw [hz, ho]
  unfold Cert.Stages.normFe
  rfl

set_option maxHeartbeats 4000000 in
/-- The features' norm over the ends the seventh edge-end array names. -/
theorem w1_v69 : W1 m ρ c (D main_call0_v69) = Cert.Stages.normFe (F := Ideal) (W0 m ρ c (D main_arg8) : Cert.Stages.Ids Ideal) := by
  show StableHlo.after hostOps0 (W0 m ρ c) (D main_call0_v69) = _
  generalize W0 m ρ c = F
  after_results_simp
  simp only [ofBuf_toBuf]
  generalize F (D main_arg8) = z
  have hz : (TRef.of main_arg8 : TRef sig ⟨S1000000, .i32⟩).ofBuf (Val := Elt Ideal) z = z := rfl
  have ho : ∀ v : (⟨S200000, .f32⟩ : BufTy).Contents (Elt Ideal), (TRef.of main_call0_v69 : TRef sig ⟨S200000, .f32⟩).toBuf (Val := Elt Ideal) v = v := fun _ => rfl
  rw [hz, ho]
  unfold Cert.Stages.normFe
  rfl

/-! ## Before the first region: four norms as columns -/

/-- A vector of 100000 entries reshaped to a column is the vector laid along axis 0: entry (r, 0) is entry r. -/
theorem colFr_eq (n : (⟨S100000, .f32⟩ : BufTy).Contents (Elt Ideal)) (h : S100000.ShapeCasts S100000x1) :
    (fun i => shapeCast S100000x1 n h i) = broadcastInDim S100000x1 ![0] bcast_S100000_S100000x1_0 n := by
  funext j
  obtain ⟨r, u, rfl⟩ : ∃ (r : Fin 100000) (u : Fin 1), j = ix2 r u := ⟨j 0, j 1, eq_ix2 j⟩
  have hu : u.val = 0 := by omega
  refine (shapeCast_apply n h (ix2 r u) (ix1 r) ?_).trans
    (broadcastInDim_apply ![0] bcast_S100000_S100000x1_0 n (ix2 r u) (ix1 r) (fun a => ?_)).symm
  · rw [Shape.rowMajor_val_two, Shape.rowMajor_val_one]
    show r.val = r.val * 1 + u.val
    omega
  · match a with
    | ⟨0, _⟩ => show r.val = if (100000 : Nat) = 1 then 0 else r.val; rw [if_neg (by decide)]

/-- A vector of 200000 entries reshaped to a column is the vector laid along axis 0: entry (r, 0) is entry r. -/
theorem colFe_eq (n : (⟨S200000, .f32⟩ : BufTy).Contents (Elt Ideal)) (h : S200000.ShapeCasts S200000x1) :
    (fun i => shapeCast S200000x1 n h i) = broadcastInDim S200000x1 ![0] bcast_S200000_S200000x1_0 n := by
  funext j
  obtain ⟨r, u, rfl⟩ : ∃ (r : Fin 200000) (u : Fin 1), j = ix2 r u := ⟨j 0, j 1, eq_ix2 j⟩
  have hu : u.val = 0 := by omega
  refine (shapeCast_apply n h (ix2 r u) (ix1 r) ?_).trans
    (broadcastInDim_apply ![0] bcast_S200000_S200000x1_0 n (ix2 r u) (ix1 r) (fun a => ?_)).symm
  · rw [Shape.rowMajor_val_two, Shape.rowMajor_val_one]
    show r.val = r.val * 1 + u.val
    omega
  · match a with
    | ⟨0, _⟩ => show r.val = if (200000 : Nat) = 1 then 0 else r.val; rw [if_neg (by decide)]

set_option maxHeartbeats 4000000 in
/-- The frames' norm over the ends the second edge-end array names, as a column. -/
theorem w1_v76 : W1 m ρ c (D main_call0_v76) = broadcastInDim Cert.ReferenceIdeal.S100000x1 ![0] Cert.ReferenceIdeal.Gen.bcast_S100000_S100000x1_0
      (Cert.Stages.normFr (F := Ideal) (W0 m ρ c (D main_arg3) : Cert.Stages.Ids Ideal)) := by
  show StableHlo.after hostOps0 (W0 m ρ c) (D main_call0_v76) = _
  generalize W0 m ρ c = F
  after_results_simp
  simp only [ofBuf_toBuf]
  generalize F (D main_arg3) = z
  have hz : (TRef.of main_arg3 : TRef sig ⟨S1000000, .i32⟩).ofBuf (Val := Elt Ideal) z = z := rfl
  have hm : ∀ v : (⟨S100000, .f32⟩ : BufTy).Contents (Elt Ideal), (TRef.of main_call0_v18 : TRef sig ⟨S100000, .f32⟩).toBuf (Val := Elt Ideal) v = v := fun _ => rfl
  rw [hz, hm]
  refine (colFr_eq _ _).trans ?_
  unfold Cert.Stages.normFr
  rfl

set_option maxHeartbeats 4000000 in
/-- The frames' norm over the ends the sixth edge-end array names, as a column. -/
theorem w1_v77 : W1 m ρ c (D main_call0_v77) = broadcastInDim Cert.ReferenceIdeal.S100000x1 ![0] Cert.ReferenceIdeal.Gen.bcast_S100000_S100000x1_0
      (Cert.Stages.normFr (F := Ideal) (W0 m ρ c (D main_arg7) : Cert.Stages.Ids Ideal)) := by
  show StableHlo.after hostOps0 (W0 m ρ c) (D main_call0_v77) = _
  generalize W0 m ρ c = F
  after_results_simp
  simp only [ofBuf_toBuf]
  generalize F (D main_arg7) = z
  have hz : (TRef.of main_arg7 : TRef sig ⟨S1000000, .i32⟩).ofBuf (Val := Elt Ideal) z = z := rfl
  have hm : ∀ v : (⟨S100000, .f32⟩ : BufTy).Contents (Elt Ideal), (TRef.of main_call0_v56 : TRef sig ⟨S100000, .f32⟩).toBuf (Val := Elt Ideal) v = v := fun _ => rfl
  rw [hz, hm]
  refine (colFr_eq _ _).trans ?_
  unfold Cert.Stages.normFr
  rfl

set_option maxHeartbeats 4000000 in
/-- The features' norm over the ends the fourth edge-end array names, as a column. -/
theorem w1_v78 : W1 m ρ c (D main_call0_v78) = broadcastInDim Cert.ReferenceIdeal.S200000x1 ![0] Cert.ReferenceIdeal.Gen.bcast_S200000_S200000x1_0
      (Cert.Stages.normFe (F := Ideal) (W0 m ρ c (D main_arg5) : Cert.Stages.Ids Ideal)) := by
  show StableHlo.after hostOps0 (W0 m ρ c) (D main_call0_v78) = _
  generalize W0 m ρ c = F
  after_results_simp
  simp only [ofBuf_toBuf]
  generalize F (D main_arg5) = z
  have hz : (TRef.of main_arg5 : TRef sig ⟨S1000000, .i32⟩).ofBuf (Val := Elt Ideal) z = z := rfl
  have hm : ∀ v : (⟨S200000, .f32⟩ : BufTy).Contents (Elt Ideal), (TRef.of main_call0_v37 : TRef sig ⟨S200000, .f32⟩).toBuf (Val := Elt Ideal) v = v := fun _ => rfl
  rw [hz, hm]
  refine (colFe_eq _ _).trans ?_
  unfold Cert.Stages.normFe
  rfl

set_option maxHeartbeats 4000000 in
/-- The features' norm over the ends the eighth edge-end array names, as a column. -/
theorem w1_v79 : W1 m ρ c (D main_call0_v79) = broadcastInDim Cert.ReferenceIdeal.S200000x1 ![0] Cert.ReferenceIdeal.Gen.bcast_S200000_S200000x1_0
      (Cert.Stages.normFe (F := Ideal) (W0 m ρ c (D main_arg9) : Cert.Stages.Ids Ideal)) := by
  show StableHlo.after hostOps0 (W0 m ρ c) (D main_call0_v79) = _
  generalize W0 m ρ c = F
  after_results_simp
  simp only [ofBuf_toBuf]
  generalize F (D main_arg9) = z
  have hz : (TRef.of main_arg9 : TRef sig ⟨S1000000, .i32⟩).ofBuf (Val := Elt Ideal) z = z := rfl
  have hm : ∀ v : (⟨S200000, .f32⟩ : BufTy).Contents (Elt Ideal), (TRef.of main_call0_v75 : TRef sig ⟨S200000, .f32⟩).toBuf (Val := Elt Ideal) v = v := fun _ => rfl
  rw [hz, hm]
  refine (colFe_eq _ _).trans ?_
  unfold Cert.Stages.normFe
  rfl

/-! ## Between the input projections and the first layer: the four aggregates -/

set_option maxHeartbeats 4000000 in
/-- The first layer's frame→frame aggregate: the projected frame rows scaled by their source norms, one taken per edge, added at the frames the edges end in. -/
theorem w4_v94 : W4 m ρ c (D main_call0_v94) = Cert.Stages.sumFr (F := Ideal)
      (Cert.Stages.msgFr (F := Ideal) (W3 m ρ c (D main_call0_v80)) (W3 m ρ c (D main_call0_v12)) (W3 m ρ c (D main_arg2) : Cert.Stages.Ids Ideal))
      (W3 m ρ c (D main_arg3) : Cert.Stages.Ids Ideal) := by
  show StableHlo.after hostOps2 (W3 m ρ c) (D main_call0_v94) = _
  generalize W3 m ρ c = F
  after_results_simp
  simp only [ofBuf_toBuf]
  generalize F (D main_call0_v80) = zx
  generalize F (D main_call0_v12) = zn
  generalize F (D main_arg2) = zs
  generalize F (D main_arg3) = zd
  have hx : (TRef.of main_call0_v80 : TRef sig ⟨S100000x128, .f32⟩).ofBuf (Val := Elt Ideal) zx = zx := rfl
  have hn : (TRef.of main_call0_v12 : TRef sig ⟨S100000, .f32⟩).ofBuf (Val := Elt Ideal) zn = zn := rfl
  have hs : (TRef.of main_arg2 : TRef sig ⟨S1000000, .i32⟩).ofBuf (Val := Elt Ideal) zs = zs := rfl
  have hd : (TRef.of main_arg3 : TRef sig ⟨S1000000, .i32⟩).ofBuf (Val := Elt Ideal) zd = zd := rfl
  have ho : ∀ v : (⟨S100000x128, .f32⟩ : BufTy).Contents (Elt Ideal), (TRef.of main_call0_v94 : TRef sig ⟨S100000x128, .f32⟩).toBuf (Val := Elt Ideal) v = v := fun _ => rfl
  rw [hx, hn, hs, hd, ho]
  unfold Cert.Stages.sumFr Cert.Stages.msgFr Cert.Stages.wrapFr
  rfl

set_option maxHeartbeats 4000000 in
/-- The first layer's feature→frame aggregate. -/
theorem w4_v107 : W4 m ρ c (D main_call0_v107) = Cert.Stages.sumFr (F := Ideal)
      (Cert.Stages.msgFe (F := Ideal) (W3 m ρ c (D main_call0_v81)) (W3 m ρ c (D main_call0_v50)) (W3 m ρ c (D main_arg6) : Cert.Stages.Ids Ideal))
      (W3 m ρ c (D main_arg7) : Cert.Stages.Ids Ideal) := by
  show StableHlo.after hostOps2 (W3 m ρ c) (D main_call0_v107) = _
  generalize W3 m ρ c = F
  after_results_simp
  simp only [ofBuf_toBuf]
  generalize F (D main_call0_v81) = zx
  generalize F (D main_call0_v50) = zn
  generalize F (D main_arg6) = zs
  generalize F (D main_arg7) = zd
  have hx : (TRef.of main_call0_v81 : TRef sig ⟨S200000x128, .f32⟩).ofBuf (Val := Elt Ideal) zx = zx := rfl
  have hn : (TRef.of main_call0_v50 : TRef sig ⟨S200000, .f32⟩).ofBuf (Val := Elt Ideal) zn = zn := rfl
  have hs : (TRef.of main_arg6 : TRef sig ⟨S1000000, .i32⟩).ofBuf (Val := Elt Ideal) zs = zs := rfl
  have hd : (TRef.of main_arg7 : TRef sig ⟨S1000000, .i32⟩).ofBuf (Val := Elt Ideal) zd = zd := rfl
  have ho : ∀ v : (⟨S100000x128, .f32⟩ : BufTy).Contents (Elt Ideal), (TRef.of main_call0_v107 : TRef sig ⟨S100000x128, .f32⟩).toBuf (Val := Elt Ideal) v = v := fun _ => rfl
  rw [hx, hn, hs, hd, ho]
  unfold Cert.Stages.sumFr Cert.Stages.msgFe Cert.Stages.wrapFe
  rfl

set_option maxHeartbeats 4000000 in
/-- The first layer's frame→feature aggregate. -/
theorem w4_v120 : W4 m ρ c (D main_call0_v120) = Cert.Stages.sumFe (F := Ideal)
      (Cert.Stages.msgFr (F := Ideal) (W3 m ρ c (D main_call0_v80)) (W3 m ρ c (D main_call0_v31)) (W3 m ρ c (D main_arg4) : Cert.Stages.Ids Ideal))
      (W3 m ρ c (D main_arg5) : Cert.Stages.Ids Ideal) := by
  show StableHlo.after hostOps2 (W3 m ρ c) (D main_call0_v120) = _
  generalize W3 m ρ c = F
  after_results_simp
  simp only [ofBuf_toBuf]
  generalize F (D main_call0_v80) = zx
  generalize F (D main_call0_v31) = zn
  generalize F (D main_arg4) = zs
  generalize F (D main_arg5) = zd
  have hx : (TRef.of main_call0_v80 : TRef sig ⟨S100000x128, .f32⟩).ofBuf (Val := Elt Ideal) zx = zx := rfl
  have hn : (TRef.of main_call0_v31 : TRef sig ⟨S100000, .f32⟩).ofBuf (Val := Elt Ideal) zn = zn := rfl
  have hs : (TRef.of main_arg4 : TRef sig ⟨S1000000, .i32⟩).ofBuf (Val := Elt Ideal) zs = zs := rfl
  have hd : (TRef.of main_arg5 : TRef sig ⟨S1000000, .i32⟩).ofBuf (Val := Elt Ideal) zd = zd := rfl
  have ho : ∀ v : (⟨S200000x128, .f32⟩ : BufTy).Contents (Elt Ideal), (TRef.of main_call0_v120 : TRef sig ⟨S200000x128, .f32⟩).toBuf (Val := Elt Ideal) v = v := fun _ => rfl
  rw [hx, hn, hs, hd, ho]
  unfold Cert.Stages.sumFe Cert.Stages.msgFr Cert.Stages.wrapFr
  rfl

set_option maxHeartbeats 4000000 in
/-- The first layer's feature→feature aggregate. -/
theorem w4_v133 : W4 m ρ c (D main_call0_v133) = Cert.Stages.sumFe (F := Ideal)
      (Cert.Stages.msgFe (F := Ideal) (W3 m ρ c (D main_call0_v81)) (W3 m ρ c (D main_call0_v69)) (W3 m ρ c (D main_arg8) : Cert.Stages.Ids Ideal))
      (W3 m ρ c (D main_arg9) : Cert.Stages.Ids Ideal) := by
  show StableHlo.after hostOps2 (W3 m ρ c) (D main_call0_v133) = _
  generalize W3 m ρ c = F
  after_results_simp
  simp only [ofBuf_toBuf]
  generalize F (D main_call0_v81) = zx
  generalize F (D main_call0_v69) = zn
  generalize F (D main_arg8) = zs
  generalize F (D main_arg9) = zd
  have hx : (TRef.of main_call0_v81 : TRef sig ⟨S200000x128, .f32⟩).ofBuf (Val := Elt Ideal) zx = zx := rfl
  have hn : (TRef.of main_call0_v69 : TRef sig ⟨S200000, .f32⟩).ofBuf (Val := Elt Ideal) zn = zn := rfl
  have hs : (TRef.of main_arg8 : TRef sig ⟨S1000000, .i32⟩).ofBuf (Val := Elt Ideal) zs = zs := rfl
  have hd : (TRef.of main_arg9 : TRef sig ⟨S1000000, .i32⟩).ofBuf (Val := Elt Ideal) zd = zd := rfl
  have ho : ∀ v : (⟨S200000x128, .f32⟩ : BufTy).Contents (Elt Ideal), (TRef.of main_call0_v133 : TRef sig ⟨S200000x128, .f32⟩).toBuf (Val := Elt Ideal) v = v := fun _ => rfl
  rw [hx, hn, hs, hd, ho]
  unfold Cert.Stages.sumFe Cert.Stages.msgFe Cert.Stages.wrapFe
  rfl

/-! ## Between the two layers: the four aggregates again, of the first layer's rows -/

set_option maxHeartbeats 4000000 in
/-- The second layer's frame→frame aggregate, of the first layer's frame rows. -/
theorem w7_v148 : W7 m ρ c (D main_call0_v148) = Cert.Stages.sumFr (F := Ideal)
      (Cert.Stages.msgFr (F := Ideal) (W6 m ρ c (D main_call0_v134)) (W6 m ρ c (D main_call0_v12)) (W6 m ρ c (D main_arg2) : Cert.Stages.Ids Ideal))
      (W6 m ρ c (D main_arg3) : Cert.Stages.Ids Ideal) := by
  show StableHlo.after hostOps4 (W6 m ρ c) (D main_call0_v148) = _
  generalize W6 m ρ c = F
  after_results_simp
  simp only [ofBuf_toBuf]
  generalize F (D main_call0_v134) = zx
  generalize F (D main_call0_v12) = zn
  generalize F (D main_arg2) = zs
  generalize F (D main_arg3) = zd
  have hx : (TRef.of main_call0_v134 : TRef sig ⟨S100000x128, .f32⟩).ofBuf (Val := Elt Ideal) zx = zx := rfl
  have hn : (TRef.of main_call0_v12 : TRef sig ⟨S100000, .f32⟩).ofBuf (Val := Elt Ideal) zn = zn := rfl
  have hs : (TRef.of main_arg2 : TRef sig ⟨S1000000, .i32⟩).ofBuf (Val := Elt Ideal) zs = zs := rfl
  have hd : (TRef.of main_arg3 : TRef sig ⟨S1000000, .i32⟩).ofBuf (Val := Elt Ideal) zd = zd := rfl
  have ho : ∀ v : (⟨S100000x128, .f32⟩ : BufTy).Contents (Elt Ideal), (TRef.of main_call0_v148 : TRef sig ⟨S100000x128, .f32⟩).toBuf (Val := Elt Ideal) v = v := fun _ => rfl
  rw [hx, hn, hs, hd, ho]
  unfold Cert.Stages.sumFr Cert.Stages.msgFr Cert.Stages.wrapFr
  rfl

set_option maxHeartbeats 4000000 in
/-- The second layer's feature→frame aggregate. -/
theorem w7_v161 : W7 m ρ c (D main_call0_v161) = Cert.Stages.sumFr (F := Ideal)
      (Cert.Stages.msgFe (F := Ideal) (W6 m ρ c (D main_call0_v135)) (W6 m ρ c (D main_call0_v50)) (W6 m ρ c (D main_arg6) : Cert.Stages.Ids Ideal))
      (W6 m ρ c (D main_arg7) : Cert.Stages.Ids Ideal) := by
  show StableHlo.after hostOps4 (W6 m ρ c) (D main_call0_v161) = _
  generalize W6 m ρ c = F
  after_results_simp
  simp only [ofBuf_toBuf]
  generalize F (D main_call0_v135) = zx
  generalize F (D main_call0_v50) = zn
  generalize F (D main_arg6) = zs
  generalize F (D main_arg7) = zd
  have hx : (TRef.of main_call0_v135 : TRef sig ⟨S200000x128, .f32⟩).ofBuf (Val := Elt Ideal) zx = zx := rfl
  have hn : (TRef.of main_call0_v50 : TRef sig ⟨S200000, .f32⟩).ofBuf (Val := Elt Ideal) zn = zn := rfl
  have hs : (TRef.of main_arg6 : TRef sig ⟨S1000000, .i32⟩).ofBuf (Val := Elt Ideal) zs = zs := rfl
  have hd : (TRef.of main_arg7 : TRef sig ⟨S1000000, .i32⟩).ofBuf (Val := Elt Ideal) zd = zd := rfl
  have ho : ∀ v : (⟨S100000x128, .f32⟩ : BufTy).Contents (Elt Ideal), (TRef.of main_call0_v161 : TRef sig ⟨S100000x128, .f32⟩).toBuf (Val := Elt Ideal) v = v := fun _ => rfl
  rw [hx, hn, hs, hd, ho]
  unfold Cert.Stages.sumFr Cert.Stages.msgFe Cert.Stages.wrapFe
  rfl

set_option maxHeartbeats 4000000 in
/-- The second layer's frame→feature aggregate. -/
theorem w7_v174 : W7 m ρ c (D main_call0_v174) = Cert.Stages.sumFe (F := Ideal)
      (Cert.Stages.msgFr (F := Ideal) (W6 m ρ c (D main_call0_v134)) (W6 m ρ c (D main_call0_v31)) (W6 m ρ c (D main_arg4) : Cert.Stages.Ids Ideal))
      (W6 m ρ c (D main_arg5) : Cert.Stages.Ids Ideal) := by
  show StableHlo.after hostOps4 (W6 m ρ c) (D main_call0_v174) = _
  generalize W6 m ρ c = F
  after_results_simp
  simp only [ofBuf_toBuf]
  generalize F (D main_call0_v134) = zx
  generalize F (D main_call0_v31) = zn
  generalize F (D main_arg4) = zs
  generalize F (D main_arg5) = zd
  have hx : (TRef.of main_call0_v134 : TRef sig ⟨S100000x128, .f32⟩).ofBuf (Val := Elt Ideal) zx = zx := rfl
  have hn : (TRef.of main_call0_v31 : TRef sig ⟨S100000, .f32⟩).ofBuf (Val := Elt Ideal) zn = zn := rfl
  have hs : (TRef.of main_arg4 : TRef sig ⟨S1000000, .i32⟩).ofBuf (Val := Elt Ideal) zs = zs := rfl
  have hd : (TRef.of main_arg5 : TRef sig ⟨S1000000, .i32⟩).ofBuf (Val := Elt Ideal) zd = zd := rfl
  have ho : ∀ v : (⟨S200000x128, .f32⟩ : BufTy).Contents (Elt Ideal), (TRef.of main_call0_v174 : TRef sig ⟨S200000x128, .f32⟩).toBuf (Val := Elt Ideal) v = v := fun _ => rfl
  rw [hx, hn, hs, hd, ho]
  unfold Cert.Stages.sumFe Cert.Stages.msgFr Cert.Stages.wrapFr
  rfl

set_option maxHeartbeats 4000000 in
/-- The second layer's feature→feature aggregate. -/
theorem w7_v187 : W7 m ρ c (D main_call0_v187) = Cert.Stages.sumFe (F := Ideal)
      (Cert.Stages.msgFe (F := Ideal) (W6 m ρ c (D main_call0_v135)) (W6 m ρ c (D main_call0_v69)) (W6 m ρ c (D main_arg8) : Cert.Stages.Ids Ideal))
      (W6 m ρ c (D main_arg9) : Cert.Stages.Ids Ideal) := by
  show StableHlo.after hostOps4 (W6 m ρ c) (D main_call0_v187) = _
  generalize W6 m ρ c = F
  after_results_simp
  simp only [ofBuf_toBuf]
  generalize F (D main_call0_v135) = zx
  generalize F (D main_call0_v69) = zn
  generalize F (D main_arg8) = zs
  generalize F (D main_arg9) = zd
  have hx : (TRef.of main_call0_v135 : TRef sig ⟨S200000x128, .f32⟩).ofBuf (Val := Elt Ideal) zx = zx := rfl
  have hn : (TRef.of main_call0_v69 : TRef sig ⟨S200000, .f32⟩).ofBuf (Val := Elt Ideal) zn = zn := rfl
  have hs : (TRef.of main_arg8 : TRef sig ⟨S1000000, .i32⟩).ofBuf (Val := Elt Ideal) zs = zs := rfl
  have hd : (TRef.of main_arg9 : TRef sig ⟨S1000000, .i32⟩).ofBuf (Val := Elt Ideal) zd = zd := rfl
  have ho : ∀ v : (⟨S200000x128, .f32⟩ : BufTy).Contents (Elt Ideal), (TRef.of main_call0_v187 : TRef sig ⟨S200000x128, .f32⟩).toBuf (Val := Elt Ideal) v = v := fun _ => rfl
  rw [hx, hn, hs, hd, ho]
  unfold Cert.Stages.sumFe Cert.Stages.msgFe Cert.Stages.wrapFe
  rfl

end Cert.KernelIdeal.HostVals

end
-- ==== Proof.Model.lean ====
/-
  The whole network as functions of its 26 argument arrays: two input projections, the eight degree norms (each a function of
  one edge-end array only, the same in both layers), two layers of relational graph convolution with a relu between them,
  the residual, and the two output heads.  Every value here is a composition of the stages of Stages.lean.
-/
import proofs.«162449_j55422257988217_2_alg».proof.Proof.Stages

noncomputable section

namespace Cert.Stages

open Idealize.ShloMosaic Cert.ReferenceIdeal Cert.ReferenceIdeal.Gen

variable {F : FTy → Type} [FloatOps F]

/-- The argument arrays, in the order both programs take them. -/
structure Inputs (F : FTy → Type) where
  frame : Arr F S100000x512
  fe : Arr F S200000x512
  srcFrFr : Ids F
  dstFrFr : Ids F
  srcFrFe : Ids F
  dstFrFe : Ids F
  srcFeFr : Ids F
  dstFeFr : Ids F
  srcFeFe : Ids F
  dstFeFe : Ids F
  wFrLin : Arr F S512x128
  bFrLin : Arr F S128
  wFeLin : Arr F S512x128
  bFeLin : Arr F S128
  wFrFr : Arr F S128x128
  bFrFr : Arr F S128
  wFrFe : Arr F S128x128
  bFrFe : Arr F S128
  wFeFr : Arr F S128x128
  bFeFr : Arr F S128
  wFeFe : Arr F S128x128
  bFeFe : Arr F S128
  wFrFc : Arr F S128x512
  bFrFc : Arr F S512
  wFeFc : Arr F S128x512
  bFeFc : Arr F S512

variable (I : Inputs F)

/-- A norm vector as the one-column array a row scaling reads. -/
def colFr (n : Arr F S100000) : Arr F S100000x1 := broadcastInDim S100000x1 ![0] bcast_S100000_S100000x1_0 n
def colFe (n : Arr F S200000) : Arr F S200000x1 := broadcastInDim S200000x1 ![0] bcast_S200000_S200000x1_0 n

def xFr : Arr F S100000x128 := linFr I.frame I.wFrLin I.bFrLin
def xFe : Arr F S200000x128 := linFe I.fe I.wFeLin I.bFeLin

/-- One layer from the frame rows `hr` and the feature rows `he`: the four aggregates (source norm, gather, scatter-add), then per
    destination type the mean of its two convolutions. -/
def nextFr (hr : Arr F S100000x128) (he : Arr F S200000x128) : Arr F S100000x128 :=
  layerFr (sumFr (msgFr hr (normFr I.srcFrFr) I.srcFrFr) I.dstFrFr) (colFr (normFr I.dstFrFr)) I.wFrFr I.bFrFr
    (sumFr (msgFe he (normFe I.srcFeFr) I.srcFeFr) I.dstFeFr) (colFr (normFr I.dstFeFr)) I.wFeFr I.bFeFr
def nextFe (hr : Arr F S100000x128) (he : Arr F S200000x128) : Arr F S200000x128 :=
  layerFe (sumFe (msgFr hr (normFr I.srcFrFe) I.srcFrFe) I.dstFrFe) (colFe (normFe I.dstFrFe)) I.wFrFe I.bFrFe
    (sumFe (msgFe he (normFe I.srcFeFe) I.srcFeFe) I.dstFeFe) (colFe (normFe I.dstFeFe)) I.wFeFe I.bFeFe

def h1Fr : Arr F S100000x128 := reluFr (nextFr I (xFr I) (xFe I))
def h1Fe : Arr F S200000x128 := reluFe (nextFe I (xFr I) (xFe I))

/-- The second layer's rows plus the projected input: the third and fourth results. -/
def outHFr : Arr F S100000x128 := addf (nextFr I (h1Fr I) (h1Fe I)) (xFr I)
def outHFe : Arr F S200000x128 := addf (nextFe I (h1Fr I) (h1Fe I)) (xFe I)
/-- The heads: the first and second results. -/
def outFcFr : Arr F S100000x512 := fcFr (outHFr I) I.wFrFc I.bFrFc
def outFcFe : Arr F S200000x512 := fcFe (outHFe I) I.wFeFc I.bFeFc

end Cert.Stages

end
-- ==== Proof.LinFr.lean ====
/-
  The input projection of the frame rows, read off the first region of the kernel's program.

  The region has 50 grid points; point t owns rows 2000·t … 2000·t + 1999 of the [100000, 512] input and of the
  [100000, 128] output, and sees the whole [512, 128] weight and the whole [128] bias.  At the extended reals a change of
  float format is the identity and a matrix product into a zero accumulator is the plain sum over the contracted index, so
  the entry the point writes at (its row r, column q) is

      ∑ₖ x[2000·t + r, k] · W[k, q]  +  b[q],

  the bias reaching every row through a [1, 128] cast broadcast down the rows.  The whole-array function on the other
  side is a host contraction of the same operands plus the bias broadcast along axis 1, which at (p, q) is the same sum
  with p for 2000·t + r.  The rows of the 50 blocks tile the 100000 rows (row p is in block p / 2000), so after the last
  point the output array is that function of the three arrays the region found.  Only equal sums are compared: no
  finiteness and no algebraic law is used.
-/
import proofs.«162449_j55422257988217_2_alg».proof.Proof.FrameI
import proofs.«162449_j55422257988217_2_alg».proof.Proof.Gen.KernelIdeal.Skeleton
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinFr

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## The block's matrix product at an entry -/

local notation "DK" => Cert.KernelIdeal.dot_S2000x512_S512x128_S2000x128_1_0_0_1_n_n

/-- The left operand's row is the output's row, -/
theorem klhs0 (i : S2000x128.Idx) (s : (DK).contr.Idx) : ((DK).lhsIdx i s 0).val = (i 0).val := by
  unfold DotDims.lhsIdx
  rw [dif_neg (show ¬(0 : Fin S2000x512.rank) ∈ (DK).lhsBatch by decide), dif_pos (show (0 : Fin S2000x512.rank) ∈ (DK).lhsNonContracting by decide)]
  rfl
/-- its column the contracted index; -/
theorem klhs1 (i : S2000x128.Idx) (s : (DK).contr.Idx) : ((DK).lhsIdx i s 1).val = (s ⟨0, by decide⟩).val :=
  (DK).lhsIdx_val_of_single rfl i s
/-- the right operand's row is the contracted index, -/
theorem krhs0 (i : S2000x128.Idx) (s : (DK).contr.Idx) : ((DK).rhsIdx i s 0).val = (s ⟨0, by decide⟩).val :=
  (DK).rhsIdx_val_of_single rfl i s
/-- its column the output's column. -/
theorem krhs1 (i : S2000x128.Idx) (s : (DK).contr.Idx) : ((DK).rhsIdx i s 1).val = (i 1).val := by
  unfold DotDims.rhsIdx
  rw [dif_neg (show ¬(1 : Fin S512x128.rank) ∈ (DK).rhsBatch by decide), dif_pos (show (1 : Fin S512x128.rank) ∈ (DK).rhsNonContracting by decide)]
  rfl

/-- A [2000, 512] by [512, 128] product into the zero accumulator, at (r, q): the sum over k of l[r, k] · w[k, q]. -/
theorem kdot_apply (l : FVec Ideal S2000x512 .bf16) (w : FVec Ideal S512x128 .bf16) (r : Fin 2000) (q : Fin 128) :
    FloatOps.matmul (DK) none l w (constant S2000x128 .f32 0x00000000#32) (ix2 r q) = ∑ k : Fin 512, l (ix2 r k) * w (ix2 k q) := by
  rw [Ideal.matmul_constant_zero_apply, ← Equiv.sum_comp (contrEquiv1 (DK) 512 rfl rfl).symm]
  refine Finset.sum_congr rfl fun k _ => ?_
  have hk := contrEquiv1_symm_val (DK) 512 rfl rfl k
  have el : (DK).lhsIdx (ix2 r q) ((contrEquiv1 (DK) 512 rfl rfl).symm k) = ix2 r k := funext fun a => Fin.ext (by
    match a with
    | ⟨0, _⟩ => exact klhs0 _ _
    | ⟨1, _⟩ => exact (klhs1 _ _).trans hk)
  have er : (DK).rhsIdx (ix2 r q) ((contrEquiv1 (DK) 512 rfl rfl).symm k) = ix2 k q := funext fun a => Fin.ext (by
    match a with
    | ⟨0, _⟩ => exact (krhs0 _ _).trans hk
    | ⟨1, _⟩ => exact krhs1 _ _)
  rw [el, er]

/-- THE BLOCK'S ENTRY at (r, q), from the three blocks the body loads: ∑ₖ x[r, k] · W[k, q] + b[q]. -/
theorem pay_apply (x0 : Vec Ideal S2000x512 .f32) (x1 : Vec Ideal S512x128 .f32) (x2 : Vec Ideal S128 .f32) (r : Fin 2000) (q : Fin 128) :
    k0_pay1 (F := Ideal) x0 x1 x2 (ix2 r q) = (∑ k : Fin 512, x0 (ix2 r k) * x1 (ix2 k q)) + x2 (ix1 q) := by
  have hd := kdot_apply (truncf .bf16 x0 bitsLt_bf16_f32) (truncf .bf16 x1 bitsLt_bf16_f32) r q
  have hb : broadcastTo S2000x128 (shapeCast S1x128 x2 shapeCasts_S128_S1x128) broadcasts_S1x128_S2000x128 (ix2 r q) = x2 (ix1 q) :=
    (broadcastTo_1b_ab_apply _ broadcasts_S1x128_S2000x128 r q).trans (shapeCast_a_1a_apply x2 shapeCasts_S128_S1x128 0 q)
  exact congrArg₂ (· + ·) hd hb

/-! ## The whole-array function at an entry -/

local notation "DR" => Cert.ReferenceIdeal.dot_S100000x512_S512x128_S100000x128_1_0_0_1_n_n

theorem rlhs0 (i : Cert.ReferenceIdeal.S100000x128.Idx) (s : (DR).contr.Idx) : ((DR).lhsIdx i s 0).val = (i 0).val := by
  unfold DotDims.lhsIdx
  rw [dif_neg (show ¬(0 : Fin Cert.ReferenceIdeal.S100000x512.rank) ∈ (DR).lhsBatch by decide), dif_pos (show (0 : Fin Cert.ReferenceIdeal.S100000x512.rank) ∈ (DR).lhsNonContracting by decide)]
  rfl
theorem rlhs1 (i : Cert.ReferenceIdeal.S100000x128.Idx) (s : (DR).contr.Idx) : ((DR).lhsIdx i s 1).val = (s ⟨0, by decide⟩).val :=
  (DR).lhsIdx_val_of_single rfl i s
theorem rrhs0 (i : Cert.ReferenceIdeal.S100000x128.Idx) (s : (DR).contr.Idx) : ((DR).rhsIdx i s 0).val = (s ⟨0, by decide⟩).val :=
  (DR).rhsIdx_val_of_single rfl i s
theorem rrhs1 (i : Cert.ReferenceIdeal.S100000x128.Idx) (s : (DR).contr.Idx) : ((DR).rhsIdx i s 1).val = (i 1).val := by
  unfold DotDims.rhsIdx
  rw [dif_neg (show ¬(1 : Fin Cert.ReferenceIdeal.S512x128.rank) ∈ (DR).rhsBatch by decide), dif_pos (show (1 : Fin Cert.ReferenceIdeal.S512x128.rank) ∈ (DR).rhsNonContracting by decide)]
  rfl

/-- The host's [100000, 512] by [512, 128] contraction at (p, q): the sum over k of x[p, k] · W[k, q]. -/
theorem rdot_apply (x : Cert.Stages.Arr Ideal Cert.ReferenceIdeal.S100000x512) (W : Cert.Stages.Arr Ideal Cert.ReferenceIdeal.S512x128)
    (p : Fin 100000) (q : Fin 128) :
    Host.dotGeneral (F := Ideal) (φ₁ := .f32) (φ₂ := .f32) (DR) none x W (ix2 p q) = ∑ k : Fin 512, x (ix2 p k) * W (ix2 k q) := by
  simp only [Host.dotGeneral]
  rw [Ideal.dotGeneral_apply, ← Equiv.sum_comp (contrEquiv1 (DR) 512 rfl rfl).symm]
  refine Finset.sum_congr rfl fun k _ => ?_
  have hk := contrEquiv1_symm_val (DR) 512 rfl rfl k
  have el : (DR).lhsIdx (ix2 p q) ((contrEquiv1 (DR) 512 rfl rfl).symm k) = ix2 p k := funext fun a => Fin.ext (by
    match a with
    | ⟨0, _⟩ => exact rlhs0 _ _
    | ⟨1, _⟩ => exact (rlhs1 _ _).trans hk)
  have er : (DR).rhsIdx (ix2 p q) ((contrEquiv1 (DR) 512 rfl rfl).symm k) = ix2 k q := funext fun a => Fin.ext (by
    match a with
    | ⟨0, _⟩ => exact (rrhs0 _ _).trans hk
    | ⟨1, _⟩ => exact rrhs1 _ _)
  rw [el, er]

/-- The bias laid along every row, at (p, q): b[q]. -/
theorem rbias_apply (b : Cert.Stages.Arr Ideal Cert.ReferenceIdeal.S128) (p : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 p q) = b (ix1 q) := by
  refine (broadcastInDim_apply _ Cert.ReferenceIdeal.Gen.bcast_S1x128_S100000x128_0_1 _ (ix2 p q) (ix2 (0 : Fin 1) q) (fun a => ?_)).trans
    (broadcastInDim_apply _ Cert.ReferenceIdeal.Gen.bcast_S128_S1x128_1 b (ix2 (0 : Fin 1) q) (ix1 q) (fun a => ?_))
  · match a with
    | ⟨0, _⟩ => show 0 = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- THE WHOLE-ARRAY FUNCTION at (p, q): ∑ₖ x[p, k] · W[k, q] + b[q]. -/
theorem linFr_apply (x : Cert.Stages.Arr Ideal Cert.ReferenceIdeal.S100000x512) (W : Cert.Stages.Arr Ideal Cert.ReferenceIdeal.S512x128)
    (b : Cert.Stages.Arr Ideal Cert.ReferenceIdeal.S128) (p : Fin 100000) (q : Fin 128) :
    Cert.Stages.linFr (F := Ideal) x W b (ix2 p q) = (∑ k : Fin 512, x (ix2 p k) * W (ix2 k q)) + b (ix1 q) :=
  congrArg₂ (· + ·) (rdot_apply x W p q) (rbias_apply b p q)

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 50 points: the row-blocked windows (the input rows, the output rows) sit at block
    (t, 0), the weight and the bias at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input block at point t, at (r, k), is the input array at (2000·t + r, k). -/
theorem xblk_apply (c : Dev nD) (t : Fin cfg0.N) (r : Fin 2000) (k : Fin 512) (p : Fin 100000) (hp : p.val = t.val * 2000 + r.val) :
    (iblk0 V c 0 t : Vec Ideal S2000x512 .f32) (ix2 r k) = (V c main_arg0 : S100000x512.Idx → Elt Ideal .f32) (ix2 p k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 512 + 1 * k.val = k.val; rw [e1]; omega

/-- The weight block at every point is the weight array. -/
theorem wblk_apply (c : Dev nD) (t : Fin cfg0.N) (k : Fin 512) (q : Fin 128) :
    (iblk0 V c 1 t : Vec Ideal S512x128 .f32) (ix2 k q) = (V c main_arg10 : S512x128.Idx → Elt Ideal .f32) (ix2 k q) := by
  obtain ⟨-, -, e2, e3, -⟩ := idx_facts t
  unfold iblk0
  rw [View.read_apply]
  show V c main_arg10 _ = V c main_arg10 _
  congr 1
  funext a
  apply Fin.ext
  match a with
  | ⟨0, _⟩ => show win0_1.index t (0 : Fin 2) * 512 + 1 * k.val = k.val; rw [e2]; omega
  | ⟨1, _⟩ => show win0_1.index t (1 : Fin 2) * 128 + 1 * q.val = q.val; rw [e3]; omega

/-- The bias block at every point is the bias array. -/
theorem bblk_apply (c : Dev nD) (t : Fin cfg0.N) (q : Fin 128) :
    (iblk0 V c 2 t : Vec Ideal S128 .f32) (ix1 q) = (V c main_arg11 : S128.Idx → Elt Ideal .f32) (ix1 q) := by
  obtain ⟨-, -, -, -, e4, -⟩ := idx_facts t
  unfold iblk0
  rw [View.read_apply]
  show V c main_arg11 _ = V c main_arg11 _
  congr 1
  funext a
  apply Fin.ext
  match a with
  | ⟨0, _⟩ => show win0_2.index t (0 : Fin 1) * 128 + 1 * q.val = q.val; rw [e4]; omega

/-- ONE ENTRY: the block's entry at j, computed from blocks that are the arrays' rows 2000·T … and the whole weight and
    bias, is the whole-array function at the entry i that j names in the array. -/
theorem entry_eq (x0 : Vec Ideal S2000x512 .f32) (x1 : Vec Ideal S512x128 .f32) (x2 : Vec Ideal S128 .f32)
    (X : S100000x512.Idx → Elt Ideal .f32) (W : S512x128.Idx → Elt Ideal .f32) (b : S128.Idx → Elt Ideal .f32)
    (T : Nat) (j : S2000x128.Idx) (i : S100000x128.Idx)
    (hi0 : (i 0).val = T * 2000 + (j 0).val) (hi1 : (i 1).val = (j 1).val)
    (h0 : ∀ (r : Fin 2000) (k : Fin 512) (p : Fin 100000), p.val = T * 2000 + r.val → x0 (ix2 r k) = X (ix2 p k))
    (h1 : ∀ (k : Fin 512) (q : Fin 128), x1 (ix2 k q) = W (ix2 k q)) (h2 : ∀ q : Fin 128, x2 (ix1 q) = b (ix1 q)) :
    k0_pay1 (F := Ideal) x0 x1 x2 j = Cert.Stages.linFr (F := Ideal) X W b i := by
  obtain ⟨r, q, rfl⟩ : ∃ (r : Fin 2000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q = q' := (Fin.ext hi1).symm
  rw [pay_apply, linFr_apply]
  refine congrArg₂ (· + ·) (Finset.sum_congr rfl fun k _ => ?_) (h2 q)
  rw [h0 r k p hi0, h1 k q]

/-- WHAT POINT t WRITES BACK is block t of the whole-array function of the arrays the region found. -/
theorem flushed_eq (c : Dev nD) (t : Fin cfg0.N) :
    (dat0 (F := Ideal) V c).flushed 3 t
      = ((cfg0.win 3).blk t).view.read (Elt Ideal) (Cert.Stages.linFr (F := Ideal) (V c main_arg0) (V c main_arg10) (V c main_arg11)) := by
  show (cfg0.win 3).cut (grid0.coords t) ((dat0 V c).after 3 t) = _
  rw [after0_3]
  unfold out0_3
  rw [View.canon_unit_zero hz2]
  simp only [View.ld_unit_zero (S := S2000x512) hz2, View.ld_unit_zero (S := S512x128) hz2, View.ld_unit_zero (S := S128) hz1]
  obtain ⟨-, -, -, -, -, e5, e6⟩ := idx_facts t
  funext j
  rw [View.read_apply]
  refine entry_eq (iblk0 V c 0 t) (iblk0 V c 1 t) (iblk0 V c 2 t) (V c main_arg0) (V c main_arg10) (V c main_arg11) t.val
    ((cfg0.win 3).xinj (grid0.coords t) j) (((cfg0.win 3).blk t).view.emb j) ?_ ?_
    (fun r k p hp => xblk_apply V c t r k p hp) (fun k q => wblk_apply V c t k q) (fun q => bblk_apply V c t q)
  · show win0_3.index t (0 : Fin 2) * 2000 + 1 * (j 0).val = t.val * 2000 + (j 0).val; rw [e5]; omega
  · show win0_3.index t (1 : Fin 2) * 128 + 1 * (j 1).val = (j 1).val; rw [e6]; omega

/-- An index of the output array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v80).slice (win0_3.rect t)).set ↔ _
  rw [View.set_slice_whole, Rect.mem_set_unit]
  exact Iff.rfl

/-- Row p is in the block of point p / 2000: the 50 blocks cover the array. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 2000 < cfg0.N := by rw [show cfg0.N = 50 from N_0]; omega
  obtain ⟨-, -, -, -, -, e5, e6⟩ := idx_facts ⟨(i 0).val / 2000, hlt⟩
  have e5' : win0_3.index ⟨(i 0).val / 2000, hlt⟩ (0 : Fin 2) = (i 0).val / 2000 := e5
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e5']; omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e6]; omega

/-- THE OUTPUT ARRAY after the region's last point: the input projection of the arrays the region found. -/
theorem final (c : Dev nD) :
    (dat0 (F := Ideal) V c).arrAt 3 cfg0.N = Cert.Stages.linFr (V c main_arg0) (V c main_arg10) (V c main_arg11) :=
  (dat0 (F := Ideal) V c).arrAt_eq_of_cover 3 (Cert.Stages.linFr (F := Ideal) (V c main_arg0) (V c main_arg10) (V c main_arg11))
    (fun t _ => flushed_eq V c t) cover

end Cert.KernelIdeal.LinFr

end
-- ==== Proof.LinFe.lean ====
/-
  The input projection of the feature rows, read off the second region of the kernel's program.

  The region has 100 grid points; point t owns rows 2000·t … 2000·t + 1999 of the [200000, 512] input and of the
  [200000, 128] output, and sees the whole [512, 128] weight and the whole [128] bias.  At the extended reals a change of
  float format is the identity and a matrix product into a zero accumulator is the plain sum over the contracted index, so
  the entry the point writes at (its row r, column q) is

      ∑ₖ x[2000·t + r, k] · W[k, q]  +  b[q],

  the bias reaching every row through a [1, 128] cast broadcast down the rows.  The whole-array function on the other
  side is a host contraction of the same operands plus the bias broadcast along axis 1, which at (p, q) is the same sum
  with p for 2000·t + r.  The rows of the 100 blocks tile the 200000 rows (row p is in block p / 2000), so after the last
  point the output array is that function of the three arrays the region found.  Only equal sums are compared: no
  finiteness and no algebraic law is used.
-/
import proofs.«162449_j55422257988217_2_alg».proof.Proof.FrameI
import proofs.«162449_j55422257988217_2_alg».proof.Proof.Gen.KernelIdeal.Skeleton
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinFe

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## The block's matrix product at an entry -/

local notation "DK" => Cert.KernelIdeal.dot_S2000x512_S512x128_S2000x128_1_0_0_1_n_n

/-- The left operand's row is the output's row, -/
theorem klhs0 (i : S2000x128.Idx) (s : (DK).contr.Idx) : ((DK).lhsIdx i s 0).val = (i 0).val := by
  unfold DotDims.lhsIdx
  rw [dif_neg (show ¬(0 : Fin S2000x512.rank) ∈ (DK).lhsBatch by decide), dif_pos (show (0 : Fin S2000x512.rank) ∈ (DK).lhsNonContracting by decide)]
  rfl
/-- its column the contracted index; -/
theorem klhs1 (i : S2000x128.Idx) (s : (DK).contr.Idx) : ((DK).lhsIdx i s 1).val = (s ⟨0, by decide⟩).val :=
  (DK).lhsIdx_val_of_single rfl i s
/-- the right operand's row is the contracted index, -/
theorem krhs0 (i : S2000x128.Idx) (s : (DK).contr.Idx) : ((DK).rhsIdx i s 0).val = (s ⟨0, by decide⟩).val :=
  (DK).rhsIdx_val_of_single rfl i s
/-- its column the output's column. -/
theorem krhs1 (i : S2000x128.Idx) (s : (DK).contr.Idx) : ((DK).rhsIdx i s 1).val = (i 1).val := by
  unfold DotDims.rhsIdx
  rw [dif_neg (show ¬(1 : Fin S512x128.rank) ∈ (DK).rhsBatch by decide), dif_pos (show (1 : Fin S512x128.rank) ∈ (DK).rhsNonContracting by decide)]
  rfl

/-- A [2000, 512] by [512, 128] product into the zero accumulator, at (r, q): the sum over k of l[r, k] · w[k, q]. -/
theorem kdot_apply (l : FVec Ideal S2000x512 .bf16) (w : FVec Ideal S512x128 .bf16) (r : Fin 2000) (q : Fin 128) :
    FloatOps.matmul (DK) none l w (constant S2000x128 .f32 0x00000000#32) (ix2 r q) = ∑ k : Fin 512, l (ix2 r k) * w (ix2 k q) := by
  rw [Ideal.matmul_constant_zero_apply, ← Equiv.sum_comp (contrEquiv1 (DK) 512 rfl rfl).symm]
  refine Finset.sum_congr rfl fun k _ => ?_
  have hk := contrEquiv1_symm_val (DK) 512 rfl rfl k
  have el : (DK).lhsIdx (ix2 r q) ((contrEquiv1 (DK) 512 rfl rfl).symm k) = ix2 r k := funext fun a => Fin.ext (by
    match a with
    | ⟨0, _⟩ => exact klhs0 _ _
    | ⟨1, _⟩ => exact (klhs1 _ _).trans hk)
  have er : (DK).rhsIdx (ix2 r q) ((contrEquiv1 (DK) 512 rfl rfl).symm k) = ix2 k q := funext fun a => Fin.ext (by
    match a with
    | ⟨0, _⟩ => exact (krhs0 _ _).trans hk
    | ⟨1, _⟩ => exact krhs1 _ _)
  rw [el, er]

/-- THE BLOCK'S ENTRY at (r, q), from the three blocks the body loads: ∑ₖ x[r, k] · W[k, q] + b[q]. -/
theorem pay_apply (x0 : Vec Ideal S2000x512 .f32) (x1 : Vec Ideal S512x128 .f32) (x2 : Vec Ideal S128 .f32) (r : Fin 2000) (q : Fin 128) :
    k1_pay1 (F := Ideal) x0 x1 x2 (ix2 r q) = (∑ k : Fin 512, x0 (ix2 r k) * x1 (ix2 k q)) + x2 (ix1 q) := by
  have hd := kdot_apply (truncf .bf16 x0 bitsLt_bf16_f32) (truncf .bf16 x1 bitsLt_bf16_f32) r q
  have hb : broadcastTo S2000x128 (shapeCast S1x128 x2 shapeCasts_S128_S1x128) broadcasts_S1x128_S2000x128 (ix2 r q) = x2 (ix1 q) :=
    (broadcastTo_1b_ab_apply _ broadcasts_S1x128_S2000x128 r q).trans (shapeCast_a_1a_apply x2 shapeCasts_S128_S1x128 0 q)
  exact congrArg₂ (· + ·) hd hb

/-! ## The whole-array function at an entry -/

local notation "DR" => Cert.ReferenceIdeal.dot_S200000x512_S512x128_S200000x128_1_0_0_1_n_n

theorem rlhs0 (i : Cert.ReferenceIdeal.S200000x128.Idx) (s : (DR).contr.Idx) : ((DR).lhsIdx i s 0).val = (i 0).val := by
  unfold DotDims.lhsIdx
  rw [dif_neg (show ¬(0 : Fin Cert.ReferenceIdeal.S200000x512.rank) ∈ (DR).lhsBatch by decide), dif_pos (show (0 : Fin Cert.ReferenceIdeal.S200000x512.rank) ∈ (DR).lhsNonContracting by decide)]
  rfl
theorem rlhs1 (i : Cert.ReferenceIdeal.S200000x128.Idx) (s : (DR).contr.Idx) : ((DR).lhsIdx i s 1).val = (s ⟨0, by decide⟩).val :=
  (DR).lhsIdx_val_of_single rfl i s
theorem rrhs0 (i : Cert.ReferenceIdeal.S200000x128.Idx) (s : (DR).contr.Idx) : ((DR).rhsIdx i s 0).val = (s ⟨0, by decide⟩).val :=
  (DR).rhsIdx_val_of_single rfl i s
theorem rrhs1 (i : Cert.ReferenceIdeal.S200000x128.Idx) (s : (DR).contr.Idx) : ((DR).rhsIdx i s 1).val = (i 1).val := by
  unfold DotDims.rhsIdx
  rw [dif_neg (show ¬(1 : Fin Cert.ReferenceIdeal.S512x128.rank) ∈ (DR).rhsBatch by decide), dif_pos (show (1 : Fin Cert.ReferenceIdeal.S512x128.rank) ∈ (DR).rhsNonContracting by decide)]
  rfl

/-- The host's [200000, 512] by [512, 128] contraction at (p, q): the sum over k of x[p, k] · W[k, q]. -/
theorem rdot_apply (x : Cert.Stages.Arr Ideal Cert.ReferenceIdeal.S200000x512) (W : Cert.Stages.Arr Ideal Cert.ReferenceIdeal.S512x128)
    (p : Fin 200000) (q : Fin 128) :
    Host.dotGeneral (F := Ideal) (φ₁ := .f32) (φ₂ := .f32) (DR) none x W (ix2 p q) = ∑ k : Fin 512, x (ix2 p k) * W (ix2 k q) := by
  simp only [Host.dotGeneral]
  rw [Ideal.dotGeneral_apply, ← Equiv.sum_comp (contrEquiv1 (DR) 512 rfl rfl).symm]
  refine Finset.sum_congr rfl fun k _ => ?_
  have hk := contrEquiv1_symm_val (DR) 512 rfl rfl k
  have el : (DR).lhsIdx (ix2 p q) ((contrEquiv1 (DR) 512 rfl rfl).symm k) = ix2 p k := funext fun a => Fin.ext (by
    match a with
    | ⟨0, _⟩ => exact rlhs0 _ _
    | ⟨1, _⟩ => exact (rlhs1 _ _).trans hk)
  have er : (DR).rhsIdx (ix2 p q) ((contrEquiv1 (DR) 512 rfl rfl).symm k) = ix2 k q := funext fun a => Fin.ext (by
    match a with
    | ⟨0, _⟩ => exact (rrhs0 _ _).trans hk
    | ⟨1, _⟩ => exact rrhs1 _ _)
  rw [el, er]

/-- The bias laid along every row, at (p, q): b[q]. -/
theorem rbias_apply (b : Cert.Stages.Arr Ideal Cert.ReferenceIdeal.S128) (p : Fin 200000) (q : Fin 128) :
    broadcastInDim Cert.ReferenceIdeal.S200000x128 ![0, 1] Cert.ReferenceIdeal.Gen.bcast_S1x128_S200000x128_0_1
      (broadcastInDim Cert.ReferenceIdeal.S1x128 ![1] Cert.ReferenceIdeal.Gen.bcast_S128_S1x128_1 b) (ix2 p q) = b (ix1 q) := by
  refine (broadcastInDim_apply _ Cert.ReferenceIdeal.Gen.bcast_S1x128_S200000x128_0_1 _ (ix2 p q) (ix2 (0 : Fin 1) q) (fun a => ?_)).trans
    (broadcastInDim_apply _ Cert.ReferenceIdeal.Gen.bcast_S128_S1x128_1 b (ix2 (0 : Fin 1) q) (ix1 q) (fun a => ?_))
  · match a with
    | ⟨0, _⟩ => show 0 = if (1 : Nat) = 1 then 0 else p.val; rw [if_pos rfl]
    | ⟨1, _⟩ => show q.val = if (128 : Nat) = 1 then 0 else q.val; rw [if_neg (by decide)]
  · match a with
    | ⟨0, _⟩ => show q.val = if (128 : Nat) = 1 then 0 else q.val; rw [if_neg (by decide)]

/-- THE WHOLE-ARRAY FUNCTION at (p, q): ∑ₖ x[p, k] · W[k, q] + b[q]. -/
theorem linFe_apply (x : Cert.Stages.Arr Ideal Cert.ReferenceIdeal.S200000x512) (W : Cert.Stages.Arr Ideal Cert.ReferenceIdeal.S512x128)
    (b : Cert.Stages.Arr Ideal Cert.ReferenceIdeal.S128) (p : Fin 200000) (q : Fin 128) :
    Cert.Stages.linFe (F := Ideal) x W b (ix2 p q) = (∑ k : Fin 512, x (ix2 p k) * W (ix2 k q)) + b (ix1 q) :=
  congrArg₂ (· + ·) (rdot_apply x W p q) (rbias_apply b p q)

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 100 points: the row-blocked windows (the input rows, the output rows) sit at block
    (t, 0), the weight and the bias at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The input block at point t, at (r, k), is the input array at (2000·t + r, k). -/
theorem xblk_apply (c : Dev nD) (t : Fin cfg1.N) (r : Fin 2000) (k : Fin 512) (p : Fin 200000) (hp : p.val = t.val * 2000 + r.val) :
    (iblk1 V c 0 t : Vec Ideal S2000x512 .f32) (ix2 r k) = (V c main_arg1 : S200000x512.Idx → Elt Ideal .f32) (ix2 p k) := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 512 + 1 * k.val = k.val; rw [e1]; omega

/-- The weight block at every point is the weight array. -/
theorem wblk_apply (c : Dev nD) (t : Fin cfg1.N) (k : Fin 512) (q : Fin 128) :
    (iblk1 V c 1 t : Vec Ideal S512x128 .f32) (ix2 k q) = (V c main_arg12 : S512x128.Idx → Elt Ideal .f32) (ix2 k q) := by
  obtain ⟨-, -, e2, e3, -⟩ := idx_facts t
  unfold iblk1
  rw [View.read_apply]
  show V c main_arg12 _ = V c main_arg12 _
  congr 1
  funext a
  apply Fin.ext
  match a with
  | ⟨0, _⟩ => show win1_1.index t (0 : Fin 2) * 512 + 1 * k.val = k.val; rw [e2]; omega
  | ⟨1, _⟩ => show win1_1.index t (1 : Fin 2) * 128 + 1 * q.val = q.val; rw [e3]; omega

/-- The bias block at every point is the bias array. -/
theorem bblk_apply (c : Dev nD) (t : Fin cfg1.N) (q : Fin 128) :
    (iblk1 V c 2 t : Vec Ideal S128 .f32) (ix1 q) = (V c main_arg13 : S128.Idx → Elt Ideal .f32) (ix1 q) := by
  obtain ⟨-, -, -, -, e4, -⟩ := idx_facts t
  unfold iblk1
  rw [View.read_apply]
  show V c main_arg13 _ = V c main_arg13 _
  congr 1
  funext a
  apply Fin.ext
  match a with
  | ⟨0, _⟩ => show win1_2.index t (0 : Fin 1) * 128 + 1 * q.val = q.val; rw [e4]; omega

/-- ONE ENTRY: the block's entry at j, computed from blocks that are the arrays' rows 2000·T … and the whole weight and
    bias, is the whole-array function at the entry i that j names in the array. -/
theorem entry_eq (x0 : Vec Ideal S2000x512 .f32) (x1 : Vec Ideal S512x128 .f32) (x2 : Vec Ideal S128 .f32)
    (X : S200000x512.Idx → Elt Ideal .f32) (W : S512x128.Idx → Elt Ideal .f32) (b : S128.Idx → Elt Ideal .f32)
    (T : Nat) (j : S2000x128.Idx) (i : S200000x128.Idx)
    (hi0 : (i 0).val = T * 2000 + (j 0).val) (hi1 : (i 1).val = (j 1).val)
    (h0 : ∀ (r : Fin 2000) (k : Fin 512) (p : Fin 200000), p.val = T * 2000 + r.val → x0 (ix2 r k) = X (ix2 p k))
    (h1 : ∀ (k : Fin 512) (q : Fin 128), x1 (ix2 k q) = W (ix2 k q)) (h2 : ∀ q : Fin 128, x2 (ix1 q) = b (ix1 q)) :
    k1_pay1 (F := Ideal) x0 x1 x2 j = Cert.Stages.linFe (F := Ideal) X W b i := by
  obtain ⟨r, q, rfl⟩ : ∃ (r : Fin 2000) (q : Fin 128), j = ix2 r q := ⟨j 0, j 1, eq_ix2 j⟩
  obtain ⟨p, q', rfl⟩ : ∃ (p : Fin 200000) (q' : Fin 128), i = ix2 p q' := ⟨i 0, i 1, eq_ix2 i⟩
  obtain rfl : q = q' := (Fin.ext hi1).symm
  rw [pay_apply, linFe_apply]
  refine congrArg₂ (· + ·) (Finset.sum_congr rfl fun k _ => ?_) (h2 q)
  rw [h0 r k p hi0, h1 k q]

/-- WHAT POINT t WRITES BACK is block t of the whole-array function of the arrays the region found. -/
theorem flushed_eq (c : Dev nD) (t : Fin cfg1.N) :
    (dat1 (F := Ideal) V c).flushed 3 t
      = ((cfg1.win 3).blk t).view.read (Elt Ideal) (Cert.Stages.linFe (F := Ideal) (V c main_arg1) (V c main_arg12) (V c main_arg13)) := by
  show (cfg1.win 3).cut (grid1.coords t) ((dat1 V c).after 3 t) = _
  rw [after1_3]
  unfold out1_3
  rw [View.canon_unit_zero hz2]
  simp only [View.ld_unit_zero (S := S2000x512) hz2, View.ld_unit_zero (S := S512x128) hz2, View.ld_unit_zero (S := S128) hz1]
  obtain ⟨-, -, -, -, -, e5, e6⟩ := idx_facts t
  funext j
  rw [View.read_apply]
  refine entry_eq (iblk1 V c 0 t) (iblk1 V c 1 t) (iblk1 V c 2 t) (V c main_arg1) (V c main_arg12) (V c main_arg13) t.val
    ((cfg1.win 3).xinj (grid1.coords t) j) (((cfg1.win 3).blk t).view.emb j) ?_ ?_
    (fun r k p hp => xblk_apply V c t r k p hp) (fun k q => wblk_apply V c t k q) (fun q => bblk_apply V c t q)
  · show win1_3.index t (0 : Fin 2) * 2000 + 1 * (j 0).val = t.val * 2000 + (j 0).val; rw [e5]; omega
  · show win1_3.index t (1 : Fin 2) * 128 + 1 * (j 1).val = (j 1).val; rw [e6]; omega

/-- An index of the output array is in point t's block iff each coordinate is in the block's range on its axis. -/
theorem mem_blk (t : Fin cfg1.N) (i : S200000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_call0_v81).slice (win1_3.rect t)).set ↔ _
  rw [View.set_slice_whole, Rect.mem_set_unit]
  exact Iff.rfl

/-- Row p is in the block of point p / 2000: the 100 blocks cover the array. -/
theorem cover (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  have hlt : (i 0).val / 2000 < cfg1.N := by rw [show cfg1.N = 100 from N_1]; omega
  obtain ⟨-, -, -, -, -, e5, e6⟩ := idx_facts ⟨(i 0).val / 2000, hlt⟩
  have e5' : win1_3.index ⟨(i 0).val / 2000, hlt⟩ (0 : Fin 2) = (i 0).val / 2000 := e5
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e5']; omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    rw [e6]; omega

/-- THE OUTPUT ARRAY after the region's last point: the input projection of the arrays the region found. -/
theorem final (c : Dev nD) :
    (dat1 (F := Ideal) V c).arrAt 3 cfg1.N = Cert.Stages.linFe (V c main_arg1) (V c main_arg12) (V c main_arg13) :=
  (dat1 (F := Ideal) V c).arrAt_eq_of_cover 3 (Cert.Stages.linFe (F := Ideal) (V c main_arg1) (V c main_arg12) (V c main_arg13))
    (fun t _ => flushed_eq V c t) cover

end Cert.KernelIdeal.LinFe

end
-- ==== Proof.ReluFr.lean ====
/-
  The second layer's combining step for one node type, read off the kernel's run: every grid point writes its block of rows
  of the output array, each entry half the sum of two affine images of the point's scaled input rows, cut off below at zero;
  the blocks tile the array, so after the last point the array is that function of the whole input arrays, which is the
  composition of stages the specification names.
-/
import proofs.«162449_j55422257988217_2_alg».proof.Proof.FrameI
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReluFr

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## One entry of the result -/

/-- One entry of the combined layer: half the sum of two affine images of a scaled row, cut off below at zero. -/
def cell (a₁ : Fin 128 → EReal) (d₁ : EReal) (w₁ : Fin 128 → EReal) (b₁ : EReal)
    (a₂ : Fin 128 → EReal) (d₂ : EReal) (w₂ : Fin 128 → EReal) (b₂ : EReal) : EReal :=
  max (Ideal.ofBits .f32 0x3F000000#32 * (((∑ k : Fin 128, a₁ k * d₁ * w₁ k) + b₁) + ((∑ k : Fin 128, a₂ k * d₂ * w₂ k) + b₂)))
    (Ideal.ofBits .f32 0x00000000#32)

/-! ## The block's arithmetic at an entry -/

/-- A column `[a, 1]` broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

local notation "DK" => dot_S2000x128_S128x128_S2000x128_1_0_0_1_n_n

theorem DK_lhs0 (i : S2000x128.Idx) (q : (DK).contr.Idx) : ((DK).lhsIdx i q 0).val = (i 0).val := by
  unfold DotDims.lhsIdx
  rw [dif_neg (show ¬(0 : Fin S2000x128.rank) ∈ (DK).lhsBatch by decide), dif_pos (show (0 : Fin S2000x128.rank) ∈ (DK).lhsNonContracting by decide)]
  rfl
theorem DK_lhs1 (i : S2000x128.Idx) (q : (DK).contr.Idx) : ((DK).lhsIdx i q 1).val = (q ⟨0, by decide⟩).val :=
  (DK).lhsIdx_val_of_single rfl i q
theorem DK_rhs0 (i : S2000x128.Idx) (q : (DK).contr.Idx) : ((DK).rhsIdx i q 0).val = (q ⟨0, by decide⟩).val :=
  (DK).rhsIdx_val_of_single rfl i q
theorem DK_rhs1 (i : S2000x128.Idx) (q : (DK).contr.Idx) : ((DK).rhsIdx i q 1).val = (i 1).val := by
  unfold DotDims.rhsIdx
  rw [dif_neg (show ¬(1 : Fin S128x128.rank) ∈ (DK).rhsBatch by decide), dif_pos (show (1 : Fin S128x128.rank) ∈ (DK).rhsNonContracting by decide)]
  rfl

/-- The block's matrix product into a zero accumulator, at an entry: the sum over the contracted index. -/
theorem matmul_entry {φ₁ φ₂ : FTy} (l : FVec Ideal S2000x128 φ₁) (r : FVec Ideal S128x128 φ₂) (p : Fin 2000) (q : Fin 128) :
    matmul (F := Ideal) DK none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : (DK).lhsIdx (ix2 p q) ((contrEquiv1 DK 128 rfl rfl).symm k) = ix2 p k := funext fun a => Fin.ext (by
    match a with
    | ⟨0, _⟩ => exact DK_lhs0 _ _
    | ⟨1, _⟩ => exact (DK_lhs1 _ _).trans hk)
  have er : (DK).rhsIdx (ix2 p q) ((contrEquiv1 DK 128 rfl rfl).symm k) = ix2 k q := funext fun a => Fin.ext (by
    match a with
    | ⟨0, _⟩ => exact (DK_rhs0 _ _).trans hk
    | ⟨1, _⟩ => exact DK_rhs1 _ _)
  rw [el, er]

/-- A row block scaled by its column of norms, at an entry. -/
theorem scaled_entry (x : Vec Ideal S2000x128 .f32) (d : Vec Ideal S2000x1 .f32) (p : Fin 2000) (k : Fin 128) :
    (truncf .bf16 (mulf (shapeCast S2000x128 x shapeCasts_S2000x128_S2000x128)
        (broadcastTo S2000x128 (shapeCast S2000x1 d shapeCasts_S2000x1_S2000x1) broadcasts_S2000x1_S2000x128)) bitsLt_bf16_f32 : FVec Ideal S2000x128 .bf16) (ix2 p k)
      = x (ix2 p k) * d (ix2 p (0 : Fin 1)) := by
  show shapeCast S2000x128 x shapeCasts_S2000x128_S2000x128 (ix2 p k)
      * broadcastTo S2000x128 (shapeCast S2000x1 d shapeCasts_S2000x1_S2000x1) broadcasts_S2000x1_S2000x128 (ix2 p k) = _
  rw [shapeCast_self, shapeCast_self, broadcastTo_a1_ab_apply]

/-- A bias row laid over every row of the block, at an entry. -/
theorem bias_entry (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The body's stored value at an entry of the block, from the loaded blocks. -/
theorem pay_entry (x0 : Vec Ideal S2000x128 .f32) (x1 : Vec Ideal S2000x1 .f32) (x4 : Vec Ideal S2000x128 .f32) (x5 : Vec Ideal S2000x1 .f32)
    (x2 x6 : Vec Ideal S128x128 .f32) (x3 x7 : Vec Ideal S128 .f32) (p : Fin 2000) (q : Fin 128) :
    k2_pay1 (F := Ideal) x0 x1 x4 x5 x2 x6 x3 x7 (ix2 p q)
      = cell (fun k => x0 (ix2 p k)) (x1 (ix2 p (0 : Fin 1))) (fun k => x2 (ix2 k q)) (x3 (ix1 q))
          (fun k => x4 (ix2 p k)) (x5 (ix2 p (0 : Fin 1))) (fun k => x6 (ix2 k q)) (x7 (ix1 q)) := by
  unfold k2_pay1 cell
  show max (Ideal.ofBits .f32 0x3F000000#32 *
      ((matmul (F := Ideal) DK none _ _ (constant (F := Ideal) S2000x128 .f32 0x00000000#32) (ix2 p q) + broadcastTo S2000x128 _ broadcasts_S1x128_S2000x128 (ix2 p q))
       + (matmul (F := Ideal) DK none _ _ (constant (F := Ideal) S2000x128 .f32 0x00000000#32) (ix2 p q) + broadcastTo S2000x128 _ broadcasts_S1x128_S2000x128 (ix2 p q))))
      (Ideal.ofBits .f32 0x00000000#32) = _
  rw [matmul_entry, matmul_entry, bias_entry, bias_entry]
  simp only [scaled_entry]
  rfl

/-- The same at any index of the block, the index split into its two coordinates. -/
theorem pay_entry_idx (x0 : Vec Ideal S2000x128 .f32) (x1 : Vec Ideal S2000x1 .f32) (x4 : Vec Ideal S2000x128 .f32) (x5 : Vec Ideal S2000x1 .f32)
    (x2 x6 : Vec Ideal S128x128 .f32) (x3 x7 : Vec Ideal S128 .f32) (y : S2000x128.Idx) :
    k2_pay1 (F := Ideal) x0 x1 x4 x5 x2 x6 x3 x7 y
      = cell (fun k => x0 (ix2 (⟨(y 0).val, idx2_lt0 y⟩ : Fin 2000) k)) (x1 (ix2 (⟨(y 0).val, idx2_lt0 y⟩ : Fin 2000) (0 : Fin 1)))
          (fun k => x2 (ix2 k (⟨(y 1).val, idx2_lt1 y⟩ : Fin 128))) (x3 (ix1 (⟨(y 1).val, idx2_lt1 y⟩ : Fin 128)))
          (fun k => x4 (ix2 (⟨(y 0).val, idx2_lt0 y⟩ : Fin 2000) k)) (x5 (ix2 (⟨(y 0).val, idx2_lt0 y⟩ : Fin 2000) (0 : Fin 1)))
          (fun k => x6 (ix2 k (⟨(y 1).val, idx2_lt1 y⟩ : Fin 128))) (x7 (ix1 (⟨(y 1).val, idx2_lt1 y⟩ : Fin 128))) := by
  obtain ⟨p, q, rfl⟩ : ∃ (p : Fin 2000) (q : Fin 128), y = ix2 p q := ⟨y 0, y 1, eq_ix2 y⟩
  exact pay_entry x0 x1 x4 x5 x2 x6 x3 x7 p q

/-! ## The specification at an entry -/

local notation "DR" => Cert.ReferenceIdeal.dot_S100000x128_S128x128_S100000x128_1_0_0_1_n_n

theorem DR_lhs0 (i : S100000x128.Idx) (q : (DR).contr.Idx) : ((DR).lhsIdx i q 0).val = (i 0).val := by
  unfold DotDims.lhsIdx
  rw [dif_neg (show ¬(0 : Fin S100000x128.rank) ∈ (DR).lhsBatch by decide), dif_pos (show (0 : Fin S100000x128.rank) ∈ (DR).lhsNonContracting by decide)]
  rfl
theorem DR_lhs1 (i : S100000x128.Idx) (q : (DR).contr.Idx) : ((DR).lhsIdx i q 1).val = (q ⟨0, by decide⟩).val :=
  (DR).lhsIdx_val_of_single rfl i q
theorem DR_rhs0 (i : S100000x128.Idx) (q : (DR).contr.Idx) : ((DR).rhsIdx i q 0).val = (q ⟨0, by decide⟩).val :=
  (DR).rhsIdx_val_of_single rfl i q
theorem DR_rhs1 (i : S100000x128.Idx) (q : (DR).contr.Idx) : ((DR).rhsIdx i q 1).val = (i 1).val := by
  unfold DotDims.rhsIdx
  rw [dif_neg (show ¬(1 : Fin S128x128.rank) ∈ (DR).rhsBatch by decide), dif_pos (show (1 : Fin S128x128.rank) ∈ (DR).rhsNonContracting by decide)]
  rfl

/-- The whole-array matrix product, at an entry: the sum over the contracted index. -/
theorem dot_entry (l : FVec Ideal S100000x128 .f32) (r : FVec Ideal S128x128 .f32) (p : Fin 100000) (q : Fin 128) :
    Host.dotGeneral (F := Ideal) DR none l r (ix2 p q) = ∑ k : Fin 128, l (ix2 p k) * r (ix2 k q) := by
  simp only [Host.dotGeneral]
  rw [Ideal.dotGeneral_apply, ← Equiv.sum_comp (contrEquiv1 DR 128 rfl rfl).symm]
  refine Finset.sum_congr rfl fun k _ => ?_
  have hk := contrEquiv1_symm_val DR 128 rfl rfl k
  have el : (DR).lhsIdx (ix2 p q) ((contrEquiv1 DR 128 rfl rfl).symm k) = ix2 p k := funext fun a => Fin.ext (by
    match a with
    | ⟨0, _⟩ => exact DR_lhs0 _ _
    | ⟨1, _⟩ => exact (DR_lhs1 _ _).trans hk)
  have er : (DR).rhsIdx (ix2 p q) ((contrEquiv1 DR 128 rfl rfl).symm k) = ix2 k q := funext fun a => Fin.ext (by
    match a with
    | ⟨0, _⟩ => exact (DR_rhs0 _ _).trans hk
    | ⟨1, _⟩ => exact DR_rhs1 _ _)
  rw [el, er]

/-- A scalar constant spread over an array reads the constant everywhere. -/
theorem splat_entry {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h _ i ix0 (fun a => a.elim0)

/-- A column `[a, 1]` spread along the second axis reads the column's entry at the row. -/
theorem col_entry {α : Type} {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[b]` made `[1, b]` and spread along the first axis reads the row's entry at the column. -/
theorem row_entry {α : Type} {a b : ℕ} (h : (⟨2, ![1, b]⟩ : Shape).BroadcastsInDim ⟨2, ![a, b]⟩ (![0, 1] : Fin 2 → Fin 2))
    (h' : (⟨1, ![b]⟩ : Shape).BroadcastsInDim ⟨2, ![1, b]⟩ (![1] : Fin 1 → Fin 2))
    (v : (⟨1, ![b]⟩ : Shape).Idx → α) (p : Fin a) (c : Fin b) :
    broadcastInDim ⟨2, ![a, b]⟩ ![0, 1] h (broadcastInDim ⟨2, ![1, b]⟩ ![1] h' v) (ix2 p c) = v (ix1 c) := by
  refine (broadcastInDim_apply _ h _ (ix2 p c) (ix2 (0 : Fin 1) c) fun ax => ?_).trans
    (broadcastInDim_apply _ h' v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- The specification's composition of stages at an entry. -/
theorem spec_entry (a₁ : Cert.Stages.Arr Ideal S100000x128) (n₁ : Cert.Stages.Arr Ideal S100000x1) (W₁ : Cert.Stages.Arr Ideal S128x128) (b₁ : Cert.Stages.Arr Ideal S128)
    (a₂ : Cert.Stages.Arr Ideal S100000x128) (n₂ : Cert.Stages.Arr Ideal S100000x1) (W₂ : Cert.Stages.Arr Ideal S128x128) (b₂ : Cert.Stages.Arr Ideal S128)
    (p : Fin 100000) (q : Fin 128) :
    Cert.Stages.reluFr (F := Ideal) (Cert.Stages.layerFr a₁ n₁ W₁ b₁ a₂ n₂ W₂ b₂) (ix2 p q)
      = cell (fun k => a₁ (ix2 p k)) (n₁ (ix2 p (0 : Fin 1))) (fun k => W₁ (ix2 k q)) (b₁ (ix1 q))
          (fun k => a₂ (ix2 p k)) (n₂ (ix2 p (0 : Fin 1))) (fun k => W₂ (ix2 k q)) (b₂ (ix1 q)) := by
  unfold Cert.Stages.reluFr Cert.Stages.layerFr Cert.Stages.mean2Fr Cert.Stages.gconvFr cell
  simp only [maximumf_apply, mulf_apply, addf_apply]
  rw [splat_entry, splat_entry, dot_entry, dot_entry, row_entry, row_entry]
  have c₁ : ∀ k : Fin 128, broadcastInDim Cert.ReferenceIdeal.S100000x128 ![0, 1] Cert.ReferenceIdeal.Gen.bcast_S100000x1_S100000x128_0_1 n₁ (ix2 p k) = n₁ (ix2 p (0 : Fin 1)) :=
    fun k => col_entry _ n₁ p k
  have c₂ : ∀ k : Fin 128, broadcastInDim Cert.ReferenceIdeal.S100000x128 ![0, 1] Cert.ReferenceIdeal.Gen.bcast_S100000x1_S100000x128_0_1 n₂ (ix2 p k) = n₂ (ix2 p (0 : Fin 1)) :=
    fun k => col_entry _ n₂ p k
  simp only [mulf_apply, c₁, c₂]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block row `t`, the weight and bias
    windows at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-! ### Each window's block at a point, as entries of its array -/

theorem blk0 (c : Dev nD) (t : Fin cfg2.N) (p : Fin 2000) (k : Fin 128) (r : Fin 100000) (hr : r.val = 2000 * t.val + p.val) :
    (iblk2 (F := Ideal) V c 0 t : Vec Ideal S2000x128 .f32) (ix2 p k) = (V c main_call0_v94 : S100000x128.Idx → EReal) (ix2 r k) := by
  obtain ⟨e00, e01, e10, e11, e20, e21, e30, e40, e41, e50, e51, e60, e61, e70, e80, e81⟩ := idx_facts t
  unfold iblk2
  rw [View.read_apply]
  show V c main_call0_v94 _ = V c main_call0_v94 _
  congr 1
  funext a
  apply Fin.ext
  match a with
  | ⟨0, _⟩ => show win2_0.index t (0 : Fin 2) * 2000 + 1 * p.val = r.val; rw [e00, hr]; omega
  | ⟨1, _⟩ => show win2_0.index t (1 : Fin 2) * 128 + 1 * k.val = k.val; rw [e01]; omega

theorem blk1 (c : Dev nD) (t : Fin cfg2.N) (p : Fin 2000) (r : Fin 100000) (hr : r.val = 2000 * t.val + p.val) :
    (iblk2 (F := Ideal) V c 1 t : Vec Ideal S2000x1 .f32) (ix2 p (0 : Fin 1)) = (V c main_call0_v76 : S100000x1.Idx → EReal) (ix2 r (0 : Fin 1)) := by
  obtain ⟨e00, e01, e10, e11, e20, e21, e30, e40, e41, e50, e51, e60, e61, e70, e80, e81⟩ := idx_facts t
  unfold iblk2
  rw [View.read_apply]
  show V c main_call0_v76 _ = V c main_call0_v76 _
  congr 1
  funext a
  apply Fin.ext
  match a with
  | ⟨0, _⟩ => show win2_1.index t (0 : Fin 2) * 2000 + 1 * p.val = r.val; rw [e10, hr]; omega
  | ⟨1, _⟩ => show win2_1.index t (1 : Fin 2) * 1 + 1 * 0 = 0; rw [e11]

theorem blk2 (c : Dev nD) (t : Fin cfg2.N) (k q : Fin 128) :
    (iblk2 (F := Ideal) V c 2 t : Vec Ideal S128x128 .f32) (ix2 k q) = (V c main_arg14 : S128x128.Idx → EReal) (ix2 k q) := by
  obtain ⟨e00, e01, e10, e11, e20, e21, e30, e40, e41, e50, e51, e60, e61, e70, e80, e81⟩ := idx_facts t
  unfold iblk2
  rw [View.read_apply]
  show V c main_arg14 _ = V c main_arg14 _
  congr 1
  funext a
  apply Fin.ext
  match a with
  | ⟨0, _⟩ => show win2_2.index t (0 : Fin 2) * 128 + 1 * k.val = k.val; rw [e20]; omega
  | ⟨1, _⟩ => show win2_2.index t (1 : Fin 2) * 128 + 1 * q.val = q.val; rw [e21]; omega

theorem blk3 (c : Dev nD) (t : Fin cfg2.N) (q : Fin 128) :
    (iblk2 (F := Ideal) V c 3 t : Vec Ideal S128 .f32) (ix1 q) = (V c main_arg15 : S128.Idx → EReal) (ix1 q) := by
  obtain ⟨e00, e01, e10, e11, e20, e21, e30, e40, e41, e50, e51, e60, e61, e70, e80, e81⟩ := idx_facts t
  unfold iblk2
  rw [View.read_apply]
  show V c main_arg15 _ = V c main_arg15 _
  congr 1
  funext a
  apply Fin.ext
  match a with
  | ⟨0, _⟩ => show win2_3.index t (0 : Fin 1) * 128 + 1 * q.val = q.val; rw [e30]; omega

theorem blk4 (c : Dev nD) (t : Fin cfg2.N) (p : Fin 2000) (k : Fin 128) (r : Fin 100000) (hr : r.val = 2000 * t.val + p.val) :
    (iblk2 (F := Ideal) V c 4 t : Vec Ideal S2000x128 .f32) (ix2 p k) = (V c main_call0_v107 : S100000x128.Idx → EReal) (ix2 r k) := by
  obtain ⟨e00, e01, e10, e11, e20, e21, e30, e40, e41, e50, e51, e60, e61, e70, e80, e81⟩ := idx_facts t
  unfold iblk2
  rw [View.read_apply]
  show V c main_call0_v107 _ = V c main_call0_v107 _
  congr 1
  funext a
  apply Fin.ext
  match a with
  | ⟨0, _⟩ => show win2_4.index t (0 : Fin 2) * 2000 + 1 * p.val = r.val; rw [e40, hr]; omega
  | ⟨1, _⟩ => show win2_4.index t (1 : Fin 2) * 128 + 1 * k.val = k.val; rw [e41]; omega

theorem blk5 (c : Dev nD) (t : Fin cfg2.N) (p : Fin 2000) (r : Fin 100000) (hr : r.val = 2000 * t.val + p.val) :
    (iblk2 (F := Ideal) V c 5 t : Vec Ideal S2000x1 .f32) (ix2 p (0 : Fin 1)) = (V c main_call0_v77 : S100000x1.Idx → EReal) (ix2 r (0 : Fin 1)) := by
  obtain ⟨e00, e01, e10, e11, e20, e21, e30, e40, e41, e50, e51, e60, e61, e70, e80, e81⟩ := idx_facts t
  unfold iblk2
  rw [View.read_apply]
  show V c main_call0_v77 _ = V c main_call0_v77 _
  congr 1
  funext a
  apply Fin.ext
  match a with
  | ⟨0, _⟩ => show win2_5.index t (0 : Fin 2) * 2000 + 1 * p.val = r.val; rw [e50, hr]; omega
  | ⟨1, _⟩ => show win2_5.index t (1 : Fin 2) * 1 + 1 * 0 = 0; rw [e51]

theorem blk6 (c : Dev nD) (t : Fin cfg2.N) (k q : Fin 128) :
    (iblk2 (F := Ideal) V c 6 t : Vec Ideal S128x128 .f32) (ix2 k q) = (V c main_arg18 : S128x128.Idx → EReal) (ix2 k q) := by
  obtain ⟨e00, e01, e10, e11, e20, e21, e30, e40, e41, e50, e51, e60, e61, e70, e80, e81⟩ := idx_facts t
  unfold iblk2
  rw [View.read_apply]
  show V c main_arg18 _ = V c main_arg18 _
  congr 1
  funext a
  apply Fin.ext
  match a with
  | ⟨0, _⟩ => show win2_6.index t (0 : Fin 2) * 128 + 1 * k.val = k.val; rw [e60]; omega
  | ⟨1, _⟩ => show win2_6.index t (1 : Fin 2) * 128 + 1 * q.val = q.val; rw [e61]; omega

theorem blk7 (c : Dev nD) (t : Fin cfg2.N) (q : Fin 128) :
    (iblk2 (F := Ideal) V c 7 t : Vec Ideal S128 .f32) (ix1 q) = (V c main_arg19 : S128.Idx → EReal) (ix1 q) := by
  obtain ⟨e00, e01, e10, e11, e20, e21, e30, e40, e41, e50, e51, e60, e61, e70, e80, e81⟩ := idx_facts t
  unfold iblk2
  rw [View.read_apply]
  show V c main_arg19 _ = V c main_arg19 _
  congr 1
  funext a
  apply Fin.ext
  match a with
  | ⟨0, _⟩ => show win2_7.index t (0 : Fin 1) * 128 + 1 * q.val = q.val; rw [e70]; omega

/-- An entry computed from the point's blocks is the entry computed from the arrays' rows the blocks hold. -/
theorem cell_blocks (c : Dev nD) (t : Fin cfg2.N) (p : Fin 2000) (q : Fin 128) (r : Fin 100000) (hr : r.val = 2000 * t.val + p.val) :
    cell (fun k => (iblk2 (F := Ideal) V c 0 t : Vec Ideal S2000x128 .f32) (ix2 p k)) ((iblk2 (F := Ideal) V c 1 t : Vec Ideal S2000x1 .f32) (ix2 p (0 : Fin 1)))
        (fun k => (iblk2 (F := Ideal) V c 2 t : Vec Ideal S128x128 .f32) (ix2 k q)) ((iblk2 (F := Ideal) V c 3 t : Vec Ideal S128 .f32) (ix1 q))
        (fun k => (iblk2 (F := Ideal) V c 4 t : Vec Ideal S2000x128 .f32) (ix2 p k)) ((iblk2 (F := Ideal) V c 5 t : Vec Ideal S2000x1 .f32) (ix2 p (0 : Fin 1)))
        (fun k => (iblk2 (F := Ideal) V c 6 t : Vec Ideal S128x128 .f32) (ix2 k q)) ((iblk2 (F := Ideal) V c 7 t : Vec Ideal S128 .f32) (ix1 q))
      = cell (fun k => (V c main_call0_v94 : S100000x128.Idx → EReal) (ix2 r k)) ((V c main_call0_v76 : S100000x1.Idx → EReal) (ix2 r (0 : Fin 1)))
        (fun k => (V c main_arg14 : S128x128.Idx → EReal) (ix2 k q)) ((V c main_arg15 : S128.Idx → EReal) (ix1 q))
        (fun k => (V c main_call0_v107 : S100000x128.Idx → EReal) (ix2 r k)) ((V c main_call0_v77 : S100000x1.Idx → EReal) (ix2 r (0 : Fin 1)))
        (fun k => (V c main_arg18 : S128x128.Idx → EReal) (ix2 k q)) ((V c main_arg19 : S128.Idx → EReal) (ix1 q)) := by
  rw [funext fun k => blk0 V c t p k r hr, blk1 V c t p r hr, funext fun k => blk2 V c t k q, blk3 V c t q,
    funext fun k => blk4 V c t p k r hr, blk5 V c t p r hr, funext fun k => blk6 V c t k q, blk7 V c t q]

/-! ### What a point writes back, and the array after the last point -/

/-- The whole output array as the specification's function of the whole input arrays. -/
abbrev G (c : Dev nD) : Buf (Elt Ideal) ((c : Thread nD τ).loc main_call0_v134) :=
  Cert.Stages.reluFr (Cert.Stages.layerFr (V c main_call0_v94) (V c main_call0_v76) (V c main_arg14) (V c main_arg15) (V c main_call0_v107) (V c main_call0_v77) (V c main_arg18) (V c main_arg19))

/-- What point `t` writes back is block `t` of `G`: rows `2000 t … 2000 t + 1999`. -/
theorem flushed_eq (c : Dev nD) (t : Fin cfg2.N) :
    (dat2 (F := Ideal) V c).flushed 8 t = ((cfg2.win 8).blk t).view.read (Elt Ideal) (G V c) := by
  show (cfg2.win 8).cut (grid2.coords t) ((dat2 V c).after 8 t) = _
  rw [after2_8]
  unfold out2_8
  rw [View.canon_unit_zero hz2]
  simp only [View.ld_unit_zero (S := S2000x128) hz2, View.ld_unit_zero (S := S2000x1) hz2, View.ld_unit_zero (S := S128x128) hz2, View.ld_unit_zero (S := S128) hz1]
  funext j
  have hj0 : (j 0).val < 2000 := (j 0).isLt
  have hj1 : (j 1).val < 128 := (j 1).isLt
  have hN : cfg2.N = 50 := N_2
  have ht : t.val < cfg2.N := t.isLt
  obtain ⟨e00, e01, e10, e11, e20, e21, e30, e40, e41, e50, e51, e60, e61, e70, e80, e81⟩ := idx_facts t
  rw [View.read_apply]
  have hemb : ((cfg2.win 8).blk t).view.emb j
      = (ix2 (⟨2000 * t.val + (j 0).val, by omega⟩ : Fin 100000) (⟨(j 1).val, hj1⟩ : Fin 128) : S100000x128.Idx) := by
    funext a
    apply Fin.ext
    match a with
    | ⟨0, _⟩ => show win2_8.index t (0 : Fin 2) * 2000 + 1 * (j 0).val = 2000 * t.val + (j 0).val; rw [e80]; omega
    | ⟨1, _⟩ => show win2_8.index t (1 : Fin 2) * 128 + 1 * (j 1).val = (j 1).val; rw [e81]; omega
  refine (pay_entry_idx (iblk2 V c 0 t) (iblk2 V c 1 t) (iblk2 V c 4 t) (iblk2 V c 5 t) (iblk2 V c 2 t) (iblk2 V c 6 t)
    (iblk2 V c 3 t) (iblk2 V c 7 t) ((cfg2.win 8).xinj (grid2.coords t) j)).trans ?_
  refine (cell_blocks V c t ⟨(j 0).val, hj0⟩ ⟨(j 1).val, hj1⟩ ⟨2000 * t.val + (j 0).val, by omega⟩ rfl).trans ?_
  exact (spec_entry (V c main_call0_v94) (V c main_call0_v76) (V c main_arg14) (V c main_arg15) (V c main_call0_v107) (V c main_call0_v77) (V c main_arg18) (V c main_arg19)
    ⟨2000 * t.val + (j 0).val, by omega⟩ ⟨(j 1).val, hj1⟩).symm.trans (congrArg (G V c) hemb).symm

/-- An index of the array is in point `t`'s block iff each coordinate is in the block's range on its axis. -/
theorem mem_blk (t : Fin cfg2.N) (i : S100000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_call0_v134).slice (win2_8.rect t)).set ↔ _
  rw [View.set_slice_whole, Rect.mem_set_unit]
  exact Iff.rfl

/-- Every row of the array is in the block of the point numbered by the row's quotient by 2000. -/
theorem cover (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  obtain ⟨e00, e01, e10, e11, e20, e21, e30, e40, e41, e50, e51, e60, e61, e70, e80, e81⟩ := idx_facts t
  have ht : t.val = (i 0).val / 2000 := rfl
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; rw [e80, ht]; omega
  | ⟨1, _⟩ => show win2_8.index t (1 : Fin 2) * 128 ≤ (i 1).val ∧ (i 1).val < win2_8.index t (1 : Fin 2) * 128 + 128; rw [e81]; omega

/-- After the last point the output array is the specification's function of the input arrays. -/
theorem final (c : Dev nD) : (dat2 (F := Ideal) V c).arrAt 8 cfg2.N = Cert.Stages.reluFr (Cert.Stages.layerFr (V c main_call0_v94) (V c main_call0_v76) (V c main_arg14) (V c main_arg15) (V c main_call0_v107) (V c main_call0_v77) (V c main_arg18) (V c main_arg19)) :=
  (dat2 (F := Ideal) V c).arrAt_eq_of_cover 8 (G V c) (fun t _ => flushed_eq V c t) (cover)

end Cert.KernelIdeal.ReluFr

end
-- ==== Proof.ReluFe.lean ====
/-
  The second layer's combining step for one node type, read off the kernel's run: every grid point writes its block of rows
  of the output array, each entry half the sum of two affine images of the point's scaled input rows, cut off below at zero;
  the blocks tile the array, so after the last point the array is that function of the whole input arrays, which is the
  composition of stages the specification names.
-/
import proofs.«162449_j55422257988217_2_alg».proof.Proof.FrameI
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReluFe

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## One entry of the result -/

/-- One entry of the combined layer: half the sum of two affine images of a scaled row, cut off below at zero. -/
def cell (a₁ : Fin 128 → EReal) (d₁ : EReal) (w₁ : Fin 128 → EReal) (b₁ : EReal)
    (a₂ : Fin 128 → EReal) (d₂ : EReal) (w₂ : Fin 128 → EReal) (b₂ : EReal) : EReal :=
  max (Ideal.ofBits .f32 0x3F000000#32 * (((∑ k : Fin 128, a₁ k * d₁ * w₁ k) + b₁) + ((∑ k : Fin 128, a₂ k * d₂ * w₂ k) + b₂)))
    (Ideal.ofBits .f32 0x00000000#32)

/-! ## The block's arithmetic at an entry -/

/-- A column `[a, 1]` broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

local notation "DK" => dot_S2000x128_S128x128_S2000x128_1_0_0_1_n_n

theorem DK_lhs0 (i : S2000x128.Idx) (q : (DK).contr.Idx) : ((DK).lhsIdx i q 0).val = (i 0).val := by
  unfold DotDims.lhsIdx
  rw [dif_neg (show ¬(0 : Fin S2000x128.rank) ∈ (DK).lhsBatch by decide), dif_pos (show (0 : Fin S2000x128.rank) ∈ (DK).lhsNonContracting by decide)]
  rfl
theorem DK_lhs1 (i : S2000x128.Idx) (q : (DK).contr.Idx) : ((DK).lhsIdx i q 1).val = (q ⟨0, by decide⟩).val :=
  (DK).lhsIdx_val_of_single rfl i q
theorem DK_rhs0 (i : S2000x128.Idx) (q : (DK).contr.Idx) : ((DK).rhsIdx i q 0).val = (q ⟨0, by decide⟩).val :=
  (DK).rhsIdx_val_of_single rfl i q
theorem DK_rhs1 (i : S2000x128.Idx) (q : (DK).contr.Idx) : ((DK).rhsIdx i q 1).val = (i 1).val := by
  unfold DotDims.rhsIdx
  rw [dif_neg (show ¬(1 : Fin S128x128.rank) ∈ (DK).rhsBatch by decide), dif_pos (show (1 : Fin S128x128.rank) ∈ (DK).rhsNonContracting by decide)]
  rfl

/-- The block's matrix product into a zero accumulator, at an entry: the sum over the contracted index. -/
theorem matmul_entry {φ₁ φ₂ : FTy} (l : FVec Ideal S2000x128 φ₁) (r : FVec Ideal S128x128 φ₂) (p : Fin 2000) (q : Fin 128) :
    matmul (F := Ideal) DK none l r (constant (F := Ideal) S2000x128 .f32 0x00000000#32) (ix2 p q)
      = ∑ k : Fin 128, l (ix2 p k) * r (ix2 k q) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : (DK).lhsIdx (ix2 p q) ((contrEquiv1 DK 128 rfl rfl).symm k) = ix2 p k := funext fun a => Fin.ext (by
    match a with
    | ⟨0, _⟩ => exact DK_lhs0 _ _
    | ⟨1, _⟩ => exact (DK_lhs1 _ _).trans hk)
  have er : (DK).rhsIdx (ix2 p q) ((contrEquiv1 DK 128 rfl rfl).symm k) = ix2 k q := funext fun a => Fin.ext (by
    match a with
    | ⟨0, _⟩ => exact (DK_rhs0 _ _).trans hk
    | ⟨1, _⟩ => exact DK_rhs1 _ _)
  rw [el, er]

/-- A row block scaled by its column of norms, at an entry. -/
theorem scaled_entry (x : Vec Ideal S2000x128 .f32) (d : Vec Ideal S2000x1 .f32) (p : Fin 2000) (k : Fin 128) :
    (truncf .bf16 (mulf (shapeCast S2000x128 x shapeCasts_S2000x128_S2000x128)
        (broadcastTo S2000x128 (shapeCast S2000x1 d shapeCasts_S2000x1_S2000x1) broadcasts_S2000x1_S2000x128)) bitsLt_bf16_f32 : FVec Ideal S2000x128 .bf16) (ix2 p k)
      = x (ix2 p k) * d (ix2 p (0 : Fin 1)) := by
  show shapeCast S2000x128 x shapeCasts_S2000x128_S2000x128 (ix2 p k)
      * broadcastTo S2000x128 (shapeCast S2000x1 d shapeCasts_S2000x1_S2000x1) broadcasts_S2000x1_S2000x128 (ix2 p k) = _
  rw [shapeCast_self, shapeCast_self, broadcastTo_a1_ab_apply]

/-- A bias row laid over every row of the block, at an entry. -/
theorem bias_entry (b : Vec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The body's stored value at an entry of the block, from the loaded blocks. -/
theorem pay_entry (x0 : Vec Ideal S2000x128 .f32) (x1 : Vec Ideal S2000x1 .f32) (x4 : Vec Ideal S2000x128 .f32) (x5 : Vec Ideal S2000x1 .f32)
    (x2 x6 : Vec Ideal S128x128 .f32) (x3 x7 : Vec Ideal S128 .f32) (p : Fin 2000) (q : Fin 128) :
    k3_pay1 (F := Ideal) x0 x1 x4 x5 x2 x6 x3 x7 (ix2 p q)
      = cell (fun k => x0 (ix2 p k)) (x1 (ix2 p (0 : Fin 1))) (fun k => x2 (ix2 k q)) (x3 (ix1 q))
          (fun k => x4 (ix2 p k)) (x5 (ix2 p (0 : Fin 1))) (fun k => x6 (ix2 k q)) (x7 (ix1 q)) := by
  unfold k3_pay1 cell
  show max (Ideal.ofBits .f32 0x3F000000#32 *
      ((matmul (F := Ideal) DK none _ _ (constant (F := Ideal) S2000x128 .f32 0x00000000#32) (ix2 p q) + broadcastTo S2000x128 _ broadcasts_S1x128_S2000x128 (ix2 p q))
       + (matmul (F := Ideal) DK none _ _ (constant (F := Ideal) S2000x128 .f32 0x00000000#32) (ix2 p q) + broadcastTo S2000x128 _ broadcasts_S1x128_S2000x128 (ix2 p q))))
      (Ideal.ofBits .f32 0x00000000#32) = _
  rw [matmul_entry, matmul_entry, bias_entry, bias_entry]
  simp only [scaled_entry]
  rfl

/-- The same at any index of the block, the index split into its two coordinates. -/
theorem pay_entry_idx (x0 : Vec Ideal S2000x128 .f32) (x1 : Vec Ideal S2000x1 .f32) (x4 : Vec Ideal S2000x128 .f32) (x5 : Vec Ideal S2000x1 .f32)
    (x2 x6 : Vec Ideal S128x128 .f32) (x3 x7 : Vec Ideal S128 .f32) (y : S2000x128.Idx) :
    k3_pay1 (F := Ideal) x0 x1 x4 x5 x2 x6 x3 x7 y
      = cell (fun k => x0 (ix2 (⟨(y 0).val, idx2_lt0 y⟩ : Fin 2000) k)) (x1 (ix2 (⟨(y 0).val, idx2_lt0 y⟩ : Fin 2000) (0 : Fin 1)))
          (fun k => x2 (ix2 k (⟨(y 1).val, idx2_lt1 y⟩ : Fin 128))) (x3 (ix1 (⟨(y 1).val, idx2_lt1 y⟩ : Fin 128)))
          (fun k => x4 (ix2 (⟨(y 0).val, idx2_lt0 y⟩ : Fin 2000) k)) (x5 (ix2 (⟨(y 0).val, idx2_lt0 y⟩ : Fin 2000) (0 : Fin 1)))
          (fun k => x6 (ix2 k (⟨(y 1).val, idx2_lt1 y⟩ : Fin 128))) (x7 (ix1 (⟨(y 1).val, idx2_lt1 y⟩ : Fin 128))) := by
  obtain ⟨p, q, rfl⟩ : ∃ (p : Fin 2000) (q : Fin 128), y = ix2 p q := ⟨y 0, y 1, eq_ix2 y⟩
  exact pay_entry x0 x1 x4 x5 x2 x6 x3 x7 p q

/-! ## The specification at an entry -/

local notation "DR" => Cert.ReferenceIdeal.dot_S200000x128_S128x128_S200000x128_1_0_0_1_n_n

theorem DR_lhs0 (i : S200000x128.Idx) (q : (DR).contr.Idx) : ((DR).lhsIdx i q 0).val = (i 0).val := by
  unfold DotDims.lhsIdx
  rw [dif_neg (show ¬(0 : Fin S200000x128.rank) ∈ (DR).lhsBatch by decide), dif_pos (show (0 : Fin S200000x128.rank) ∈ (DR).lhsNonContracting by decide)]
  rfl
theorem DR_lhs1 (i : S200000x128.Idx) (q : (DR).contr.Idx) : ((DR).lhsIdx i q 1).val = (q ⟨0, by decide⟩).val :=
  (DR).lhsIdx_val_of_single rfl i q
theorem DR_rhs0 (i : S200000x128.Idx) (q : (DR).contr.Idx) : ((DR).rhsIdx i q 0).val = (q ⟨0, by decide⟩).val :=
  (DR).rhsIdx_val_of_single rfl i q
theorem DR_rhs1 (i : S200000x128.Idx) (q : (DR).contr.Idx) : ((DR).rhsIdx i q 1).val = (i 1).val := by
  unfold DotDims.rhsIdx
  rw [dif_neg (show ¬(1 : Fin S128x128.rank) ∈ (DR).rhsBatch by decide), dif_pos (show (1 : Fin S128x128.rank) ∈ (DR).rhsNonContracting by decide)]
  rfl

/-- The whole-array matrix product, at an entry: the sum over the contracted index. -/
theorem dot_entry (l : FVec Ideal S200000x128 .f32) (r : FVec Ideal S128x128 .f32) (p : Fin 200000) (q : Fin 128) :
    Host.dotGeneral (F := Ideal) DR none l r (ix2 p q) = ∑ k : Fin 128, l (ix2 p k) * r (ix2 k q) := by
  simp only [Host.dotGeneral]
  rw [Ideal.dotGeneral_apply, ← Equiv.sum_comp (contrEquiv1 DR 128 rfl rfl).symm]
  refine Finset.sum_congr rfl fun k _ => ?_
  have hk := contrEquiv1_symm_val DR 128 rfl rfl k
  have el : (DR).lhsIdx (ix2 p q) ((contrEquiv1 DR 128 rfl rfl).symm k) = ix2 p k := funext fun a => Fin.ext (by
    match a with
    | ⟨0, _⟩ => exact DR_lhs0 _ _
    | ⟨1, _⟩ => exact (DR_lhs1 _ _).trans hk)
  have er : (DR).rhsIdx (ix2 p q) ((contrEquiv1 DR 128 rfl rfl).symm k) = ix2 k q := funext fun a => Fin.ext (by
    match a with
    | ⟨0, _⟩ => exact (DR_rhs0 _ _).trans hk
    | ⟨1, _⟩ => exact DR_rhs1 _ _)
  rw [el, er]

/-- A scalar constant spread over an array reads the constant everywhere. -/
theorem splat_entry {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h _ i ix0 (fun a => a.elim0)

/-- A column `[a, 1]` spread along the second axis reads the column's entry at the row. -/
theorem col_entry {α : Type} {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[b]` made `[1, b]` and spread along the first axis reads the row's entry at the column. -/
theorem row_entry {α : Type} {a b : ℕ} (h : (⟨2, ![1, b]⟩ : Shape).BroadcastsInDim ⟨2, ![a, b]⟩ (![0, 1] : Fin 2 → Fin 2))
    (h' : (⟨1, ![b]⟩ : Shape).BroadcastsInDim ⟨2, ![1, b]⟩ (![1] : Fin 1 → Fin 2))
    (v : (⟨1, ![b]⟩ : Shape).Idx → α) (p : Fin a) (c : Fin b) :
    broadcastInDim ⟨2, ![a, b]⟩ ![0, 1] h (broadcastInDim ⟨2, ![1, b]⟩ ![1] h' v) (ix2 p c) = v (ix1 c) := by
  refine (broadcastInDim_apply _ h _ (ix2 p c) (ix2 (0 : Fin 1) c) fun ax => ?_).trans
    (broadcastInDim_apply _ h' v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- The specification's composition of stages at an entry. -/
theorem spec_entry (a₁ : Cert.Stages.Arr Ideal S200000x128) (n₁ : Cert.Stages.Arr Ideal S200000x1) (W₁ : Cert.Stages.Arr Ideal S128x128) (b₁ : Cert.Stages.Arr Ideal S128)
    (a₂ : Cert.Stages.Arr Ideal S200000x128) (n₂ : Cert.Stages.Arr Ideal S200000x1) (W₂ : Cert.Stages.Arr Ideal S128x128) (b₂ : Cert.Stages.Arr Ideal S128)
    (p : Fin 200000) (q : Fin 128) :
    Cert.Stages.reluFe (F := Ideal) (Cert.Stages.layerFe a₁ n₁ W₁ b₁ a₂ n₂ W₂ b₂) (ix2 p q)
      = cell (fun k => a₁ (ix2 p k)) (n₁ (ix2 p (0 : Fin 1))) (fun k => W₁ (ix2 k q)) (b₁ (ix1 q))
          (fun k => a₂ (ix2 p k)) (n₂ (ix2 p (0 : Fin 1))) (fun k => W₂ (ix2 k q)) (b₂ (ix1 q)) := by
  unfold Cert.Stages.reluFe Cert.Stages.layerFe Cert.Stages.mean2Fe Cert.Stages.gconvFe cell
  simp only [maximumf_apply, mulf_apply, addf_apply]
  rw [splat_entry, splat_entry, dot_entry, dot_entry, row_entry, row_entry]
  have c₁ : ∀ k : Fin 128, broadcastInDim Cert.ReferenceIdeal.S200000x128 ![0, 1] Cert.ReferenceIdeal.Gen.bcast_S200000x1_S200000x128_0_1 n₁ (ix2 p k) = n₁ (ix2 p (0 : Fin 1)) :=
    fun k => col_entry _ n₁ p k
  have c₂ : ∀ k : Fin 128, broadcastInDim Cert.ReferenceIdeal.S200000x128 ![0, 1] Cert.ReferenceIdeal.Gen.bcast_S200000x1_S200000x128_0_1 n₂ (ix2 p k) = n₂ (ix2 p (0 : Fin 1)) :=
    fun k => col_entry _ n₂ p k
  simp only [mulf_apply, c₁, c₂]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the row-blocked windows sit at block row `t`, the weight and bias
    windows at block zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0 :=
  (by decide +kernel : ∀ t : Fin grid3.N, _)

/-! ### Each window's block at a point, as entries of its array -/

theorem blk0 (c : Dev nD) (t : Fin cfg3.N) (p : Fin 2000) (k : Fin 128) (r : Fin 200000) (hr : r.val = 2000 * t.val + p.val) :
    (iblk3 (F := Ideal) V c 0 t : Vec Ideal S2000x128 .f32) (ix2 p k) = (V c main_call0_v120 : S200000x128.Idx → EReal) (ix2 r k) := by
  obtain ⟨e00, e01, e10, e11, e20, e21, e30, e40, e41, e50, e51, e60, e61, e70, e80, e81⟩ := idx_facts t
  unfold iblk3
  rw [View.read_apply]
  show V c main_call0_v120 _ = V c main_call0_v120 _
  congr 1
  funext a
  apply Fin.ext
  match a with
  | ⟨0, _⟩ => show win3_0.index t (0 : Fin 2) * 2000 + 1 * p.val = r.val; rw [e00, hr]; omega
  | ⟨1, _⟩ => show win3_0.index t (1 : Fin 2) * 128 + 1 * k.val = k.val; rw [e01]; omega

theorem blk1 (c : Dev nD) (t : Fin cfg3.N) (p : Fin 2000) (r : Fin 200000) (hr : r.val = 2000 * t.val + p.val) :
    (iblk3 (F := Ideal) V c 1 t : Vec Ideal S2000x1 .f32) (ix2 p (0 : Fin 1)) = (V c main_call0_v78 : S200000x1.Idx → EReal) (ix2 r (0 : Fin 1)) := by
  obtain ⟨e00, e01, e10, e11, e20, e21, e30, e40, e41, e50, e51, e60, e61, e70, e80, e81⟩ := idx_facts t
  unfold iblk3
  rw [View.read_apply]
  show V c main_call0_v78 _ = V c main_call0_v78 _
  congr 1
  funext a
  apply Fin.ext
  match a with
  | ⟨0, _⟩ => show win3_1.index t (0 : Fin 2) * 2000 + 1 * p.val = r.val; rw [e10, hr]; omega
  | ⟨1, _⟩ => show win3_1.index t (1 : Fin 2) * 1 + 1 * 0 = 0; rw [e11]

theorem blk2 (c : Dev nD) (t : Fin cfg3.N) (k q : Fin 128) :
    (iblk3 (F := Ideal) V c 2 t : Vec Ideal S128x128 .f32) (ix2 k q) = (V c main_arg16 : S128x128.Idx → EReal) (ix2 k q) := by
  obtain ⟨e00, e01, e10, e11, e20, e21, e30, e40, e41, e50, e51, e60, e61, e70, e80, e81⟩ := idx_facts t
  unfold iblk3
  rw [View.read_apply]
  show V c main_arg16 _ = V c main_arg16 _
  congr 1
  funext a
  apply Fin.ext
  match a with
  | ⟨0, _⟩ => show win3_2.index t (0 : Fin 2) * 128 + 1 * k.val = k.val; rw [e20]; omega
  | ⟨1, _⟩ => show win3_2.index t (1 : Fin 2) * 128 + 1 * q.val = q.val; rw [e21]; omega

theorem blk3 (c : Dev nD) (t : Fin cfg3.N) (q : Fin 128) :
    (iblk3 (F := Ideal) V c 3 t : Vec Ideal S128 .f32) (ix1 q) = (V c main_arg17 : S128.Idx → EReal) (ix1 q) := by
  obtain ⟨e00, e01, e10, e11, e20, e21, e30, e40, e41, e50, e51, e60, e61, e70, e80, e81⟩ := idx_facts t
  unfold iblk3
  rw [View.read_apply]
  show V c main_arg17 _ = V c main_arg17 _
  congr 1
  funext a
  apply Fin.ext
  match a with
  | ⟨0, _⟩ => show win3_3.index t (0 : Fin 1) * 128 + 1 * q.val = q.val; rw [e30]; omega

theorem blk4 (c : Dev nD) (t : Fin cfg3.N) (p : Fin 2000) (k : Fin 128) (r : Fin 200000) (hr : r.val = 2000 * t.val + p.val) :
    (iblk3 (F := Ideal) V c 4 t : Vec Ideal S2000x128 .f32) (ix2 p k) = (V c main_call0_v133 : S200000x128.Idx → EReal) (ix2 r k) := by
  obtain ⟨e00, e01, e10, e11, e20, e21, e30, e40, e41, e50, e51, e60, e61, e70, e80, e81⟩ := idx_facts t
  unfold iblk3
  rw [View.read_apply]
  show V c main_call0_v133 _ = V c main_call0_v133 _
  congr 1
  funext a
  apply Fin.ext
  match a with
  | ⟨0, _⟩ => show win3_4.index t (0 : Fin 2) * 2000 + 1 * p.val = r.val; rw [e40, hr]; omega
  | ⟨1, _⟩ => show win3_4.index t (1 : Fin 2) * 128 + 1 * k.val = k.val; rw [e41]; omega

theorem blk5 (c : Dev nD) (t : Fin cfg3.N) (p : Fin 2000) (r : Fin 200000) (hr : r.val = 2000 * t.val + p.val) :
    (iblk3 (F := Ideal) V c 5 t : Vec Ideal S2000x1 .f32) (ix2 p (0 : Fin 1)) = (V c main_call0_v79 : S200000x1.Idx → EReal) (ix2 r (0 : Fin 1)) := by
  obtain ⟨e00, e01, e10, e11, e20, e21, e30, e40, e41, e50, e51, e60, e61, e70, e80, e81⟩ := idx_facts t
  unfold iblk3
  rw [View.read_apply]
  show V c main_call0_v79 _ = V c main_call0_v79 _
  congr 1
  funext a
  apply Fin.ext
  match a with
  | ⟨0, _⟩ => show win3_5.index t (0 : Fin 2) * 2000 + 1 * p.val = r.val; rw [e50, hr]; omega
  | ⟨1, _⟩ => show win3_5.index t (1 : Fin 2) * 1 + 1 * 0 = 0; rw [e51]

theorem blk6 (c : Dev nD) (t : Fin cfg3.N) (k q : Fin 128) :
    (iblk3 (F := Ideal) V c 6 t : Vec Ideal S128x128 .f32) (ix2 k q) = (V c main_arg20 : S128x128.Idx → EReal) (ix2 k q) := by
  obtain ⟨e00, e01, e10, e11, e20, e21, e30, e40, e41, e50, e51, e60, e61, e70, e80, e81⟩ := idx_facts t
  unfold iblk3
  rw [View.read_apply]
  show V c main_arg20 _ = V c main_arg20 _
  congr 1
  funext a
  apply Fin.ext
  match a with
  | ⟨0, _⟩ => show win3_6.index t (0 : Fin 2) * 128 + 1 * k.val = k.val; rw [e60]; omega
  | ⟨1, _⟩ => show win3_6.index t (1 : Fin 2) * 128 + 1 * q.val = q.val; rw [e61]; omega

theorem blk7 (c : Dev nD) (t : Fin cfg3.N) (q : Fin 128) :
    (iblk3 (F := Ideal) V c 7 t : Vec Ideal S128 .f32) (ix1 q) = (V c main_arg21 : S128.Idx → EReal) (ix1 q) := by
  obtain ⟨e00, e01, e10, e11, e20, e21, e30, e40, e41, e50, e51, e60, e61, e70, e80, e81⟩ := idx_facts t
  unfold iblk3
  rw [View.read_apply]
  show V c main_arg21 _ = V c main_arg21 _
  congr 1
  funext a
  apply Fin.ext
  match a with
  | ⟨0, _⟩ => show win3_7.index t (0 : Fin 1) * 128 + 1 * q.val = q.val; rw [e70]; omega

/-- An entry computed from the point's blocks is the entry computed from the arrays' rows the blocks hold. -/
theorem cell_blocks (c : Dev nD) (t : Fin cfg3.N) (p : Fin 2000) (q : Fin 128) (r : Fin 200000) (hr : r.val = 2000 * t.val + p.val) :
    cell (fun k => (iblk3 (F := Ideal) V c 0 t : Vec Ideal S2000x128 .f32) (ix2 p k)) ((iblk3 (F := Ideal) V c 1 t : Vec Ideal S2000x1 .f32) (ix2 p (0 : Fin 1)))
        (fun k => (iblk3 (F := Ideal) V c 2 t : Vec Ideal S128x128 .f32) (ix2 k q)) ((iblk3 (F := Ideal) V c 3 t : Vec Ideal S128 .f32) (ix1 q))
        (fun k => (iblk3 (F := Ideal) V c 4 t : Vec Ideal S2000x128 .f32) (ix2 p k)) ((iblk3 (F := Ideal) V c 5 t : Vec Ideal S2000x1 .f32) (ix2 p (0 : Fin 1)))
        (fun k => (iblk3 (F := Ideal) V c 6 t : Vec Ideal S128x128 .f32) (ix2 k q)) ((iblk3 (F := Ideal) V c 7 t : Vec Ideal S128 .f32) (ix1 q))
      = cell (fun k => (V c main_call0_v120 : S200000x128.Idx → EReal) (ix2 r k)) ((V c main_call0_v78 : S200000x1.Idx → EReal) (ix2 r (0 : Fin 1)))
        (fun k => (V c main_arg16 : S128x128.Idx → EReal) (ix2 k q)) ((V c main_arg17 : S128.Idx → EReal) (ix1 q))
        (fun k => (V c main_call0_v133 : S200000x128.Idx → EReal) (ix2 r k)) ((V c main_call0_v79 : S200000x1.Idx → EReal) (ix2 r (0 : Fin 1)))
        (fun k => (V c main_arg20 : S128x128.Idx → EReal) (ix2 k q)) ((V c main_arg21 : S128.Idx → EReal) (ix1 q)) := by
  rw [funext fun k => blk0 V c t p k r hr, blk1 V c t p r hr, funext fun k => blk2 V c t k q, blk3 V c t q,
    funext fun k => blk4 V c t p k r hr, blk5 V c t p r hr, funext fun k => blk6 V c t k q, blk7 V c t q]

/-! ### What a point writes back, and the array after the last point -/

/-- The whole output array as the specification's function of the whole input arrays. -/
abbrev G (c : Dev nD) : Buf (Elt Ideal) ((c : Thread nD τ).loc main_call0_v135) :=
  Cert.Stages.reluFe (Cert.Stages.layerFe (V c main_call0_v120) (V c main_call0_v78) (V c main_arg16) (V c main_arg17) (V c main_call0_v133) (V c main_call0_v79) (V c main_arg20) (V c main_arg21))

/-- What point `t` writes back is block `t` of `G`: rows `2000 t … 2000 t + 1999`. -/
theorem flushed_eq (c : Dev nD) (t : Fin cfg3.N) :
    (dat3 (F := Ideal) V c).flushed 8 t = ((cfg3.win 8).blk t).view.read (Elt Ideal) (G V c) := by
  show (cfg3.win 8).cut (grid3.coords t) ((dat3 V c).after 8 t) = _
  rw [after3_8]
  unfold out3_8
  rw [View.canon_unit_zero hz2]
  simp only [View.ld_unit_zero (S := S2000x128) hz2, View.ld_unit_zero (S := S2000x1) hz2, View.ld_unit_zero (S := S128x128) hz2, View.ld_unit_zero (S := S128) hz1]
  funext j
  have hj0 : (j 0).val < 2000 := (j 0).isLt
  have hj1 : (j 1).val < 128 := (j 1).isLt
  have hN : cfg3.N = 100 := N_3
  have ht : t.val < cfg3.N := t.isLt
  obtain ⟨e00, e01, e10, e11, e20, e21, e30, e40, e41, e50, e51, e60, e61, e70, e80, e81⟩ := idx_facts t
  rw [View.read_apply]
  have hemb : ((cfg3.win 8).blk t).view.emb j
      = (ix2 (⟨2000 * t.val + (j 0).val, by omega⟩ : Fin 200000) (⟨(j 1).val, hj1⟩ : Fin 128) : S200000x128.Idx) := by
    funext a
    apply Fin.ext
    match a with
    | ⟨0, _⟩ => show win3_8.index t (0 : Fin 2) * 2000 + 1 * (j 0).val = 2000 * t.val + (j 0).val; rw [e80]; omega
    | ⟨1, _⟩ => show win3_8.index t (1 : Fin 2) * 128 + 1 * (j 1).val = (j 1).val; rw [e81]; omega
  refine (pay_entry_idx (iblk3 V c 0 t) (iblk3 V c 1 t) (iblk3 V c 4 t) (iblk3 V c 5 t) (iblk3 V c 2 t) (iblk3 V c 6 t)
    (iblk3 V c 3 t) (iblk3 V c 7 t) ((cfg3.win 8).xinj (grid3.coords t) j)).trans ?_
  refine (cell_blocks V c t ⟨(j 0).val, hj0⟩ ⟨(j 1).val, hj1⟩ ⟨2000 * t.val + (j 0).val, by omega⟩ rfl).trans ?_
  exact (spec_entry (V c main_call0_v120) (V c main_call0_v78) (V c main_arg16) (V c main_arg17) (V c main_call0_v133) (V c main_call0_v79) (V c main_arg20) (V c main_arg21)
    ⟨2000 * t.val + (j 0).val, by omega⟩ ⟨(j 1).val, hj1⟩).symm.trans (congrArg (G V c) hemb).symm

/-- An index of the array is in point `t`'s block iff each coordinate is in the block's range on its axis. -/
theorem mem_blk (t : Fin cfg3.N) (i : S200000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_call0_v135).slice (win3_8.rect t)).set ↔ _
  rw [View.set_slice_whole, Rect.mem_set_unit]
  exact Iff.rfl

/-- Every row of the array is in the block of the point numbered by the row's quotient by 2000. -/
theorem cover (i : S200000x128.Idx) : ∃ t : Fin cfg3.N, (cfg3.win 8).flush t = true ∧ i ∈ ((cfg3.win 8).blk t).view.set := by
  have hi0 : (i 0).val < 200000 := (i 0).isLt
  have hi1 : (i 1).val < 128 := (i 1).isLt
  have hN : cfg3.N = 100 := N_3
  let t : Fin cfg3.N := ⟨(i 0).val / 2000, by rw [hN]; omega⟩
  obtain ⟨e00, e01, e10, e11, e20, e21, e30, e40, e41, e50, e51, e60, e61, e70, e80, e81⟩ := idx_facts t
  have ht : t.val = (i 0).val / 2000 := rfl
  refine ⟨t, flush3_8 t, ?_⟩
  rw [mem_blk]
  intro a
  match a with
  | ⟨0, _⟩ => show win3_8.index t (0 : Fin 2) * 2000 ≤ (i 0).val ∧ (i 0).val < win3_8.index t (0 : Fin 2) * 2000 + 2000; rw [e80, ht]; omega
  | ⟨1, _⟩ => show win3_8.index t (1 : Fin 2) * 128 ≤ (i 1).val ∧ (i 1).val < win3_8.index t (1 : Fin 2) * 128 + 128; rw [e81]; omega

/-- After the last point the output array is the specification's function of the input arrays. -/
theorem final (c : Dev nD) : (dat3 (F := Ideal) V c).arrAt 8 cfg3.N = Cert.Stages.reluFe (Cert.Stages.layerFe (V c main_call0_v120) (V c main_call0_v78) (V c main_arg16) (V c main_arg17) (V c main_call0_v133) (V c main_call0_v79) (V c main_arg20) (V c main_arg21)) :=
  (dat3 (F := Ideal) V c).arrAt_eq_of_cover 8 (G V c) (fun t _ => flushed_eq V c t) (cover)

end Cert.KernelIdeal.ReluFe

end
-- ==== Proof.HeadFr.lean ====
/-
  The last kernel over the frame rows.  Grid point t (of 100) owns rows [1000 t, 1000 (t + 1)) of the 100000 rows.
  From those rows of the two aggregates a₁, a₂, of the two norm columns nd₁, nd₂ and of the residual, and from the whole
  weights and biases, it writes the same rows of two arrays:
    h  = ½ ((a₁ · nd₁) W₁ + b₁ + ((a₂ · nd₂) W₂ + b₂)) + residual      and      h W + b,
  the second computed from the very h it has just stored.  A product into a zero accumulator is the plain sum over the
  128 contracted positions, which is also what the host's product is at the extended reals; a bias cast to one row and
  broadcast is the bias at the column; a norm column broadcast along a row is its entry at the row.  So a block entry
  and the whole-array function at the row the block entry sits at are the same sums of the same products, and since the
  100 blocks tile the rows, each array ends as the whole-array function.  No law of arithmetic is used.
-/
import proofs.«162449_j55422257988217_2_alg».proof.Proof.FrameI
import proofs.«162449_j55422257988217_2_alg».proof.Proof.Gen.KernelIdeal.Skeleton
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadFr

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.GenP

/-! ## Layout operations at an index -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` vector cast to one row and broadcast to `[a, b]` reads, at `(p, c)`, the vector at `c`. -/
theorem broadcastTo_row_apply {α : Type} {a b : ℕ} (v : (⟨1, ![b]⟩ : Shape).Idx → α)
    (hc : (⟨1, ![b]⟩ : Shape).ShapeCasts ⟨2, ![1, b]⟩) (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix1 c) :=
  (broadcastTo_1b_ab_apply _ h p c).trans (shapeCast_a_1a_apply v hc 0 c)

/-- The host's form of the same: a `[b]` vector broadcast in dimension 1 to `[1, b]`, then in dimensions 0, 1 to `[a, b]`. -/
theorem bcastRow_apply {α : Type} {a b : ℕ} (hb : b ≠ 1) (v : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (c : Fin b) :
    broadcastInDim ⟨2, ![a, b]⟩ ![0, 1] h₂ (broadcastInDim ⟨2, ![1, b]⟩ ![1] h₁ v) (ix2 p c) = v (ix1 c) := by
  refine (broadcastInDim_apply _ h₂ _ (ix2 p c) (ix2 (0 : Fin 1) c) (fun ax => match ax with
    | ⟨0, _⟩ => by show 0 = if (1 : Nat) = 1 then 0 else p.val; rw [if_pos rfl]
    | ⟨1, _⟩ => by show c.val = if b = 1 then 0 else c.val; rw [if_neg hb])).trans ?_
  exact broadcastInDim_apply _ h₁ v (ix2 (0 : Fin 1) c) (ix1 c) (fun ax => match ax with
    | ⟨0, _⟩ => by show c.val = if b = 1 then 0 else c.val; rw [if_neg hb])

/-- The host's column: an `[a, 1]` column broadcast in dimensions 0, 1 to `[a, b]` reads its entry at the row. -/
theorem bcastCol_apply {α : Type} {a b : ℕ} (ha : a ≠ 1) (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by show p.val = if a = 1 then 0 else p.val; rw [if_neg ha]
    | ⟨1, _⟩ => by show 0 = if (1 : Nat) = 1 then 0 else c.val; rw [if_pos rfl])

/-- A scalar constant broadcast in no dimension reads the constant everywhere. -/
theorem bcastScalar_apply {α : Type} {t : Shape} (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun ax => ax.elim0)

/-! ## The four products: the contracted index is one of 128 positions -/

theorem kmm_l0 (i : S1000x128.Idx) (q : dot_S1000x128_S128x128_S1000x128_1_0_0_1_n_n.contr.Idx) : (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem kmm_l1 (i : S1000x128.Idx) (q : dot_S1000x128_S128x128_S1000x128_1_0_0_1_n_n.contr.Idx) : (dot_S1000x128_S128x128_S1000x128_1_0_0_1_n_n.lhsIdx i q 1).val = (q ⟨0, by decide⟩).val :=
  dot_S1000x128_S128x128_S1000x128_1_0_0_1_n_n.lhsIdx_val_of_single rfl i q
theorem kmm_r0 (i : S1000x128.Idx) (q : dot_S1000x128_S128x128_S1000x128_1_0_0_1_n_n.contr.Idx) : (dot_S1000x128_S128x128_S1000x128_1_0_0_1_n_n.rhsIdx i q 0).val = (q ⟨0, by decide⟩).val :=
  dot_S1000x128_S128x128_S1000x128_1_0_0_1_n_n.rhsIdx_val_of_single rfl i q
theorem kmm_r1 (i : S1000x128.Idx) (q : dot_S1000x128_S128x128_S1000x128_1_0_0_1_n_n.contr.Idx) : (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl
/-- The sum over the record's one contracted axis is the sum over its 128 positions: left operand at (row, k), right at (k, column). -/
theorem kmm_sum (l : S1000x128.Idx → EReal) (r : S128x128.Idx → EReal) (p : Fin 1000) (c : Fin 128) :
    (∑ k : dot_S1000x128_S128x128_S1000x128_1_0_0_1_n_n.contr.Idx, l (dot_S1000x128_S128x128_S1000x128_1_0_0_1_n_n.lhsIdx (ix2 p c) k) * r (dot_S1000x128_S128x128_S1000x128_1_0_0_1_n_n.rhsIdx (ix2 p c) k))
      = ∑ k : Fin 128, l (ix2 p k) * r (ix2 k c) := by
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p c) ((ValueIdx.contrEquiv1 dot_S1000x128_S128x128_S1000x128_1_0_0_1_n_n 128 rfl rfl).symm k) = ix2 p k := funext fun a => Fin.ext (by
    match a with
    | ⟨0, _⟩ => exact kmm_l0 _ _
    | ⟨1, _⟩ => exact (kmm_l1 _ _).trans hk)
  have er : dot_S1000x128_S128x128_S1000x128_1_0_0_1_n_n.rhsIdx (ix2 p c) ((ValueIdx.contrEquiv1 dot_S1000x128_S128x128_S1000x128_1_0_0_1_n_n 128 rfl rfl).symm k) = ix2 k c := funext fun a => Fin.ext (by
    match a with
    | ⟨0, _⟩ => exact (kmm_r0 _ _).trans hk
    | ⟨1, _⟩ => exact kmm_r1 _ _)
  rw [el, er]

theorem kfc_l0 (i : S1000x512.Idx) (q : dot_S1000x128_S128x512_S1000x512_1_0_0_1_n_n.contr.Idx) : (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
theorem kfc_l1 (i : S1000x512.Idx) (q : dot_S1000x128_S128x512_S1000x512_1_0_0_1_n_n.contr.Idx) : (dot_S1000x128_S128x512_S1000x512_1_0_0_1_n_n.lhsIdx i q 1).val = (q ⟨0, by decide⟩).val :=
  dot_S1000x128_S128x512_S1000x512_1_0_0_1_n_n.lhsIdx_val_of_single rfl i q
theorem kfc_r0 (i : S1000x512.Idx) (q : dot_S1000x128_S128x512_S1000x512_1_0_0_1_n_n.contr.Idx) : (dot_S1000x128_S128x512_S1000x512_1_0_0_1_n_n.rhsIdx i q 0).val = (q ⟨0, by decide⟩).val :=
  dot_S1000x128_S128x512_S1000x512_1_0_0_1_n_n.rhsIdx_val_of_single rfl i q
theorem kfc_r1 (i : S1000x512.Idx) (q : dot_S1000x128_S128x512_S1000x512_1_0_0_1_n_n.contr.Idx) : (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl
/-- The sum over the record's one contracted axis is the sum over its 128 positions: left operand at (row, k), right at (k, column). -/
theorem kfc_sum (l : S1000x128.Idx → EReal) (r : S128x512.Idx → EReal) (p : Fin 1000) (c : Fin 512) :
    (∑ k : dot_S1000x128_S128x512_S1000x512_1_0_0_1_n_n.contr.Idx, l (dot_S1000x128_S128x512_S1000x512_1_0_0_1_n_n.lhsIdx (ix2 p c) k) * r (dot_S1000x128_S128x512_S1000x512_1_0_0_1_n_n.rhsIdx (ix2 p c) k))
      = ∑ k : Fin 128, l (ix2 p k) * r (ix2 k c) := by
  rw [← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx (ix2 p c) ((ValueIdx.contrEquiv1 dot_S1000x128_S128x512_S1000x512_1_0_0_1_n_n 128 rfl rfl).symm k) = ix2 p k := funext fun a => Fin.ext (by
    match a with
    | ⟨0, _⟩ => exact kfc_l0 _ _
    | ⟨1, _⟩ => exact (kfc_l1 _ _).trans hk)
  have er : dot_S1000x128_S128x512_S1000x512_1_0_0_1_n_n.rhsIdx (ix2 p c) ((ValueIdx.contrEquiv1 dot_S1000x128_S128x512_S1000x512_1_0_0_1_n_n 128 rfl rfl).symm k) = ix2 k c := funext fun a => Fin.ext (by
    match a with
    | ⟨0, _⟩ => exact (kfc_r0 _ _).trans hk
    | ⟨1, _⟩ => exact kfc_r1 _ _)
  rw [el, er]

theorem hmm_l0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem hmm_l1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem hmm_r0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem hmm_r1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl
/-- The sum over the record's one contracted axis is the sum over its 128 positions: left operand at (row, k), right at (k, column). -/
theorem hmm_sum (l : Cert.ReferenceIdeal.S100000x128.Idx → EReal) (r : Cert.ReferenceIdeal.S128x128.Idx → EReal) (p : Fin 100000) (c : Fin 128) :
    (∑ k : Cert.ReferenceIdeal.dot_S100000x128_S128x128_S100000x128_1_0_0_1_n_n.contr.Idx, l (Cert.ReferenceIdeal.dot_S100000x128_S128x128_S100000x128_1_0_0_1_n_n.lhsIdx (ix2 p c) k) * r (Cert.ReferenceIdeal.dot_S100000x128_S128x128_S100000x128_1_0_0_1_n_n.rhsIdx (ix2 p c) k))
      = ∑ k : Fin 128, l (ix2 p k) * r (ix2 k c) := by
  rw [← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p c) ((ValueIdx.contrEquiv1 Cert.ReferenceIdeal.dot_S100000x128_S128x128_S100000x128_1_0_0_1_n_n 128 rfl rfl).symm k) = ix2 p k := funext fun a => Fin.ext (by
    match a with
    | ⟨0, _⟩ => exact hmm_l0 _ _
    | ⟨1, _⟩ => exact (hmm_l1 _ _).trans hk)
  have er : Cert.ReferenceIdeal.dot_S100000x128_S128x128_S100000x128_1_0_0_1_n_n.rhsIdx (ix2 p c) ((ValueIdx.contrEquiv1 Cert.ReferenceIdeal.dot_S100000x128_S128x128_S100000x128_1_0_0_1_n_n 128 rfl rfl).symm k) = ix2 k c := funext fun a => Fin.ext (by
    match a with
    | ⟨0, _⟩ => exact (hmm_r0 _ _).trans hk
    | ⟨1, _⟩ => exact hmm_r1 _ _)
  rw [el, er]

theorem hfc_l0 (i : Cert.ReferenceIdeal.S100000x512.Idx) (q : Cert.ReferenceIdeal.dot_S100000x128_S128x512_S100000x512_1_0_0_1_n_n.contr.Idx) : (Cert.ReferenceIdeal.dot_S100000x128_S128x512_S100000x512_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x512_S100000x512_1_0_0_1_n_n.lhsBatch by decide), dif_pos (show (0 : Fin Cert.ReferenceIdeal.S100000x128.rank) ∈ Cert.ReferenceIdeal.dot_S100000x128_S128x512_S100000x512_1_0_0_1_n_n.lhsNonContracting by decide)]
  rfl
theorem hfc_l1 (i : Cert.ReferenceIdeal.S100000x512.Idx) (q : Cert.ReferenceIdeal.dot_S100000x128_S128x512_S100000x512_1_0_0_1_n_n.contr.Idx) : (Cert.ReferenceIdeal.dot_S100000x128_S128x512_S100000x512_1_0_0_1_n_n.lhsIdx i q 1).val = (q ⟨0, by decide⟩).val :=
  Cert.ReferenceIdeal.dot_S100000x128_S128x512_S100000x512_1_0_0_1_n_n.lhsIdx_val_of_single rfl i q
theorem hfc_r0 (i : Cert.ReferenceIdeal.S100000x512.Idx) (q : Cert.ReferenceIdeal.dot_S100000x128_S128x512_S100000x512_1_0_0_1_n_n.contr.Idx) : (Cert.ReferenceIdeal.dot_S100000x128_S128x512_S100000x512_1_0_0_1_n_n.rhsIdx i q 0).val = (q ⟨0, by decide⟩).val :=
  Cert.ReferenceIdeal.dot_S100000x128_S128x512_S100000x512_1_0_0_1_n_n.rhsIdx_val_of_single rfl i q
theorem hfc_r1 (i : Cert.ReferenceIdeal.S100000x512.Idx) (q : Cert.ReferenceIdeal.dot_S100000x128_S128x512_S100000x512_1_0_0_1_n_n.contr.Idx) : (Cert.ReferenceIdeal.dot_S100000x128_S128x512_S100000x512_1_0_0_1_n_n.rhsIdx i q 1).val = (i 1).val := by
  unfold DotDims.rhsIdx
  rw [dif_neg (show ¬(1 : Fin Cert.ReferenceIdeal.S128x512.rank) ∈ Cert.ReferenceIdeal.dot_S100000x128_S128x512_S100000x512_1_0_0_1_n_n.rhsBatch by decide), dif_pos (show (1 : Fin Cert.ReferenceIdeal.S128x512.rank) ∈ Cert.ReferenceIdeal.dot_S100000x128_S128x512_S100000x512_1_0_0_1_n_n.rhsNonContracting by decide)]
  rfl
/-- The sum over the record's one contracted axis is the sum over its 128 positions: left operand at (row, k), right at (k, column). -/
theorem hfc_sum (l : Cert.ReferenceIdeal.S100000x128.Idx → EReal) (r : Cert.ReferenceIdeal.S128x512.Idx → EReal) (p : Fin 100000) (c : Fin 512) :
    (∑ k : Cert.ReferenceIdeal.dot_S100000x128_S128x512_S100000x512_1_0_0_1_n_n.contr.Idx, l (Cert.ReferenceIdeal.dot_S100000x128_S128x512_S100000x512_1_0_0_1_n_n.lhsIdx (ix2 p c) k) * r (Cert.ReferenceIdeal.dot_S100000x128_S128x512_S100000x512_1_0_0_1_n_n.rhsIdx (ix2 p c) k))
      = ∑ k : Fin 128, l (ix2 p k) * r (ix2 k c) := by
  rw [← Equiv.sum_comp (ValueIdx.contrEquiv1 Cert.ReferenceIdeal.dot_S100000x128_S128x512_S100000x512_1_0_0_1_n_n 128 rfl rfl).symm]
  refine Finset.sum_congr rfl fun k _ => ?_
  have hk := ValueIdx.contrEquiv1_symm_val Cert.ReferenceIdeal.dot_S100000x128_S128x512_S100000x512_1_0_0_1_n_n 128 rfl rfl k
  have el : Cert.ReferenceIdeal.dot_S100000x128_S128x512_S100000x512_1_0_0_1_n_n.lhsIdx (ix2 p c) ((ValueIdx.contrEquiv1 Cert.ReferenceIdeal.dot_S100000x128_S128x512_S100000x512_1_0_0_1_n_n 128 rfl rfl).symm k) = ix2 p k := funext fun a => Fin.ext (by
    match a with
    | ⟨0, _⟩ => exact hfc_l0 _ _
    | ⟨1, _⟩ => exact (hfc_l1 _ _).trans hk)
  have er : Cert.ReferenceIdeal.dot_S100000x128_S128x512_S100000x512_1_0_0_1_n_n.rhsIdx (ix2 p c) ((ValueIdx.contrEquiv1 Cert.ReferenceIdeal.dot_S100000x128_S128x512_S100000x512_1_0_0_1_n_n 128 rfl rfl).symm k) = ix2 k c := funext fun a => Fin.ext (by
    match a with
    | ⟨0, _⟩ => exact (hfc_r0 _ _).trans hk
    | ⟨1, _⟩ => exact hfc_r1 _ _)
  rw [el, er]

/-! ## The body's arithmetic at a block entry -/

/-- The h the body stores, at block entry (p, q): half the sum of the two convolutions' entries, plus the residual's. -/
theorem pay2_apply (x0 : Vec Ideal S1000x128 .f32) (x1 : Vec Ideal S1000x1 .f32) (x4 : Vec Ideal S1000x128 .f32) (x5 : Vec Ideal S1000x1 .f32)
    (x2 x6 : Vec Ideal S128x128 .f32) (x3 x7 : Vec Ideal S128 .f32) (x8 : Vec Ideal S1000x128 .f32) (p : Fin 1000) (q : Fin 128) :
    k4_pay2 (F := Ideal) x0 x1 x4 x5 x2 x6 x3 x7 x8 (ix2 p q)
      = Ideal.ofBits .f32 0x3F000000#32
          * (((∑ k : Fin 128, (x0 (ix2 p k) * x1 (ix2 p (0 : Fin 1))) * x2 (ix2 k q)) + x3 (ix1 q))
            + ((∑ k : Fin 128, (x4 (ix2 p k) * x5 (ix2 p (0 : Fin 1))) * x6 (ix2 k q)) + x7 (ix1 q)))
        + x8 (ix2 p q) := by
  unfold k4_pay2
  simp only [addf_apply, mulf_apply, broadcast_apply, shapeCast_self, matmul]
  rw [Ideal.matmul_constant_zero_apply, Ideal.matmul_constant_zero_apply, kmm_sum, kmm_sum,
    broadcastTo_row_apply, broadcastTo_row_apply]
  simp only [truncf_apply, mulf_apply, broadcastTo_a1_ab_apply]
  rfl

/-- The head the body stores, at block entry (p, q), from the h block `v` it has just computed. -/
theorem pay1_apply (v : FVec Ideal S1000x128 .bf16) (w : Vec Ideal S128x512 .f32) (b : Vec Ideal S512 .f32) (p : Fin 1000) (q : Fin 512) :
    k4_pay1 (F := Ideal) v w b (ix2 p q) = (∑ k : Fin 128, v (ix2 p k) * w (ix2 k q)) + b (ix1 q) := by
  unfold k4_pay1
  simp only [addf_apply, matmul]
  rw [Ideal.matmul_constant_zero_apply, kfc_sum, broadcastTo_row_apply]
  simp only [truncf_apply]

/-- The h block handed on to the head is the stored one: the change of format is the identity. -/
theorem pay3_apply (x0 : Vec Ideal S1000x128 .f32) (x1 : Vec Ideal S1000x1 .f32) (x4 : Vec Ideal S1000x128 .f32) (x5 : Vec Ideal S1000x1 .f32)
    (x2 x6 : Vec Ideal S128x128 .f32) (x3 x7 : Vec Ideal S128 .f32) (x8 : Vec Ideal S1000x128 .f32) (y : S1000x128.Idx) :
    k4_pay3 (F := Ideal) x0 x1 x4 x5 x2 x6 x3 x7 x8 y = k4_pay2 (F := Ideal) x0 x1 x4 x5 x2 x6 x3 x7 x8 y := rfl

/-! ## The whole-array functions at an entry -/

abbrev ArrRx128 := Cert.Stages.Arr Ideal Cert.ReferenceIdeal.S100000x128
abbrev ArrRx1 := Cert.Stages.Arr Ideal Cert.ReferenceIdeal.S100000x1
abbrev ArrW := Cert.Stages.Arr Ideal Cert.ReferenceIdeal.S128x128
abbrev ArrB := Cert.Stages.Arr Ideal Cert.ReferenceIdeal.S128
abbrev ArrWf := Cert.Stages.Arr Ideal Cert.ReferenceIdeal.S128x512
abbrev ArrBf := Cert.Stages.Arr Ideal Cert.ReferenceIdeal.S512

theorem gconv_apply (a : ArrRx128) (nd : ArrRx1) (W : ArrW) (b : ArrB) (r : Fin 100000) (q : Fin 128) :
    Cert.Stages.gconvFr (F := Ideal) a nd W b (ix2 r q)
      = (∑ k : Fin 128, (a (ix2 r k) * nd (ix2 r (0 : Fin 1))) * W (ix2 k q)) + b (ix1 q) := by
  unfold Cert.Stages.gconvFr
  rw [addf_apply]
  simp only [Host.dotGeneral]
  rw [Ideal.dotGeneral_apply, hmm_sum, bcastRow_apply (by decide)]
  simp only [mulf_apply, bcastCol_apply (a := 100000) (b := 128) (by decide)]

theorem layer_apply (a₁ : ArrRx128) (nd₁ : ArrRx1) (W₁ : ArrW) (b₁ : ArrB) (a₂ : ArrRx128) (nd₂ : ArrRx1) (W₂ : ArrW) (b₂ : ArrB)
    (r : Fin 100000) (q : Fin 128) :
    Cert.Stages.layerFr (F := Ideal) a₁ nd₁ W₁ b₁ a₂ nd₂ W₂ b₂ (ix2 r q)
      = Ideal.ofBits .f32 0x3F000000#32
          * (((∑ k : Fin 128, (a₁ (ix2 r k) * nd₁ (ix2 r (0 : Fin 1))) * W₁ (ix2 k q)) + b₁ (ix1 q))
            + ((∑ k : Fin 128, (a₂ (ix2 r k) * nd₂ (ix2 r (0 : Fin 1))) * W₂ (ix2 k q)) + b₂ (ix1 q))) := by
  unfold Cert.Stages.layerFr Cert.Stages.mean2Fr
  rw [mulf_apply, addf_apply, gconv_apply, gconv_apply, bcastScalar_apply]
  rfl

theorem fc_apply (h : ArrRx128) (W : ArrWf) (b : ArrBf) (r : Fin 100000) (q : Fin 512) :
    Cert.Stages.fcFr (F := Ideal) h W b (ix2 r q) = (∑ k : Fin 128, h (ix2 r k) * W (ix2 k q)) + b (ix1 q) := by
  unfold Cert.Stages.fcFr
  rw [addf_apply]
  simp only [Host.dotGeneral]
  rw [Ideal.dotGeneral_apply, hfc_sum, bcastRow_apply (by decide)]

/-! ## A block entry is the whole-array function at the row it sits at -/

/-- The new frame rows: the layer's mean of the two convolutions, plus the residual rows. -/
def hArr (a₁ : ArrRx128) (nd₁ : ArrRx1) (W₁ : ArrW) (b₁ : ArrB) (a₂ : ArrRx128) (nd₂ : ArrRx1) (W₂ : ArrW) (b₂ : ArrB) (res : ArrRx128) : ArrRx128 :=
  addf (F := Ideal) (s := Cert.ReferenceIdeal.S100000x128) (φ := .f32) (Cert.Stages.layerFr (F := Ideal) a₁ nd₁ W₁ b₁ a₂ nd₂ W₂ b₂) res

/-- If the row-blocked inputs' blocks hold, at block row `p`, the arrays' row `r`, the stored h at (p, q) is `hArr` at (r, q). -/
theorem h_entry (x0 : Vec Ideal S1000x128 .f32) (x1 : Vec Ideal S1000x1 .f32) (x4 : Vec Ideal S1000x128 .f32) (x5 : Vec Ideal S1000x1 .f32)
    (x8 : Vec Ideal S1000x128 .f32)
    (a₁ : ArrRx128) (nd₁ : ArrRx1) (W₁ : ArrW) (b₁ : ArrB) (a₂ : ArrRx128) (nd₂ : ArrRx1) (W₂ : ArrW) (b₂ : ArrB) (res : ArrRx128)
    (p : Fin 1000) (r : Fin 100000)
    (h0 : ∀ k : Fin 128, x0 (ix2 p k) = a₁ (ix2 r k)) (h1 : x1 (ix2 p (0 : Fin 1)) = nd₁ (ix2 r (0 : Fin 1)))
    (h4 : ∀ k : Fin 128, x4 (ix2 p k) = a₂ (ix2 r k)) (h5 : x5 (ix2 p (0 : Fin 1)) = nd₂ (ix2 r (0 : Fin 1)))
    (h8 : ∀ k : Fin 128, x8 (ix2 p k) = res (ix2 r k)) (q : Fin 128) :
    k4_pay2 (F := Ideal) x0 x1 x4 x5 W₁ W₂ b₁ b₂ x8 (ix2 p q) = hArr a₁ nd₁ W₁ b₁ a₂ nd₂ W₂ b₂ res (ix2 r q) := by
  unfold hArr
  rw [pay2_apply, addf_apply, layer_apply, h1, h5, h8 q]
  simp only [h0, h4]

/-- And the stored head at (p, q) is the head of `hArr` at (r, q): its h block is the one just stored. -/
theorem fc_entry (x0 : Vec Ideal S1000x128 .f32) (x1 : Vec Ideal S1000x1 .f32) (x4 : Vec Ideal S1000x128 .f32) (x5 : Vec Ideal S1000x1 .f32)
    (x8 : Vec Ideal S1000x128 .f32)
    (a₁ : ArrRx128) (nd₁ : ArrRx1) (W₁ : ArrW) (b₁ : ArrB) (a₂ : ArrRx128) (nd₂ : ArrRx1) (W₂ : ArrW) (b₂ : ArrB) (res : ArrRx128)
    (Wf : ArrWf) (bf : ArrBf) (p : Fin 1000) (r : Fin 100000)
    (h0 : ∀ k : Fin 128, x0 (ix2 p k) = a₁ (ix2 r k)) (h1 : x1 (ix2 p (0 : Fin 1)) = nd₁ (ix2 r (0 : Fin 1)))
    (h4 : ∀ k : Fin 128, x4 (ix2 p k) = a₂ (ix2 r k)) (h5 : x5 (ix2 p (0 : Fin 1)) = nd₂ (ix2 r (0 : Fin 1)))
    (h8 : ∀ k : Fin 128, x8 (ix2 p k) = res (ix2 r k)) (q : Fin 512) :
    k4_pay1 (F := Ideal) (k4_pay3 (F := Ideal) x0 x1 x4 x5 W₁ W₂ b₁ b₂ x8) Wf bf (ix2 p q)
      = Cert.Stages.fcFr (F := Ideal) (hArr a₁ nd₁ W₁ b₁ a₂ nd₂ W₂ b₂ res) Wf bf (ix2 r q) := by
  rw [pay1_apply, fc_apply]
  simp only [pay3_apply, h_entry x0 x1 x4 x5 x8 a₁ nd₁ W₁ b₁ a₂ nd₂ W₂ b₂ res p r h0 h1 h4 h5 h8]

/-! ## From blocks to the arrays -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! The block each window is at, at point t, decided over the grid: row block t (column block 0) for the row-blocked
    windows, block 0 for the whole ones. -/
theorem idx0 : ∀ t : Fin cfg4.N, win4_0.index t (0 : Fin 2) = t.val ∧ win4_0.index t (1 : Fin 2) = 0 :=
  (by decide +kernel : ∀ t : Fin grid4.N, _)
theorem idx1 : ∀ t : Fin cfg4.N, win4_1.index t (0 : Fin 2) = t.val ∧ win4_1.index t (1 : Fin 2) = 0 :=
  (by decide +kernel : ∀ t : Fin grid4.N, _)
theorem idx2 : ∀ t : Fin cfg4.N, win4_2.index t (0 : Fin 2) = 0 ∧ win4_2.index t (1 : Fin 2) = 0 :=
  (by decide +kernel : ∀ t : Fin grid4.N, _)
theorem idx3 : ∀ t : Fin cfg4.N, win4_3.index t (0 : Fin 1) = 0 :=
  (by decide +kernel : ∀ t : Fin grid4.N, _)
theorem idx4 : ∀ t : Fin cfg4.N, win4_4.index t (0 : Fin 2) = t.val ∧ win4_4.index t (1 : Fin 2) = 0 :=
  (by decide +kernel : ∀ t : Fin grid4.N, _)
theorem idx5 : ∀ t : Fin cfg4.N, win4_5.index t (0 : Fin 2) = t.val ∧ win4_5.index t (1 : Fin 2) = 0 :=
  (by decide +kernel : ∀ t : Fin grid4.N, _)
theorem idx6 : ∀ t : Fin cfg4.N, win4_6.index t (0 : Fin 2) = 0 ∧ win4_6.index t (1 : Fin 2) = 0 :=
  (by decide +kernel : ∀ t : Fin grid4.N, _)
theorem idx7 : ∀ t : Fin cfg4.N, win4_7.index t (0 : Fin 1) = 0 :=
  (by decide +kernel : ∀ t : Fin grid4.N, _)
theorem idx8 : ∀ t : Fin cfg4.N, win4_8.index t (0 : Fin 2) = t.val ∧ win4_8.index t (1 : Fin 2) = 0 :=
  (by decide +kernel : ∀ t : Fin grid4.N, _)
theorem idx9 : ∀ t : Fin cfg4.N, win4_9.index t (0 : Fin 2) = 0 ∧ win4_9.index t (1 : Fin 2) = 0 :=
  (by decide +kernel : ∀ t : Fin grid4.N, _)
theorem idx10 : ∀ t : Fin cfg4.N, win4_10.index t (0 : Fin 1) = 0 :=
  (by decide +kernel : ∀ t : Fin grid4.N, _)
theorem idx11 : ∀ t : Fin cfg4.N, win4_11.index t (0 : Fin 2) = t.val ∧ win4_11.index t (1 : Fin 2) = 0 :=
  (by decide +kernel : ∀ t : Fin grid4.N, _)
theorem idx12 : ∀ t : Fin cfg4.N, win4_12.index t (0 : Fin 2) = t.val ∧ win4_12.index t (1 : Fin 2) = 0 :=
  (by decide +kernel : ∀ t : Fin grid4.N, _)

/-- Window 0's block at point t holds, at block row p, row 1000 t + p of its array. -/
theorem blk0_apply (c : Dev nD) (t : Fin cfg4.N) (p : Fin 1000) (k : Fin 128) (r : Fin 100000) (hr : r.val = t.val * 1000 + p.val) :
    (iblk4 (F := Ideal) V c 0 t : Vec Ideal S1000x128 .f32) (ix2 p k) = (V c main_call0_v148 : S100000x128.Idx → Elt Ideal .f32) (ix2 r k) := by
  have e := idx0 t
  unfold iblk4
  rw [View.read_apply]
  show V c main_call0_v148 _ = V c main_call0_v148 _
  refine congrArg _ (funext fun a => Fin.ext ?_)
  match a with
  | ⟨0, _⟩ => show win4_0.index t (0 : Fin 2) * 1000 + 1 * p.val = r.val; rw [e.1, hr]; omega
  | ⟨1, _⟩ => show win4_0.index t (1 : Fin 2) * 128 + 1 * k.val = k.val; rw [e.2]; omega

/-- Window 1's block at point t holds, at block row p, row 1000 t + p of its array. -/
theorem blk1_apply (c : Dev nD) (t : Fin cfg4.N) (p : Fin 1000) (k : Fin 1) (r : Fin 100000) (hr : r.val = t.val * 1000 + p.val) :
    (iblk4 (F := Ideal) V c 1 t : Vec Ideal S1000x1 .f32) (ix2 p k) = (V c main_call0_v76 : S100000x1.Idx → Elt Ideal .f32) (ix2 r k) := by
  have e := idx1 t
  unfold iblk4
  rw [View.read_apply]
  show V c main_call0_v76 _ = V c main_call0_v76 _
  refine congrArg _ (funext fun a => Fin.ext ?_)
  match a with
  | ⟨0, _⟩ => show win4_1.index t (0 : Fin 2) * 1000 + 1 * p.val = r.val; rw [e.1, hr]; omega
  | ⟨1, _⟩ => show win4_1.index t (1 : Fin 2) * 1 + 1 * k.val = k.val; rw [e.2]; omega

/-- Window 4's block at point t holds, at block row p, row 1000 t + p of its array. -/
theorem blk4_apply (c : Dev nD) (t : Fin cfg4.N) (p : Fin 1000) (k : Fin 128) (r : Fin 100000) (hr : r.val = t.val * 1000 + p.val) :
    (iblk4 (F := Ideal) V c 4 t : Vec Ideal S1000x128 .f32) (ix2 p k) = (V c main_call0_v161 : S100000x128.Idx → Elt Ideal .f32) (ix2 r k) := by
  have e := idx4 t
  unfold iblk4
  rw [View.read_apply]
  show V c main_call0_v161 _ = V c main_call0_v161 _
  refine congrArg _ (funext fun a => Fin.ext ?_)
  match a with
  | ⟨0, _⟩ => show win4_4.index t (0 : Fin 2) * 1000 + 1 * p.val = r.val; rw [e.1, hr]; omega
  | ⟨1, _⟩ => show win4_4.index t (1 : Fin 2) * 128 + 1 * k.val = k.val; rw [e.2]; omega

/-- Window 5's block at point t holds, at block row p, row 1000 t + p of its array. -/
theorem blk5_apply (c : Dev nD) (t : Fin cfg4.N) (p : Fin 1000) (k : Fin 1) (r : Fin 100000) (hr : r.val = t.val * 1000 + p.val) :
    (iblk4 (F := Ideal) V c 5 t : Vec Ideal S1000x1 .f32) (ix2 p k) = (V c main_call0_v77 : S100000x1.Idx → Elt Ideal .f32) (ix2 r k) := by
  have e := idx5 t
  unfold iblk4
  rw [View.read_apply]
  show V c main_call0_v77 _ = V c main_call0_v77 _
  refine congrArg _ (funext fun a => Fin.ext ?_)
  match a with
  | ⟨0, _⟩ => show win4_5.index t (0 : Fin 2) * 1000 + 1 * p.val = r.val; rw [e.1, hr]; omega
  | ⟨1, _⟩ => show win4_5.index t (1 : Fin 2) * 1 + 1 * k.val = k.val; rw [e.2]; omega

/-- Window 8's block at point t holds, at block row p, row 1000 t + p of its array. -/
theorem blk8_apply (c : Dev nD) (t : Fin cfg4.N) (p : Fin 1000) (k : Fin 128) (r : Fin 100000) (hr : r.val = t.val * 1000 + p.val) :
    (iblk4 (F := Ideal) V c 8 t : Vec Ideal S1000x128 .f32) (ix2 p k) = (V c main_call0_v80 : S100000x128.Idx → Elt Ideal .f32) (ix2 r k) := by
  have e := idx8 t
  unfold iblk4
  rw [View.read_apply]
  show V c main_call0_v80 _ = V c main_call0_v80 _
  refine congrArg _ (funext fun a => Fin.ext ?_)
  match a with
  | ⟨0, _⟩ => show win4_8.index t (0 : Fin 2) * 1000 + 1 * p.val = r.val; rw [e.1, hr]; omega
  | ⟨1, _⟩ => show win4_8.index t (1 : Fin 2) * 128 + 1 * k.val = k.val; rw [e.2]; omega

/-- Window 2's block is its whole array at every point. -/
theorem blk2_eq (c : Dev nD) (t : Fin cfg4.N) :
    (iblk4 (F := Ideal) V c 2 t : Vec Ideal S128x128 .f32) = (V c main_arg14 : S128x128.Idx → Elt Ideal .f32) := by
  have e := idx2 t
  funext y
  unfold iblk4
  rw [View.read_apply]
  show V c main_arg14 _ = V c main_arg14 y
  refine congrArg _ (funext fun a => Fin.ext ?_)
  match a with
  | ⟨0, _⟩ => show win4_2.index t (0 : Fin 2) * 128 + 1 * (y 0).val = (y 0).val; rw [e.1]; omega
  | ⟨1, _⟩ => show win4_2.index t (1 : Fin 2) * 128 + 1 * (y 1).val = (y 1).val; rw [e.2]; omega

/-- Window 3's block is its whole array at every point. -/
theorem blk3_eq (c : Dev nD) (t : Fin cfg4.N) :
    (iblk4 (F := Ideal) V c 3 t : Vec Ideal S128 .f32) = (V c main_arg15 : S128.Idx → Elt Ideal .f32) := by
  have e := idx3 t
  funext y
  unfold iblk4
  rw [View.read_apply]
  show V c main_arg15 _ = V c main_arg15 y
  refine congrArg _ (funext fun a => Fin.ext ?_)
  match a with
  | ⟨0, _⟩ => show win4_3.index t (0 : Fin 1) * 128 + 1 * (y 0).val = (y 0).val; rw [e]; omega

/-- Window 6's block is its whole array at every point. -/
theorem blk6_eq (c : Dev nD) (t : Fin cfg4.N) :
    (iblk4 (F := Ideal) V c 6 t : Vec Ideal S128x128 .f32) = (V c main_arg18 : S128x128.Idx → Elt Ideal .f32) := by
  have e := idx6 t
  funext y
  unfold iblk4
  rw [View.read_apply]
  show V c main_arg18 _ = V c main_arg18 y
  refine congrArg _ (funext fun a => Fin.ext ?_)
  match a with
  | ⟨0, _⟩ => show win4_6.index t (0 : Fin 2) * 128 + 1 * (y 0).val = (y 0).val; rw [e.1]; omega
  | ⟨1, _⟩ => show win4_6.index t (1 : Fin 2) * 128 + 1 * (y 1).val = (y 1).val; rw [e.2]; omega

/-- Window 7's block is its whole array at every point. -/
theorem blk7_eq (c : Dev nD) (t : Fin cfg4.N) :
    (iblk4 (F := Ideal) V c 7 t : Vec Ideal S128 .f32) = (V c main_arg19 : S128.Idx → Elt Ideal .f32) := by
  have e := idx7 t
  funext y
  unfold iblk4
  rw [View.read_apply]
  show V c main_arg19 _ = V c main_arg19 y
  refine congrArg _ (funext fun a => Fin.ext ?_)
  match a with
  | ⟨0, _⟩ => show win4_7.index t (0 : Fin 1) * 128 + 1 * (y 0).val = (y 0).val; rw [e]; omega

/-- Window 9's block is its whole array at every point. -/
theorem blk9_eq (c : Dev nD) (t : Fin cfg4.N) :
    (iblk4 (F := Ideal) V c 9 t : Vec Ideal S128x512 .f32) = (V c main_arg22 : S128x512.Idx → Elt Ideal .f32) := by
  have e := idx9 t
  funext y
  unfold iblk4
  rw [View.read_apply]
  show V c main_arg22 _ = V c main_arg22 y
  refine congrArg _ (funext fun a => Fin.ext ?_)
  match a with
  | ⟨0, _⟩ => show win4_9.index t (0 : Fin 2) * 128 + 1 * (y 0).val = (y 0).val; rw [e.1]; omega
  | ⟨1, _⟩ => show win4_9.index t (1 : Fin 2) * 512 + 1 * (y 1).val = (y 1).val; rw [e.2]; omega

/-- Window 10's block is its whole array at every point. -/
theorem blk10_eq (c : Dev nD) (t : Fin cfg4.N) :
    (iblk4 (F := Ideal) V c 10 t : Vec Ideal S512 .f32) = (V c main_arg23 : S512.Idx → Elt Ideal .f32) := by
  have e := idx10 t
  funext y
  unfold iblk4
  rw [View.read_apply]
  show V c main_arg23 _ = V c main_arg23 y
  refine congrArg _ (funext fun a => Fin.ext ?_)
  match a with
  | ⟨0, _⟩ => show win4_10.index t (0 : Fin 1) * 512 + 1 * (y 0).val = (y 0).val; rw [e]; omega

/-- Output window 11's block entry (p, q) at point t sits in the array at row 1000 t + p, column q. -/
theorem emb_h (t : Fin cfg4.N) (p : Fin 1000) (q : Fin 128) (r : Fin 100000) (hr : r.val = t.val * 1000 + p.val) :
    ((cfg4.win 11).blk t).view.emb (ix2 p q : S1000x128.Idx) = (ix2 r q : S100000x128.Idx) := by
  have e := idx11 t
  funext a
  apply Fin.ext
  match a with
  | ⟨0, _⟩ => show win4_11.index t (0 : Fin 2) * 1000 + 1 * p.val = r.val; rw [e.1, hr]; omega
  | ⟨1, _⟩ => show win4_11.index t (1 : Fin 2) * 128 + 1 * q.val = q.val; rw [e.2]; omega

/-- An index of the array is in point t's block iff each coordinate is in the block's range on its axis. -/
theorem mem_blk_h (t : Fin cfg4.N) (i : S100000x128.Idx) :
    i ∈ ((cfg4.win 11).blk t).view.set ↔ ∀ a : Fin 2, win4_11.index t a * S1000x128.size a ≤ (i a).val ∧ (i a).val < win4_11.index t a * S1000x128.size a + S1000x128.size a := by
  show i ∈ ((View.whole main_v0_2).slice (win4_11.rect t)).set ↔ _
  rw [View.set_slice_whole, Rect.mem_set_unit]
  exact Iff.rfl

/-- Every row is in the block of the point its thousand names: the 100 blocks tile the array. -/
theorem cover_h (i : S100000x128.Idx) :
    ∃ t : Fin cfg4.N, (cfg4.win 11).flush t = true ∧ i ∈ ((cfg4.win 11).blk t).view.set := by
  have hi0 : (i 0).val < 100000 := (i 0).isLt
  have hi1 : (i 1).val < 128 := (i 1).isLt
  have hN : grid4.N = 100 := N_4
  obtain ⟨t, ht⟩ : ∃ t : Fin cfg4.N, t.val = (i 0).val / 1000 := ⟨⟨(i 0).val / 1000, by show _ < grid4.N; rw [hN]; omega⟩, rfl⟩
  have e := idx11 t
  refine ⟨t, flush4_11 t, ?_⟩
  rw [mem_blk_h]
  intro a
  match a with
  | ⟨0, _⟩ => show win4_11.index t (0 : Fin 2) * 1000 ≤ (i 0).val ∧ (i 0).val < win4_11.index t (0 : Fin 2) * 1000 + 1000; rw [e.1, ht]; omega
  | ⟨1, _⟩ => show win4_11.index t (1 : Fin 2) * 128 ≤ (i 1).val ∧ (i 1).val < win4_11.index t (1 : Fin 2) * 128 + 128; rw [e.2]; omega

/-- Output window 12's block entry (p, q) at point t sits in the array at row 1000 t + p, column q. -/
theorem emb_fc (t : Fin cfg4.N) (p : Fin 1000) (q : Fin 512) (r : Fin 100000) (hr : r.val = t.val * 1000 + p.val) :
    ((cfg4.win 12).blk t).view.emb (ix2 p q : S1000x512.Idx) = (ix2 r q : S100000x512.Idx) := by
  have e := idx12 t
  funext a
  apply Fin.ext
  match a with
  | ⟨0, _⟩ => show win4_12.index t (0 : Fin 2) * 1000 + 1 * p.val = r.val; rw [e.1, hr]; omega
  | ⟨1, _⟩ => show win4_12.index t (1 : Fin 2) * 512 + 1 * q.val = q.val; rw [e.2]; omega

/-- An index of the array is in point t's block iff each coordinate is in the block's range on its axis. -/
theorem mem_blk_fc (t : Fin cfg4.N) (i : S100000x512.Idx) :
    i ∈ ((cfg4.win 12).blk t).view.set ↔ ∀ a : Fin 2, win4_12.index t a * S1000x512.size a ≤ (i a).val ∧ (i a).val < win4_12.index t a * S1000x512.size a + S1000x512.size a := by
  show i ∈ ((View.whole main_v0_0).slice (win4_12.rect t)).set ↔ _
  rw [View.set_slice_whole, Rect.mem_set_unit]
  exact Iff.rfl

/-- Every row is in the block of the point its thousand names: the 100 blocks tile the array. -/
theorem cover_fc (i : S100000x512.Idx) :
    ∃ t : Fin cfg4.N, (cfg4.win 12).flush t = true ∧ i ∈ ((cfg4.win 12).blk t).view.set := by
  have hi0 : (i 0).val < 100000 := (i 0).isLt
  have hi1 : (i 1).val < 512 := (i 1).isLt
  have hN : grid4.N = 100 := N_4
  obtain ⟨t, ht⟩ : ∃ t : Fin cfg4.N, t.val = (i 0).val / 1000 := ⟨⟨(i 0).val / 1000, by show _ < grid4.N; rw [hN]; omega⟩, rfl⟩
  have e := idx12 t
  refine ⟨t, flush4_12 t, ?_⟩
  rw [mem_blk_fc]
  intro a
  match a with
  | ⟨0, _⟩ => show win4_12.index t (0 : Fin 2) * 1000 ≤ (i 0).val ∧ (i 0).val < win4_12.index t (0 : Fin 2) * 1000 + 1000; rw [e.1, ht]; omega
  | ⟨1, _⟩ => show win4_12.index t (1 : Fin 2) * 512 ≤ (i 1).val ∧ (i 1).val < win4_12.index t (1 : Fin 2) * 512 + 512; rw [e.2]; omega

/-- The new frame rows as the region finds its operands. -/
abbrev hOf (c : Dev nD) : ArrRx128 := hArr (V c main_call0_v148) (V c main_call0_v76) (V c main_arg14) (V c main_arg15) (V c main_call0_v161) (V c main_call0_v77) (V c main_arg18) (V c main_arg19) (V c main_call0_v80)

/-- What point t writes back to the h array is block t of `hOf`. -/
theorem flushed_h (c : Dev nD) (t : Fin cfg4.N) :
    (dat4 (F := Ideal) V c).flushed 11 t = ((cfg4.win 11).blk t).view.read (Elt Ideal) (hOf V c) := by
  show (cfg4.win 11).cut (grid4.coords t) ((dat4 (F := Ideal) V c).after 11 t) = _
  rw [after4_11]
  unfold out4_11
  rw [View.canon_unit_zero hz2]
  simp only [View.ld_unit_zero (S := S1000x128) hz2, View.ld_unit_zero (S := S1000x1) hz2, View.ld_unit_zero (S := S128x128) hz2,
    View.ld_unit_zero (S := S128) hz1]
  rw [blk2_eq V c t, blk6_eq V c t, blk3_eq V c t, blk7_eq V c t]
  funext y
  obtain ⟨p, q, rfl⟩ : ∃ (p : Fin 1000) (q : Fin 128), y = ix2 p q := ⟨y 0, y 1, eq_ix2 y⟩
  have hN : grid4.N = 100 := N_4
  have ht : t.val < 100 := by have h : t.val < grid4.N := t.isLt; omega
  obtain ⟨r, hr⟩ : ∃ r : Fin 100000, r.val = t.val * 1000 + p.val := ⟨⟨t.val * 1000 + p.val, by have := p.isLt; omega⟩, rfl⟩
  rw [View.read_apply]
  show _ = hOf V c (((cfg4.win 11).blk t).view.emb (ix2 p q))
  rw [emb_h t p q r hr]
  exact h_entry (iblk4 (F := Ideal) V c 0 t) (iblk4 (F := Ideal) V c 1 t) (iblk4 (F := Ideal) V c 4 t) (iblk4 (F := Ideal) V c 5 t) (iblk4 (F := Ideal) V c 8 t) (V c main_call0_v148) (V c main_call0_v76) (V c main_arg14) (V c main_arg15) (V c main_call0_v161) (V c main_call0_v77) (V c main_arg18) (V c main_arg19) (V c main_call0_v80) p r (fun k => blk0_apply V c t p k r hr) (blk1_apply V c t p 0 r hr) (fun k => blk4_apply V c t p k r hr) (blk5_apply V c t p 0 r hr) (fun k => blk8_apply V c t p k r hr) q

/-- What point t writes back to the head array is block t of the head of `hOf`. -/
theorem flushed_fc (c : Dev nD) (t : Fin cfg4.N) :
    (dat4 (F := Ideal) V c).flushed 12 t
      = ((cfg4.win 12).blk t).view.read (Elt Ideal) (Cert.Stages.fcFr (F := Ideal) (hOf V c) (V c main_arg22) (V c main_arg23)) := by
  show (cfg4.win 12).cut (grid4.coords t) ((dat4 (F := Ideal) V c).after 12 t) = _
  rw [after4_12]
  unfold out4_12
  rw [View.canon_unit_zero hz2]
  simp only [View.ld_unit_zero (S := S1000x128) hz2, View.ld_unit_zero (S := S1000x1) hz2, View.ld_unit_zero (S := S128x128) hz2,
    View.ld_unit_zero (S := S128) hz1, View.ld_unit_zero (S := S128x512) hz2, View.ld_unit_zero (S := S512) hz1]
  rw [blk2_eq V c t, blk6_eq V c t, blk3_eq V c t, blk7_eq V c t, blk9_eq V c t, blk10_eq V c t]
  funext y
  obtain ⟨p, q, rfl⟩ : ∃ (p : Fin 1000) (q : Fin 512), y = ix2 p q := ⟨y 0, y 1, eq_ix2 y⟩
  have hN : grid4.N = 100 := N_4
  have ht : t.val < 100 := by have h : t.val < grid4.N := t.isLt; omega
  obtain ⟨r, hr⟩ : ∃ r : Fin 100000, r.val = t.val * 1000 + p.val := ⟨⟨t.val * 1000 + p.val, by have := p.isLt; omega⟩, rfl⟩
  rw [View.read_apply]
  show _ = Cert.Stages.fcFr (F := Ideal) (hOf V c) (V c main_arg22) (V c main_arg23) (((cfg4.win 12).blk t).view.emb (ix2 p q))
  rw [emb_fc t p q r hr]
  exact fc_entry (iblk4 (F := Ideal) V c 0 t) (iblk4 (F := Ideal) V c 1 t) (iblk4 (F := Ideal) V c 4 t) (iblk4 (F := Ideal) V c 5 t) (iblk4 (F := Ideal) V c 8 t) (V c main_call0_v148) (V c main_call0_v76) (V c main_arg14) (V c main_arg15) (V c main_call0_v161) (V c main_call0_v77) (V c main_arg18) (V c main_arg19) (V c main_call0_v80) (V c main_arg22) (V c main_arg23) p r (fun k => blk0_apply V c t p k r hr) (blk1_apply V c t p 0 r hr) (fun k => blk4_apply V c t p k r hr) (blk5_apply V c t p 0 r hr) (fun k => blk8_apply V c t p k r hr) q

/-- After all 100 points the h array is the layer's mean of the two convolutions plus the residual, as ONE function of the
    region's operand arrays. -/
theorem final_h (c : Dev nD) :
    (dat4 (F := Ideal) V c).arrAt 11 cfg4.N
      = addf (Cert.Stages.layerFr (V c main_call0_v148) (V c main_call0_v76) (V c main_arg14) (V c main_arg15) (V c main_call0_v161) (V c main_call0_v77) (V c main_arg18) (V c main_arg19)) (V c main_call0_v80) :=
  (dat4 (F := Ideal) V c).arrAt_eq_of_cover 11 (hOf V c) (fun t _ => flushed_h V c t) cover_h

/-- And the head array is the output head of that same h. -/
theorem final_fc (c : Dev nD) :
    (dat4 (F := Ideal) V c).arrAt 12 cfg4.N
      = Cert.Stages.fcFr (addf (Cert.Stages.layerFr (V c main_call0_v148) (V c main_call0_v76) (V c main_arg14) (V c main_arg15) (V c main_call0_v161) (V c main_call0_v77) (V c main_arg18) (V c main_arg19)) (V c main_call0_v80))
          (V c main_arg22) (V c main_arg23) :=
  (dat4 (F := Ideal) V c).arrAt_eq_of_cover 12 (Cert.Stages.fcFr (F := Ideal) (hOf V c) (V c main_arg22) (V c main_arg23)) (fun t _ => flushed_fc V c t) cover_fc

end Blocks

end Cert.KernelIdeal.HeadFr

end
-- ==== Proof.HeadFe.lean ====
/-
  The last kernel over the feature rows.  Grid point t (of 200) owns rows [1000 t, 1000 (t + 1)) of the 200000 rows.
  From those rows of the two aggregates a₁, a₂, of the two norm columns nd₁, nd₂ and of the residual, and from the whole
  weights and biases, it writes the same rows of two arrays:
    h  = ½ ((a₁ · nd₁) W₁ + b₁ + ((a₂ · nd₂) W₂ + b₂)) + residual      and      h W + b,
  the second computed from the very h it has just stored.  A product into a zero accumulator is the plain sum over the
  128 contracted positions, which is also what the host's product is at the extended reals; a bias cast to one row and
  broadcast is the bias at the column; a norm column broadcast along a row is its entry at the row.  So a block entry
  and the whole-array function at the row the block entry sits at are the same sums of the same products, and since the
  200 blocks tile the rows, each array ends as the whole-array function.  No law of arithmetic is used.
-/
import proofs.«162449_j55422257988217_2_alg».proof.Proof.FrameI
import proofs.«162449_j55422257988217_2_alg».proof.Proof.Gen.KernelIdeal.Skeleton
import proofs.«162449_j55422257988217_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadFe

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.GenP

/-! ## Layout operations at an index -/

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` vector cast to one row and broadcast to `[a, b]` reads, at `(p, c)`, the vector at `c`. -/
theorem broadcastTo_row_apply {α : Type} {a b : ℕ} (v : (⟨1, ![b]⟩ : Shape).Idx → α)
    (hc : (⟨1, ![b]⟩ : Shape).ShapeCasts ⟨2, ![1, b]⟩) (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix1 c) :=
  (broadcastTo_1b_ab_apply _ h p c).trans (shapeCast_a_1a_apply v hc 0 c)

/-- The host's form of the same: a `[b]` vector broadcast in dimension 1 to `[1, b]`, then in dimensions 0, 1 to `[a, b]`. -/
theorem bcastRow_apply {α : Type} {a b : ℕ} (hb : b ≠ 1) (v : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (p : Fin a) (c : Fin b) :
    broadcastInDim ⟨2, ![a, b]⟩ ![0, 1] h₂ (broadcastInDim ⟨2, ![1, b]⟩ ![1] h₁ v) (ix2 p c) = v (ix1 c) := by
  refine (broadcastInDim_apply _ h₂ _ (ix2 p c) (ix2 (0 : Fin 1) c) (fun ax => match ax with
    | ⟨0, _⟩ => by show 0 = if (1 : Nat) = 1 then 0 else p.val; rw [if_pos rfl]
    | ⟨1, _⟩ => by show c.val = if b = 1 then 0 else c.val; rw [if_neg hb])).trans ?_
  exact broadcastInDim_apply _ h₁ v (ix2 (0 : Fin 1) c) (ix1 c) (fun ax => match ax with
    | ⟨0, _⟩ => by show c.val = if b = 1 then 0 else c.val; rw [if_neg hb])

/-- The host's column: an `[a, 1]` column broadcast in dimensions 0, 1 to `[a, b]` reads its entry at the row. -/
theorem bcastCol_apply {α : Type} {a b : ℕ} (ha : a ≠ 1) (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by show p.val = if a = 1 then 0 else p.val; rw [if_neg ha]
    | ⟨1, _⟩ => by show 0 = if (1 : Nat) = 1 then 0 else c.val; rw [if_pos rfl])

/-- A scalar constant broadcast in no dimension reads the constant everywhere. -/
theorem bcastScalar_apply {α : Type} {t : Shape} (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun ax => ax.elim0)

/-! ## The four products: the contracted index is one of 128 positions -/

theorem kmm_l0 (i : S1000x128.Idx) (q : dot_S1000x128_S128x128_S1000x128_1_0_0_1_n_n.contr.Idx) : (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem kmm_l1 (i : S1000x128.Idx) (q : dot_S1000x128_S128x128_S1000x128_1_0_0_1_n_n.contr.Idx) : (dot_S1000x128_S128x128_S1000x128_1_0_0_1_n_n.lhsIdx i q 1).val = (q ⟨0, by decide⟩).val :=
  dot_S1000x128_S128x128_S1000x128_1_0_0_1_n_n.lhsIdx_val_of_single rfl i q
theorem kmm_r0 (i : S1000x128.Idx) (q : dot_S1000x128_S128x128_S1000x128_1_0_0_1_n_n.contr.Idx) : (dot_S1000x128_S128x128_S1000x128_1_0_0_1_n_n.rhsIdx i q 0).val = (q ⟨0, by decide⟩).val :=
  dot_S1000x128_S128x128_S1000x128_1_0_0_1_n_n.rhsIdx_val_of_single rfl i q
theorem kmm_r1 (i : S1000x128.Idx) (q : dot_S1000x128_S128x128_S1000x128_1_0_0_1_n_n.contr.Idx) : (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl
/-- The sum over the record's one contracted axis is the sum over its 128 positions: left operand at (row, k), right at (k, column). -/
theorem kmm_sum (l : S1000x128.Idx → EReal) (r : S128x128.Idx → EReal) (p : Fin 1000) (c : Fin 128) :
    (∑ k : dot_S1000x128_S128x128_S1000x128_1_0_0_1_n_n.contr.Idx, l (dot_S1000x128_S128x128_S1000x128_1_0_0_1_n_n.lhsIdx (ix2 p c) k) * r (dot_S1000x128_S128x128_S1000x128_1_0_0_1_n_n.rhsIdx (ix2 p c) k))
      = ∑ k : Fin 128, l (ix2 p k) * r (ix2 k c) := by
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p c) ((ValueIdx.contrEquiv1 dot_S1000x128_S128x128_S1000x128_1_0_0_1_n_n 128 rfl rfl).symm k) = ix2 p k := funext fun a => Fin.ext (by
    match a with
    | ⟨0, _⟩ => exact kmm_l0 _ _
    | ⟨1, _⟩ => exact (kmm_l1 _ _).trans hk)
  have er : dot_S1000x128_S128x128_S1000x128_1_0_0_1_n_n.rhsIdx (ix2 p c) ((ValueIdx.contrEquiv1 dot_S1000x128_S128x128_S1000x128_1_0_0_1_n_n 128 rfl rfl).symm k) = ix2 k c := funext fun a => Fin.ext (by
    match a with
    | ⟨0, _⟩ => exact (kmm_r0 _ _).trans hk
    | ⟨1, _⟩ => exact kmm_r1 _ _)
  rw [el, er]

theorem kfc_l0 (i : S1000x512.Idx) (q : dot_S1000x128_S128x512_S1000x512_1_0_0_1_n_n.contr.Idx) : (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
theorem kfc_l1 (i : S1000x512.Idx) (q : dot_S1000x128_S128x512_S1000x512_1_0_0_1_n_n.contr.Idx) : (dot_S1000x128_S128x512_S1000x512_1_0_0_1_n_n.lhsIdx i q 1).val = (q ⟨0, by decide⟩).val :=
  dot_S1000x128_S128x512_S1000x512_1_0_0_1_n_n.lhsIdx_val_of_single rfl i q
theorem kfc_r0 (i : S1000x512.Idx) (q : dot_S1000x128_S128x512_S1000x512_1_0_0_1_n_n.contr.Idx) : (dot_S1000x128_S128x512_S1000x512_1_0_0_1_n_n.rhsIdx i q 0).val = (q ⟨0, by decide⟩).val :=
  dot_S1000x128_S128x512_S1000x512_1_0_0_1_n_n.rhsIdx_val_of_single rfl i q
theorem kfc_r1 (i : S1000x512.Idx) (q : dot_S1000x128_S128x512_S1000x512_1_0_0_1_n_n.contr.Idx) : (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl
/-- The sum over the record's one contracted axis is the sum over its 128 positions: left operand at (row, k), right at (k, column). -/
theorem kfc_sum (l : S1000x128.Idx → EReal) (r : S128x512.Idx → EReal) (p : Fin 1000) (c : Fin 512) :
    (∑ k : dot_S1000x128_S128x512_S1000x512_1_0_0_1_n_n.contr.Idx, l (dot_S1000x128_S128x512_S1000x512_1_0_0_1_n_n.lhsIdx (ix2 p c) k) * r (dot_S1000x128_S128x512_S1000x512_1_0_0_1_n_n.rhsIdx (ix2 p c) k))
      = ∑ k : Fin 128, l (ix2 p k) * r (ix2 k c) := by
  rw [← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx (ix2 p c) ((ValueIdx.contrEquiv1 dot_S1000x128_S128x512_S1000x512_1_0_0_1_n_n 128 rfl rfl).symm k) = ix2 p k := funext fun a => Fin.ext (by
    match a with
    | ⟨0, _⟩ => exact kfc_l0 _ _
    | ⟨1, _⟩ => exact (kfc_l1 _ _).trans hk)
  have er : dot_S1000x128_S128x512_S1000x512_1_0_0_1_n_n.rhsIdx (ix2 p c) ((ValueIdx.contrEquiv1 dot_S1000x128_S128x512_S1000x512_1_0_0_1_n_n 128 rfl rfl).symm k) = ix2 k c := funext fun a => Fin.ext (by
    match a with
    | ⟨0, _⟩ => exact (kfc_r0 _ _).trans hk
    | ⟨1, _⟩ => exact kfc_r1 _ _)
  rw [el, er]

theorem hmm_l0 (i : Cert.ReferenceIdeal.S200000x128.Idx) (q : Cert.ReferenceIdeal.dot_S200000x128_S128x128_S200000x128_1_0_0_1_n_n.contr.Idx) : (Cert.ReferenceIdeal.dot_S200000x128_S128x128_S200000x128_1_0_0_1_n_n.lhsIdx i q 0).val = (i 0).val := by
  unfold DotDims.lhsIdx
  rw [dif_neg (show ¬(0 : Fin Cert.ReferenceIdeal.S200000x128.rank) ∈ Cert.ReferenceIdeal.dot_S200000x128_S128x128_S200000x128_1_0_0_1_n_n.lhsBatch by decide), dif_pos (show (0 : Fin Cert.ReferenceIdeal.S200000x128.rank) ∈ Cert.ReferenceIdeal.dot_S200000x128_S128x128_S200000x128_1_0_0_1_n_n.lhsNonContracting by decide)]
  rfl
theorem hmm_l1 (i : Cert.ReferenceIdeal.S200000x128.Idx) (q : Cert.ReferenceIdeal.dot_S200000x128_S128x128_S200000x128_1_0_0_1_n_n.contr.Idx) : (Cert.ReferenceIdeal.dot_S200000x128_S128x128_S200000x128_1_0_0_1_n_n.lhsIdx i q 1).val = (q ⟨0, by decide⟩).val :=
  Cert.ReferenceIdeal.dot_S200000x128_S128x128_S200000x128_1_0_0_1_n_n.lhsIdx_val_of_single rfl i q
theorem hmm_r0 (i : Cert.ReferenceIdeal.S200000x128.Idx) (q : Cert.ReferenceIdeal.dot_S200000x128_S128x128_S200000x128_1_0_0_1_n_n.contr.Idx) : (Cert.ReferenceIdeal.dot_S200000x128_S128x128_S200000x128_1_0_0_1_n_n.rhsIdx i q 0).val = (q ⟨0, by decide⟩).val :=
  Cert.ReferenceIdeal.dot_S200000x128_S128x128_S200000x128_1_0_0_1_n_n.rhsIdx_val_of_single rfl i q
theorem hmm_r1 (i : Cert.ReferenceIdeal.S200000x128.Idx) (q : Cert.ReferenceIdeal.dot_S200000x128_S128x128_S200000x128_1_0_0_1_n_n.contr.Idx) : (Cert.ReferenceIdeal.dot_S200000x128_S128x128_S200000x128_1_0_0_1_n_n.rhsIdx i q 1).val = (i 1).val := by
  unfold DotDims.rhsIdx
  rw [dif_neg (show ¬(1 : Fin Cert.ReferenceIdeal.S128x128.rank) ∈ Cert.ReferenceIdeal.dot_S200000x128_S128x128_S200000x128_1_0_0_1_n_n.rhsBatch by decide), dif_pos (show (1 : Fin Cert.ReferenceIdeal.S128x128.rank) ∈ Cert.ReferenceIdeal.dot_S200000x128_S128x128_S200000x128_1_0_0_1_n_n.rhsNonContracting by decide)]
  rfl
/-- The sum over the record's one contracted axis is the sum over its 128 positions: left operand at (row, k), right at (k, column). -/
theorem hmm_sum (l : Cert.ReferenceIdeal.S200000x128.Idx → EReal) (r : Cert.ReferenceIdeal.S128x128.Idx → EReal) (p : Fin 200000) (c : Fin 128) :
    (∑ k : Cert.ReferenceIdeal.dot_S200000x128_S128x128_S200000x128_1_0_0_1_n_n.contr.Idx, l (Cert.ReferenceIdeal.dot_S200000x128_S128x128_S200000x128_1_0_0_1_n_n.lhsIdx (ix2 p c) k) * r (Cert.ReferenceIdeal.dot_S200000x128_S128x128_S200000x128_1_0_0_1_n_n.rhsIdx (ix2 p c) k))
      = ∑ k : Fin 128, l (ix2 p k) * r (ix2 k c) := by
  rw [← Equiv.sum_comp (ValueIdx.contrEquiv1 Cert.ReferenceIdeal.dot_S200000x128_S128x128_S200000x128_1_0_0_1_n_n 128 rfl rfl).symm]
  refine Finset.sum_congr rfl fun k _ => ?_
  have hk := ValueIdx.contrEquiv1_symm_val Cert.ReferenceIdeal.dot_S200000x128_S128x128_S200000x128_1_0_0_1_n_n 128 rfl rfl k
  have el : Cert.ReferenceIdeal.dot_S200000x128_S128x128_S200000x128_1_0_0_1_n_n.lhsIdx (ix2 p c) ((ValueIdx.contrEquiv1 Cert.ReferenceIdeal.dot_S200000x128_S128x128_S200000x128_1_0_0_1_n_n 128 rfl rfl).symm k) = ix2 p k := funext fun a => Fin.ext (by
    match a with
    | ⟨0, _⟩ => exact hmm_l0 _ _
    | ⟨1, _⟩ => exact (hmm_l1 _ _).trans hk)
  have er : Cert.ReferenceIdeal.dot_S200000x128_S128x128_S200000x128_1_0_0_1_n_n.rhsIdx (ix2 p c) ((ValueIdx.contrEquiv1 Cert.ReferenceIdeal.dot_S200000x128_S128x128_S200000x128_1_0_0_1_n_n 128 rfl rfl).symm k) = ix2 k c := funext fun a => Fin.ext (by
    match a with
    | ⟨0, _⟩ => exact (hmm_r0 _ _).trans hk
    | ⟨1, _⟩ => exact hmm_r1 _ _)
  rw [el, er]

theorem hfc_l0 (i : Cert.ReferenceIdeal.S200000x512.Idx) (q : Cert.ReferenceIdeal.dot_S200000x128_S128x512_S200000x512_1_0_0_1_n_n.contr.Idx) : (Cert.ReferenceIdeal.dot_S200000x128_S128x512_S200000x512_1_0_0_1_n_n.lhsIdx i q 0).val = (i 0).val := by
  unfold DotDims.lhsIdx
  rw [dif_neg (show ¬(0 : Fin Cert.ReferenceIdeal.S200000x128.rank) ∈ Cert.ReferenceIdeal.dot_S200000x128_S128x512_S200000x512_1_0_0_1_n_n.lhsBatch by decide), dif_pos (show (0 : Fin Cert.ReferenceIdeal.S200000x128.rank) ∈ Cert.ReferenceIdeal.dot_S200000x128_S128x512_S200000x512_1_0_0_1_n_n.lhsNonContracting by decide)]
  rfl
theorem hfc_l1 (i : Cert.ReferenceIdeal.S200000x512.Idx) (q : Cert.ReferenceIdeal.dot_S200000x128_S128x512_S200000x512_1_0_0_1_n_n.contr.Idx) : (Cert.ReferenceIdeal.dot_S200000x128_S128x512_S200000x512_1_0_0_1_n_n.lhsIdx i q 1).val = (q ⟨0, by decide⟩).val :=
  Cert.ReferenceIdeal.dot_S200000x128_S128x512_S200000x512_1_0_0_1_n_n.lhsIdx_val_of_single rfl i q
theorem hfc_r0 (i : Cert.ReferenceIdeal.S200000x512.Idx) (q : Cert.ReferenceIdeal.dot_S200000x128_S128x512_S200000x512_1_0_0_1_n_n.contr.Idx) : (Cert.ReferenceIdeal.dot_S200000x128_S128x512_S200000x512_1_0_0_1_n_n.rhsIdx i q 0).val = (q ⟨0, by decide⟩).val :=
  Cert.ReferenceIdeal.dot_S200000x128_S128x512_S200000x512_1_0_0_1_n_n.rhsIdx_val_of_single rfl i q
theorem hfc_r1 (i : Cert.ReferenceIdeal.S200000x512.Idx) (q : Cert.ReferenceIdeal.dot_S200000x128_S128x512_S200000x512_1_0_0_1_n_n.contr.Idx) : (Cert.ReferenceIdeal.dot_S200000x128_S128x512_S200000x512_1_0_0_1_n_n.rhsIdx i q 1).val = (i 1).val := by
  unfold DotDims.rhsIdx
  rw [dif_neg (show ¬(1 : Fin Cert.ReferenceIdeal.S128x512.rank) ∈ Cert.ReferenceIdeal.dot_S200000x128_S128x512_S200000x512_1_0_0_1_n_n.rhsBatch by decide), dif_pos (show (1 : Fin Cert.ReferenceIdeal.S128x512.rank) ∈ Cert.ReferenceIdeal.dot_S200000x128_S128x512_S200000x512_1_0_0_1_n_n.rhsNonContracting by decide)]
  rfl
/-- The sum over the record's one contracted axis is the sum over its 128 positions: left operand at (row, k), right at (k, column). -/
theorem hfc_sum (l : Cert.ReferenceIdeal.S200000x128.Idx → EReal) (r : Cert.ReferenceIdeal.S128x512.Idx → EReal) (p : Fin 200000) (c : Fin 512) :
    (∑ k : Cert.ReferenceIdeal.dot_S200000x128_S128x512_S200000x512_1_0_0_1_n_n.contr.Idx, l (Cert.ReferenceIdeal.dot_S200000x128_S128x512_S200000x512_1_0_0_1_n_n.lhsIdx (ix2 p c) k) * r (Cert.ReferenceIdeal.dot_S200000x128_S128x512_S200000x512_1_0_0_1_n_n.rhsIdx (ix2 p c) k))
      = ∑ k : Fin 128, l (ix2 p k) * r (ix2 k c) := by
  rw [← Equiv.sum_comp (ValueIdx.contrEquiv1 Cert.ReferenceIdeal.dot_S200000x128_S128x512_S200000x512_1_0_0_1_n_n 128 rfl rfl).symm]
  refine Finset.sum_congr rfl fun k _ => ?_
  have hk := ValueIdx.contrEquiv1_symm_val Cert.ReferenceIdeal.dot_S200000x128_S128x512_S200000x512_1_0_0_1_n_n 128 rfl rfl k
  have el : Cert.ReferenceIdeal.dot_S200000x128_S128x512_S200000x512_1_0_0_1_n_n.lhsIdx (ix2 p c) ((ValueIdx.contrEquiv1 Cert.ReferenceIdeal.dot_S200000x128_S128x512_S200000x512_1_0_0_1_n_n 128 rfl rfl).symm k) = ix2 p k := funext fun a => Fin.ext (by
    match a with
    | ⟨0, _⟩ => exact hfc_l0 _ _
    | ⟨1, _⟩ => exact (hfc_l1 _ _).trans hk)
  have er : Cert.ReferenceIdeal.dot_S200000x128_S128x512_S200000x512_1_0_0_1_n_n.rhsIdx (ix2 p c) ((ValueIdx.contrEquiv1 Cert.ReferenceIdeal.dot_S200000x128_S128x512_S200000x512_1_0_0_1_n_n 128 rfl rfl).symm k) = ix2 k c := funext fun a => Fin.ext (by
    match a with
    | ⟨0, _⟩ => exact (hfc_r0 _ _).trans hk
    | ⟨1, _⟩ => exact hfc_r1 _ _)
  rw [el, er]

/-! ## The body's arithmetic at a block entry -/

/-- The h the body stores, at block entry (p, q): half the sum of the two convolutions' entries, plus the residual's. -/
theorem pay2_apply (x0 : Vec Ideal S1000x128 .f32) (x1 : Vec Ideal S1000x1 .f32) (x4 : Vec Ideal S1000x128 .f32) (x5 : Vec Ideal S1000x1 .f32)
    (x2 x6 : Vec Ideal S128x128 .f32) (x3 x7 : Vec Ideal S128 .f32) (x8 : Vec Ideal S1000x128 .f32) (p : Fin 1000) (q : Fin 128) :
    k5_pay2 (F := Ideal) x0 x1 x4 x5 x2 x6 x3 x7 x8 (ix2 p q)
      = Ideal.ofBits .f32 0x3F000000#32
          * (((∑ k : Fin 128, (x0 (ix2 p k) * x1 (ix2 p (0 : Fin 1))) * x2 (ix2 k q)) + x3 (ix1 q))
            + ((∑ k : Fin 128, (x4 (ix2 p k) * x5 (ix2 p (0 : Fin 1))) * x6 (ix2 k q)) + x7 (ix1 q)))
        + x8 (ix2 p q) := by
  unfold k5_pay2
  simp only [addf_apply, mulf_apply, broadcast_apply, shapeCast_self, matmul]
  rw [Ideal.matmul_constant_zero_apply, Ideal.matmul_constant_zero_apply, kmm_sum, kmm_sum,
    broadcastTo_row_apply, broadcastTo_row_apply]
  simp only [truncf_apply, mulf_apply, broadcastTo_a1_ab_apply]
  rfl

/-- The head the body stores, at block entry (p, q), from the h block `v` it has just computed. -/
theorem pay1_apply (v : FVec Ideal S1000x128 .bf16) (w : Vec Ideal S128x512 .f32) (b : Vec Ideal S512 .f32) (p : Fin 1000) (q : Fin 512) :
    k5_pay1 (F := Ideal) v w b (ix2 p q) = (∑ k : Fin 128, v (ix2 p k) * w (ix2 k q)) + b (ix1 q) := by
  unfold k5_pay1
  simp only [addf_apply, matmul]
  rw [Ideal.matmul_constant_zero_apply, kfc_sum, broadcastTo_row_apply]
  simp only [truncf_apply]

/-- The h block handed on to the head is the stored one: the change of format is the identity. -/
theorem pay3_apply (x0 : Vec Ideal S1000x128 .f32) (x1 : Vec Ideal S1000x1 .f32) (x4 : Vec Ideal S1000x128 .f32) (x5 : Vec Ideal S1000x1 .f32)
    (x2 x6 : Vec Ideal S128x128 .f32) (x3 x7 : Vec Ideal S128 .f32) (x8 : Vec Ideal S1000x128 .f32) (y : S1000x128.Idx) :
    k5_pay3 (F := Ideal) x0 x1 x4 x5 x2 x6 x3 x7 x8 y = k5_pay2 (F := Ideal) x0 x1 x4 x5 x2 x6 x3 x7 x8 y := rfl

/-! ## The whole-array functions at an entry -/

abbrev ArrRx128 := Cert.Stages.Arr Ideal Cert.ReferenceIdeal.S200000x128
abbrev ArrRx1 := Cert.Stages.Arr Ideal Cert.ReferenceIdeal.S200000x1
abbrev ArrW := Cert.Stages.Arr Ideal Cert.ReferenceIdeal.S128x128
abbrev ArrB := Cert.Stages.Arr Ideal Cert.ReferenceIdeal.S128
abbrev ArrWf := Cert.Stages.Arr Ideal Cert.ReferenceIdeal.S128x512
abbrev ArrBf := Cert.Stages.Arr Ideal Cert.ReferenceIdeal.S512

theorem gconv_apply (a : ArrRx128) (nd : ArrRx1) (W : ArrW) (b : ArrB) (r : Fin 200000) (q : Fin 128) :
    Cert.Stages.gconvFe (F := Ideal) a nd W b (ix2 r q)
      = (∑ k : Fin 128, (a (ix2 r k) * nd (ix2 r (0 : Fin 1))) * W (ix2 k q)) + b (ix1 q) := by
  unfold Cert.Stages.gconvFe
  rw [addf_apply]
  simp only [Host.dotGeneral]
  rw [Ideal.dotGeneral_apply, hmm_sum, bcastRow_apply (by decide)]
  simp only [mulf_apply, bcastCol_apply (a := 200000) (b := 128) (by decide)]

theorem layer_apply (a₁ : ArrRx128) (nd₁ : ArrRx1) (W₁ : ArrW) (b₁ : ArrB) (a₂ : ArrRx128) (nd₂ : ArrRx1) (W₂ : ArrW) (b₂ : ArrB)
    (r : Fin 200000) (q : Fin 128) :
    Cert.Stages.layerFe (F := Ideal) a₁ nd₁ W₁ b₁ a₂ nd₂ W₂ b₂ (ix2 r q)
      = Ideal.ofBits .f32 0x3F000000#32
          * (((∑ k : Fin 128, (a₁ (ix2 r k) * nd₁ (ix2 r (0 : Fin 1))) * W₁ (ix2 k q)) + b₁ (ix1 q))
            + ((∑ k : Fin 128, (a₂ (ix2 r k) * nd₂ (ix2 r (0 : Fin 1))) * W₂ (ix2 k q)) + b₂ (ix1 q))) := by
  unfold Cert.Stages.layerFe Cert.Stages.mean2Fe
  rw [mulf_apply, addf_apply, gconv_apply, gconv_apply, bcastScalar_apply]
  rfl

theorem fc_apply (h : ArrRx128) (W : ArrWf) (b : ArrBf) (r : Fin 200000) (q : Fin 512) :
    Cert.Stages.fcFe (F := Ideal) h W b (ix2 r q) = (∑ k : Fin 128, h (ix2 r k) * W (ix2 k q)) + b (ix1 q) := by
  unfold Cert.Stages.fcFe
  rw [addf_apply]
  simp only [Host.dotGeneral]
  rw [Ideal.dotGeneral_apply, hfc_sum, bcastRow_apply (by decide)]

/-! ## A block entry is the whole-array function at the row it sits at -/

/-- The new feature rows: the layer's mean of the two convolutions, plus the residual rows. -/
def hArr (a₁ : ArrRx128) (nd₁ : ArrRx1) (W₁ : ArrW) (b₁ : ArrB) (a₂ : ArrRx128) (nd₂ : ArrRx1) (W₂ : ArrW) (b₂ : ArrB) (res : ArrRx128) : ArrRx128 :=
  addf (F := Ideal) (s := Cert.ReferenceIdeal.S200000x128) (φ := .f32) (Cert.Stages.layerFe (F := Ideal) a₁ nd₁ W₁ b₁ a₂ nd₂ W₂ b₂) res

/-- If the row-blocked inputs' blocks hold, at block row `p`, the arrays' row `r`, the stored h at (p, q) is `hArr` at (r, q). -/
theorem h_entry (x0 : Vec Ideal S1000x128 .f32) (x1 : Vec Ideal S1000x1 .f32) (x4 : Vec Ideal S1000x128 .f32) (x5 : Vec Ideal S1000x1 .f32)
    (x8 : Vec Ideal S1000x128 .f32)
    (a₁ : ArrRx128) (nd₁ : ArrRx1) (W₁ : ArrW) (b₁ : ArrB) (a₂ : ArrRx128) (nd₂ : ArrRx1) (W₂ : ArrW) (b₂ : ArrB) (res : ArrRx128)
    (p : Fin 1000) (r : Fin 200000)
    (h0 : ∀ k : Fin 128, x0 (ix2 p k) = a₁ (ix2 r k)) (h1 : x1 (ix2 p (0 : Fin 1)) = nd₁ (ix2 r (0 : Fin 1)))
    (h4 : ∀ k : Fin 128, x4 (ix2 p k) = a₂ (ix2 r k)) (h5 : x5 (ix2 p (0 : Fin 1)) = nd₂ (ix2 r (0 : Fin 1)))
    (h8 : ∀ k : Fin 128, x8 (ix2 p k) = res (ix2 r k)) (q : Fin 128) :
    k5_pay2 (F := Ideal) x0 x1 x4 x5 W₁ W₂ b₁ b₂ x8 (ix2 p q) = hArr a₁ nd₁ W₁ b₁ a₂ nd₂ W₂ b₂ res (ix2 r q) := by
  unfold hArr
  rw [pay2_apply, addf_apply, layer_apply, h1, h5, h8 q]
  simp only [h0, h4]

/-- And the stored head at (p, q) is the head of `hArr` at (r, q): its h block is the one just stored. -/
theorem fc_entry (x0 : Vec Ideal S1000x128 .f32) (x1 : Vec Ideal S1000x1 .f32) (x4 : Vec Ideal S1000x128 .f32) (x5 : Vec Ideal S1000x1 .f32)
    (x8 : Vec Ideal S1000x128 .f32)
    (a₁ : ArrRx128) (nd₁ : ArrRx1) (W₁ : ArrW) (b₁ : ArrB) (a₂ : ArrRx128) (nd₂ : ArrRx1) (W₂ : ArrW) (b₂ : ArrB) (res : ArrRx128)
    (Wf : ArrWf) (bf : ArrBf) (p : Fin 1000) (r : Fin 200000)
    (h0 : ∀ k : Fin 128, x0 (ix2 p k) = a₁ (ix2 r k)) (h1 : x1 (ix2 p (0 : Fin 1)) = nd₁ (ix2 r (0 : Fin 1)))
    (h4 : ∀ k : Fin 128, x4 (ix2 p k) = a₂ (ix2 r k)) (h5 : x5 (ix2 p (0 : Fin 1)) = nd₂ (ix2 r (0 : Fin 1)))
    (h8 : ∀ k : Fin 128, x8 (ix2 p k) = res (ix2 r k)) (q : Fin 512) :
    k5_pay1 (F := Ideal) (k5_pay3 (F := Ideal) x0 x1 x4 x5 W₁ W₂ b₁ b₂ x8) Wf bf (ix2 p q)
      = Cert.Stages.fcFe (F := Ideal) (hArr a₁ nd₁ W₁ b₁ a₂ nd₂ W₂ b₂ res) Wf bf (ix2 r q) := by
  rw [pay1_apply, fc_apply]
  simp only [pay3_apply, h_entry x0 x1 x4 x5 x8 a₁ nd₁ W₁ b₁ a₂ nd₂ W₂ b₂ res p r h0 h1 h4 h5 h8]

/-! ## From blocks to the arrays -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! The block each window is at, at point t, decided over the grid: row block t (column block 0) for the row-blocked
    windows, block 0 for the whole ones. -/
theorem idx0 : ∀ t : Fin cfg5.N, win5_0.index t (0 : Fin 2) = t.val ∧ win5_0.index t (1 : Fin 2) = 0 :=
  (by decide +kernel : ∀ t : Fin grid5.N, _)
theorem idx1 : ∀ t : Fin cfg5.N, win5_1.index t (0 : Fin 2) = t.val ∧ win5_1.index t (1 : Fin 2) = 0 :=
  (by decide +kernel : ∀ t : Fin grid5.N, _)
theorem idx2 : ∀ t : Fin cfg5.N, win5_2.index t (0 : Fin 2) = 0 ∧ win5_2.index t (1 : Fin 2) = 0 :=
  (by decide +kernel : ∀ t : Fin grid5.N, _)
theorem idx3 : ∀ t : Fin cfg5.N, win5_3.index t (0 : Fin 1) = 0 :=
  (by decide +kernel : ∀ t : Fin grid5.N, _)
theorem idx4 : ∀ t : Fin cfg5.N, win5_4.index t (0 : Fin 2) = t.val ∧ win5_4.index t (1 : Fin 2) = 0 :=
  (by decide +kernel : ∀ t : Fin grid5.N, _)
theorem idx5 : ∀ t : Fin cfg5.N, win5_5.index t (0 : Fin 2) = t.val ∧ win5_5.index t (1 : Fin 2) = 0 :=
  (by decide +kernel : ∀ t : Fin grid5.N, _)
theorem idx6 : ∀ t : Fin cfg5.N, win5_6.index t (0 : Fin 2) = 0 ∧ win5_6.index t (1 : Fin 2) = 0 :=
  (by decide +kernel : ∀ t : Fin grid5.N, _)
theorem idx7 : ∀ t : Fin cfg5.N, win5_7.index t (0 : Fin 1) = 0 :=
  (by decide +kernel : ∀ t : Fin grid5.N, _)
theorem idx8 : ∀ t : Fin cfg5.N, win5_8.index t (0 : Fin 2) = t.val ∧ win5_8.index t (1 : Fin 2) = 0 :=
  (by decide +kernel : ∀ t : Fin grid5.N, _)
theorem idx9 : ∀ t : Fin cfg5.N, win5_9.index t (0 : Fin 2) = 0 ∧ win5_9.index t (1 : Fin 2) = 0 :=
  (by decide +kernel : ∀ t : Fin grid5.N, _)
theorem idx10 : ∀ t : Fin cfg5.N, win5_10.index t (0 : Fin 1) = 0 :=
  (by decide +kernel : ∀ t : Fin grid5.N, _)
theorem idx11 : ∀ t : Fin cfg5.N, win5_11.index t (0 : Fin 2) = t.val ∧ win5_11.index t (1 : Fin 2) = 0 :=
  (by decide +kernel : ∀ t : Fin grid5.N, _)
theorem idx12 : ∀ t : Fin cfg5.N, win5_12.index t (0 : Fin 2) = t.val ∧ win5_12.index t (1 : Fin 2) = 0 :=
  (by decide +kernel : ∀ t : Fin grid5.N, _)

/-- Window 0's block at point t holds, at block row p, row 1000 t + p of its array. -/
theorem blk0_apply (c : Dev nD) (t : Fin cfg5.N) (p : Fin 1000) (k : Fin 128) (r : Fin 200000) (hr : r.val = t.val * 1000 + p.val) :
    (iblk5 (F := Ideal) V c 0 t : Vec Ideal S1000x128 .f32) (ix2 p k) = (V c main_call0_v174 : S200000x128.Idx → Elt Ideal .f32) (ix2 r k) := by
  have e := idx0 t
  unfold iblk5
  rw [View.read_apply]
  show V c main_call0_v174 _ = V c main_call0_v174 _
  refine congrArg _ (funext fun a => Fin.ext ?_)
  match a with
  | ⟨0, _⟩ => show win5_0.index t (0 : Fin 2) * 1000 + 1 * p.val = r.val; rw [e.1, hr]; omega
  | ⟨1, _⟩ => show win5_0.index t (1 : Fin 2) * 128 + 1 * k.val = k.val; rw [e.2]; omega

/-- Window 1's block at point t holds, at block row p, row 1000 t + p of its array. -/
theorem blk1_apply (c : Dev nD) (t : Fin cfg5.N) (p : Fin 1000) (k : Fin 1) (r : Fin 200000) (hr : r.val = t.val * 1000 + p.val) :
    (iblk5 (F := Ideal) V c 1 t : Vec Ideal S1000x1 .f32) (ix2 p k) = (V c main_call0_v78 : S200000x1.Idx → Elt Ideal .f32) (ix2 r k) := by
  have e := idx1 t
  unfold iblk5
  rw [View.read_apply]
  show V c main_call0_v78 _ = V c main_call0_v78 _
  refine congrArg _ (funext fun a => Fin.ext ?_)
  match a with
  | ⟨0, _⟩ => show win5_1.index t (0 : Fin 2) * 1000 + 1 * p.val = r.val; rw [e.1, hr]; omega
  | ⟨1, _⟩ => show win5_1.index t (1 : Fin 2) * 1 + 1 * k.val = k.val; rw [e.2]; omega

/-- Window 4's block at point t holds, at block row p, row 1000 t + p of its array. -/
theorem blk4_apply (c : Dev nD) (t : Fin cfg5.N) (p : Fin 1000) (k : Fin 128) (r : Fin 200000) (hr : r.val = t.val * 1000 + p.val) :
    (iblk5 (F := Ideal) V c 4 t : Vec Ideal S1000x128 .f32) (ix2 p k) = (V c main_call0_v187 : S200000x128.Idx → Elt Ideal .f32) (ix2 r k) := by
  have e := idx4 t
  unfold iblk5
  rw [View.read_apply]
  show V c main_call0_v187 _ = V c main_call0_v187 _
  refine congrArg _ (funext fun a => Fin.ext ?_)
  match a with
  | ⟨0, _⟩ => show win5_4.index t (0 : Fin 2) * 1000 + 1 * p.val = r.val; rw [e.1, hr]; omega
  | ⟨1, _⟩ => show win5_4.index t (1 : Fin 2) * 128 + 1 * k.val = k.val; rw [e.2]; omega

/-- Window 5's block at point t holds, at block row p, row 1000 t + p of its array. -/
theorem blk5_apply (c : Dev nD) (t : Fin cfg5.N) (p : Fin 1000) (k : Fin 1) (r : Fin 200000) (hr : r.val = t.val * 1000 + p.val) :
    (iblk5 (F := Ideal) V c 5 t : Vec Ideal S1000x1 .f32) (ix2 p k) = (V c main_call0_v79 : S200000x1.Idx → Elt Ideal .f32) (ix2 r k) := by
  have e := idx5 t
  unfold iblk5
  rw [View.read_apply]
  show V c main_call0_v79 _ = V c main_call0_v79 _
  refine congrArg _ (funext fun a => Fin.ext ?_)
  match a with
  | ⟨0, _⟩ => show win5_5.index t (0 : Fin 2) * 1000 + 1 * p.val = r.val; rw [e.1, hr]; omega
  | ⟨1, _⟩ => show win5_5.index t (1 : Fin 2) * 1 + 1 * k.val = k.val; rw [e.2]; omega

/-- Window 8's block at point t holds, at block row p, row 1000 t + p of its array. -/
theorem blk8_apply (c : Dev nD) (t : Fin cfg5.N) (p : Fin 1000) (k : Fin 128) (r : Fin 200000) (hr : r.val = t.val * 1000 + p.val) :
    (iblk5 (F := Ideal) V c 8 t : Vec Ideal S1000x128 .f32) (ix2 p k) = (V c main_call0_v81 : S200000x128.Idx → Elt Ideal .f32) (ix2 r k) := by
  have e := idx8 t
  unfold iblk5
  rw [View.read_apply]
  show V c main_call0_v81 _ = V c main_call0_v81 _
  refine congrArg _ (funext fun a => Fin.ext ?_)
  match a with
  | ⟨0, _⟩ => show win5_8.index t (0 : Fin 2) * 1000 + 1 * p.val = r.val; rw [e.1, hr]; omega
  | ⟨1, _⟩ => show win5_8.index t (1 : Fin 2) * 128 + 1 * k.val = k.val; rw [e.2]; omega

/-- Window 2's block is its whole array at every point. -/
theorem blk2_eq (c : Dev nD) (t : Fin cfg5.N) :
    (iblk5 (F := Ideal) V c 2 t : Vec Ideal S128x128 .f32) = (V c main_arg16 : S128x128.Idx → Elt Ideal .f32) := by
  have e := idx2 t
  funext y
  unfold iblk5
  rw [View.read_apply]
  show V c main_arg16 _ = V c main_arg16 y
  refine congrArg _ (funext fun a => Fin.ext ?_)
  match a with
  | ⟨0, _⟩ => show win5_2.index t (0 : Fin 2) * 128 + 1 * (y 0).val = (y 0).val; rw [e.1]; omega
  | ⟨1, _⟩ => show win5_2.index t (1 : Fin 2) * 128 + 1 * (y 1).val = (y 1).val; rw [e.2]; omega

/-- Window 3's block is its whole array at every point. -/
theorem blk3_eq (c : Dev nD) (t : Fin cfg5.N) :
    (iblk5 (F := Ideal) V c 3 t : Vec Ideal S128 .f32) = (V c main_arg17 : S128.Idx → Elt Ideal .f32) := by
  have e := idx3 t
  funext y
  unfold iblk5
  rw [View.read_apply]
  show V c main_arg17 _ = V c main_arg17 y
  refine congrArg _ (funext fun a => Fin.ext ?_)
  match a with
  | ⟨0, _⟩ => show win5_3.index t (0 : Fin 1) * 128 + 1 * (y 0).val = (y 0).val; rw [e]; omega

/-- Window 6's block is its whole array at every point. -/
theorem blk6_eq (c : Dev nD) (t : Fin cfg5.N) :
    (iblk5 (F := Ideal) V c 6 t : Vec Ideal S128x128 .f32) = (V c main_arg20 : S128x128.Idx → Elt Ideal .f32) := by
  have e := idx6 t
  funext y
  unfold iblk5
  rw [View.read_apply]
  show V c main_arg20 _ = V c main_arg20 y
  refine congrArg _ (funext fun a => Fin.ext ?_)
  match a with
  | ⟨0, _⟩ => show win5_6.index t (0 : Fin 2) * 128 + 1 * (y 0).val = (y 0).val; rw [e.1]; omega
  | ⟨1, _⟩ => show win5_6.index t (1 : Fin 2) * 128 + 1 * (y 1).val = (y 1).val; rw [e.2]; omega

/-- Window 7's block is its whole array at every point. -/
theorem blk7_eq (c : Dev nD) (t : Fin cfg5.N) :
    (iblk5 (F := Ideal) V c 7 t : Vec Ideal S128 .f32) = (V c main_arg21 : S128.Idx → Elt Ideal .f32) := by
  have e := idx7 t
  funext y
  unfold iblk5
  rw [View.read_apply]
  show V c main_arg21 _ = V c main_arg21 y
  refine congrArg _ (funext fun a => Fin.ext ?_)
  match a with
  | ⟨0, _⟩ => show win5_7.index t (0 : Fin 1) * 128 + 1 * (y 0).val = (y 0).val; rw [e]; omega

/-- Window 9's block is its whole array at every point. -/
theorem blk9_eq (c : Dev nD) (t : Fin cfg5.N) :
    (iblk5 (F := Ideal) V c 9 t : Vec Ideal S128x512 .f32) = (V c main_arg24 : S128x512.Idx → Elt Ideal .f32) := by
  have e := idx9 t
  funext y
  unfold iblk5
  rw [View.read_apply]
  show V c main_arg24 _ = V c main_arg24 y
  refine congrArg _ (funext fun a => Fin.ext ?_)
  match a with
  | ⟨0, _⟩ => show win5_9.index t (0 : Fin 2) * 128 + 1 * (y 0).val = (y 0).val; rw [e.1]; omega
  | ⟨1, _⟩ => show win5_9.index t (1 : Fin 2) * 512 + 1 * (y 1).val = (y 1).val; rw [e.2]; omega

/-- Window 10's block is its whole array at every point. -/
theorem blk10_eq (c : Dev nD) (t : Fin cfg5.N) :
    (iblk5 (F := Ideal) V c 10 t : Vec Ideal S512 .f32) = (V c main_arg25 : S512.Idx → Elt Ideal .f32) := by
  have e := idx10 t
  funext y
  unfold iblk5
  rw [View.read_apply]
  show V c main_arg25 _ = V c main_arg25 y
  refine congrArg _ (funext fun a => Fin.ext ?_)
  match a with
  | ⟨0, _⟩ => show win5_10.index t (0 : Fin 1) * 512 + 1 * (y 0).val = (y 0).val; rw [e]; omega

/-- Output window 11's block entry (p, q) at point t sits in the array at row 1000 t + p, column q. -/
theorem emb_h (t : Fin cfg5.N) (p : Fin 1000) (q : Fin 128) (r : Fin 200000) (hr : r.val = t.val * 1000 + p.val) :
    ((cfg5.win 11).blk t).view.emb (ix2 p q : S1000x128.Idx) = (ix2 r q : S200000x128.Idx) := by
  have e := idx11 t
  funext a
  apply Fin.ext
  match a with
  | ⟨0, _⟩ => show win5_11.index t (0 : Fin 2) * 1000 + 1 * p.val = r.val; rw [e.1, hr]; omega
  | ⟨1, _⟩ => show win5_11.index t (1 : Fin 2) * 128 + 1 * q.val = q.val; rw [e.2]; omega

/-- An index of the array is in point t's block iff each coordinate is in the block's range on its axis. -/
theorem mem_blk_h (t : Fin cfg5.N) (i : S200000x128.Idx) :
    i ∈ ((cfg5.win 11).blk t).view.set ↔ ∀ a : Fin 2, win5_11.index t a * S1000x128.size a ≤ (i a).val ∧ (i a).val < win5_11.index t a * S1000x128.size a + S1000x128.size a := by
  show i ∈ ((View.whole main_v0_3).slice (win5_11.rect t)).set ↔ _
  rw [View.set_slice_whole, Rect.mem_set_unit]
  exact Iff.rfl

/-- Every row is in the block of the point its thousand names: the 200 blocks tile the array. -/
theorem cover_h (i : S200000x128.Idx) :
    ∃ t : Fin cfg5.N, (cfg5.win 11).flush t = true ∧ i ∈ ((cfg5.win 11).blk t).view.set := by
  have hi0 : (i 0).val < 200000 := (i 0).isLt
  have hi1 : (i 1).val < 128 := (i 1).isLt
  have hN : grid5.N = 200 := N_5
  obtain ⟨t, ht⟩ : ∃ t : Fin cfg5.N, t.val = (i 0).val / 1000 := ⟨⟨(i 0).val / 1000, by show _ < grid5.N; rw [hN]; omega⟩, rfl⟩
  have e := idx11 t
  refine ⟨t, flush5_11 t, ?_⟩
  rw [mem_blk_h]
  intro a
  match a with
  | ⟨0, _⟩ => show win5_11.index t (0 : Fin 2) * 1000 ≤ (i 0).val ∧ (i 0).val < win5_11.index t (0 : Fin 2) * 1000 + 1000; rw [e.1, ht]; omega
  | ⟨1, _⟩ => show win5_11.index t (1 : Fin 2) * 128 ≤ (i 1).val ∧ (i 1).val < win5_11.index t (1 : Fin 2) * 128 + 128; rw [e.2]; omega

/-- Output window 12's block entry (p, q) at point t sits in the array at row 1000 t + p, column q. -/
theorem emb_fc (t : Fin cfg5.N) (p : Fin 1000) (q : Fin 512) (r : Fin 200000) (hr : r.val = t.val * 1000 + p.val) :
    ((cfg5.win 12).blk t).view.emb (ix2 p q : S1000x512.Idx) = (ix2 r q : S200000x512.Idx) := by
  have e := idx12 t
  funext a
  apply Fin.ext
  match a with
  | ⟨0, _⟩ => show win5_12.index t (0 : Fin 2) * 1000 + 1 * p.val = r.val; rw [e.1, hr]; omega
  | ⟨1, _⟩ => show win5_12.index t (1 : Fin 2) * 512 + 1 * q.val = q.val; rw [e.2]; omega

/-- An index of the array is in point t's block iff each coordinate is in the block's range on its axis. -/
theorem mem_blk_fc (t : Fin cfg5.N) (i : S200000x512.Idx) :
    i ∈ ((cfg5.win 12).blk t).view.set ↔ ∀ a : Fin 2, win5_12.index t a * S1000x512.size a ≤ (i a).val ∧ (i a).val < win5_12.index t a * S1000x512.size a + S1000x512.size a := by
  show i ∈ ((View.whole main_v0_1).slice (win5_12.rect t)).set ↔ _
  rw [View.set_slice_whole, Rect.mem_set_unit]
  exact Iff.rfl

/-- Every row is in the block of the point its thousand names: the 200 blocks tile the array. -/
theorem cover_fc (i : S200000x512.Idx) :
    ∃ t : Fin cfg5.N, (cfg5.win 12).flush t = true ∧ i ∈ ((cfg5.win 12).blk t).view.set := by
  have hi0 : (i 0).val < 200000 := (i 0).isLt
  have hi1 : (i 1).val < 512 := (i 1).isLt
  have hN : grid5.N = 200 := N_5
  obtain ⟨t, ht⟩ : ∃ t : Fin cfg5.N, t.val = (i 0).val / 1000 := ⟨⟨(i 0).val / 1000, by show _ < grid5.N; rw [hN]; omega⟩, rfl⟩
  have e := idx12 t
  refine ⟨t, flush5_12 t, ?_⟩
  rw [mem_blk_fc]
  intro a
  match a with
  | ⟨0, _⟩ => show win5_12.index t (0 : Fin 2) * 1000 ≤ (i 0).val ∧ (i 0).val < win5_12.index t (0 : Fin 2) * 1000 + 1000; rw [e.1, ht]; omega
  | ⟨1, _⟩ => show win5_12.index t (1 : Fin 2) * 512 ≤ (i 1).val ∧ (i 1).val < win5_12.index t (1 : Fin 2) * 512 + 512; rw [e.2]; omega

/-- The new feature rows as the region finds its operands. -/
abbrev hOf (c : Dev nD) : ArrRx128 := hArr (V c main_call0_v174) (V c main_call0_v78) (V c main_arg16) (V c main_arg17) (V c main_call0_v187) (V c main_call0_v79) (V c main_arg20) (V c main_arg21) (V c main_call0_v81)

/-- What point t writes back to the h array is block t of `hOf`. -/
theorem flushed_h (c : Dev nD) (t : Fin cfg5.N) :
    (dat5 (F := Ideal) V c).flushed 11 t = ((cfg5.win 11).blk t).view.read (Elt Ideal) (hOf V c) := by
  show (cfg5.win 11).cut (grid5.coords t) ((dat5 (F := Ideal) V c).after 11 t) = _
  rw [after5_11]
  unfold out5_11
  rw [View.canon_unit_zero hz2]
  simp only [View.ld_unit_zero (S := S1000x128) hz2, View.ld_unit_zero (S := S1000x1) hz2, View.ld_unit_zero (S := S128x128) hz2,
    View.ld_unit_zero (S := S128) hz1]
  rw [blk2_eq V c t, blk6_eq V c t, blk3_eq V c t, blk7_eq V c t]
  funext y
  obtain ⟨p, q, rfl⟩ : ∃ (p : Fin 1000) (q : Fin 128), y = ix2 p q := ⟨y 0, y 1, eq_ix2 y⟩
  have hN : grid5.N = 200 := N_5
  have ht : t.val < 200 := by have h : t.val < grid5.N := t.isLt; omega
  obtain ⟨r, hr⟩ : ∃ r : Fin 200000, r.val = t.val * 1000 + p.val := ⟨⟨t.val * 1000 + p.val, by have := p.isLt; omega⟩, rfl⟩
  rw [View.read_apply]
  show _ = hOf V c (((cfg5.win 11).blk t).view.emb (ix2 p q))
  rw [emb_h t p q r hr]
  exact h_entry (iblk5 (F := Ideal) V c 0 t) (iblk5 (F := Ideal) V c 1 t) (iblk5 (F := Ideal) V c 4 t) (iblk5 (F := Ideal) V c 5 t) (iblk5 (F := Ideal) V c 8 t) (V c main_call0_v174) (V c main_call0_v78) (V c main_arg16) (V c main_arg17) (V c main_call0_v187) (V c main_call0_v79) (V c main_arg20) (V c main_arg21) (V c main_call0_v81) p r (fun k => blk0_apply V c t p k r hr) (blk1_apply V c t p 0 r hr) (fun k => blk4_apply V c t p k r hr) (blk5_apply V c t p 0 r hr) (fun k => blk8_apply V c t p k r hr) q

/-- What point t writes back to the head array is block t of the head of `hOf`. -/
theorem flushed_fc (c : Dev nD) (t : Fin cfg5.N) :
    (dat5 (F := Ideal) V c).flushed 12 t
      = ((cfg5.win 12).blk t).view.read (Elt Ideal) (Cert.Stages.fcFe (F := Ideal) (hOf V c) (V c main_arg24) (V c main_arg25)) := by
  show (cfg5.win 12).cut (grid5.coords t) ((dat5 (F := Ideal) V c).after 12 t) = _
  rw [after5_12]
  unfold out5_12
  rw [View.canon_unit_zero hz2]
  simp only [View.ld_unit_zero (S := S1000x128) hz2, View.ld_unit_zero (S := S1000x1) hz2, View.ld_unit_zero (S := S128x128) hz2,
    View.ld_unit_zero (S := S128) hz1, View.ld_unit_zero (S := S128x512) hz2, View.ld_unit_zero (S := S512) hz1]
  rw [blk2_eq V c t, blk6_eq V c t, blk3_eq V c t, blk7_eq V c t, blk9_eq V c t, blk10_eq V c t]
  funext y
  obtain ⟨p, q, rfl⟩ : ∃ (p : Fin 1000) (q : Fin 512), y = ix2 p q := ⟨y 0, y 1, eq_ix2 y⟩
  have hN : grid5.N = 200 := N_5
  have ht : t.val < 200 := by have h : t.val < grid5.N := t.isLt; omega
  obtain ⟨r, hr⟩ : ∃ r : Fin 200000, r.val = t.val * 1000 + p.val := ⟨⟨t.val * 1000 + p.val, by have := p.isLt; omega⟩, rfl⟩
  rw [View.read_apply]
  show _ = Cert.Stages.fcFe (F := Ideal) (hOf V c) (V c main_arg24) (V c main_arg25) (((cfg5.win 12).blk t).view.emb (ix2 p q))
  rw [emb_fc t p q r hr]
  exact fc_entry (iblk5 (F := Ideal) V c 0 t) (iblk5 (F := Ideal) V c 1 t) (iblk5 (F := Ideal) V c 4 t) (iblk5 (F := Ideal) V c 5 t) (iblk5 (F := Ideal) V c 8 t) (V c main_call0_v174) (V c main_call0_v78) (V c main_arg16) (V c main_arg17) (V c main_call0_v187) (V c main_call0_v79) (V c main_arg20) (V c main_arg21) (V c main_call0_v81) (V c main_arg24) (V c main_arg25) p r (fun k => blk0_apply V c t p k r hr) (blk1_apply V c t p 0 r hr) (fun k => blk4_apply V c t p k r hr) (blk5_apply V c t p 0 r hr) (fun k => blk8_apply V c t p k r hr) q

/-- After all 200 points the h array is the layer's mean of the two convolutions plus the residual, as ONE function of the
    region's operand arrays. -/
theorem final_h (c : Dev nD) :
    (dat5 (F := Ideal) V c).arrAt 11 cfg5.N
      = addf (Cert.Stages.layerFe (V c main_call0_v174) (V c main_call0_v78) (V c main_arg16) (V c main_arg17) (V c main_call0_v187) (V c main_call0_v79) (V c main_arg20) (V c main_arg21)) (V c main_call0_v81) :=
  (dat5 (F := Ideal) V c).arrAt_eq_of_cover 11 (hOf V c) (fun t _ => flushed_h V c t) cover_h

/-- And the head array is the output head of that same h. -/
theorem final_fc (c : Dev nD) :
    (dat5 (F := Ideal) V c).arrAt 12 cfg5.N
      = Cert.Stages.fcFe (addf (Cert.Stages.layerFe (V c main_call0_v174) (V c main_call0_v78) (V c main_arg16) (V c main_arg17) (V c main_call0_v187) (V c main_call0_v79) (V c main_arg20) (V c main_arg21)) (V c main_call0_v81))
          (V c main_arg24) (V c main_arg25) :=
  (dat5 (F := Ideal) V c).arrAt_eq_of_cover 12 (Cert.Stages.fcFe (F := Ideal) (hOf V c) (V c main_arg24) (V c main_arg25)) (fun t _ => flushed_fc V c t) cover_fc

end Blocks

end Cert.KernelIdeal.HeadFe

end
-- ==== Proof.Chain.lean ====
/-
  The idealized kernel's four result arrays as functions of the argument arrays: the buffer contents followed through @main, boundary
  by boundary — each host stretch evaluated at the buffers it writes, each region's output array by its whole-array function of the
  region's entry contents, everything else carried along unchanged — arrive at the network of Model.lean.
-/
import proofs.«162449_j55422257988217_2_alg».proof.Proof.Keep
import proofs.«162449_j55422257988217_2_alg».proof.Proof.HostVals
import proofs.«162449_j55422257988217_2_alg».proof.Proof.Model
import proofs.«162449_j55422257988217_2_alg».proof.Proof.LinFr
import proofs.«162449_j55422257988217_2_alg».proof.Proof.LinFe
import proofs.«162449_j55422257988217_2_alg».proof.Proof.ReluFr
import proofs.«162449_j55422257988217_2_alg».proof.Proof.ReluFe
import proofs.«162449_j55422257988217_2_alg».proof.Proof.HeadFr
import proofs.«162449_j55422257988217_2_alg».proof.Proof.HeadFe

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

/-- The argument arrays as launched, on core `c`. -/
def inputs : Cert.Stages.Inputs Ideal where
  frame := m ((c : Thread nD τ).loc main_arg0)
  fe := m ((c : Thread nD τ).loc main_arg1)
  srcFrFr := m ((c : Thread nD τ).loc main_arg2)
  dstFrFr := m ((c : Thread nD τ).loc main_arg3)
  srcFrFe := m ((c : Thread nD τ).loc main_arg4)
  dstFrFe := m ((c : Thread nD τ).loc main_arg5)
  srcFeFr := m ((c : Thread nD τ).loc main_arg6)
  dstFeFr := m ((c : Thread nD τ).loc main_arg7)
  srcFeFe := m ((c : Thread nD τ).loc main_arg8)
  dstFeFe := m ((c : Thread nD τ).loc main_arg9)
  wFrLin := m ((c : Thread nD τ).loc main_arg10)
  bFrLin := m ((c : Thread nD τ).loc main_arg11)
  wFeLin := m ((c : Thread nD τ).loc main_arg12)
  bFeLin := m ((c : Thread nD τ).loc main_arg13)
  wFrFr := m ((c : Thread nD τ).loc main_arg14)
  bFrFr := m ((c : Thread nD τ).loc main_arg15)
  wFrFe := m ((c : Thread nD τ).loc main_arg16)
  bFrFe := m ((c : Thread nD τ).loc main_arg17)
  wFeFr := m ((c : Thread nD τ).loc main_arg18)
  bFeFr := m ((c : Thread nD τ).loc main_arg19)
  wFeFe := m ((c : Thread nD τ).loc main_arg20)
  bFeFe := m ((c : Thread nD τ).loc main_arg21)
  wFrFc := m ((c : Thread nD τ).loc main_arg22)
  bFrFc := m ((c : Thread nD τ).loc main_arg23)
  wFeFc := m ((c : Thread nD τ).loc main_arg24)
  bFeFc := m ((c : Thread nD τ).loc main_arg25)

/-! ## The degree norms, computed once before the first region and never written again -/

theorem n1_v12 : (W1 m ρ c (Proc.devRef (τ := τ) .tc main_call0_v12)) = (Cert.Stages.normFr (inputs m c).srcFrFr) :=
  HostVals.w1_v12 m ρ c

theorem n1_v31 : (W1 m ρ c (Proc.devRef (τ := τ) .tc main_call0_v31)) = (Cert.Stages.normFr (inputs m c).srcFrFe) :=
  HostVals.w1_v31 m ρ c

theorem n1_v50 : (W1 m ρ c (Proc.devRef (τ := τ) .tc main_call0_v50)) = (Cert.Stages.normFe (inputs m c).srcFeFr) :=
  HostVals.w1_v50 m ρ c

theorem n1_v69 : (W1 m ρ c (Proc.devRef (τ := τ) .tc main_call0_v69)) = (Cert.Stages.normFe (inputs m c).srcFeFe) :=
  HostVals.w1_v69 m ρ c

theorem n1_v76 : (W1 m ρ c (Proc.devRef (τ := τ) .tc main_call0_v76)) = (Cert.Stages.colFr (Cert.Stages.normFr (inputs m c).dstFrFr)) :=
  HostVals.w1_v76 m ρ c

theorem n1_v77 : (W1 m ρ c (Proc.devRef (τ := τ) .tc main_call0_v77)) = (Cert.Stages.colFr (Cert.Stages.normFr (inputs m c).dstFeFr)) :=
  HostVals.w1_v77 m ρ c

theorem n1_v78 : (W1 m ρ c (Proc.devRef (τ := τ) .tc main_call0_v78)) = (Cert.Stages.colFe (Cert.Stages.normFe (inputs m c).dstFrFe)) :=
  HostVals.w1_v78 m ρ c

theorem n1_v79 : (W1 m ρ c (Proc.devRef (τ := τ) .tc main_call0_v79)) = (Cert.Stages.colFe (Cert.Stages.normFe (inputs m c).dstFeFe)) :=
  HostVals.w1_v79 m ρ c

theorem n3_v12 : (W3 m ρ c (Proc.devRef (τ := τ) .tc main_call0_v12)) = (Cert.Stages.normFr (inputs m c).srcFrFr) := by
  rw [keepR1 m ρ c main_call0_v12 (by decide), keepR0 m ρ c main_call0_v12 (by decide)]
  exact n1_v12 m ρ c

theorem n3_v31 : (W3 m ρ c (Proc.devRef (τ := τ) .tc main_call0_v31)) = (Cert.Stages.normFr (inputs m c).srcFrFe) := by
  rw [keepR1 m ρ c main_call0_v31 (by decide), keepR0 m ρ c main_call0_v31 (by decide)]
  exact n1_v31 m ρ c

theorem n3_v50 : (W3 m ρ c (Proc.devRef (τ := τ) .tc main_call0_v50)) = (Cert.Stages.normFe (inputs m c).srcFeFr) := by
  rw [keepR1 m ρ c main_call0_v50 (by decide), keepR0 m ρ c main_call0_v50 (by decide)]
  exact n1_v50 m ρ c

theorem n3_v69 : (W3 m ρ c (Proc.devRef (τ := τ) .tc main_call0_v69)) = (Cert.Stages.normFe (inputs m c).srcFeFe) := by
  rw [keepR1 m ρ c main_call0_v69 (by decide), keepR0 m ρ c main_call0_v69 (by decide)]
  exact n1_v69 m ρ c

theorem n6_v12 : (W6 m ρ c (Proc.devRef (τ := τ) .tc main_call0_v12)) = (Cert.Stages.normFr (inputs m c).srcFrFr) := by
  rw [keepR3 m ρ c main_call0_v12 (by decide), keepR2 m ρ c main_call0_v12 (by decide), keepH2 m ρ c main_call0_v12 (by decide), keepR1 m ρ c main_call0_v12 (by decide), keepR0 m ρ c main_call0_v12 (by decide)]
  exact n1_v12 m ρ c

theorem n6_v31 : (W6 m ρ c (Proc.devRef (τ := τ) .tc main_call0_v31)) = (Cert.Stages.normFr (inputs m c).srcFrFe) := by
  rw [keepR3 m ρ c main_call0_v31 (by decide), keepR2 m ρ c main_call0_v31 (by decide), keepH2 m ρ c main_call0_v31 (by decide), keepR1 m ρ c main_call0_v31 (by decide), keepR0 m ρ c main_call0_v31 (by decide)]
  exact n1_v31 m ρ c

theorem n6_v50 : (W6 m ρ c (Proc.devRef (τ := τ) .tc main_call0_v50)) = (Cert.Stages.normFe (inputs m c).srcFeFr) := by
  rw [keepR3 m ρ c main_call0_v50 (by decide), keepR2 m ρ c main_call0_v50 (by decide), keepH2 m ρ c main_call0_v50 (by decide), keepR1 m ρ c main_call0_v50 (by decide), keepR0 m ρ c main_call0_v50 (by decide)]
  exact n1_v50 m ρ c

theorem n6_v69 : (W6 m ρ c (Proc.devRef (τ := τ) .tc main_call0_v69)) = (Cert.Stages.normFe (inputs m c).srcFeFe) := by
  rw [keepR3 m ρ c main_call0_v69 (by decide), keepR2 m ρ c main_call0_v69 (by decide), keepH2 m ρ c main_call0_v69 (by decide), keepR1 m ρ c main_call0_v69 (by decide), keepR0 m ρ c main_call0_v69 (by decide)]
  exact n1_v69 m ρ c

theorem n4_v76 : (W4 m ρ c (Proc.devRef (τ := τ) .tc main_call0_v76)) = (Cert.Stages.colFr (Cert.Stages.normFr (inputs m c).dstFrFr)) := by
  rw [keepH2 m ρ c main_call0_v76 (by decide), keepR1 m ρ c main_call0_v76 (by decide), keepR0 m ρ c main_call0_v76 (by decide)]
  exact n1_v76 m ρ c

theorem n4_v77 : (W4 m ρ c (Proc.devRef (τ := τ) .tc main_call0_v77)) = (Cert.Stages.colFr (Cert.Stages.normFr (inputs m c).dstFeFr)) := by
  rw [keepH2 m ρ c main_call0_v77 (by decide), keepR1 m ρ c main_call0_v77 (by decide), keepR0 m ρ c main_call0_v77 (by decide)]
  exact n1_v77 m ρ c

theorem n5_v78 : (W5 m ρ c (Proc.devRef (τ := τ) .tc main_call0_v78)) = (Cert.Stages.colFe (Cert.Stages.normFe (inputs m c).dstFrFe)) := by
  rw [keepR2 m ρ c main_call0_v78 (by decide), keepH2 m ρ c main_call0_v78 (by decide), keepR1 m ρ c main_call0_v78 (by decide), keepR0 m ρ c main_call0_v78 (by decide)]
  exact n1_v78 m ρ c

theorem n5_v79 : (W5 m ρ c (Proc.devRef (τ := τ) .tc main_call0_v79)) = (Cert.Stages.colFe (Cert.Stages.normFe (inputs m c).dstFeFe)) := by
  rw [keepR2 m ρ c main_call0_v79 (by decide), keepH2 m ρ c main_call0_v79 (by decide), keepR1 m ρ c main_call0_v79 (by decide), keepR0 m ρ c main_call0_v79 (by decide)]
  exact n1_v79 m ρ c

theorem n7_v76 : (W7 m ρ c (Proc.devRef (τ := τ) .tc main_call0_v76)) = (Cert.Stages.colFr (Cert.Stages.normFr (inputs m c).dstFrFr)) := by
  rw [keepH4 m ρ c main_call0_v76 (by decide), keepR3 m ρ c main_call0_v76 (by decide), keepR2 m ρ c main_call0_v76 (by decide), keepH2 m ρ c main_call0_v76 (by decide), keepR1 m ρ c main_call0_v76 (by decide), keepR0 m ρ c main_call0_v76 (by decide)]
  exact n1_v76 m ρ c

theorem n7_v77 : (W7 m ρ c (Proc.devRef (τ := τ) .tc main_call0_v77)) = (Cert.Stages.colFr (Cert.Stages.normFr (inputs m c).dstFeFr)) := by
  rw [keepH4 m ρ c main_call0_v77 (by decide), keepR3 m ρ c main_call0_v77 (by decide), keepR2 m ρ c main_call0_v77 (by decide), keepH2 m ρ c main_call0_v77 (by decide), keepR1 m ρ c main_call0_v77 (by decide), keepR0 m ρ c main_call0_v77 (by decide)]
  exact n1_v77 m ρ c

theorem n8_v78 : (W8 m ρ c (Proc.devRef (τ := τ) .tc main_call0_v78)) = (Cert.Stages.colFe (Cert.Stages.normFe (inputs m c).dstFrFe)) := by
  rw [keepR4 m ρ c main_call0_v78 (by decide), keepH4 m ρ c main_call0_v78 (by decide), keepR3 m ρ c main_call0_v78 (by decide), keepR2 m ρ c main_call0_v78 (by decide), keepH2 m ρ c main_call0_v78 (by decide), keepR1 m ρ c main_call0_v78 (by decide), keepR0 m ρ c main_call0_v78 (by decide)]
  exact n1_v78 m ρ c

theorem n8_v79 : (W8 m ρ c (Proc.devRef (τ := τ) .tc main_call0_v79)) = (Cert.Stages.colFe (Cert.Stages.normFe (inputs m c).dstFeFe)) := by
  rw [keepR4 m ρ c main_call0_v79 (by decide), keepH4 m ρ c main_call0_v79 (by decide), keepR3 m ρ c main_call0_v79 (by decide), keepR2 m ρ c main_call0_v79 (by decide), keepH2 m ρ c main_call0_v79 (by decide), keepR1 m ρ c main_call0_v79 (by decide), keepR0 m ρ c main_call0_v79 (by decide)]
  exact n1_v79 m ρ c

/-! ## The arguments: nothing writes them -/

theorem a1_0 : (W1 m ρ c (Proc.devRef (τ := τ) .tc main_arg0)) = (inputs m c).frame := by
  rw [keepH0 m ρ c main_arg0 (by decide)]
  rfl

theorem a1_10 : (W1 m ρ c (Proc.devRef (τ := τ) .tc main_arg10)) = (inputs m c).wFrLin := by
  rw [keepH0 m ρ c main_arg10 (by decide)]
  rfl

theorem a1_11 : (W1 m ρ c (Proc.devRef (τ := τ) .tc main_arg11)) = (inputs m c).bFrLin := by
  rw [keepH0 m ρ c main_arg11 (by decide)]
  rfl

theorem a2_1 : (W2 m ρ c (Proc.devRef (τ := τ) .tc main_arg1)) = (inputs m c).fe := by
  rw [keepR0 m ρ c main_arg1 (by decide), keepH0 m ρ c main_arg1 (by decide)]
  rfl

theorem a2_12 : (W2 m ρ c (Proc.devRef (τ := τ) .tc main_arg12)) = (inputs m c).wFeLin := by
  rw [keepR0 m ρ c main_arg12 (by decide), keepH0 m ρ c main_arg12 (by decide)]
  rfl

theorem a2_13 : (W2 m ρ c (Proc.devRef (τ := τ) .tc main_arg13)) = (inputs m c).bFeLin := by
  rw [keepR0 m ρ c main_arg13 (by decide), keepH0 m ρ c main_arg13 (by decide)]
  rfl

theorem a3_2 : (W3 m ρ c (Proc.devRef (τ := τ) .tc main_arg2)) = (inputs m c).srcFrFr := by
  rw [keepR1 m ρ c main_arg2 (by decide), keepR0 m ρ c main_arg2 (by decide), keepH0 m ρ c main_arg2 (by decide)]
  rfl

theorem a3_3 : (W3 m ρ c (Proc.devRef (τ := τ) .tc main_arg3)) = (inputs m c).dstFrFr := by
  rw [keepR1 m ρ c main_arg3 (by decide), keepR0 m ρ c main_arg3 (by decide), keepH0 m ρ c main_arg3 (by decide)]
  rfl

theorem a3_4 : (W3 m ρ c (Proc.devRef (τ := τ) .tc main_arg4)) = (inputs m c).srcFrFe := by
  rw [keepR1 m ρ c main_arg4 (by decide), keepR0 m ρ c main_arg4 (by decide), keepH0 m ρ c main_arg4 (by decide)]
  rfl

theorem a3_5 : (W3 m ρ c (Proc.devRef (τ := τ) .tc main_arg5)) = (inputs m c).dstFrFe := by
  rw [keepR1 m ρ c main_arg5 (by decide), keepR0 m ρ c main_arg5 (by decide), keepH0 m ρ c main_arg5 (by decide)]
  rfl

theorem a3_6 : (W3 m ρ c (Proc.devRef (τ := τ) .tc main_arg6)) = (inputs m c).srcFeFr := by
  rw [keepR1 m ρ c main_arg6 (by decide), keepR0 m ρ c main_arg6 (by decide), keepH0 m ρ c main_arg6 (by decide)]
  rfl

theorem a3_7 : (W3 m ρ c (Proc.devRef (τ := τ) .tc main_arg7)) = (inputs m c).dstFeFr := by
  rw [keepR1 m ρ c main_arg7 (by decide), keepR0 m ρ c main_arg7 (by decide), keepH0 m ρ c main_arg7 (by decide)]
  rfl

theorem a3_8 : (W3 m ρ c (Proc.devRef (τ := τ) .tc main_arg8)) = (inputs m c).srcFeFe := by
  rw [keepR1 m ρ c main_arg8 (by decide), keepR0 m ρ c main_arg8 (by decide), keepH0 m ρ c main_arg8 (by decide)]
  rfl

theorem a3_9 : (W3 m ρ c (Proc.devRef (τ := τ) .tc main_arg9)) = (inputs m c).dstFeFe := by
  rw [keepR1 m ρ c main_arg9 (by decide), keepR0 m ρ c main_arg9 (by decide), keepH0 m ρ c main_arg9 (by decide)]
  rfl

theorem a4_14 : (W4 m ρ c (Proc.devRef (τ := τ) .tc main_arg14)) = (inputs m c).wFrFr := by
  rw [keepH2 m ρ c main_arg14 (by decide), keepR1 m ρ c main_arg14 (by decide), keepR0 m ρ c main_arg14 (by decide), keepH0 m ρ c main_arg14 (by decide)]
  rfl

theorem a4_15 : (W4 m ρ c (Proc.devRef (τ := τ) .tc main_arg15)) = (inputs m c).bFrFr := by
  rw [keepH2 m ρ c main_arg15 (by decide), keepR1 m ρ c main_arg15 (by decide), keepR0 m ρ c main_arg15 (by decide), keepH0 m ρ c main_arg15 (by decide)]
  rfl

theorem a4_18 : (W4 m ρ c (Proc.devRef (τ := τ) .tc main_arg18)) = (inputs m c).wFeFr := by
  rw [keepH2 m ρ c main_arg18 (by decide), keepR1 m ρ c main_arg18 (by decide), keepR0 m ρ c main_arg18 (by decide), keepH0 m ρ c main_arg18 (by decide)]
  rfl

theorem a4_19 : (W4 m ρ c (Proc.devRef (τ := τ) .tc main_arg19)) = (inputs m c).bFeFr := by
  rw [keepH2 m ρ c main_arg19 (by decide), keepR1 m ρ c main_arg19 (by decide), keepR0 m ρ c main_arg19 (by decide), keepH0 m ρ c main_arg19 (by decide)]
  rfl

theorem a5_16 : (W5 m ρ c (Proc.devRef (τ := τ) .tc main_arg16)) = (inputs m c).wFrFe := by
  rw [keepR2 m ρ c main_arg16 (by decide), keepH2 m ρ c main_arg16 (by decide), keepR1 m ρ c main_arg16 (by decide), keepR0 m ρ c main_arg16 (by decide), keepH0 m ρ c main_arg16 (by decide)]
  rfl

theorem a5_17 : (W5 m ρ c (Proc.devRef (τ := τ) .tc main_arg17)) = (inputs m c).bFrFe := by
  rw [keepR2 m ρ c main_arg17 (by decide), keepH2 m ρ c main_arg17 (by decide), keepR1 m ρ c main_arg17 (by decide), keepR0 m ρ c main_arg17 (by decide), keepH0 m ρ c main_arg17 (by decide)]
  rfl

theorem a5_20 : (W5 m ρ c (Proc.devRef (τ := τ) .tc main_arg20)) = (inputs m c).wFeFe := by
  rw [keepR2 m ρ c main_arg20 (by decide), keepH2 m ρ c main_arg20 (by decide), keepR1 m ρ c main_arg20 (by decide), keepR0 m ρ c main_arg20 (by decide), keepH0 m ρ c main_arg20 (by decide)]
  rfl

theorem a5_21 : (W5 m ρ c (Proc.devRef (τ := τ) .tc main_arg21)) = (inputs m c).bFeFe := by
  rw [keepR2 m ρ c main_arg21 (by decide), keepH2 m ρ c main_arg21 (by decide), keepR1 m ρ c main_arg21 (by decide), keepR0 m ρ c main_arg21 (by decide), keepH0 m ρ c main_arg21 (by decide)]
  rfl

theorem a6_2 : (W6 m ρ c (Proc.devRef (τ := τ) .tc main_arg2)) = (inputs m c).srcFrFr := by
  rw [keepR3 m ρ c main_arg2 (by decide), keepR2 m ρ c main_arg2 (by decide), keepH2 m ρ c main_arg2 (by decide), keepR1 m ρ c main_arg2 (by decide), keepR0 m ρ c main_arg2 (by decide), keepH0 m ρ c main_arg2 (by decide)]
  rfl

theorem a6_3 : (W6 m ρ c (Proc.devRef (τ := τ) .tc main_arg3)) = (inputs m c).dstFrFr := by
  rw [keepR3 m ρ c main_arg3 (by decide), keepR2 m ρ c main_arg3 (by decide), keepH2 m ρ c main_arg3 (by decide), keepR1 m ρ c main_arg3 (by decide), keepR0 m ρ c main_arg3 (by decide), keepH0 m ρ c main_arg3 (by decide)]
  rfl

theorem a6_4 : (W6 m ρ c (Proc.devRef (τ := τ) .tc main_arg4)) = (inputs m c).srcFrFe := by
  rw [keepR3 m ρ c main_arg4 (by decide), keepR2 m ρ c main_arg4 (by decide), keepH2 m ρ c main_arg4 (by decide), keepR1 m ρ c main_arg4 (by decide), keepR0 m ρ c main_arg4 (by decide), keepH0 m ρ c main_arg4 (by decide)]
  rfl

theorem a6_5 : (W6 m ρ c (Proc.devRef (τ := τ) .tc main_arg5)) = (inputs m c).dstFrFe := by
  rw [keepR3 m ρ c main_arg5 (by decide), keepR2 m ρ c main_arg5 (by decide), keepH2 m ρ c main_arg5 (by decide), keepR1 m ρ c main_arg5 (by decide), keepR0 m ρ c main_arg5 (by decide), keepH0 m ρ c main_arg5 (by decide)]
  rfl

theorem a6_6 : (W6 m ρ c (Proc.devRef (τ := τ) .tc main_arg6)) = (inputs m c).srcFeFr := by
  rw [keepR3 m ρ c main_arg6 (by decide), keepR2 m ρ c main_arg6 (by decide), keepH2 m ρ c main_arg6 (by decide), keepR1 m ρ c main_arg6 (by decide), keepR0 m ρ c main_arg6 (by decide), keepH0 m ρ c main_arg6 (by decide)]
  rfl

theorem a6_7 : (W6 m ρ c (Proc.devRef (τ := τ) .tc main_arg7)) = (inputs m c).dstFeFr := by
  rw [keepR3 m ρ c main_arg7 (by decide), keepR2 m ρ c main_arg7 (by decide), keepH2 m ρ c main_arg7 (by decide), keepR1 m ρ c main_arg7 (by decide), keepR0 m ρ c main_arg7 (by decide), keepH0 m ρ c main_arg7 (by decide)]
  rfl

theorem a6_8 : (W6 m ρ c (Proc.devRef (τ := τ) .tc main_arg8)) = (inputs m c).srcFeFe := by
  rw [keepR3 m ρ c main_arg8 (by decide), keepR2 m ρ c main_arg8 (by decide), keepH2 m ρ c main_arg8 (by decide), keepR1 m ρ c main_arg8 (by decide), keepR0 m ρ c main_arg8 (by decide), keepH0 m ρ c main_arg8 (by decide)]
  rfl

theorem a6_9 : (W6 m ρ c (Proc.devRef (τ := τ) .tc main_arg9)) = (inputs m c).dstFeFe := by
  rw [keepR3 m ρ c main_arg9 (by decide), keepR2 m ρ c main_arg9 (by decide), keepH2 m ρ c main_arg9 (by decide), keepR1 m ρ c main_arg9 (by decide), keepR0 m ρ c main_arg9 (by decide), keepH0 m ρ c main_arg9 (by decide)]
  rfl

theorem a7_14 : (W7 m ρ c (Proc.devRef (τ := τ) .tc main_arg14)) = (inputs m c).wFrFr := by
  rw [keepH4 m ρ c main_arg14 (by decide), keepR3 m ρ c main_arg14 (by decide), keepR2 m ρ c main_arg14 (by decide), keepH2 m ρ c main_arg14 (by decide), keepR1 m ρ c main_arg14 (by decide), keepR0 m ρ c main_arg14 (by decide), keepH0 m ρ c main_arg14 (by decide)]
  rfl

theorem a7_15 : (W7 m ρ c (Proc.devRef (τ := τ) .tc main_arg15)) = (inputs m c).bFrFr := by
  rw [keepH4 m ρ c main_arg15 (by decide), keepR3 m ρ c main_arg15 (by decide), keepR2 m ρ c main_arg15 (by decide), keepH2 m ρ c main_arg15 (by decide), keepR1 m ρ c main_arg15 (by decide), keepR0 m ρ c main_arg15 (by decide), keepH0 m ρ c main_arg15 (by decide)]
  rfl

theorem a7_18 : (W7 m ρ c (Proc.devRef (τ := τ) .tc main_arg18)) = (inputs m c).wFeFr := by
  rw [keepH4 m ρ c main_arg18 (by decide), keepR3 m ρ c main_arg18 (by decide), keepR2 m ρ c main_arg18 (by decide), keepH2 m ρ c main_arg18 (by decide), keepR1 m ρ c main_arg18 (by decide), keepR0 m ρ c main_arg18 (by decide), keepH0 m ρ c main_arg18 (by decide)]
  rfl

theorem a7_19 : (W7 m ρ c (Proc.devRef (τ := τ) .tc main_arg19)) = (inputs m c).bFeFr := by
  rw [keepH4 m ρ c main_arg19 (by decide), keepR3 m ρ c main_arg19 (by decide), keepR2 m ρ c main_arg19 (by decide), keepH2 m ρ c main_arg19 (by decide), keepR1 m ρ c main_arg19 (by decide), keepR0 m ρ c main_arg19 (by decide), keepH0 m ρ c main_arg19 (by decide)]
  rfl

theorem a7_22 : (W7 m ρ c (Proc.devRef (τ := τ) .tc main_arg22)) = (inputs m c).wFrFc := by
  rw [keepH4 m ρ c main_arg22 (by decide), keepR3 m ρ c main_arg22 (by decide), keepR2 m ρ c main_arg22 (by decide), keepH2 m ρ c main_arg22 (by decide), keepR1 m ρ c main_arg22 (by decide), keepR0 m ρ c main_arg22 (by decide), keepH0 m ρ c main_arg22 (by decide)]
  rfl

theorem a7_23 : (W7 m ρ c (Proc.devRef (τ := τ) .tc main_arg23)) = (inputs m c).bFrFc := by
  rw [keepH4 m ρ c main_arg23 (by decide), keepR3 m ρ c main_arg23 (by decide), keepR2 m ρ c main_arg23 (by decide), keepH2 m ρ c main_arg23 (by decide), keepR1 m ρ c main_arg23 (by decide), keepR0 m ρ c main_arg23 (by decide), keepH0 m ρ c main_arg23 (by decide)]
  rfl

theorem a8_16 : (W8 m ρ c (Proc.devRef (τ := τ) .tc main_arg16)) = (inputs m c).wFrFe := by
  rw [keepR4 m ρ c main_arg16 (by decide), keepH4 m ρ c main_arg16 (by decide), keepR3 m ρ c main_arg16 (by decide), keepR2 m ρ c main_arg16 (by decide), keepH2 m ρ c main_arg16 (by decide), keepR1 m ρ c main_arg16 (by decide), keepR0 m ρ c main_arg16 (by decide), keepH0 m ρ c main_arg16 (by decide)]
  rfl

theorem a8_17 : (W8 m ρ c (Proc.devRef (τ := τ) .tc main_arg17)) = (inputs m c).bFrFe := by
  rw [keepR4 m ρ c main_arg17 (by decide), keepH4 m ρ c main_arg17 (by decide), keepR3 m ρ c main_arg17 (by decide), keepR2 m ρ c main_arg17 (by decide), keepH2 m ρ c main_arg17 (by decide), keepR1 m ρ c main_arg17 (by decide), keepR0 m ρ c main_arg17 (by decide), keepH0 m ρ c main_arg17 (by decide)]
  rfl

theorem a8_20 : (W8 m ρ c (Proc.devRef (τ := τ) .tc main_arg20)) = (inputs m c).wFeFe := by
  rw [keepR4 m ρ c main_arg20 (by decide), keepH4 m ρ c main_arg20 (by decide), keepR3 m ρ c main_arg20 (by decide), keepR2 m ρ c main_arg20 (by decide), keepH2 m ρ c main_arg20 (by decide), keepR1 m ρ c main_arg20 (by decide), keepR0 m ρ c main_arg20 (by decide), keepH0 m ρ c main_arg20 (by decide)]
  rfl

theorem a8_21 : (W8 m ρ c (Proc.devRef (τ := τ) .tc main_arg21)) = (inputs m c).bFeFe := by
  rw [keepR4 m ρ c main_arg21 (by decide), keepH4 m ρ c main_arg21 (by decide), keepR3 m ρ c main_arg21 (by decide), keepR2 m ρ c main_arg21 (by decide), keepH2 m ρ c main_arg21 (by decide), keepR1 m ρ c main_arg21 (by decide), keepR0 m ρ c main_arg21 (by decide), keepH0 m ρ c main_arg21 (by decide)]
  rfl

theorem a8_24 : (W8 m ρ c (Proc.devRef (τ := τ) .tc main_arg24)) = (inputs m c).wFeFc := by
  rw [keepR4 m ρ c main_arg24 (by decide), keepH4 m ρ c main_arg24 (by decide), keepR3 m ρ c main_arg24 (by decide), keepR2 m ρ c main_arg24 (by decide), keepH2 m ρ c main_arg24 (by decide), keepR1 m ρ c main_arg24 (by decide), keepR0 m ρ c main_arg24 (by decide), keepH0 m ρ c main_arg24 (by decide)]
  rfl

theorem a8_25 : (W8 m ρ c (Proc.devRef (τ := τ) .tc main_arg25)) = (inputs m c).bFeFc := by
  rw [keepR4 m ρ c main_arg25 (by decide), keepH4 m ρ c main_arg25 (by decide), keepR3 m ρ c main_arg25 (by decide), keepR2 m ρ c main_arg25 (by decide), keepH2 m ρ c main_arg25 (by decide), keepR1 m ρ c main_arg25 (by decide), keepR0 m ρ c main_arg25 (by decide), keepH0 m ρ c main_arg25 (by decide)]
  rfl

/-! ## The input projections (regions 0 and 1) -/

theorem s2_xfr : (W2 m ρ c (Proc.devRef (τ := τ) .tc main_call0_v80)) = (Cert.Stages.xFr (inputs m c)) := by
  refine (W2_arr m ρ c 3).trans ((LinFr.final (V1 m ρ) c).trans ?_)
  show Cert.Stages.linFr (W1 m ρ c (Proc.devRef (τ := τ) .tc main_arg0)) (W1 m ρ c (Proc.devRef (τ := τ) .tc main_arg10)) (W1 m ρ c (Proc.devRef (τ := τ) .tc main_arg11)) = _
  rw [a1_0 m ρ c, a1_10 m ρ c, a1_11 m ρ c]
  rfl

theorem s3_xfe : (W3 m ρ c (Proc.devRef (τ := τ) .tc main_call0_v81)) = (Cert.Stages.xFe (inputs m c)) := by
  refine (W3_arr m ρ c 3).trans ((LinFe.final (V2 m ρ) c).trans ?_)
  show Cert.Stages.linFe (W2 m ρ c (Proc.devRef (τ := τ) .tc main_arg1)) (W2 m ρ c (Proc.devRef (τ := τ) .tc main_arg12)) (W2 m ρ c (Proc.devRef (τ := τ) .tc main_arg13)) = _
  rw [a2_1 m ρ c, a2_12 m ρ c, a2_13 m ρ c]
  rfl

theorem s3_xfr : (W3 m ρ c (Proc.devRef (τ := τ) .tc main_call0_v80)) = (Cert.Stages.xFr (inputs m c)) := by
  rw [keepR1 m ρ c main_call0_v80 (by decide)]
  exact s2_xfr m ρ c

/-! ## Layer 1: the four aggregates (host), then the two combine-and-relu regions -/

theorem s4_v94 : (W4 m ρ c (Proc.devRef (τ := τ) .tc main_call0_v94)) = (Cert.Stages.sumFr (Cert.Stages.msgFr (Cert.Stages.xFr (inputs m c)) (Cert.Stages.normFr (inputs m c).srcFrFr) (inputs m c).srcFrFr) (inputs m c).dstFrFr) := by
  rw [HostVals.w4_v94 m ρ c, s3_xfr m ρ c, n3_v12 m ρ c, a3_2 m ρ c, a3_3 m ρ c]
theorem s4_v107 : (W4 m ρ c (Proc.devRef (τ := τ) .tc main_call0_v107)) = (Cert.Stages.sumFr (Cert.Stages.msgFe (Cert.Stages.xFe (inputs m c)) (Cert.Stages.normFe (inputs m c).srcFeFr) (inputs m c).srcFeFr) (inputs m c).dstFeFr) := by
  rw [HostVals.w4_v107 m ρ c, s3_xfe m ρ c, n3_v50 m ρ c, a3_6 m ρ c, a3_7 m ρ c]
theorem s4_v120 : (W4 m ρ c (Proc.devRef (τ := τ) .tc main_call0_v120)) = (Cert.Stages.sumFe (Cert.Stages.msgFr (Cert.Stages.xFr (inputs m c)) (Cert.Stages.normFr (inputs m c).srcFrFe) (inputs m c).srcFrFe) (inputs m c).dstFrFe) := by
  rw [HostVals.w4_v120 m ρ c, s3_xfr m ρ c, n3_v31 m ρ c, a3_4 m ρ c, a3_5 m ρ c]
theorem s4_v133 : (W4 m ρ c (Proc.devRef (τ := τ) .tc main_call0_v133)) = (Cert.Stages.sumFe (Cert.Stages.msgFe (Cert.Stages.xFe (inputs m c)) (Cert.Stages.normFe (inputs m c).srcFeFe) (inputs m c).srcFeFe) (inputs m c).dstFeFe) := by
  rw [HostVals.w4_v133 m ρ c, s3_xfe m ρ c, n3_v69 m ρ c, a3_8 m ρ c, a3_9 m ρ c]

theorem s5_h1fr : (W5 m ρ c (Proc.devRef (τ := τ) .tc main_call0_v134)) = (Cert.Stages.h1Fr (inputs m c)) := by
  refine (W5_arr m ρ c 8).trans ((ReluFr.final (V4 m ρ) c).trans ?_)
  show Cert.Stages.reluFr (Cert.Stages.layerFr (W4 m ρ c (Proc.devRef (τ := τ) .tc main_call0_v94)) (W4 m ρ c (Proc.devRef (τ := τ) .tc main_call0_v76)) (W4 m ρ c (Proc.devRef (τ := τ) .tc main_arg14)) (W4 m ρ c (Proc.devRef (τ := τ) .tc main_arg15))
    (W4 m ρ c (Proc.devRef (τ := τ) .tc main_call0_v107)) (W4 m ρ c (Proc.devRef (τ := τ) .tc main_call0_v77)) (W4 m ρ c (Proc.devRef (τ := τ) .tc main_arg18)) (W4 m ρ c (Proc.devRef (τ := τ) .tc main_arg19))) = _
  rw [s4_v94 m ρ c, n4_v76 m ρ c, a4_14 m ρ c, a4_15 m ρ c, s4_v107 m ρ c, n4_v77 m ρ c, a4_18 m ρ c, a4_19 m ρ c]
  rfl

theorem s5_v120 : (W5 m ρ c (Proc.devRef (τ := τ) .tc main_call0_v120)) = (Cert.Stages.sumFe (Cert.Stages.msgFr (Cert.Stages.xFr (inputs m c)) (Cert.Stages.normFr (inputs m c).srcFrFe) (inputs m c).srcFrFe) (inputs m c).dstFrFe) := by
  rw [keepR2 m ρ c main_call0_v120 (by decide)]
  exact s4_v120 m ρ c
theorem s5_v133 : (W5 m ρ c (Proc.devRef (τ := τ) .tc main_call0_v133)) = (Cert.Stages.sumFe (Cert.Stages.msgFe (Cert.Stages.xFe (inputs m c)) (Cert.Stages.normFe (inputs m c).srcFeFe) (inputs m c).srcFeFe) (inputs m c).dstFeFe) := by
  rw [keepR2 m ρ c main_call0_v133 (by decide)]
  exact s4_v133 m ρ c

theorem s6_h1fe : (W6 m ρ c (Proc.devRef (τ := τ) .tc main_call0_v135)) = (Cert.Stages.h1Fe (inputs m c)) := by
  refine (W6_arr m ρ c 8).trans ((ReluFe.final (V5 m ρ) c).trans ?_)
  show Cert.Stages.reluFe (Cert.Stages.layerFe (W5 m ρ c (Proc.devRef (τ := τ) .tc main_call0_v120)) (W5 m ρ c (Proc.devRef (τ := τ) .tc main_call0_v78)) (W5 m ρ c (Proc.devRef (τ := τ) .tc main_arg16)) (W5 m ρ c (Proc.devRef (τ := τ) .tc main_arg17))
    (W5 m ρ c (Proc.devRef (τ := τ) .tc main_call0_v133)) (W5 m ρ c (Proc.devRef (τ := τ) .tc main_call0_v79)) (W5 m ρ c (Proc.devRef (τ := τ) .tc main_arg20)) (W5 m ρ c (Proc.devRef (τ := τ) .tc main_arg21))) = _
  rw [s5_v120 m ρ c, n5_v78 m ρ c, a5_16 m ρ c, a5_17 m ρ c, s5_v133 m ρ c, n5_v79 m ρ c, a5_20 m ρ c, a5_21 m ρ c]
  rfl

theorem s6_h1fr : (W6 m ρ c (Proc.devRef (τ := τ) .tc main_call0_v134)) = (Cert.Stages.h1Fr (inputs m c)) := by
  rw [keepR3 m ρ c main_call0_v134 (by decide)]
  exact s5_h1fr m ρ c

/-! ## Layer 2: the four aggregates of the relu'd rows (host), then the two residual-and-head regions -/

theorem s7_v148 : (W7 m ρ c (Proc.devRef (τ := τ) .tc main_call0_v148)) = (Cert.Stages.sumFr (Cert.Stages.msgFr (Cert.Stages.h1Fr (inputs m c)) (Cert.Stages.normFr (inputs m c).srcFrFr) (inputs m c).srcFrFr) (inputs m c).dstFrFr) := by
  rw [HostVals.w7_v148 m ρ c, s6_h1fr m ρ c, n6_v12 m ρ c, a6_2 m ρ c, a6_3 m ρ c]
theorem s7_v161 : (W7 m ρ c (Proc.devRef (τ := τ) .tc main_call0_v161)) = (Cert.Stages.sumFr (Cert.Stages.msgFe (Cert.Stages.h1Fe (inputs m c)) (Cert.Stages.normFe (inputs m c).srcFeFr) (inputs m c).srcFeFr) (inputs m c).dstFeFr) := by
  rw [HostVals.w7_v161 m ρ c, s6_h1fe m ρ c, n6_v50 m ρ c, a6_6 m ρ c, a6_7 m ρ c]
theorem s7_v174 : (W7 m ρ c (Proc.devRef (τ := τ) .tc main_call0_v174)) = (Cert.Stages.sumFe (Cert.Stages.msgFr (Cert.Stages.h1Fr (inputs m c)) (Cert.Stages.normFr (inputs m c).srcFrFe) (inputs m c).srcFrFe) (inputs m c).dstFrFe) := by
  rw [HostVals.w7_v174 m ρ c, s6_h1fr m ρ c, n6_v31 m ρ c, a6_4 m ρ c, a6_5 m ρ c]
theorem s7_v187 : (W7 m ρ c (Proc.devRef (τ := τ) .tc main_call0_v187)) = (Cert.Stages.sumFe (Cert.Stages.msgFe (Cert.Stages.h1Fe (inputs m c)) (Cert.Stages.normFe (inputs m c).srcFeFe) (inputs m c).srcFeFe) (inputs m c).dstFeFe) := by
  rw [HostVals.w7_v187 m ρ c, s6_h1fe m ρ c, n6_v69 m ρ c, a6_8 m ρ c, a6_9 m ρ c]

theorem s7_xfr : (W7 m ρ c (Proc.devRef (τ := τ) .tc main_call0_v80)) = (Cert.Stages.xFr (inputs m c)) := by
  rw [keepH4 m ρ c main_call0_v80 (by decide), keepR3 m ρ c main_call0_v80 (by decide), keepR2 m ρ c main_call0_v80 (by decide), keepH2 m ρ c main_call0_v80 (by decide), keepR1 m ρ c main_call0_v80 (by decide)]
  exact s2_xfr m ρ c

theorem s8_hfr : (W8 m ρ c (Proc.devRef (τ := τ) .tc main_v0_2)) = Cert.Stages.outHFr (inputs m c) := by
  refine (W8_arr m ρ c 11).trans ((HeadFr.final_h (V7 m ρ) c).trans ?_)
  show addf (Cert.Stages.layerFr (W7 m ρ c (Proc.devRef (τ := τ) .tc main_call0_v148)) (W7 m ρ c (Proc.devRef (τ := τ) .tc main_call0_v76)) (W7 m ρ c (Proc.devRef (τ := τ) .tc main_arg14)) (W7 m ρ c (Proc.devRef (τ := τ) .tc main_arg15))
    (W7 m ρ c (Proc.devRef (τ := τ) .tc main_call0_v161)) (W7 m ρ c (Proc.devRef (τ := τ) .tc main_call0_v77)) (W7 m ρ c (Proc.devRef (τ := τ) .tc main_arg18)) (W7 m ρ c (Proc.devRef (τ := τ) .tc main_arg19))) (W7 m ρ c (Proc.devRef (τ := τ) .tc main_call0_v80)) = _
  rw [s7_v148 m ρ c, n7_v76 m ρ c, a7_14 m ρ c, a7_15 m ρ c, s7_v161 m ρ c, n7_v77 m ρ c, a7_18 m ρ c, a7_19 m ρ c, s7_xfr m ρ c]
  rfl

theorem s8_fcfr : (W8 m ρ c (Proc.devRef (τ := τ) .tc main_v0_0)) = Cert.Stages.outFcFr (inputs m c) := by
  refine (W8_arr m ρ c 12).trans ((HeadFr.final_fc (V7 m ρ) c).trans ?_)
  show Cert.Stages.fcFr (addf (Cert.Stages.layerFr (W7 m ρ c (Proc.devRef (τ := τ) .tc main_call0_v148)) (W7 m ρ c (Proc.devRef (τ := τ) .tc main_call0_v76)) (W7 m ρ c (Proc.devRef (τ := τ) .tc main_arg14)) (W7 m ρ c (Proc.devRef (τ := τ) .tc main_arg15))
    (W7 m ρ c (Proc.devRef (τ := τ) .tc main_call0_v161)) (W7 m ρ c (Proc.devRef (τ := τ) .tc main_call0_v77)) (W7 m ρ c (Proc.devRef (τ := τ) .tc main_arg18)) (W7 m ρ c (Proc.devRef (τ := τ) .tc main_arg19))) (W7 m ρ c (Proc.devRef (τ := τ) .tc main_call0_v80))) (W7 m ρ c (Proc.devRef (τ := τ) .tc main_arg22)) (W7 m ρ c (Proc.devRef (τ := τ) .tc main_arg23)) = _
  rw [s7_v148 m ρ c, n7_v76 m ρ c, a7_14 m ρ c, a7_15 m ρ c, s7_v161 m ρ c, n7_v77 m ρ c, a7_18 m ρ c, a7_19 m ρ c, s7_xfr m ρ c,
    a7_22 m ρ c, a7_23 m ρ c]
  rfl

theorem s8_v174 : (W8 m ρ c (Proc.devRef (τ := τ) .tc main_call0_v174)) = (Cert.Stages.sumFe (Cert.Stages.msgFr (Cert.Stages.h1Fr (inputs m c)) (Cert.Stages.normFr (inputs m c).srcFrFe) (inputs m c).srcFrFe) (inputs m c).dstFrFe) := by
  rw [keepR4 m ρ c main_call0_v174 (by decide)]
  exact s7_v174 m ρ c
theorem s8_v187 : (W8 m ρ c (Proc.devRef (τ := τ) .tc main_call0_v187)) = (Cert.Stages.sumFe (Cert.Stages.msgFe (Cert.Stages.h1Fe (inputs m c)) (Cert.Stages.normFe (inputs m c).srcFeFe) (inputs m c).srcFeFe) (inputs m c).dstFeFe) := by
  rw [keepR4 m ρ c main_call0_v187 (by decide)]
  exact s7_v187 m ρ c
theorem s8_xfe : (W8 m ρ c (Proc.devRef (τ := τ) .tc main_call0_v81)) = (Cert.Stages.xFe (inputs m c)) := by
  rw [keepR4 m ρ c main_call0_v81 (by decide), keepH4 m ρ c main_call0_v81 (by decide), keepR3 m ρ c main_call0_v81 (by decide), keepR2 m ρ c main_call0_v81 (by decide), keepH2 m ρ c main_call0_v81 (by decide)]
  exact s3_xfe m ρ c

theorem s9_hfe : (W9 m ρ c (Proc.devRef (τ := τ) .tc main_v0_3)) = Cert.Stages.outHFe (inputs m c) := by
  refine (W9_arr m ρ c 11).trans ((HeadFe.final_h (V8 m ρ) c).trans ?_)
  show addf (Cert.Stages.layerFe (W8 m ρ c (Proc.devRef (τ := τ) .tc main_call0_v174)) (W8 m ρ c (Proc.devRef (τ := τ) .tc main_call0_v78)) (W8 m ρ c (Proc.devRef (τ := τ) .tc main_arg16)) (W8 m ρ c (Proc.devRef (τ := τ) .tc main_arg17))
    (W8 m ρ c (Proc.devRef (τ := τ) .tc main_call0_v187)) (W8 m ρ c (Proc.devRef (τ := τ) .tc main_call0_v79)) (W8 m ρ c (Proc.devRef (τ := τ) .tc main_arg20)) (W8 m ρ c (Proc.devRef (τ := τ) .tc main_arg21))) (W8 m ρ c (Proc.devRef (τ := τ) .tc main_call0_v81)) = _
  rw [s8_v174 m ρ c, n8_v78 m ρ c, a8_16 m ρ c, a8_17 m ρ c, s8_v187 m ρ c, n8_v79 m ρ c, a8_20 m ρ c, a8_21 m ρ c, s8_xfe m ρ c]
  rfl

theorem s9_fcfe : (W9 m ρ c (Proc.devRef (τ := τ) .tc main_v0_1)) = Cert.Stages.outFcFe (inputs m c) := by
  refine (W9_arr m ρ c 12).trans ((HeadFe.final_fc (V8 m ρ) c).trans ?_)
  show Cert.Stages.fcFe (addf (Cert.Stages.layerFe (W8 m ρ c (Proc.devRef (τ := τ) .tc main_call0_v174)) (W8 m ρ c (Proc.devRef (τ := τ) .tc main_call0_v78)) (W8 m ρ c (Proc.devRef (τ := τ) .tc main_arg16)) (W8 m ρ c (Proc.devRef (τ := τ) .tc main_arg17))
    (W8 m ρ c (Proc.devRef (τ := τ) .tc main_call0_v187)) (W8 m ρ c (Proc.devRef (τ := τ) .tc main_call0_v79)) (W8 m ρ c (Proc.devRef (τ := τ) .tc main_arg20)) (W8 m ρ c (Proc.devRef (τ := τ) .tc main_arg21))) (W8 m ρ c (Proc.devRef (τ := τ) .tc main_call0_v81))) (W8 m ρ c (Proc.devRef (τ := τ) .tc main_arg24)) (W8 m ρ c (Proc.devRef (τ := τ) .tc main_arg25)) = _
  rw [s8_v174 m ρ c, n8_v78 m ρ c, a8_16 m ρ c, a8_17 m ρ c, s8_v187 m ρ c, n8_v79 m ρ c, a8_20 m ρ c, a8_21 m ρ c, s8_xfe m ρ c,
    a8_24 m ρ c, a8_25 m ρ c]
  rfl

theorem s9_hfr : (W9 m ρ c (Proc.devRef (τ := τ) .tc main_v0_2)) = Cert.Stages.outHFr (inputs m c) := by
  rw [keepR5 m ρ c main_v0_2 (by decide)]
  exact s8_hfr m ρ c
theorem s9_fcfr : (W9 m ρ c (Proc.devRef (τ := τ) .tc main_v0_0)) = Cert.Stages.outFcFr (inputs m c) := by
  rw [keepR5 m ρ c main_v0_0 (by decide)]
  exact s8_fcfr m ρ c

end Cert.KernelIdeal.Chain

end
-- ==== Proof.RefModel.lean ====
/-
  The reference program's four results are the network of the model: each result's composed term, spelt out, is the
  composition of stages the model names, applied to the 26 argument arrays as the program finds them.
-/
import proofs.«162449_j55422257988217_2_alg».proof.Proof.RefOps
import proofs.«162449_j55422257988217_2_alg».proof.Proof.Model

set_option maxRecDepth 8192

noncomputable section

namespace Cert.ReferenceIdeal.RefModel

open Cert.ReferenceIdeal Cert.ReferenceIdeal.Gen Idealize.ShloMosaic Idealize.ShloMosaic.TcCoe Idealize.SL.Sem

variable {F : FTy → Type} [FloatOps F]

/-- The argument arrays as the program finds them in memory `m` on core `c`, in the order of the program's signature. -/
def inputs (m : (ℓ : Loc nD τ sig) → Buf (Elt F) ℓ) (c : Dev nD) : Cert.Stages.Inputs F where
  frame := m ((c.tc : Thread nD τ).loc main_arg0)
  fe := m ((c.tc : Thread nD τ).loc main_arg1)
  srcFrFr := m ((c.tc : Thread nD τ).loc main_arg2)
  dstFrFr := m ((c.tc : Thread nD τ).loc main_arg3)
  srcFrFe := m ((c.tc : Thread nD τ).loc main_arg4)
  dstFrFe := m ((c.tc : Thread nD τ).loc main_arg5)
  srcFeFr := m ((c.tc : Thread nD τ).loc main_arg6)
  dstFeFr := m ((c.tc : Thread nD τ).loc main_arg7)
  srcFeFe := m ((c.tc : Thread nD τ).loc main_arg8)
  dstFeFe := m ((c.tc : Thread nD τ).loc main_arg9)
  wFrLin := m ((c.tc : Thread nD τ).loc main_arg10)
  bFrLin := m ((c.tc : Thread nD τ).loc main_arg11)
  wFeLin := m ((c.tc : Thread nD τ).loc main_arg12)
  bFeLin := m ((c.tc : Thread nD τ).loc main_arg13)
  wFrFr := m ((c.tc : Thread nD τ).loc main_arg14)
  bFrFr := m ((c.tc : Thread nD τ).loc main_arg15)
  wFrFe := m ((c.tc : Thread nD τ).loc main_arg16)
  bFrFe := m ((c.tc : Thread nD τ).loc main_arg17)
  wFeFr := m ((c.tc : Thread nD τ).loc main_arg18)
  bFeFr := m ((c.tc : Thread nD τ).loc main_arg19)
  wFeFe := m ((c.tc : Thread nD τ).loc main_arg20)
  bFeFe := m ((c.tc : Thread nD τ).loc main_arg21)
  wFrFc := m ((c.tc : Thread nD τ).loc main_arg22)
  bFrFc := m ((c.tc : Thread nD τ).loc main_arg23)
  wFeFc := m ((c.tc : Thread nD τ).loc main_arg24)
  bFeFc := m ((c.tc : Thread nD τ).loc main_arg25)

variable (m : (ℓ : Loc nD τ sig) → Buf (Elt F) ℓ) (c : Dev nD)

/-- The first result: the frames' output head. -/
theorem res0 : ValueP.res_main_v339 (F := F) m c = Cert.Stages.outFcFr (inputs m c) := by
  unfold ValueP.res_main_v339 Cert.Stages.outFcFr Cert.Stages.fcFr Cert.Stages.outHFr Cert.Stages.h1Fr Cert.Stages.h1Fe Cert.Stages.nextFr Cert.Stages.nextFe
    Cert.Stages.xFr Cert.Stages.xFe Cert.Stages.colFr Cert.Stages.colFe
    Cert.Stages.layerFr Cert.Stages.layerFe Cert.Stages.mean2Fr Cert.Stages.mean2Fe Cert.Stages.gconvFr Cert.Stages.gconvFe
    Cert.Stages.reluFr Cert.Stages.reluFe Cert.Stages.sumFr Cert.Stages.sumFe Cert.Stages.msgFr Cert.Stages.msgFe
    Cert.Stages.wrapFr Cert.Stages.wrapFe Cert.Stages.normFr Cert.Stages.normFe Cert.Stages.linFr Cert.Stages.linFe inputs
  rfl

/-- The second result: the features' output head. -/
theorem res1 : ValueP.res_main_v343 (F := F) m c = Cert.Stages.outFcFe (inputs m c) := by
  unfold ValueP.res_main_v343 Cert.Stages.outFcFe Cert.Stages.fcFe Cert.Stages.outHFe Cert.Stages.h1Fr Cert.Stages.h1Fe Cert.Stages.nextFr Cert.Stages.nextFe
    Cert.Stages.xFr Cert.Stages.xFe Cert.Stages.colFr Cert.Stages.colFe
    Cert.Stages.layerFr Cert.Stages.layerFe Cert.Stages.mean2Fr Cert.Stages.mean2Fe Cert.Stages.gconvFr Cert.Stages.gconvFe
    Cert.Stages.reluFr Cert.Stages.reluFe Cert.Stages.sumFr Cert.Stages.sumFe Cert.Stages.msgFr Cert.Stages.msgFe
    Cert.Stages.wrapFr Cert.Stages.wrapFe Cert.Stages.normFr Cert.Stages.normFe Cert.Stages.linFr Cert.Stages.linFe inputs
  rfl

/-- The third result: the frames' second-layer rows plus their projected input. -/
theorem res2 : ValueP.res_main_v334 (F := F) m c = Cert.Stages.outHFr (inputs m c) := by
  unfold ValueP.res_main_v334 Cert.Stages.outHFr Cert.Stages.h1Fr Cert.Stages.h1Fe Cert.Stages.nextFr Cert.Stages.nextFe
    Cert.Stages.xFr Cert.Stages.xFe Cert.Stages.colFr Cert.Stages.colFe
    Cert.Stages.layerFr Cert.Stages.layerFe Cert.Stages.mean2Fr Cert.Stages.mean2Fe Cert.Stages.gconvFr Cert.Stages.gconvFe
    Cert.Stages.reluFr Cert.Stages.reluFe Cert.Stages.sumFr Cert.Stages.sumFe Cert.Stages.msgFr Cert.Stages.msgFe
    Cert.Stages.wrapFr Cert.Stages.wrapFe Cert.Stages.normFr Cert.Stages.normFe Cert.Stages.linFr Cert.Stages.linFe inputs
  rfl

/-- The fourth result: the features' second-layer rows plus their projected input. -/
theorem res3 : ValueP.res_main_v335 (F := F) m c = Cert.Stages.outHFe (inputs m c) := by
  unfold ValueP.res_main_v335 Cert.Stages.outHFe Cert.Stages.h1Fr Cert.Stages.h1Fe Cert.Stages.nextFr Cert.Stages.nextFe
    Cert.Stages.xFr Cert.Stages.xFe Cert.Stages.colFr Cert.Stages.colFe
    Cert.Stages.layerFr Cert.Stages.layerFe Cert.Stages.mean2Fr Cert.Stages.mean2Fe Cert.Stages.gconvFr Cert.Stages.gconvFe
    Cert.Stages.reluFr Cert.Stages.reluFe Cert.Stages.sumFr Cert.Stages.sumFe Cert.Stages.msgFr Cert.Stages.msgFe
    Cert.Stages.wrapFr Cert.Stages.wrapFe Cert.Stages.normFr Cert.Stages.normFe Cert.Stages.linFr Cert.Stages.linFe inputs
  rfl

end Cert.ReferenceIdeal.RefModel

end
-- ==== Proof.lean ====
/-
  The certificate of a two-layer relational graph convolution (frames and features, four relations, mean over the two relations that
  end in one node type, a relu between the layers, a residual to the projected inputs and one linear head per node type) computed by six
  row-blocked TensorCore regions with host gather / scatter-add stretches between them, against the same network written as plain array
  operations.
  * The three frames: the two kernels' runs are the launch of their segments (host stretches and regions) from any memory; the
    reference's frame is its run with the results dropped.
  * The idealization rewrote nothing, so the preservation conjunct is `True`.
  * Equal results over the extended reals: both programs end with each result at ONE function of the 26 argument arrays (Model.lean:
    `outFcFr`, `outFcFe`, `outHFr`, `outHFe`).  On the kernel's side every region's output array is its whole-array stage of the
    region's entry contents — a matmul into a zero accumulator is the plain sum over the contracted index, a bias or a norm column is read
    at the row or column it is broadcast along, a change of float format is the identity — and the host stretches are the same gather
    and scatter-add terms the reference has, with the eight degree norms computed once where the reference computes them per layer.
    No law beyond reading both sides at an index is used, so the finiteness of the inputs is never opened.
-/
import proofs.«162449_j55422257988217_2_alg».proof.Defs
import proofs.«162449_j55422257988217_2_alg».proof.Proof.Gen.Kernel
import proofs.«162449_j55422257988217_2_alg».proof.Proof.Gen.KernelIdeal
import proofs.«162449_j55422257988217_2_alg».proof.Proof.Gen.ReferenceIdeal
import proofs.«162449_j55422257988217_2_alg».proof.Proof.Gen.Pre_finite_inputs
import proofs.«162449_j55422257988217_2_alg».proof.Proof.FrameKRun
import proofs.«162449_j55422257988217_2_alg».proof.Proof.FrameIRun
import proofs.«162449_j55422257988217_2_alg».proof.Proof.KRun
import proofs.«162449_j55422257988217_2_alg».proof.Proof.Chain
import proofs.«162449_j55422257988217_2_alg».proof.Proof.RefRun
import proofs.«162449_j55422257988217_2_alg».proof.Proof.RefModel
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run with its four results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The same argument arrays give the same network inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RefModel.inputs m' c = Cert.KernelIdeal.Chain.inputs m c := by
  unfold Cert.ReferenceIdeal.RefModel.inputs Cert.KernelIdeal.Chain.inputs
  rw [e0, e1, e2, e3, e4, e5, e6, e7, e8, e9, e10, e11, e12, e13, e14, e15, e16, e17, e18, e19, e20, e21, e22, e23, e24, e25]

theorem algebraic : Cert.algebraic_KernelIdeal_ReferenceIdeal := by
  intro m ρ m' ρ' _ hagree
  refine ⟨fun c => Cert.Stages.outFcFr (Cert.KernelIdeal.Chain.inputs m c), fun c => Cert.Stages.outFcFe (Cert.KernelIdeal.Chain.inputs m c),
    fun c => Cert.Stages.outHFr (Cert.KernelIdeal.Chain.inputs m c), fun c => Cert.Stages.outHFe (Cert.KernelIdeal.Chain.inputs m c), ?_, ?_⟩
  · refine (θ_run Cert.KernelIdeal.defs _ _).mono (fun r h c => ?_) (Cert.KernelIdeal.Whole.run_ends (F := Ideal) m ρ)
    have hc := h c
    exact ⟨(hc _ (Cert.KernelIdeal.GenP.mem_uc Cert.KernelIdeal.main_v0_0 (by decide))).trans (Cert.KernelIdeal.Chain.s9_fcfr m ρ c),
      (hc _ (Cert.KernelIdeal.GenP.mem_uc Cert.KernelIdeal.main_v0_1 (by decide))).trans (Cert.KernelIdeal.Chain.s9_fcfe m ρ c),
      (hc _ (Cert.KernelIdeal.GenP.mem_uc Cert.KernelIdeal.main_v0_2 (by decide))).trans (Cert.KernelIdeal.Chain.s9_hfr m ρ c),
      (hc _ (Cert.KernelIdeal.GenP.mem_uc Cert.KernelIdeal.main_v0_3 (by decide))).trans (Cert.KernelIdeal.Chain.s9_hfe m ρ c),
      (hc _ (Cert.KernelIdeal.GenP.mem_uc Cert.KernelIdeal.main_arg0 (by decide))).trans (Cert.KernelIdeal.GenP.W9_main_arg0 m ρ c),
      (hc _ (Cert.KernelIdeal.GenP.mem_uc Cert.KernelIdeal.main_arg1 (by decide))).trans (Cert.KernelIdeal.GenP.W9_main_arg1 m ρ c),
      (hc _ (Cert.KernelIdeal.GenP.mem_uc Cert.KernelIdeal.main_arg2 (by decide))).trans (Cert.KernelIdeal.GenP.W9_main_arg2 m ρ c),
      (hc _ (Cert.KernelIdeal.GenP.mem_uc Cert.KernelIdeal.main_arg3 (by decide))).trans (Cert.KernelIdeal.GenP.W9_main_arg3 m ρ c),
      (hc _ (Cert.KernelIdeal.GenP.mem_uc Cert.KernelIdeal.main_arg4 (by decide))).trans (Cert.KernelIdeal.GenP.W9_main_arg4 m ρ c),
      (hc _ (Cert.KernelIdeal.GenP.mem_uc Cert.KernelIdeal.main_arg5 (by decide))).trans (Cert.KernelIdeal.GenP.W9_main_arg5 m ρ c),
      (hc _ (Cert.KernelIdeal.GenP.mem_uc Cert.KernelIdeal.main_arg6 (by decide))).trans (Cert.KernelIdeal.GenP.W9_main_arg6 m ρ c),
      (hc _ (Cert.KernelIdeal.GenP.mem_uc Cert.KernelIdeal.main_arg7 (by decide))).trans (Cert.KernelIdeal.GenP.W9_main_arg7 m ρ c),
      (hc _ (Cert.KernelIdeal.GenP.mem_uc Cert.KernelIdeal.main_arg8 (by decide))).trans (Cert.KernelIdeal.GenP.W9_main_arg8 m ρ c),
      (hc _ (Cert.KernelIdeal.GenP.mem_uc Cert.KernelIdeal.main_arg9 (by decide))).trans (Cert.KernelIdeal.GenP.W9_main_arg9 m ρ c),
      (hc _ (Cert.KernelIdeal.GenP.mem_uc Cert.KernelIdeal.main_arg10 (by decide))).trans (Cert.KernelIdeal.GenP.W9_main_arg10 m ρ c),
      (hc _ (Cert.KernelIdeal.GenP.mem_uc Cert.KernelIdeal.main_arg11 (by decide))).trans (Cert.KernelIdeal.GenP.W9_main_arg11 m ρ c),
      (hc _ (Cert.KernelIdeal.GenP.mem_uc Cert.KernelIdeal.main_arg12 (by decide))).trans (Cert.KernelIdeal.GenP.W9_main_arg12 m ρ c),
      (hc _ (Cert.KernelIdeal.GenP.mem_uc Cert.KernelIdeal.main_arg13 (by decide))).trans (Cert.KernelIdeal.GenP.W9_main_arg13 m ρ c),
      (hc _ (Cert.KernelIdeal.GenP.mem_uc Cert.KernelIdeal.main_arg14 (by decide))).trans (Cert.KernelIdeal.GenP.W9_main_arg14 m ρ c),
      (hc _ (Cert.KernelIdeal.GenP.mem_uc Cert.KernelIdeal.main_arg15 (by decide))).trans (Cert.KernelIdeal.GenP.W9_main_arg15 m ρ c),
      (hc _ (Cert.KernelIdeal.GenP.mem_uc Cert.KernelIdeal.main_arg16 (by decide))).trans (Cert.KernelIdeal.GenP.W9_main_arg16 m ρ c),
      (hc _ (Cert.KernelIdeal.GenP.mem_uc Cert.KernelIdeal.main_arg17 (by decide))).trans (Cert.KernelIdeal.GenP.W9_main_arg17 m ρ c),
      (hc _ (Cert.KernelIdeal.GenP.mem_uc Cert.KernelIdeal.main_arg18 (by decide))).trans (Cert.KernelIdeal.GenP.W9_main_arg18 m ρ c),
      (hc _ (Cert.KernelIdeal.GenP.mem_uc Cert.KernelIdeal.main_arg19 (by decide))).trans (Cert.KernelIdeal.GenP.W9_main_arg19 m ρ c),
      (hc _ (Cert.KernelIdeal.GenP.mem_uc Cert.KernelIdeal.main_arg20 (by decide))).trans (Cert.KernelIdeal.GenP.W9_main_arg20 m ρ c),
      (hc _ (Cert.KernelIdeal.GenP.mem_uc Cert.KernelIdeal.main_arg21 (by decide))).trans (Cert.KernelIdeal.GenP.W9_main_arg21 m ρ c),
      (hc _ (Cert.KernelIdeal.GenP.mem_uc Cert.KernelIdeal.main_arg22 (by decide))).trans (Cert.KernelIdeal.GenP.W9_main_arg22 m ρ c),
      (hc _ (Cert.KernelIdeal.GenP.mem_uc Cert.KernelIdeal.main_arg23 (by decide))).trans (Cert.KernelIdeal.GenP.W9_main_arg23 m ρ c),
      (hc _ (Cert.KernelIdeal.GenP.mem_uc Cert.KernelIdeal.main_arg24 (by decide))).trans (Cert.KernelIdeal.GenP.W9_main_arg24 m ρ c),
      (hc _ (Cert.KernelIdeal.GenP.mem_uc Cert.KernelIdeal.main_arg25 (by decide))).trans (Cert.KernelIdeal.GenP.W9_main_arg25 m ρ c)⟩
  · refine (θ_run Cert.ReferenceIdeal.defs _ _).mono (fun r h c => ?_) (Cert.ReferenceIdeal.ValueP.run (F := Ideal) m' ρ')
    obtain ⟨h0, h1, h2, h3, hargs⟩ := h c
    obtain ⟨e0, e1, e2, e3, e4, e5, e6, e7, e8, e9, e10, e11, e12, e13, e14, e15, e16, e17, e18, e19, e20, e21, e22, e23, e24, e25⟩ := hagree c
    have hI := inputs_eq m m' c e0 e1 e2 e3 e4 e5 e6 e7 e8 e9 e10 e11 e12 e13 e14 e15 e16 e17 e18 e19 e20 e21 e22 e23 e24 e25
    exact ⟨h0.trans ((Cert.ReferenceIdeal.RefModel.res0 m' c).trans (congrArg Cert.Stages.outFcFr hI)),
      h1.trans ((Cert.ReferenceIdeal.RefModel.res1 m' c).trans (congrArg Cert.Stages.outFcFe hI)),
      h2.trans ((Cert.ReferenceIdeal.RefModel.res2 m' c).trans (congrArg Cert.Stages.outHFr hI)),
      h3.trans ((Cert.ReferenceIdeal.RefModel.res3 m' c).trans (congrArg Cert.Stages.outHFe hI)), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
